-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S256 .f32) (main_arg12 : FVec F S256x128 .f32) (main_arg13 : FVec F S128 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg8 : FVec F S256x256 .f32) (main_arg9 : FVec F S256 .f32) (main_arg10 : FVec F S512x256 .f32) (main_arg11 : FVec F S256 .f32) (main_arg12 : FVec F S256x128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg10
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg11 main_arg12 main_arg13 main_v33

def fn {F : FTy → Type} [FloatOps F] (main_arg0 : FVec F S8192x128 .f32) (main_arg1 : IVec S2x131072 32) (main_arg2 : IVec S8192 32) (main_arg3 : FVec F S8192x128 .f32) (main_arg4 : IVec S2x131072 32) (main_arg5 : IVec S8192 32) (main_arg6 : FVec F S256x256 .f32) (main_arg7 : FVec F S256 .f32) (main_arg8 : FVec F S256x256 .f32) (main_arg9 : FVec F S256 .f32) (main_arg10 : FVec F S512x256 .f32) (main_arg11 : FVec F S256 .f32) (main_arg12 : FVec F S256x128 .f32) (main_arg13 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg3
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_v13 main_v16
-- ==== Kernel.lean ====
abbrev S8192x128 : Shape := ⟨2, ![8192, 128]⟩
abbrev S2x131072 : Shape := ⟨2, ![2, 131072]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S131072x256 : Shape := ⟨2, ![131072, 256]⟩
abbrev S4096x256 : Shape := ⟨2, ![4096, 256]⟩
abbrev S1x256 : Shape := ⟨2, ![1, 256]⟩
abbrev S8192x256 : Shape := ⟨2, ![8192, 256]⟩
abbrev S8192x1 : Shape := ⟨2, ![8192, 1]⟩
abbrev S1x8192 : Shape := ⟨2, ![1, 8192]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S128x256 : Shape := ⟨2, ![128, 256]⟩
abbrev S2048x256 : Shape := ⟨2, ![2048, 256]⟩
abbrev S1x128 : Shape := ⟨2, ![1, 128]⟩

abbrev nBuf : Space → Nat
  | .hbm => 85
  | .vmem => 70
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S8192, .i32⟩
  | .hbm, ⟨3, _⟩ => ⟨S8192x128, .f32⟩
  | .hbm, ⟨4, _⟩ => ⟨S2x131072, .i32⟩
  | .hbm, ⟨5, _⟩ => ⟨S8192, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x128, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072x128, .f32⟩
  | .hbm, ⟨36, _⟩ => ⟨S131072x256, .f32⟩
  | .hbm, ⟨37, _⟩ => ⟨S131072x256, .bf16⟩
  | .hbm, ⟨38, _⟩ => ⟨S131072x256, .f32⟩
  | .hbm, ⟨39, _⟩ => ⟨S_, .f32⟩
  | .hbm, ⟨40, _⟩ => ⟨S8192x256, .f32⟩
  | .hbm, ⟨41, _⟩ => ⟨S131072x1, .i32⟩
  | .hbm, ⟨42, _⟩ => ⟨S8192x256, .f32⟩
  | .hbm, ⟨43, _⟩ => ⟨S1x131072, .i32⟩
  | .hbm, ⟨44, _⟩ => ⟨S131072, .i32⟩
  | .hbm, ⟨45, _⟩ => ⟨S1x131072, .i32⟩
  | .hbm, ⟨46, _⟩ => ⟨S131072, .i32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x128, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x128, .f32⟩
  | .hbm, ⟨65, _⟩ => ⟨S131072x256, .f32⟩
  | .hbm, ⟨66, _⟩ => ⟨S131072x256, .bf16⟩
  | .hbm, ⟨67, _⟩ => ⟨S131072x256, .f32⟩
  | .hbm, ⟨68, _⟩ => ⟨S_, .f32⟩
  | .hbm, ⟨69, _⟩ => ⟨S8192x256, .f32⟩
  | .hbm, ⟨70, _⟩ => ⟨S131072x1, .i32⟩
  | .hbm, ⟨71, _⟩ => ⟨S8192x256, .f32⟩
  | .hbm, ⟨72, _⟩ => ⟨S8192x1, .i32⟩
  | .hbm, ⟨73, _⟩ => ⟨S1x8192, .i32⟩
  | .hbm, ⟨74, _⟩ => ⟨S8192x128, .f32⟩
  | .hbm, ⟨75, _⟩ => ⟨S8192x1, .i32⟩
  | .hbm, ⟨76, _⟩ => ⟨S1x8192, .i32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S256x256, .f32⟩
  | .hbm, ⟨81, _⟩ => ⟨S128x256, .f32⟩
  | .hbm, ⟨82, _⟩ => ⟨S128x256, .f32⟩
  | .hbm, ⟨83, _⟩ => ⟨S8192x128, .f32⟩
  | .hbm, ⟨84, _⟩ => ⟨S8192x128, .f32⟩
  | .local _ .vmem, ⟨0, _⟩ => ⟨S4096x256, .bf16⟩
  | .local _ .vmem, ⟨1, _⟩ => ⟨S4096x256, .bf16⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S4096x256, .f32⟩
  | .local _ .vmem, ⟨7, _⟩ => ⟨S4096x256, .f32⟩
  | .local _ .vmem, ⟨8, _⟩ => ⟨S4096x256, .bf16⟩
  | .local _ .vmem, ⟨9, _⟩ => ⟨S4096x256, .bf16⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S4096x256, .f32⟩
  | .local _ .vmem, ⟨15, _⟩ => ⟨S4096x256, .f32⟩
  | .local _ .vmem, ⟨16, _⟩ => ⟨S1024x128, .f32⟩
  | .local _ .vmem, ⟨17, _⟩ => ⟨S1024x128, .f32⟩
  | .local _ .vmem, ⟨18, _⟩ => ⟨S2048x128, .f32⟩
  | .local _ .vmem, ⟨19, _⟩ => ⟨S2048x128, .f32⟩
  | .local _ .vmem, ⟨20, _⟩ => ⟨S1024x1, .i32⟩
  | .local _ .vmem, ⟨21, _⟩ => ⟨S1024x1, .i32⟩
  | .local _ .vmem, ⟨22, _⟩ => ⟨S1x2048, .i32⟩
  | .local _ .vmem, ⟨23, _⟩ => ⟨S1x2048, .i32⟩
  | .local _ .vmem, ⟨24, _⟩ => ⟨S1024x128, .f32⟩
  | .local _ .vmem, ⟨25, _⟩ => ⟨S1024x128, .f32⟩
  | .local _ .vmem, ⟨26, _⟩ => ⟨S1024x1, .f32⟩
  | .local _ .vmem, ⟨27, _⟩ => ⟨S1024x1, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S2048x128, .f32⟩
  | .local _ .vmem, ⟨32, _⟩ => ⟨S2048x128, .f32⟩
  | .local _ .vmem, ⟨33, _⟩ => ⟨S1024x1, .i32⟩
  | .local _ .vmem, ⟨34, _⟩ => ⟨S1024x1, .i32⟩
  | .local _ .vmem, ⟨35, _⟩ => ⟨S1x2048, .i32⟩
  | .local _ .vmem, ⟨36, _⟩ => ⟨S1x2048, .i32⟩
  | .local _ .vmem, ⟨37, _⟩ => ⟨S1024x128, .f32⟩
  | .local _ .vmem, ⟨38, _⟩ => ⟨S1024x128, .f32⟩
  | .local _ .vmem, ⟨39, _⟩ => ⟨S1024x1, .f32⟩
  | .local _ .vmem, ⟨40, _⟩ => ⟨S1024x1, .f32⟩
  | .local _ .vmem, ⟨41, _⟩ => ⟨S1024x128, .f32⟩
  | .local _ .vmem, ⟨42, _⟩ => ⟨S2048x256, .f32⟩
  | .local _ .vmem, ⟨43, _⟩ => ⟨S2048x256, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S256x256, .f32⟩
  | .local _ .vmem, ⟨49, _⟩ => ⟨S128x256, .f32⟩
  | .local _ .vmem, ⟨50, _⟩ => ⟨S128x256, .f32⟩
  | .local _ .vmem, ⟨51, _⟩ => ⟨S256, .f32⟩
  | .local _ .vmem, ⟨52, _⟩ => ⟨S256x128, .f32⟩
  | .local _ .vmem, ⟨53, _⟩ => ⟨S128, .f32⟩
  | .local _ .vmem, ⟨54, _⟩ => ⟨S2048x128, .f32⟩
  | .local _ .vmem, ⟨55, _⟩ => ⟨S2048x128, .f32⟩
  | .local _ .vmem, ⟨56, _⟩ => ⟨S2048x256, .f32⟩
  | .local _ .vmem, ⟨57, _⟩ => ⟨S2048x256, .f32⟩
  | .local _ .vmem, ⟨58, _⟩ => ⟨S2048x128, .f32⟩
  | .local _ .vmem, ⟨59, _⟩ => ⟨S2048x128, .f32⟩
  | .local _ .vmem, ⟨60, _⟩ => ⟨S2048x128, .f32⟩
  | .local _ .vmem, ⟨61, _⟩ => ⟨S2048x128, .f32⟩
  | .local _ .vmem, ⟨62, _⟩ => ⟨S256x256, .f32⟩
  | .local _ .vmem, ⟨63, _⟩ => ⟨S128x256, .f32⟩
  | .local _ .vmem, ⟨64, _⟩ => ⟨S128x256, .f32⟩
  | .local _ .vmem, ⟨65, _⟩ => ⟨S256, .f32⟩
  | .local _ .vmem, ⟨66, _⟩ => ⟨S256x128, .f32⟩
  | .local _ .vmem, ⟨67, _⟩ => ⟨S128, .f32⟩
  | .local _ .vmem, ⟨68, _⟩ => ⟨S2048x128, .f32⟩
  | .local _ .vmem, ⟨69, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc2_scratch1 : Ref sig .tc := ⟨.vmem, 27, rfl⟩
abbrev cc2_scratch2 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_scratch0 : Ref sig .tc := ⟨.vmem, 39, rfl⟩
abbrev cc3_scratch1 : Ref sig .tc := ⟨.vmem, 40, rfl⟩
abbrev cc3_scratch2 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg9_0 : Ref sig .tc := ⟨.vmem, 54, rfl⟩
abbrev cc4_stg9_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg8_0 : Ref sig .tc := ⟨.vmem, 67, rfl⟩
abbrev cc5_stg9_0 : Ref sig .tc := ⟨.vmem, 68, rfl⟩
abbrev cc5_stg9_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem8_0 : DmaSem sig := 61
abbrev cc5_sem9_0 : DmaSem sig := 62
abbrev cc5_sem9_1 : DmaSem sig := 63

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_26 : BitVec 32 := 0#32
  let v49 : BitVec 1 := Scalar.cmpi .ne v48 c0_i32_26
  v49

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_26 : BitVec 32 := 0#32
  let v49 : BitVec 1 := Scalar.cmpi .ne v48 c0_i32_26
  v49

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2048x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2048x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  bcast_S_S8192x256 : S_.BroadcastsInDim S8192x256 (![] : Fin 0 → Fin S8192x256.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x128 : S1024x1.Broadcasts S1024x128
  slices_S512x256_S256x256_0_0 : S512x256.Slices ![0, 0] S256x256
  slices_S512x256_S128x256_256_0 : S512x256.Slices ![256, 0] S128x256
  slices_S512x256_S128x256_384_0 : S512x256.Slices ![384, 0] S128x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x128_S2048x128 : S2048x128.ShapeCasts S2048x128
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  gather_S8192x128_S131072x1_S131072x128_1_0_n_n_0_1_1128_wf : GatherDims.WF S8192x128 S131072x1 S131072x128 [1] [0] [] [0] [] 1 ![1, 128]
  dot_S4096x256_S256x256_S4096x256_1_0_0_1_n_n_wf : DotDims.WF S4096x256 S256x256 S4096x256 [1] [0] [0] [1] [] []
  scatter_S8192x256_S131072x1_S131072x256_1_0_0_1_wf : ScatterDims.WF S8192x256 S131072x1 S131072x256 [1] [0] [0] 1
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  dot_S2048x256_S256x256_S2048x256_1_0_0_1_n_n_wf : DotDims.WF S2048x256 S256x256 S2048x256 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .bf16 = 32 ∨ (Rect.block (s := S131072x256) S4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .bf16 = 32 ∨ (Rect.block (s := S131072x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S131072x256.size a
  hwx1_5 : ∀ i : grid1.Coords, EltTy.bits .f32 = 32 ∨ (Rect.block (s := S131072x256) S4096x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .i32 = 32 ∨ (Rect.block (s := S8192x1) S1024x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .i32 = 32 ∨ (Rect.block (s := S1x8192) S1x2048.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .f32 = 32 ∨ (Rect.block (s := S8192x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .i32 = 32 ∨ (Rect.block (s := S8192x1) S1024x1.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x8192.size a
  hwx3_3 : ∀ i : grid3.Coords, EltTy.bits .i32 = 32 ∨ (Rect.block (s := S1x8192) S1x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S8192x128.size a
  hwx3_4 : ∀ i : grid3.Coords, EltTy.bits .f32 = 32 ∨ (Rect.block (s := S8192x128) S1024x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S8192x128.size a
  hwx4_1 : ∀ i : grid4.Coords, EltTy.bits .f32 = 32 ∨ (Rect.block (s := S8192x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S8192x128.size a
  hwx4_2 : ∀ i : grid4.Coords, EltTy.bits .f32 = 32 ∨ (Rect.block (s := S8192x128) S2048x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2048x128.size a ≤ S8192x128.size a
  hwx4_9 : ∀ i : grid4.Coords, EltTy.bits .f32 = 32 ∨ (Rect.block (s := S8192x128) S2048x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S8192x256.size a
  hwx5_0 : ∀ i : grid5.Coords, EltTy.bits .f32 = 32 ∨ (Rect.block (s := S8192x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .f32 = 32 ∨ (Rect.block (s := S8192x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S8192x128.size a
  hwx5_2 : ∀ i : grid5.Coords, EltTy.bits .f32 = 32 ∨ (Rect.block (s := S8192x128) S2048x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x256.size a ≤ S128x256.size a
  hwx5_4 : ∀ i : grid5.Coords, EltTy.bits .f32 = 32 ∨ (Rect.block (s := S128x256) S128x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .f32 = 32 ∨ (Rect.block (s := S128x256) S128x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256.size a ≤ S256.size a
  hwx5_6 : ∀ i : grid5.Coords, EltTy.bits .f32 = 32 ∨ (Rect.block (s := S256) S256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x128.size a ≤ S256x128.size a
  hwx5_7 : ∀ i : grid5.Coords, EltTy.bits .f32 = 32 ∨ (Rect.block (s := S256x128) S256x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128.size a ≤ S128.size a
  hwx5_8 : ∀ i : grid5.Coords, EltTy.bits .f32 = 32 ∨ (Rect.block (s := S128) S128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2048x128.size a ≤ S8192x128.size a
  hwx5_9 : ∀ i : grid5.Coords, EltTy.bits .f32 = 32 ∨ (Rect.block (s := S8192x128) S2048x128.size (cc5_transform_9 i) (hinb5_9 i)).WholeWords (EltTy.packing .f32)

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v19) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg3) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v23) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S2048x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg12) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg13) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v59) S2048x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v47) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S2048x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S128x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg11) S256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg12) S256x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg13) S128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v60) S2048x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S8192x128 : Shape := ⟨2, ![8192, 128]⟩
abbrev S2x131072 : Shape := ⟨2, ![2, 131072]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S131072x256 : Shape := ⟨2, ![131072, 256]⟩
abbrev S1x256 : Shape := ⟨2, ![1, 256]⟩
abbrev S8192x256 : Shape := ⟨2, ![8192, 256]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S8192x512 : Shape := ⟨2, ![8192, 512]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S8192x128, .f32⟩
  | 1 => ⟨S2x131072, .i32⟩
  | 2 => ⟨S8192, .i32⟩
  | 3 => ⟨S8192x128, .f32⟩
  | 4 => ⟨S2x131072, .i32⟩
  | 5 => ⟨S8192, .i32⟩
  | 6 => ⟨S256x256, .f32⟩
  | 7 => ⟨S256, .f32⟩
  | 8 => ⟨S256x256, .f32⟩
  | 9 => ⟨S256, .f32⟩
  | 10 => ⟨S512x256, .f32⟩
  | 11 => ⟨S256, .f32⟩
  | 12 => ⟨S256x128, .f32⟩
  | 13 => ⟨S128, .f32⟩
  | 14 => ⟨S1x131072, .i32⟩
  | 15 => ⟨S131072, .i32⟩
  | 16 => ⟨S1x131072, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072x128, .f32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S131072x1, .i32⟩
  | 35 => ⟨S131072x128, .f32⟩
  | 36 => ⟨S131072x256, .f32⟩
  | 37 => ⟨S131072x256, .f32⟩
  | 38 => ⟨S1x256, .f32⟩
  | 39 => ⟨S131072x256, .f32⟩
  | 40 => ⟨S131072x256, .f32⟩
  | 41 => ⟨S_, .f32⟩
  | 42 => ⟨S131072x256, .f32⟩
  | 43 => ⟨S131072x256, .f32⟩
  | 44 => ⟨S131072x256, .f32⟩
  | 45 => ⟨S1x256, .f32⟩
  | 46 => ⟨S131072x256, .f32⟩
  | 47 => ⟨S131072x256, .f32⟩
  | 48 => ⟨S_, .f32⟩
  | 49 => ⟨S8192x256, .f32⟩
  | 50 => ⟨S131072x1, .i32⟩
  | 51 => ⟨S8192x256, .f32⟩
  | 52 => ⟨S1x131072, .i32⟩
  | 53 => ⟨S131072, .i32⟩
  | 54 => ⟨S1x131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x128, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x128, .f32⟩
  | 74 => ⟨S131072x256, .f32⟩
  | 75 => ⟨S131072x256, .f32⟩
  | 76 => ⟨S1x256, .f32⟩
  | 77 => ⟨S131072x256, .f32⟩
  | 78 => ⟨S131072x256, .f32⟩
  | 79 => ⟨S_, .f32⟩
  | 80 => ⟨S131072x256, .f32⟩
  | 81 => ⟨S131072x256, .f32⟩
  | 82 => ⟨S131072x256, .f32⟩
  | 83 => ⟨S1x256, .f32⟩
  | 84 => ⟨S131072x256, .f32⟩
  | 85 => ⟨S131072x256, .f32⟩
  | 86 => ⟨S_, .f32⟩
  | 87 => ⟨S8192x256, .f32⟩
  | 88 => ⟨S131072x1, .i32⟩
  | 89 => ⟨S8192x256, .f32⟩
  | 90 => ⟨S128x8192, .f32⟩
  | 91 => ⟨S8192x8192, .f32⟩
  | 92 => ⟨S8192x1, .i32⟩
  | 93 => ⟨S1x8192, .i32⟩
  | 94 => ⟨S8192x8192, .i32⟩
  | 95 => ⟨S8192x8192, .i32⟩
  | 96 => ⟨S8192x8192, .i1⟩
  | 97 => ⟨S_, .f32⟩
  | 98 => ⟨S_, .f32⟩
  | 99 => ⟨S8192x8192, .f32⟩
  | 100 => ⟨S8192x8192, .f32⟩
  | 101 => ⟨S_, .f32⟩
  | 102 => ⟨S8192, .f32⟩
  | 103 => ⟨S_, .f32⟩
  | 104 => ⟨S8192, .f32⟩
  | 105 => ⟨S8192, .f32⟩
  | 106 => ⟨S8192x1, .f32⟩
  | 107 => ⟨S8192x8192, .f32⟩
  | 108 => ⟨S8192x8192, .f32⟩
  | 109 => ⟨S8192x8192, .f32⟩
  | 110 => ⟨S_, .f32⟩
  | 111 => ⟨S8192, .f32⟩
  | 112 => ⟨S8192x1, .f32⟩
  | 113 => ⟨S8192x8192, .f32⟩
  | 114 => ⟨S8192x8192, .f32⟩
  | 115 => ⟨S_, .f32⟩
  | 116 => ⟨S8192, .f32⟩
  | 117 => ⟨S_, .f32⟩
  | 118 => ⟨S8192, .f32⟩
  | 119 => ⟨S8192, .f32⟩
  | 120 => ⟨S1x8192, .f32⟩
  | 121 => ⟨S8192x8192, .f32⟩
  | 122 => ⟨S8192x8192, .f32⟩
  | 123 => ⟨S8192x8192, .f32⟩
  | 124 => ⟨S_, .f32⟩
  | 125 => ⟨S8192, .f32⟩
  | 126 => ⟨S1x8192, .f32⟩
  | 127 => ⟨S8192x8192, .f32⟩
  | _ => ⟨S8192x128, .f32⟩

abbrev hbmTy0_1 (i : Nat) : BufTy := match i % 128 with
  | 0 => ⟨S8192x8192, .f32⟩
  | 1 => ⟨S8192x8192, .f32⟩
  | 2 => ⟨S8192x128, .f32⟩
  | 3 => ⟨S8192x128, .f32⟩
  | 4 => ⟨S8192x128, .f32⟩
  | 5 => ⟨S8192x128, .f32⟩
  | 6 => ⟨S8192x512, .f32⟩
  | 7 => ⟨S8192x256, .f32⟩
  | 8 => ⟨S1x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x128, .f32⟩
  | 15 => ⟨S1x128, .f32⟩
  | 16 => ⟨S8192x128, .f32⟩
  | 17 => ⟨S8192x128, .f32⟩
  | 18 => ⟨S8192x128, .f32⟩
  | 19 => ⟨S8192x512, .f32⟩
  | 20 => ⟨S8192x256, .f32⟩
  | 21 => ⟨S1x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S8192x128, .f32⟩
  | 28 => ⟨S1x128, .f32⟩
  | 29 => ⟨S8192x128, .f32⟩
  | 30 => ⟨S8192x128, .f32⟩
  | 31 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_3 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_8 : Ref sig .tc := ⟨.hbm, 97, rfl⟩
abbrev main_call2_v0 : Ref sig .tc := ⟨.hbm, 98, rfl⟩
abbrev main_call2_v1 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call3_cst : Ref sig .tc := ⟨.hbm, 139, rfl⟩
abbrev main_call3_v0 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call4_cst : Ref sig .tc := ⟨.hbm, 152, rfl⟩
abbrev main_call4_v0 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S_S8192x256 : S_.BroadcastsInDim S8192x256 (![] : Fin 0 → Fin S8192x256.rank)
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192x8192_S8192_d0 : S8192x8192.ReducesTo [0] S8192
  transposes_S8192x8192_S8192x8192_1_0 : S8192x8192.Transposes [1, 0] S8192x8192
  concatenates_S8192x256_S8192x128_S8192x128_S8192x512_d1 : Shape.Concatenates [S8192x256, S8192x128, S8192x128] S8192x512 1
  bcast_S1x256_S8192x256_0_1 : S1x256.BroadcastsInDim S8192x256 (![0, 1] : Fin 2 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  gather_S8192x128_S131072x1_S131072x128_1_0_n_n_0_1_1128_wf : GatherDims.WF S8192x128 S131072x1 S131072x128 [1] [0] [] [0] [] 1 ![1, 128]
  dot_S131072x256_S256x256_S131072x256_1_0_0_1_n_n_wf : DotDims.WF S131072x256 S256x256 S131072x256 [1] [0] [0] [1] [] []
  scatter_S8192x256_S131072x1_S131072x256_1_0_0_1_wf : ScatterDims.WF S8192x256 S131072x1 S131072x256 [1] [0] [0] 1
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.K.Run.lean ====
/-
  The six regions joined: the whole last valuation of the program.

  The entry point is eleven items, five stretches of host operations and six kernel regions.  Between two items a core
  holds every unscoped buffer whole at a valuation: the launch contents, each host stretch applied in turn, and after a
  region the one array that region writes replaced by what it leaves there (`outs`).  Beside the buffers a core carries
  only its generator register, at some state, and the fact that it owes nothing.  If every region has a segment record
  entered from the valuation before it and left at the valuation after it, then every weakly fair execution terminates
  without a fault and in every final memory EVERY unscoped buffer holds the last valuation.  Read at an argument array
  this is the frame (no item writes an argument); read at the two result arrays it is the value the algebraic claim
  compares.
-/
import proofs.«108965_j35862976922239_2_alg».proof.Proof.Gen.Kernel.Regions
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core waits on another: no level is assigned. -/
abbrev L0 : GSem nD τ sig → Finset Unit := fun _ => ∅
abbrev lv0 : GSem nD τ sig → Unit → ℕ := fun _ _ => 0

/-- What a core carries beside its buffers through every item: its generator register at some state, and nothing owed. -/
abbrev Rest (c : Dev nD) : sProp 𝕄 :=
  iprop((∃ r, prngReg c r) ∗ ∃ W, owes (c : Thread nD τ) (0 : CellTallies nD τ sig Unit) W)

/-- The thread state between two items: every unscoped buffer held at `W`, beside `Rest`. -/
abbrev At (W : Valuation τ sig (Elt F)) (c : Dev nD) : sProp 𝕄 :=
  iprop(StableHlo.held (c : Thread nD τ) (Pipeline.ucRefs τ sig) W ∗ Rest c)

variable (m : (ℓ : Loc nD τ sig) → Buf (Elt F) ℓ)

set_option backward.isDefEq.respectTransparency.types false in
/-- Every final memory holds every unscoped buffer at the last valuation `V11`, given the six regions' records. -/
theorem run_regions (ρ : Dev nD → PrngReg) (outs : Outs (F := F))
    (pdats : (p : Fin 6) → (c : Dev nD) → Dat τ (Elt F) Unit ℕ (UR sig nD τ) ℕ (cfgs p) c)
    (R0 : RegionSeg (pcfgs (F := F)) adm pdats () defs₀ Variants.none L0 lv0 0)
    (hpre0 : ∀ c : Dev nD, At (V1 m c) c ⊢ R0.pre c) (hpost0 : ∀ c : Dev nD, R0.post c ⊢ At (V2 m outs c) c)
    (R1 : RegionSeg (pcfgs (F := F)) adm pdats () defs₀ Variants.none L0 lv0 1)
    (hpre1 : ∀ c : Dev nD, At (V3 m outs c) c ⊢ R1.pre c) (hpost1 : ∀ c : Dev nD, R1.post c ⊢ At (V4 m outs c) c)
    (R2 : RegionSeg (pcfgs (F := F)) adm pdats () defs₀ Variants.none L0 lv0 2)
    (hpre2 : ∀ c : Dev nD, At (V5 m outs c) c ⊢ R2.pre c) (hpost2 : ∀ c : Dev nD, R2.post c ⊢ At (V6 m outs c) c)
    (R3 : RegionSeg (pcfgs (F := F)) adm pdats () defs₀ Variants.none L0 lv0 3)
    (hpre3 : ∀ c : Dev nD, At (V7 m outs c) c ⊢ R3.pre c) (hpost3 : ∀ c : Dev nD, R3.post c ⊢ At (V8 m outs c) c)
    (R4 : RegionSeg (pcfgs (F := F)) adm pdats () defs₀ Variants.none L0 lv0 4)
    (hpre4 : ∀ c : Dev nD, At (V9 m outs c) c ⊢ R4.pre c) (hpost4 : ∀ c : Dev nD, R4.post c ⊢ At (V10 m outs c) c)
    (R5 : RegionSeg (pcfgs (F := F)) adm pdats () defs₀ Variants.none L0 lv0 5)
    (hpre5 : ∀ c : Dev nD, At (V10 m outs c) c ⊢ R5.pre c) (hpost5 : ∀ c : Dev nD, R5.post c ⊢ At (V11 m outs c) c) :
    θ_run defs (onTc (τ := τ) (main (F := F))) ⟨m, fun _ => 0, ρ⟩ (fun r => ∀ c : Dev nD,
      ∀ b ∈ Pipeline.ucRefs τ sig, r.2.mem ((c : Thread nD τ).1, b) = V11 m outs c b) := by
  refine Pipeline.θ_run_regions_kit_dev (pcfgs (F := F)) adm pdats () cellOf_inj emb₁ defs₀ Variants.none L0 lv0 m ρ main
    (segs m outs Variants.none L0 lv0 (fun _ c => Rest c) () pdats R0 R1 R2 R3 R4 R5)
    (fun c Q => ?hmain) (fun c => ?hnd) (O₀ := 0) (hL := fun _ _ => rfl) (G := fun _ => (BI.emp : sProp 𝕄))
    (u₀ := initOf (Pipeline.cells cfgs cellOf_inj) (Pipeline.launchToks cfgs cellOf_inj)) (hu₀ := ?hu)
    (T₀ := fun c => At (V0 m c) c)
    (Tₙ := fun c => iprop(StableHlo.held (c : Thread nD τ) (Pipeline.ucRefs τ sig) (V11 m outs c) ∗ ∃ r, prngReg c r))
    (hch := fun c => ⟨.rfl, hpre0 c, hpost0 c, hpre1 c, hpost1 c, hpre2 c, hpost2 c, hpre3 c, hpost3 c, hpre4 c,
      (hpost4 c).trans (hpre5 c), (hpost5 c).trans ?hlast⟩)
    (hinit := Pipeline.initEach L0 lv0 fun c => ?hinit)
    (QY := fun c s => ∀ b ∈ Pipeline.ucRefs τ sig, s.mem ((c : Thread nD τ).1, b) = V11 m outs c b)
    (hfin := fun c s' => ?hfin) (hQ := fun _ h => h)
  case hmain =>
    -- the entry point is the chain of its eleven items, and the segments' run is the chain of their programs
    rw [main_chain c, Seg.run_eq_chain]
    exact .rfl
  case hnd =>
    simp only [segs, Seg.pipes_host, Seg.pipes_region, Seg.pipes_nil]; decide
  case hu =>
    -- the launch element is the pipeline library's own; no ghost resource is dealt to the cores
    rw [ownU_emb₁, BI.bigSep_emp_const]
    iintro Hu; imodintro
    isplitl [Hu]; · iexact Hu
    iempintro
  case hlast =>
    -- the last thread state, regrouped: the buffers and the register on one side, "owes nothing" on the other
    iintro ⟨Hh, Hp, HO⟩
    isplitl [Hh Hp]
    · isplitl [Hh]; · iexact Hh
      iexact Hp
    iexact HO
  case hinit =>
    -- on each core the launch deals the buffers at the launch contents, the register, and an empty debt
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hfin =>
    -- read the held buffers against the final state
    iintro ⟨⟨Hh, -⟩, HSI⟩
    unfold StableHlo.held
    imodintro
    iapply (pointsTo_read_all (Pipeline.ucRefs τ sig) (fun b => ((c : Thread nD τ).1, b)) (V11 m outs c) s')
    isplitl [Hh] <;> iassumption

end Cert.Kernel.Hand

end
-- ==== Proof.K.Msg0.lean ====
/- The class-A half of region 0 of @main (custom_call 0, the edge-message MLP `relu(x·W1 + b1)·W2 + b2` on one
   [4096,256] tile per grid point), at a PARAMETER `V` — the TensorCore's buffer contents when the region is entered:
   each window's block at a point, what the body leaves in the output window's buffer (the canonical contents of its
   one whole-block store of the skeleton's payload), the body's triple, the pipeline's proof data and the library's
   body obligation. Generic in the float instance. -/
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for ANY proof data whose array is `V`'s and whose body leaves the block in
    place. Window 0 moves with the point; windows 1-4 have a constant index and are fetched once. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_a : Rect S4096x256 := Rect.unit (s := S4096x256) ![0, 0] S4096x256.size inb_S4096x256_S4096x256_0_0
abbrev r0_b : Rect S256x256 := Rect.unit (s := S256x256) ![0, 0] S256x256.size inb_S256x256_S256x256_0_0
abbrev r0_c : Rect S256 := Rect.unit (s := S256) ![0] S256.size inb_S256_S256_0

/-! ## What the body leaves in the output window's buffer -/

/-- Window 5's staging buffer after the body, from the five input windows' blocks: the canonical contents of its one
    store, whose payload is the skeleton's (the second affine layer over the rectified first one). -/
def out0_5 (x0 : Vec F S4096x256 .bf16) (x1 : Vec F S256x256 .f32) (x2 : Vec F S256 .f32) (x3 : Vec F S256x256 .f32) (x4 : Vec F S256 .f32) : Vec F S4096x256 .f32 :=
  View.canon [⟨r0_a, k0_pay1 (View.ld x0 r0_a) (View.ld x1 r0_b) (View.ld x2 r0_c) (View.ld x3 r0_b) (View.ld x4 r0_c)⟩]

/-- The one store takes the whole buffer, so it covers it. -/
theorem cover0_5 (p0 : Vec F S4096x256 .f32) (y : S4096x256.Idx) :
    ∃ pc ∈ ([⟨r0_a, p0⟩] : List (View.Piece (Elt F) S4096x256 .f32)), y ∈ pc.1.set :=
  View.cover_of_tiled [⟨r0_a, p0⟩] S4096x256.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords)
    (arg1 : Memref sig .tc .vmem S4096x256 .bf16) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S4096x256 .f32) (harg6 : arg6.IsWhole)
    (x0 : Vec F S4096x256 .bf16) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the library's obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Msg1.lean ====
/- The class-A half of region 1 of @main (custom_call 1, the edge-message MLP `relu(x·W1 + b1)·W2 + b2` on one
   [4096,256] tile per grid point), at a PARAMETER `V` — the TensorCore's buffer contents when the region is entered:
   each window's block at a point, what the body leaves in the output window's buffer (the canonical contents of its
   one whole-block store of the skeleton's payload), the body's triple, the pipeline's proof data and the library's
   body obligation. Generic in the float instance. -/
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for ANY proof data whose array is `V`'s and whose body leaves the block in
    place. Window 0 moves with the point; windows 1-4 have a constant index and are fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_a : Rect S4096x256 := Rect.unit (s := S4096x256) ![0, 0] S4096x256.size inb_S4096x256_S4096x256_0_0
abbrev r1_b : Rect S256x256 := Rect.unit (s := S256x256) ![0, 0] S256x256.size inb_S256x256_S256x256_0_0
abbrev r1_c : Rect S256 := Rect.unit (s := S256) ![0] S256.size inb_S256_S256_0

/-! ## What the body leaves in the output window's buffer -/

/-- Window 5's staging buffer after the body, from the five input windows' blocks: the canonical contents of its one
    store, whose payload is the skeleton's (the second affine layer over the rectified first one). -/
def out1_5 (x0 : Vec F S4096x256 .bf16) (x1 : Vec F S256x256 .f32) (x2 : Vec F S256 .f32) (x3 : Vec F S256x256 .f32) (x4 : Vec F S256 .f32) : Vec F S4096x256 .f32 :=
  View.canon [⟨r1_a, k1_pay1 (View.ld x0 r1_a) (View.ld x1 r1_b) (View.ld x2 r1_c) (View.ld x3 r1_b) (View.ld x4 r1_c)⟩]

/-- The one store takes the whole buffer, so it covers it. -/
theorem cover1_5 (p0 : Vec F S4096x256 .f32) (y : S4096x256.Idx) :
    ∃ pc ∈ ([⟨r1_a, p0⟩] : List (View.Piece (Elt F) S4096x256 .f32)), y ∈ pc.1.set :=
  View.cover_of_tiled [⟨r1_a, p0⟩] S4096x256.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S4096x256 .bf16) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S4096x256 .f32) (harg6 : arg6.IsWhole)
    (x0 : Vec F S4096x256 .bf16) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the library's obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Attn2Runs.lean ====
/- Region 2 of @main (custom_call 2: masked cross-graph attention with an online softmax over 4 key tiles per query
   tile; grid (8, 4), point t = query tile t / 4, key tile t % 4), at a PARAMETER `V` — the TensorCore's buffer
   contents when the region is entered. What the three per-case runs of the body share: each window's block at a
   point, the input windows' staging buffers holding their blocks at every point, the body's two conditions on the
   grid position in closed form (key tile 0: the running maximum, sum and weighted sum are reset first; key tile 3:
   the normalised weighted sum is stored into the output window's buffer), where the output window is idle, the three
   carried scratch buffers as memrefs, and the class invariant with those three buffers split out of the scoped rest.
   Generic in the float instance. -/
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid position -/

/-- The condition of the body's first `scf.if` (key tile 0: reset the running statistics), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (key tile 3: store the normalised output), from the grid coordinates. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the points of key tile 0 the output window is idle: nothing is stored into it. -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- At the points of key tiles 1 and 2 the output window is idle: nothing is stored into it. -/
theorem idleAt2_4_B : ∀ t : Fin cfg2.N, ¬cond2_0 (grid2.coords t) → ¬cond2_1 (grid2.coords t) → cfg2.idle 4 (grid2.coords t) = true := by decide +kernel
/-- and its block is not written back there. -/
theorem noFlush2_4_B : ∀ t : Fin cfg2.N, ¬cond2_0 (grid2.coords t) → ¬cond2_1 (grid2.coords t) → (cfg2.win 4).flush t = false := by decide +kernel
/-- At the points of key tile 3 the output window is live: the body stores into it. -/
theorem liveAt2_4_C : ∀ t : Fin cfg2.N, ¬cond2_0 (grid2.coords t) → cond2_1 (grid2.coords t) → cfg2.idle 4 (grid2.coords t) = false := by decide +kernel

/-! ## The staging and scratch memrefs -/

/-- One staging buffer of the output window, through which its contents are stated (the choice does not matter). -/
abbrev VO2_4 : View sig .tc .vmem S1024x128 .f32 := (Memref.whole cc2_stg4_0 : Memref sig .tc .vmem S1024x128 .f32).view
/-- The three scratch operands: whole scoped buffers of the kernel's own — the running maximum, the running sum and the
    running weighted sum —, carried from point to point. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x128 .f32 := Memref.whole cc2_scratch2
/-- The same as views: what they hold is stated through these. -/
abbrev VS2_0 : View sig .tc .vmem S1024x1 .f32 := scM2_0.view
abbrev VS2_1 : View sig .tc .vmem S1024x1 .f32 := scM2_1.view
abbrev VS2_2 : View sig .tc .vmem S1024x128 .f32 := scM2_2.view

/-- The part of the core's scoped buffers the region never opens: everything but its own three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant with the three scratch operands as memrefs owned at some contents, the unopened rest of the
    scoped buffers, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ restBut2 c) ∗ (∃ r, prngReg c r)) := by
  unfold Pipeline.ΦA; rw [scopedRest2_split]; simp only [scM2_0, scM2_1, scM2_2, owns_whole]; try rfl

end Cert.Kernel.Hand

end
-- ==== Proof.K.Attn2Run.lean ====
/- Region 2 of @main (the masked attention kernel with an online softmax): the whole-body runs of the kernel in its three
   control cases — key tile 0 (the running statistics are reset first), key tiles 1 and 2, key tile 3 (the normalised
   output is stored) — by symbolic execution over the skeleton of memory operations. Generic in the float instance. -/
import proofs.«108965_j35862976922239_2_alg».proof.Proof.K.Attn2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output window's staging memref and in the three scratch memrefs, as pieces (last
    first) AT KEY TILE 0 (the first conditional taken, the second not: the points ≡ 0 mod 4), with the proof that on whole memrefs — the four inputs' at their
    contents, the output's (idle here) at contents handed back untouched, the scratch at anything (they are reset first) —
    the body runs to the continuation holding the inputs' as they were and each scratch with its pieces written. The
    pieces are the witness the symbolic run finds. -/
noncomputable def kernelRun2_A (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILES 1 AND 2 (neither conditional taken: the points ≡ 1, 2 mod 4), with the proof that on whole memrefs — the four inputs' at their
    contents, the output's (idle here) at contents handed back untouched, the scratch at the contents the point before left —
    the body runs to the continuation holding the inputs' as they were and each scratch with its pieces written. The
    pieces are the witness the symbolic run finds. -/
noncomputable def kernelRun2_B (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILE 3 (the first conditional not taken, the second taken: the points ≡ 3 mod 4), with the proof that on whole memrefs — the four inputs' at their
    contents, the output's at anything, the scratch at the contents the point before left —
    the body runs to the continuation holding the inputs' as they were, the output's with its pieces written and each scratch with its pieces written. The
    pieces are the witness the symbolic run finds. -/
noncomputable def kernelRun2_C (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Attn2.lean ====
/- Region 2 of @main (custom_call 2: masked cross-graph attention with an online softmax over 4 key tiles per query
   tile), at a PARAMETER `V` — the TensorCore's buffer contents when the region is entered: what each of the body's
   three cases (key tile 0; key tiles 1 and 2; key tile 3) leaves in the output window's buffer and in the three carried
   scratch buffers (the running maximum, the running sum, the running weighted sum), those contents point by point as a
   recursion over the grid, the invariant that carries the scratch from point to point, the pipeline's proof data, the
   library's body obligation, and the invariant at the first point and back after the last. Generic in the float
   instance. -/
import proofs.«108965_j35862976922239_2_alg».proof.Proof.K.Attn2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the three scratch buffers -/

/-- At key tile 0 nothing is stored into the output window's buffer (the window is idle there and not written back): a
    placeholder that nothing consults. -/
def out2_A_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x128 .f32 :=
  VO2_4.read (Elt F) (VO2_4.writes (Elt F) VO2_4.junk (kernelRun2_A c i arg2 harg2 arg3 harg3 arg4 harg4 arg5 harg5 arg6 harg6 arg7 harg7 arg8 harg8 arg9 harg9 hc0 hc1 x0 x1 x2 x3).1)

/-- At key tile 0 the pieces stored into the running maximum's buffer tile it, so they cover it. -/
theorem scover2_A_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.1 S1024x1.size (by sl_kernel_rfl) y

/-- What the body leaves in the running maximum's buffer at key tile 0: its pieces read back. -/
def sout2_A_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).2.1)

/-- At key tile 0 the pieces stored into the running sum's buffer tile it, so they cover it. -/
theorem scover2_A_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.1 S1024x1.size (by sl_kernel_rfl) y

/-- What the body leaves in the running sum's buffer at key tile 0: its pieces read back. -/
def sout2_A_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3).2.2.1)

/-- At key tile 0 the pieces stored into the running weighted sum's buffer tile it, so they cover it. -/
theorem scover2_A_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x128.Idx) :
    ∃ pc ∈ (kernelRun2_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.2.1 S1024x128.size (by sl_kernel_rfl) y

/-- What the body leaves in the running weighted sum's buffer at key tile 0: its pieces read back. -/
def sout2_A_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x128 .f32 :=
  VS2_2.read (Elt F) (VS2_2.writes (Elt F) VS2_2.junk (kernelRun2_A c i arg2 harg2 arg3 harg3 arg4 harg4 arg5 harg5 arg6 harg6 arg7 harg7 arg8 harg8 arg9 harg9 hc0 hc1 x0 x1 x2 x3).2.2.2.1)

/-- At key tiles 1 and 2 nothing is stored into the output window's buffer (the window is idle there and not written back): a
    placeholder that nothing consults. -/
def out2_B_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO2_4.read (Elt F) (VO2_4.writes (Elt F) VO2_4.junk (kernelRun2_B c i arg2 harg2 arg3 harg3 arg4 harg4 arg5 harg5 arg6 harg6 arg7 harg7 arg8 harg8 arg9 harg9 hc0 hc1 x0 x1 x2 x3 xs0 xs1 xs2).1)

/-- At key tiles 1 and 2 the pieces stored into the running maximum's buffer tile it, so they cover it. -/
theorem scover2_B_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tiles 1 and 2: its pieces read back. -/
def sout2_B_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0 xs1 xs2).2.1)

/-- At key tiles 1 and 2 the pieces stored into the running sum's buffer tile it, so they cover it. -/
theorem scover2_B_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tiles 1 and 2: its pieces read back. -/
def sout2_B_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 xs0 xs1 xs2).2.2.1)

/-- At key tiles 1 and 2 the pieces stored into the running weighted sum's buffer tile it, so they cover it. -/
theorem scover2_B_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tiles 1 and 2: its pieces read back. -/
def sout2_B_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS2_2.read (Elt F) (VS2_2.writes (Elt F) VS2_2.junk (kernelRun2_B c i arg2 harg2 arg3 harg3 arg4 harg4 arg5 harg5 arg6 harg6 arg7 harg7 arg8 harg8 arg9 harg9 hc0 hc1 x0 x1 x2 x3 xs0 xs1 xs2).2.2.2.1)

/-- At key tile 3 the pieces stored into the output window's buffer tile it, so they cover it. -/
theorem cover2_C_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What the body leaves in the output window's buffer at key tile 3: its pieces read back. -/
def out2_C_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO2_4.read (Elt F) (VO2_4.writes (Elt F) VO2_4.junk (kernelRun2_C c i arg2 harg2 arg3 harg3 arg4 harg4 arg5 harg5 arg6 harg6 arg7 harg7 arg8 harg8 arg9 harg9 hc0 hc1 x0 x1 x2 x3 xs0 xs1 xs2).1)

/-- At key tile 3 the pieces stored into the running maximum's buffer tile it, so they cover it. -/
theorem scover2_C_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tile 3: its pieces read back. -/
def sout2_C_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 xs0 xs1 xs2).2.1)

/-- At key tile 3 the pieces stored into the running sum's buffer tile it, so they cover it. -/
theorem scover2_C_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tile 3: its pieces read back. -/
def sout2_C_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 hc0 hc1 x0 x1 x2 x3 xs0 xs1 xs2).2.2.1)

/-- At key tile 3 the pieces stored into the running weighted sum's buffer tile it, so they cover it. -/
theorem scover2_C_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tile 3: its pieces read back. -/
def sout2_C_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS2_2.read (Elt F) (VS2_2.writes (Elt F) VS2_2.junk (kernelRun2_C c i arg2 harg2 arg3 harg3 arg4 harg4 arg5 harg5 arg6 harg6 arg7 harg7 arg8 harg8 arg9 harg9 hc0 hc1 x0 x1 x2 x3 xs0 xs1 xs2).2.2.2.1)

/-! ## The staging memrefs at a point -/

abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)

/-! ## What the output window's buffer and the scratch buffers hold after each point -/

/-- THE ACCUMULATION. What the output window's staging buffer and the three scratch buffers (the running maximum, the
    running sum, the running weighted sum) hold after the body at position `n`: the case the position's key tile selects,
    run at the point's memrefs and input blocks, the scratch at what the point before left (at key tile 0 they are reset
    first, so nothing of the point before is read). -/
def outsAt2 (c : Dev nD) : (n : ℕ) → n < cfg2.N → Vec F S1024x128 .f32 × Vec F S1024x1 .f32 × Vec F S1024x1 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2)

/-- `outsAt2` at a point of key tile 0: that case's contents (nothing of the point before is read). -/
theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of key tile 1 or 2: that case's contents, over what the point before left in the scratch. -/
theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of key tile 3: that case's contents, over what the point before left in the scratch. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch from point to point -/

/-- The region invariant before position `n`: before the first point the class's (every scratch buffer at anything);
    afterwards the three scratch buffers at what the point before left in them (`outsAt2`'s scratch components), the
    unopened rest of the scoped buffers, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ restBut2 c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2) ∗ restBut2 c) ∗ (∃ r, prngReg c r)) := by
  cases n with
  | zero => exact absurd rfl hz
  | succ n => rfl

/-! ## The pipeline's proof data -/

/-- The proof data of the pipeline on core `c`: the arrays as the region finds them (`V`); after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the position's key tile says which case the point is
    in; the invariant hands the body the three scratch buffers at what the point before left (at anything at the first
    point) and takes them back at this point's contents; the unopened rest, the generator register and the core's dues
    pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0 sout2_A_1 sout2_A_2; (try dsimp only)
      by_cases hz : t.val = 0
      · rw [PhiS2_castSucc V c t, PhiS2_zero V c _ _ hz, PhiA2_eq]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0 sout2_C_1 sout2_C_2; (try dsimp only)
      by_cases hz : t.val = 0
      · exfalso; omega
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_C_1 c _ _ _ _ _ _ _ _ _ _ _ _ _ _ _ _ _ _ _ _ _ _ _ _ _ _)
              unfold owns; iexists _; isplitr
              swap; · iexact HS2
              ipureintro; exact View.read_writes_of_cover _ _ _ _ _ (scover2_C_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0 sout2_B_1 sout2_B_2; (try dsimp only)
      by_cases hz : t.val = 0
      · exfalso; omega
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_B_1 c _ _ _ _ _ _ _ _ _ _ _ _ _ _ _ _ _ _ _ _ _ _ _ _ _ _)
              unfold owns; iexists _; isplitr
              swap; · iexact HS2
              ipureintro; exact View.read_writes_of_cover _ _ _ _ _ (scover2_B_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.K.Attn3Runs.lean ====
/- Region 3 of @main (custom_call 3: masked cross-graph attention with an online softmax over 4 key tiles per query
   tile; grid (8, 4), point t = query tile t / 4, key tile t % 4), at a PARAMETER `V` — the TensorCore's buffer
   contents when the region is entered. What the three per-case runs of the body share: each window's block at a
   point, the input windows' staging buffers holding their blocks at every point, the body's two conditions on the
   grid position in closed form (key tile 0: the running maximum, sum and weighted sum are reset first; key tile 3:
   the normalised weighted sum is stored into the output window's buffer), where the output window is idle, the three
   carried scratch buffers as memrefs, and the class invariant with those three buffers split out of the scoped rest.
   Generic in the float instance. -/
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the grid position -/

/-- The condition of the body's first `scf.if` (key tile 0: reset the running statistics), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if` (key tile 3: store the normalised output), from the grid coordinates. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- At the points of key tile 0 the output window is idle: nothing is stored into it. -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- At the points of key tiles 1 and 2 the output window is idle: nothing is stored into it. -/
theorem idleAt3_4_B : ∀ t : Fin cfg3.N, ¬cond3_0 (grid3.coords t) → ¬cond3_1 (grid3.coords t) → cfg3.idle 4 (grid3.coords t) = true := by decide +kernel
/-- and its block is not written back there. -/
theorem noFlush3_4_B : ∀ t : Fin cfg3.N, ¬cond3_0 (grid3.coords t) → ¬cond3_1 (grid3.coords t) → (cfg3.win 4).flush t = false := by decide +kernel
/-- At the points of key tile 3 the output window is live: the body stores into it. -/
theorem liveAt3_4_C : ∀ t : Fin cfg3.N, ¬cond3_0 (grid3.coords t) → cond3_1 (grid3.coords t) → cfg3.idle 4 (grid3.coords t) = false := by decide +kernel

/-! ## The staging and scratch memrefs -/

/-- One staging buffer of the output window, through which its contents are stated (the choice does not matter). -/
abbrev VO3_4 : View sig .tc .vmem S1024x128 .f32 := (Memref.whole cc3_stg4_0 : Memref sig .tc .vmem S1024x128 .f32).view
/-- The three scratch operands: whole scoped buffers of the kernel's own — the running maximum, the running sum and the
    running weighted sum —, carried from point to point. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
/-- The same as views: what they hold is stated through these. -/
abbrev VS3_0 : View sig .tc .vmem S1024x1 .f32 := scM3_0.view
abbrev VS3_1 : View sig .tc .vmem S1024x1 .f32 := scM3_1.view
abbrev VS3_2 : View sig .tc .vmem S1024x128 .f32 := scM3_2.view

/-- The part of the core's scoped buffers the region never opens: everything but its own three scratch buffers. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three scratch operands as memrefs owned at some contents, the unopened rest of the
    scoped buffers, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ restBut3 c) ∗ (∃ r, prngReg c r)) := by
  unfold Pipeline.ΦA; rw [scopedRest3_split]; simp only [scM3_0, scM3_1, scM3_2, owns_whole]; try rfl

end Cert.Kernel.Hand

end
-- ==== Proof.K.Attn3Run.lean ====
/- Region 3 of @main (the masked attention kernel with an online softmax): the whole-body runs of the kernel in its three
   control cases — key tile 0 (the running statistics are reset first), key tiles 1 and 2, key tile 3 (the normalised
   output is stored) — by symbolic execution over the skeleton of memory operations. Generic in the float instance. -/
import proofs.«108965_j35862976922239_2_alg».proof.Proof.K.Attn3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output window's staging memref and in the three scratch memrefs, as pieces (last
    first) AT KEY TILE 0 (the first conditional taken, the second not: the points ≡ 0 mod 4), with the proof that on whole memrefs — the four inputs' at their
    contents, the output's (idle here) at contents handed back untouched, the scratch at anything (they are reset first) —
    the body runs to the continuation holding the inputs' as they were and each scratch with its pieces written. The
    pieces are the witness the symbolic run finds. -/
noncomputable def kernelRun3_A (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILES 1 AND 2 (neither conditional taken: the points ≡ 1, 2 mod 4), with the proof that on whole memrefs — the four inputs' at their
    contents, the output's (idle here) at contents handed back untouched, the scratch at the contents the point before left —
    the body runs to the continuation holding the inputs' as they were and each scratch with its pieces written. The
    pieces are the witness the symbolic run finds. -/
noncomputable def kernelRun3_B (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILE 3 (the first conditional not taken, the second taken: the points ≡ 3 mod 4), with the proof that on whole memrefs — the four inputs' at their
    contents, the output's at anything, the scratch at the contents the point before left —
    the body runs to the continuation holding the inputs' as they were, the output's with its pieces written and each scratch with its pieces written. The
    pieces are the witness the symbolic run finds. -/
noncomputable def kernelRun3_C (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Attn3.lean ====
/- Region 3 of @main (custom_call 3: masked cross-graph attention with an online softmax over 4 key tiles per query
   tile), at a PARAMETER `V` — the TensorCore's buffer contents when the region is entered: what each of the body's
   three cases (key tile 0; key tiles 1 and 2; key tile 3) leaves in the output window's buffer and in the three carried
   scratch buffers (the running maximum, the running sum, the running weighted sum), those contents point by point as a
   recursion over the grid, the invariant that carries the scratch from point to point, the pipeline's proof data, the
   library's body obligation, and the invariant at the first point and back after the last. Generic in the float
   instance. -/
import proofs.«108965_j35862976922239_2_alg».proof.Proof.K.Attn3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the three scratch buffers -/

/-- At key tile 0 nothing is stored into the output window's buffer (the window is idle there and not written back): a
    placeholder that nothing consults. -/
def out3_A_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x128 .f32 :=
  VO3_4.read (Elt F) (VO3_4.writes (Elt F) VO3_4.junk (kernelRun3_A c i arg2 harg2 arg3 harg3 arg4 harg4 arg5 harg5 arg6 harg6 arg7 harg7 arg8 harg8 arg9 harg9 hc0 hc1 x0 x1 x2 x3).1)

/-- At key tile 0 the pieces stored into the running maximum's buffer tile it, so they cover it. -/
theorem scover3_A_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x1.Idx) :
    ∃ pc ∈ (kernelRun3_A c i arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.1 S1024x1.size (by sl_kernel_rfl) y

/-- What the body leaves in the running maximum's buffer at key tile 0: its pieces read back. -/
def sout3_A_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x1 .f32 :=
  VS3_0.read (Elt F) (VS3_0.writes (Elt F) VS3_0.junk (kernelRun3_A c i arg2 harg2 arg3 harg3 arg4 harg4 arg5 harg5 arg6 harg6 arg7 harg7 arg8 harg8 arg9 harg9 hc0 hc1 x0 x1 x2 x3).2.1)

/-- At key tile 0 the pieces stored into the running sum's buffer tile it, so they cover it. -/
theorem scover3_A_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x1.Idx) :
    ∃ pc ∈ (kernelRun3_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.2.1 S1024x1.size (by sl_kernel_rfl) y

/-- What the body leaves in the running sum's buffer at key tile 0: its pieces read back. -/
def sout3_A_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x1 .f32 :=
  VS3_1.read (Elt F) (VS3_1.writes (Elt F) VS3_1.junk (kernelRun3_A c i arg2 harg2 arg3 harg3 arg4 harg4 arg5 harg5 arg6 harg6 arg7 harg7 arg8 harg8 arg9 harg9 hc0 hc1 x0 x1 x2 x3).2.2.1)

/-- At key tile 0 the pieces stored into the running weighted sum's buffer tile it, so they cover it. -/
theorem scover3_A_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x128.Idx) :
    ∃ pc ∈ (kernelRun3_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.2.2.1 S1024x128.size (by sl_kernel_rfl) y

/-- What the body leaves in the running weighted sum's buffer at key tile 0: its pieces read back. -/
def sout3_A_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x128 .f32 :=
  VS3_2.read (Elt F) (VS3_2.writes (Elt F) VS3_2.junk (kernelRun3_A c i arg2 harg2 arg3 harg3 arg4 harg4 arg5 harg5 arg6 harg6 arg7 harg7 arg8 harg8 arg9 harg9 hc0 hc1 x0 x1 x2 x3).2.2.2.1)

/-- At key tiles 1 and 2 nothing is stored into the output window's buffer (the window is idle there and not written back): a
    placeholder that nothing consults. -/
def out3_B_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_B c i arg2 harg2 arg3 harg3 arg4 harg4 arg5 harg5 arg6 harg6 arg7 harg7 arg8 harg8 arg9 harg9 hc0 hc1 x0 x1 x2 x3 xs0 xs1 xs2).1)

/-- At key tiles 1 and 2 the pieces stored into the running maximum's buffer tile it, so they cover it. -/
theorem scover3_B_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tiles 1 and 2: its pieces read back. -/
def sout3_B_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg2 harg2 arg3 harg3 arg4 harg4 arg5 harg5 arg6 harg6 arg7 harg7 arg8 harg8 arg9 harg9 hc0 hc1 x0 x1 x2 x3 xs0 xs1 xs2).2.1)

/-- At key tiles 1 and 2 the pieces stored into the running sum's buffer tile it, so they cover it. -/
theorem scover3_B_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tiles 1 and 2: its pieces read back. -/
def sout3_B_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 arg9 harg9 hc0 hc1 x0 x1 x2 x3 xs0 xs1 xs2).2.2.1)

/-- At key tiles 1 and 2 the pieces stored into the running weighted sum's buffer tile it, so they cover it. -/
theorem scover3_B_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tiles 1 and 2: its pieces read back. -/
def sout3_B_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg2 harg2 arg3 harg3 arg4 harg4 arg5 harg5 arg6 harg6 arg7 harg7 arg8 harg8 arg9 harg9 hc0 hc1 x0 x1 x2 x3 xs0 xs1 xs2).2.2.2.1)

/-- At key tile 3 the pieces stored into the output window's buffer tile it, so they cover it. -/
theorem cover3_C_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What the body leaves in the output window's buffer at key tile 3: its pieces read back. -/
def out3_C_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_C c i arg2 harg2 arg3 harg3 arg4 harg4 arg5 harg5 arg6 harg6 arg7 harg7 arg8 harg8 arg9 harg9 hc0 hc1 x0 x1 x2 x3 xs0 xs1 xs2).1)

/-- At key tile 3 the pieces stored into the running maximum's buffer tile it, so they cover it. -/
theorem scover3_C_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tile 3: its pieces read back. -/
def sout3_C_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_C c i arg2 harg2 arg3 harg3 arg4 harg4 arg5 harg5 arg6 harg6 arg7 harg7 arg8 harg8 arg9 harg9 hc0 hc1 x0 x1 x2 x3 xs0 xs1 xs2).2.1)

/-- At key tile 3 the pieces stored into the running sum's buffer tile it, so they cover it. -/
theorem scover3_C_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tile 3: its pieces read back. -/
def sout3_C_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 arg9 harg9 hc0 hc1 x0 x1 x2 x3 xs0 xs1 xs2).2.2.1)

/-- At key tile 3 the pieces stored into the running weighted sum's buffer tile it, so they cover it. -/
theorem scover3_C_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tile 3: its pieces read back. -/
def sout3_C_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_C c i arg2 harg2 arg3 harg3 arg4 harg4 arg5 harg5 arg6 harg6 arg7 harg7 arg8 harg8 arg9 harg9 hc0 hc1 x0 x1 x2 x3 xs0 xs1 xs2).2.2.2.1)

/-! ## The staging memrefs at a point -/

abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)

/-! ## What the output window's buffer and the scratch buffers hold after each point -/

/-- THE ACCUMULATION. What the output window's staging buffer and the three scratch buffers (the running maximum, the
    running sum, the running weighted sum) hold after the body at position `n`: the case the position's key tile selects,
    run at the point's memrefs and input blocks, the scratch at what the point before left (at key tile 0 they are reset
    first, so nothing of the point before is read). -/
def outsAt3 (c : Dev nD) : (n : ℕ) → n < cfg3.N → Vec F S1024x128 .f32 × Vec F S1024x1 .f32 × Vec F S1024x1 .f32 × Vec F S1024x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 4 = 0 then
      if h1 : (n + 1) % 4 = 3 then
        False.elim (by omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 4 = 3 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at a point of key tile 0: that case's contents (nothing of the point before is read). -/
theorem outsAt3_A (c : Dev nD) (t : Fin cfg3.N) (h0 : t.val % 4 = 0) (h1 : ¬t.val % 4 = 3) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

/-- `outsAt3` at a point of key tile 1 or 2: that case's contents, over what the point before left in the scratch. -/
theorem outsAt3_B (c : Dev nD) (t : Fin cfg3.N) (h0 : ¬t.val % 4 = 0) (h1 : ¬t.val % 4 = 3) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of key tile 3: that case's contents, over what the point before left in the scratch. -/
theorem outsAt3_C (c : Dev nD) (t : Fin cfg3.N) (h0 : ¬t.val % 4 = 0) (h1 : t.val % 4 = 3) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch from point to point -/

/-- The region invariant before position `n`: before the first point the class's (every scratch buffer at anything);
    afterwards the three scratch buffers at what the point before left in them (`outsAt3`'s scratch components), the
    unopened rest of the scoped buffers, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ restBut3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's contents. -/
theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ restBut3 c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ restBut3 c) ∗ (∃ r, prngReg c r)) := by
  cases n with
  | zero => exact absurd rfl hz
  | succ n => rfl

/-! ## The pipeline's proof data -/

/-- The proof data of the pipeline on core `c`: the arrays as the region finds them (`V`); after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the position's key tile says which case the point is
    in; the invariant hands the body the three scratch buffers at what the point before left (at anything at the first
    point) and takes them back at this point's contents; the unopened rest, the generator register and the core's dues
    pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C_4 sout3_C_0 sout3_C_1 sout3_C_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c _ _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B_0 sout3_B_1 sout3_B_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.Hand

end
-- ==== Proof.K.Upd4.lean ====
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Ring
import Idealize.ShloMosaic.Lib.Tactic

/-! # Region 4: the node-update layer on one tile of 2048 rows

The body reads nine staged blocks — a tile of messages, of attention sums and of node features, three
first-layer weight matrices, the first bias, the second weight matrix and the second bias — and stores, through
the whole rectangle of the result's staging buffer, the node features plus the two-layer perceptron's value.
Everything here is stated at a parameter `V`, the buffer contents the region finds when it is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, whether the block was fetched there
or kept from the point before (the block index did not move): for any proof data whose array is the entry
contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole rectangle of their buffer -/

abbrev r4_a : Rect S2048x256 := Rect.unit (s := S2048x256) ![0, 0] S2048x256.size inb_S2048x256_S2048x256_0_0
abbrev r4_b : Rect S2048x128 := Rect.unit (s := S2048x128) ![0, 0] S2048x128.size inb_S2048x128_S2048x128_0_0
abbrev r4_c : Rect S256x256 := Rect.unit (s := S256x256) ![0, 0] S256x256.size inb_S256x256_S256x256_0_0
abbrev r4_d : Rect S128x256 := Rect.unit (s := S128x256) ![0, 0] S128x256.size inb_S128x256_S128x256_0_0
abbrev r4_e : Rect S256 := Rect.unit (s := S256) ![0] S256.size inb_S256_S256_0
abbrev r4_f : Rect S256x128 := Rect.unit (s := S256x128) ![0, 0] S256x128.size inb_S256x128_S256x128_0_0
abbrev r4_g : Rect S128 := Rect.unit (s := S128) ![0] S128.size inb_S128_S128_0

/-! ## What the body leaves in the result's staging buffer -/

/-- The result tile after the body, from the nine input blocks: the one store, whose value is the node-feature
    tile (loaded a second time) plus the perceptron's value of the nine loads. -/
def out4_9 (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) : Vec F S2048x128 .f32 :=
  View.canon [⟨r4_b, k4_pay1 (k4_pay2 (View.ld x0 r4_a) (View.ld x1 r4_b) (View.ld x2 r4_b) (View.ld x3 r4_c) (View.ld x4 r4_d) (View.ld x5 r4_d) (View.ld x6 r4_e) (View.ld x7 r4_f) (View.ld x8 r4_g)) (View.ld x2 r4_b)⟩]

/-- The store's rectangle is the whole buffer, so it covers it. -/
theorem cover4_9 (p0 : Vec F S2048x128 .f32) (y : S2048x128.Idx) :
    ∃ pc ∈ ([⟨r4_b, p0⟩] : List (View.Piece (Elt F) S2048x128 .f32)), y ∈ pc.1.set :=
  View.cover_of_tiled [⟨r4_b, p0⟩] S2048x128.size (by rfl) y

/-! ## The body's triple -/

set_option maxHeartbeats 4000000 in
/-- On whole staging memrefs, the nine inputs' at read contents `xW` and the result's at anything, the body runs to
    the continuation holding the inputs' as they were and the result's at `out4_9` of the inputs'. -/
theorem sound_kernel4 (c : Dev nD) (E : Set ℕ) (i : grid4.Coords) (arg1 : Memref sig .tc .vmem S2048x256 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .f32) (harg10 : arg10.IsWhole)
    (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__upd_kernel i arg1 harg1 arg2 harg2 arg3 harg3 arg4 harg4 arg5 harg5 arg6 harg6 arg7 harg7 arg8 harg8 arg9 harg9 arg10 harg10) K := by
  simp only [cc4__upd_kernel_eq_skeleton]; unfold cc4__upd_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

/-- The proof data on core `c`: the arrays as the region finds them; after the body at point `t` each input's buffer
    at its block and the result's at `out4_9` of the nine input blocks; the invariant is the untouched rest
    (the scoped buffers and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Upd5.lean ====
import proofs.«108965_j35862976922239_2_alg».proof.Proof.Gen.Kernel.Launch
import proofs.«108965_j35862976922239_2_alg».proof.Proof.Gen.Kernel.Skeleton
import proofs.«108965_j35862976922239_2_alg».proof.Proof.Gen.Kernel.Points
import Idealize.ShloMosaic.Lib.Pipeline.FrameBody
import Idealize.ShloMosaic.Lib.Ring
import Idealize.ShloMosaic.Lib.Tactic

/-! # Region 5: the node-update layer on one tile of 2048 rows

The body reads nine staged blocks — a tile of messages, of attention sums and of node features, three
first-layer weight matrices, the first bias, the second weight matrix and the second bias — and stores, through
the whole rectangle of the result's staging buffer, the node features plus the two-layer perceptron's value.
Everything here is stated at a parameter `V`, the buffer contents the region finds when it is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, whether the block was fetched there
or kept from the point before (the block index did not move): for any proof data whose array is the entry
contents and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole rectangle of their buffer -/

abbrev r5_a : Rect S2048x256 := Rect.unit (s := S2048x256) ![0, 0] S2048x256.size inb_S2048x256_S2048x256_0_0
abbrev r5_b : Rect S2048x128 := Rect.unit (s := S2048x128) ![0, 0] S2048x128.size inb_S2048x128_S2048x128_0_0
abbrev r5_c : Rect S256x256 := Rect.unit (s := S256x256) ![0, 0] S256x256.size inb_S256x256_S256x256_0_0
abbrev r5_d : Rect S128x256 := Rect.unit (s := S128x256) ![0, 0] S128x256.size inb_S128x256_S128x256_0_0
abbrev r5_e : Rect S256 := Rect.unit (s := S256) ![0] S256.size inb_S256_S256_0
abbrev r5_f : Rect S256x128 := Rect.unit (s := S256x128) ![0, 0] S256x128.size inb_S256x128_S256x128_0_0
abbrev r5_g : Rect S128 := Rect.unit (s := S128) ![0] S128.size inb_S128_S128_0

/-! ## What the body leaves in the result's staging buffer -/

/-- The result tile after the body, from the nine input blocks: the one store, whose value is the node-feature
    tile (loaded a second time) plus the perceptron's value of the nine loads. -/
def out5_9 (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) : Vec F S2048x128 .f32 :=
  View.canon [⟨r5_b, k5_pay1 (k5_pay2 (View.ld x0 r5_a) (View.ld x1 r5_b) (View.ld x2 r5_b) (View.ld x3 r5_c) (View.ld x4 r5_d) (View.ld x5 r5_d) (View.ld x6 r5_e) (View.ld x7 r5_f) (View.ld x8 r5_g)) (View.ld x2 r5_b)⟩]

/-- The store's rectangle is the whole buffer, so it covers it. -/
theorem cover5_9 (p0 : Vec F S2048x128 .f32) (y : S2048x128.Idx) :
    ∃ pc ∈ ([⟨r5_b, p0⟩] : List (View.Piece (Elt F) S2048x128 .f32)), y ∈ pc.1.set :=
  View.cover_of_tiled [⟨r5_b, p0⟩] S2048x128.size (by rfl) y

/-! ## The body's triple -/

set_option maxHeartbeats 4000000 in
/-- On whole staging memrefs, the nine inputs' at read contents `xW` and the result's at anything, the body runs to
    the continuation holding the inputs' as they were and the result's at `out5_9` of the inputs'. -/
theorem sound_kernel5 (c : Dev nD) (E : Set ℕ) (i : grid5.Coords) (arg1 : Memref sig .tc .vmem S2048x256 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .f32) (harg10 : arg10.IsWhole)
    (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__upd_kernel i arg1 harg1 arg2 harg2 arg3 harg3 arg4 harg4 arg5 harg5 arg6 harg6 arg7 harg7 arg8 harg8 arg9 harg9 arg10 harg10) K := by
  simp only [cc5__upd_kernel_eq_skeleton]; unfold cc5__upd_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data on core `c`: the arrays as the region finds them; after the body at point `t` each input's buffer
    at its block and the result's at `out5_9` of the nine input blocks; the invariant is the untouched rest
    (the scoped buffers and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.LibInputArrays.lean ====
/-
  A windowed array that no grid point writes back is left as the region found it.

  The array of window `w` after the write-backs of the points below `n` is defined by recursion on `n`: at each point
  that flushes, the point's block is overwritten.  If window `w` flushes at no point (an input window), every step
  of the recursion keeps the previous contents, so the array is its entry contents at every `n`.
-/
import Idealize.ShloMosaic.Lib.Pipeline.Dat

namespace Cert.Lib.InputArrays

open Idealize.ShloMosaic Idealize.ShloMosaic.Pipeline

variable {nD : Nat} {τ : Topo} {sig : RefSig} {Val : EltTy → Type} {Λ₀ : Idealize.SL.Sem.Labels}
variable {Ix : Type} [DecidableEq Ix] {Name : Type} [DecidableEq Name] {U : Type} [Idealize.SL.RA.URA U] {Lvl : Type}
variable {cfg : Cfg sig Λ₀} {c : Dev nD}

/-- An array whose window never flushes holds its entry contents after any number of points. -/
theorem arrAt_of_never_flush (dat : Dat τ Val Ix Name U Lvl cfg c) (w : Fin cfg.W)
    (h : ∀ t : Fin cfg.N, (cfg.win w).flush t = false) : ∀ n : Nat, dat.arrAt w n = dat.A w
  | 0 => rfl
  | n + 1 => by
    rw [Dat.arrAt]
    by_cases hn : n < cfg.N
    · simp only [hn, dite_true, h ⟨n, hn⟩, Bool.false_eq_true, if_false]
      exact arrAt_of_never_flush dat w h n
    · simp only [hn, dite_false]
      exact arrAt_of_never_flush dat w h n

end Cert.Lib.InputArrays
-- ==== Proof.K.Regs.lean ====
/-
  The six regions' segment records over one family of proof data, and the run of the whole program.

  The valuations between the items are built in order: `U1` is the launch contents after the first host stretch; after
  region K the one array it writes is replaced by what its pipeline leaves there (every point's block written back),
  every other buffer kept; each later host stretch is applied to the valuation before it.  With these contents as the
  unknowns of the generated valuations, each region's proof data at its entry contents, and each region's record, the
  joined run gives every unscoped buffer of every final memory at the last valuation `U11`.
-/
import proofs.«108965_j35862976922239_2_alg».proof.Proof.K.Run
import proofs.«108965_j35862976922239_2_alg».proof.Proof.K.Msg0
import proofs.«108965_j35862976922239_2_alg».proof.Proof.K.Msg1

import proofs.«108965_j35862976922239_2_alg».proof.Proof.K.Attn2
import proofs.«108965_j35862976922239_2_alg».proof.Proof.K.Attn3
import proofs.«108965_j35862976922239_2_alg».proof.Proof.K.Upd4
import proofs.«108965_j35862976922239_2_alg».proof.Proof.K.Upd5
import proofs.«108965_j35862976922239_2_alg».proof.Proof.LibInputArrays
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
local notation "𝕄" => MT nD τ sig Unit (Elt F) ℕ (UR sig nD τ) ℕ
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- Every unscoped buffer after the first host stretch. -/
abbrev U1 (c : Dev nD) : Valuation τ sig (Elt F) := V1 m c

/-! ## Region 0: entered from `U1`, left at `U2` -/

/-- Region 0's arrays as it leaves them (each input array as entered, the result array with every point's block
    written back), every other buffer as entered. -/
def o2 (c : Dev nD) : Valuation τ sig (Elt F) :=
  Pipeline.withArrays spec0 c (U1 m c) fun w => (dat0 (atRefs (U1 m)) c).arrAt w cfg0.N
abbrev U2 (c : Dev nD) : Valuation τ sig (Elt F) := Function.update (U1 m c) main_v20 (o2 m c main_v20)

/-- The result array is window 5's. -/
theorem arrRef0_out : Pipeline.arrRef spec0 5 = main_v20 := rfl

/-- No point writes an input window back. -/
theorem noflush0 : ∀ w : Fin cfg0.W, w ≠ 5 → ∀ t : Fin cfg0.N, (cfg0.win w).flush t = false := by decide

/-- No input array is the result array. -/
theorem in_ne_out0 : ∀ w : Fin cfg0.W, w ≠ 5 → Pipeline.arrRef spec0 w ≠ main_v20 := by decide

/-- At the region's exit each of its arrays holds what the pipeline leaves: the result array by the choice of `U2`,
    an input array because no point writes it back. -/
theorem exit0_arr (c : Dev nD) (w : Fin cfg0.W) :
    (dat0 (atRefs (U1 m)) c).arrAt w cfg0.N = atRefs (U2 m) c (Pipeline.arrRef spec0 w) := by
  by_cases hw : w = 5
  · subst hw
    show _ = Function.update (U1 m c) main_v20 (o2 m c main_v20) main_v20
    rw [Function.update_self]
    unfold o2
    exact (Pipeline.withArrays_arr spec0 launch0.win.arr_inj c (U1 m c) (fun w => (dat0 (atRefs (U1 m)) c).arrAt w cfg0.N) 5).symm
  · rw [Cert.Lib.InputArrays.arrAt_of_never_flush _ w (noflush0 w hw), A_eq0]
    show _ = Function.update (U1 m c) main_v20 (o2 m c main_v20) (Proc.devRef .tc (Pipeline.arrRef spec0 w))
    rw [Function.update_of_ne (StableHlo.devRef_ne_of_ne (in_ne_out0 w hw))]

/-- Off the region's arrays nothing changed. -/
theorem exit0_rest (c : Dev nD) : ∀ b, b ∉ Finset.univ.image (Pipeline.arrRef spec0) → atRefs (U2 m) c b = atRefs (U1 m) c b := by
  intro b hb
  have hne : b ≠ main_v20 := fun e => hb (Finset.mem_image.mpr ⟨5, Finset.mem_univ _, e ▸ arrRef0_out⟩)
  show Function.update (U1 m c) main_v20 (o2 m c main_v20) (Proc.devRef .tc b) = _
  rw [Function.update_of_ne (StableHlo.devRef_ne_of_ne hne)]

/-- Every unscoped buffer after the host stretch that follows region 0. -/
abbrev U3 (c : Dev nD) : Valuation τ sig (Elt F) := StableHlo.after hostOps1 (U2 m c)

/-! ## Region 1: entered from `U3`, left at `U4` -/

/-- Region 1's arrays as it leaves them (each input array as entered, the result array with every point's block
    written back), every other buffer as entered. -/
def o4 (c : Dev nD) : Valuation τ sig (Elt F) :=
  Pipeline.withArrays spec1 c (U3 m c) fun w => (dat1 (atRefs (U3 m)) c).arrAt w cfg1.N
abbrev U4 (c : Dev nD) : Valuation τ sig (Elt F) := Function.update (U3 m c) main_v44 (o4 m c main_v44)

/-- The result array is window 5's. -/
theorem arrRef1_out : Pipeline.arrRef spec1 5 = main_v44 := rfl

/-- No point writes an input window back. -/
theorem noflush1 : ∀ w : Fin cfg1.W, w ≠ 5 → ∀ t : Fin cfg1.N, (cfg1.win w).flush t = false := by decide

/-- No input array is the result array. -/
theorem in_ne_out1 : ∀ w : Fin cfg1.W, w ≠ 5 → Pipeline.arrRef spec1 w ≠ main_v44 := by decide

/-- At the region's exit each of its arrays holds what the pipeline leaves: the result array by the choice of `U4`,
    an input array because no point writes it back. -/
theorem exit1_arr (c : Dev nD) (w : Fin cfg1.W) :
    (dat1 (atRefs (U3 m)) c).arrAt w cfg1.N = atRefs (U4 m) c (Pipeline.arrRef spec1 w) := by
  by_cases hw : w = 5
  · subst hw
    show _ = Function.update (U3 m c) main_v44 (o4 m c main_v44) main_v44
    rw [Function.update_self]
    unfold o4
    exact (Pipeline.withArrays_arr spec1 launch1.win.arr_inj c (U3 m c) (fun w => (dat1 (atRefs (U3 m)) c).arrAt w cfg1.N) 5).symm
  · rw [Cert.Lib.InputArrays.arrAt_of_never_flush _ w (noflush1 w hw), A_eq1]
    show _ = Function.update (U3 m c) main_v44 (o4 m c main_v44) (Proc.devRef .tc (Pipeline.arrRef spec1 w))
    rw [Function.update_of_ne (StableHlo.devRef_ne_of_ne (in_ne_out1 w hw))]

/-- Off the region's arrays nothing changed. -/
theorem exit1_rest (c : Dev nD) : ∀ b, b ∉ Finset.univ.image (Pipeline.arrRef spec1) → atRefs (U4 m) c b = atRefs (U3 m) c b := by
  intro b hb
  have hne : b ≠ main_v44 := fun e => hb (Finset.mem_image.mpr ⟨5, Finset.mem_univ _, e ▸ arrRef1_out⟩)
  show Function.update (U3 m c) main_v44 (o4 m c main_v44) (Proc.devRef .tc b) = _
  rw [Function.update_of_ne (StableHlo.devRef_ne_of_ne hne)]

/-- Every unscoped buffer after the host stretch that follows region 1. -/
abbrev U5 (c : Dev nD) : Valuation τ sig (Elt F) := StableHlo.after hostOps2 (U4 m c)

/-! ## Region 2: entered from `U5`, left at `U6` -/

/-- Region 2's arrays as it leaves them (each input array as entered, the result array with every point's block
    written back), every other buffer as entered. -/
def o6 (c : Dev nD) : Valuation τ sig (Elt F) :=
  Pipeline.withArrays spec2 c (U5 m c) fun w => (dat2 (atRefs (U5 m)) c).arrAt w cfg2.N
abbrev U6 (c : Dev nD) : Valuation τ sig (Elt F) := Function.update (U5 m c) main_v50 (o6 m c main_v50)

/-- The result array is window 4's. -/
theorem arrRef2_out : Pipeline.arrRef spec2 4 = main_v50 := rfl

/-- No point writes an input window back. -/
theorem noflush2 : ∀ w : Fin cfg2.W, w ≠ 4 → ∀ t : Fin cfg2.N, (cfg2.win w).flush t = false := by decide

/-- No input array is the result array. -/
theorem in_ne_out2 : ∀ w : Fin cfg2.W, w ≠ 4 → Pipeline.arrRef spec2 w ≠ main_v50 := by decide

/-- At the region's exit each of its arrays holds what the pipeline leaves: the result array by the choice of `U6`,
    an input array because no point writes it back. -/
theorem exit2_arr (c : Dev nD) (w : Fin cfg2.W) :
    (dat2 (atRefs (U5 m)) c).arrAt w cfg2.N = atRefs (U6 m) c (Pipeline.arrRef spec2 w) := by
  by_cases hw : w = 4
  · subst hw
    show _ = Function.update (U5 m c) main_v50 (o6 m c main_v50) main_v50
    rw [Function.update_self]
    unfold o6
    exact (Pipeline.withArrays_arr spec2 launch2.win.arr_inj c (U5 m c) (fun w => (dat2 (atRefs (U5 m)) c).arrAt w cfg2.N) 4).symm
  · rw [Cert.Lib.InputArrays.arrAt_of_never_flush _ w (noflush2 w hw), A_eq2]
    show _ = Function.update (U5 m c) main_v50 (o6 m c main_v50) (Proc.devRef .tc (Pipeline.arrRef spec2 w))
    rw [Function.update_of_ne (StableHlo.devRef_ne_of_ne (in_ne_out2 w hw))]

/-- Off the region's arrays nothing changed. -/
theorem exit2_rest (c : Dev nD) : ∀ b, b ∉ Finset.univ.image (Pipeline.arrRef spec2) → atRefs (U6 m) c b = atRefs (U5 m) c b := by
  intro b hb
  have hne : b ≠ main_v50 := fun e => hb (Finset.mem_image.mpr ⟨4, Finset.mem_univ _, e ▸ arrRef2_out⟩)
  show Function.update (U5 m c) main_v50 (o6 m c main_v50) (Proc.devRef .tc b) = _
  rw [Function.update_of_ne (StableHlo.devRef_ne_of_ne hne)]

/-- Every unscoped buffer after the host stretch that follows region 2. -/
abbrev U7 (c : Dev nD) : Valuation τ sig (Elt F) := StableHlo.after hostOps3 (U6 m c)

/-! ## Region 3: entered from `U7`, left at `U8` -/

/-- Region 3's arrays as it leaves them (each input array as entered, the result array with every point's block
    written back), every other buffer as entered. -/
def o8 (c : Dev nD) : Valuation τ sig (Elt F) :=
  Pipeline.withArrays spec3 c (U7 m c) fun w => (dat3 (atRefs (U7 m)) c).arrAt w cfg3.N
abbrev U8 (c : Dev nD) : Valuation τ sig (Elt F) := Function.update (U7 m c) main_v53 (o8 m c main_v53)

/-- The result array is window 4's. -/
theorem arrRef3_out : Pipeline.arrRef spec3 4 = main_v53 := rfl

/-- No point writes an input window back. -/
theorem noflush3 : ∀ w : Fin cfg3.W, w ≠ 4 → ∀ t : Fin cfg3.N, (cfg3.win w).flush t = false := by decide

/-- No input array is the result array. -/
theorem in_ne_out3 : ∀ w : Fin cfg3.W, w ≠ 4 → Pipeline.arrRef spec3 w ≠ main_v53 := by decide

/-- At the region's exit each of its arrays holds what the pipeline leaves: the result array by the choice of `U8`,
    an input array because no point writes it back. -/
theorem exit3_arr (c : Dev nD) (w : Fin cfg3.W) :
    (dat3 (atRefs (U7 m)) c).arrAt w cfg3.N = atRefs (U8 m) c (Pipeline.arrRef spec3 w) := by
  by_cases hw : w = 4
  · subst hw
    show _ = Function.update (U7 m c) main_v53 (o8 m c main_v53) main_v53
    rw [Function.update_self]
    unfold o8
    exact (Pipeline.withArrays_arr spec3 launch3.win.arr_inj c (U7 m c) (fun w => (dat3 (atRefs (U7 m)) c).arrAt w cfg3.N) 4).symm
  · rw [Cert.Lib.InputArrays.arrAt_of_never_flush _ w (noflush3 w hw), A_eq3]
    show _ = Function.update (U7 m c) main_v53 (o8 m c main_v53) (Proc.devRef .tc (Pipeline.arrRef spec3 w))
    rw [Function.update_of_ne (StableHlo.devRef_ne_of_ne (in_ne_out3 w hw))]

/-- Off the region's arrays nothing changed. -/
theorem exit3_rest (c : Dev nD) : ∀ b, b ∉ Finset.univ.image (Pipeline.arrRef spec3) → atRefs (U8 m) c b = atRefs (U7 m) c b := by
  intro b hb
  have hne : b ≠ main_v53 := fun e => hb (Finset.mem_image.mpr ⟨4, Finset.mem_univ _, e ▸ arrRef3_out⟩)
  show Function.update (U7 m c) main_v53 (o8 m c main_v53) (Proc.devRef .tc b) = _
  rw [Function.update_of_ne (StableHlo.devRef_ne_of_ne hne)]

/-- Every unscoped buffer after the host stretch that follows region 3. -/
abbrev U9 (c : Dev nD) : Valuation τ sig (Elt F) := StableHlo.after hostOps4 (U8 m c)

/-! ## Region 4: entered from `U9`, left at `U10` -/

/-- Region 4's arrays as it leaves them (each input array as entered, the result array with every point's block
    written back), every other buffer as entered. -/
def o10 (c : Dev nD) : Valuation τ sig (Elt F) :=
  Pipeline.withArrays spec4 c (U9 m c) fun w => (dat4 (atRefs (U9 m)) c).arrAt w cfg4.N
abbrev U10 (c : Dev nD) : Valuation τ sig (Elt F) := Function.update (U9 m c) main_v59 (o10 m c main_v59)

/-- The result array is window 9's. -/
theorem arrRef4_out : Pipeline.arrRef spec4 9 = main_v59 := rfl

/-- No point writes an input window back. -/
theorem noflush4 : ∀ w : Fin cfg4.W, w ≠ 9 → ∀ t : Fin cfg4.N, (cfg4.win w).flush t = false := by decide

/-- No input array is the result array. -/
theorem in_ne_out4 : ∀ w : Fin cfg4.W, w ≠ 9 → Pipeline.arrRef spec4 w ≠ main_v59 := by decide

/-- At the region's exit each of its arrays holds what the pipeline leaves: the result array by the choice of `U10`,
    an input array because no point writes it back. -/
theorem exit4_arr (c : Dev nD) (w : Fin cfg4.W) :
    (dat4 (atRefs (U9 m)) c).arrAt w cfg4.N = atRefs (U10 m) c (Pipeline.arrRef spec4 w) := by
  by_cases hw : w = 9
  · subst hw
    show _ = Function.update (U9 m c) main_v59 (o10 m c main_v59) main_v59
    rw [Function.update_self]
    unfold o10
    exact (Pipeline.withArrays_arr spec4 launch4.win.arr_inj c (U9 m c) (fun w => (dat4 (atRefs (U9 m)) c).arrAt w cfg4.N) 9).symm
  · rw [Cert.Lib.InputArrays.arrAt_of_never_flush _ w (noflush4 w hw), A_eq4]
    show _ = Function.update (U9 m c) main_v59 (o10 m c main_v59) (Proc.devRef .tc (Pipeline.arrRef spec4 w))
    rw [Function.update_of_ne (StableHlo.devRef_ne_of_ne (in_ne_out4 w hw))]

/-- Off the region's arrays nothing changed. -/
theorem exit4_rest (c : Dev nD) : ∀ b, b ∉ Finset.univ.image (Pipeline.arrRef spec4) → atRefs (U10 m) c b = atRefs (U9 m) c b := by
  intro b hb
  have hne : b ≠ main_v59 := fun e => hb (Finset.mem_image.mpr ⟨9, Finset.mem_univ _, e ▸ arrRef4_out⟩)
  show Function.update (U9 m c) main_v59 (o10 m c main_v59) (Proc.devRef .tc b) = _
  rw [Function.update_of_ne (StableHlo.devRef_ne_of_ne hne)]

/-! ## Region 5: entered from `U10`, left at `U11` -/

/-- Region 5's arrays as it leaves them (each input array as entered, the result array with every point's block
    written back), every other buffer as entered. -/
def o11 (c : Dev nD) : Valuation τ sig (Elt F) :=
  Pipeline.withArrays spec5 c (U10 m c) fun w => (dat5 (atRefs (U10 m)) c).arrAt w cfg5.N
abbrev U11 (c : Dev nD) : Valuation τ sig (Elt F) := Function.update (U10 m c) main_v60 (o11 m c main_v60)

/-- The result array is window 9's. -/
theorem arrRef5_out : Pipeline.arrRef spec5 9 = main_v60 := rfl

/-- No point writes an input window back. -/
theorem noflush5 : ∀ w : Fin cfg5.W, w ≠ 9 → ∀ t : Fin cfg5.N, (cfg5.win w).flush t = false := by decide

/-- No input array is the result array. -/
theorem in_ne_out5 : ∀ w : Fin cfg5.W, w ≠ 9 → Pipeline.arrRef spec5 w ≠ main_v60 := by decide

/-- At the region's exit each of its arrays holds what the pipeline leaves: the result array by the choice of `U11`,
    an input array because no point writes it back. -/
theorem exit5_arr (c : Dev nD) (w : Fin cfg5.W) :
    (dat5 (atRefs (U10 m)) c).arrAt w cfg5.N = atRefs (U11 m) c (Pipeline.arrRef spec5 w) := by
  by_cases hw : w = 9
  · subst hw
    show _ = Function.update (U10 m c) main_v60 (o11 m c main_v60) main_v60
    rw [Function.update_self]
    unfold o11
    exact (Pipeline.withArrays_arr spec5 launch5.win.arr_inj c (U10 m c) (fun w => (dat5 (atRefs (U10 m)) c).arrAt w cfg5.N) 9).symm
  · rw [Cert.Lib.InputArrays.arrAt_of_never_flush _ w (noflush5 w hw), A_eq5]
    show _ = Function.update (U10 m c) main_v60 (o11 m c main_v60) (Proc.devRef .tc (Pipeline.arrRef spec5 w))
    rw [Function.update_of_ne (StableHlo.devRef_ne_of_ne (in_ne_out5 w hw))]

/-- Off the region's arrays nothing changed. -/
theorem exit5_rest (c : Dev nD) : ∀ b, b ∉ Finset.univ.image (Pipeline.arrRef spec5) → atRefs (U11 m) c b = atRefs (U10 m) c b := by
  intro b hb
  have hne : b ≠ main_v60 := fun e => hb (Finset.mem_image.mpr ⟨9, Finset.mem_univ _, e ▸ arrRef5_out⟩)
  show Function.update (U10 m c) main_v60 (o11 m c main_v60) (Proc.devRef .tc b) = _
  rw [Function.update_of_ne (StableHlo.devRef_ne_of_ne hne)]

/-! ## The unknowns of the generated valuations, the proof data family -/

/-- What each region leaves in the array it writes: the generated valuations' unknowns, read only at the six points
    (item, array) the valuations name. -/
@[reducible] def outsOf : Outs (F := F)
  | 2, r, c => o2 m c (Proc.devRef .tc r)
  | 4, r, c => o4 m c (Proc.devRef .tc r)
  | 6, r, c => o6 m c (Proc.devRef .tc r)
  | 8, r, c => o8 m c (Proc.devRef .tc r)
  | 10, r, c => o10 m c (Proc.devRef .tc r)
  | 11, r, c => o11 m c (Proc.devRef .tc r)
  | _, r, c => V0 m c (Proc.devRef .tc r)

/-- Every pipeline's proof data, each at its region's entry contents. -/
def pdats : (p : Fin 6) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U7 m)) c
  | ⟨4, _⟩ => fun c => dat4 (atRefs (U9 m)) c
  | ⟨5, _⟩ => fun c => dat5 (atRefs (U10 m)) c

/-! ## The generated valuations at these unknowns are the staged ones -/

theorem V2_eq (c : Dev nD) : V2 m (outsOf m) c = U2 m c := rfl
theorem V3_eq (c : Dev nD) : V3 m (outsOf m) c = U3 m c := rfl
theorem V4_eq (c : Dev nD) : V4 m (outsOf m) c = U4 m c := rfl
theorem V5_eq (c : Dev nD) : V5 m (outsOf m) c = U5 m c := rfl
theorem V6_eq (c : Dev nD) : V6 m (outsOf m) c = U6 m c := rfl
theorem V7_eq (c : Dev nD) : V7 m (outsOf m) c = U7 m c := rfl
theorem V8_eq (c : Dev nD) : V8 m (outsOf m) c = U8 m c := rfl
theorem V9_eq (c : Dev nD) : V9 m (outsOf m) c = U9 m c := rfl
theorem V10_eq (c : Dev nD) : V10 m (outsOf m) c = U10 m c := rfl
theorem V11_eq (c : Dev nD) : V11 m (outsOf m) c = U11 m c := rfl

/-! ## The regions as segments -/

/-- The class invariant of pipeline 0 is the scoped buffers no window stages beside the generator register: made from
    what the region sorts out at entry (pipeline 0 has no prefetched table), -/
theorem phiA_in0 (c : Dev nD) :
    (iprop((∃ r, prngReg c r) ∗ Pipeline.prefHeld (pcfgs (F := F) 0).pre c (fun _ => fullShare) (adm (F := F) 0).1 ∗ Pipeline.scopedRest spec0 c) : sProp 𝕄)
      ⊢ Pipeline.ΦA spec0 c := by
  unfold Pipeline.ΦA
  iintro ⟨Hreg, -, Hsc⟩
  isplitl [Hsc]; · iexact Hsc
  iexact Hreg
/-- and taken apart again at exit (the kernel has no semaphore of its own). -/
theorem phiA_out0 (c : Dev nD) :
    (Pipeline.ΦA spec0 c : sProp 𝕄) ⊢ iprop((∃ r, prngReg c r) ∗ Pipeline.ownSems0 (fun k : PEmpty => k.elim) c ∗ Pipeline.scopedRest spec0 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 0 as a segment: entered with every unscoped buffer at `U1`, left with them at `U2`.  At entry the
    windows' arrays are split out of the unscoped buffers and the rest bypasses the region; the generator register
    goes into the pipeline's invariant and comes back; nothing is owed at any point; at exit the arrays, at what the
    pipeline leaves in them, are put back beside the untouched rest. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L0 lv0 0 fun _ _ => rfl
  pre c := At (U1 m c) c
  post c := At (U2 m c) c
  X c := iprop(∃ r, prngReg c r)
  Y c := iprop(∃ r, prngReg c r)
  Z c := Pipeline.unscopedRest (Ix := Unit) (Name := ℕ) (U := UR sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun w => A_eq0 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in0 c
  hout c := phiA_out0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U1 m) c) (atRefs (U2 m) c) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 1 is the scoped buffers no window stages beside the generator register: made from
    what the region sorts out at entry (pipeline 1 has no prefetched table), -/
theorem phiA_in1 (c : Dev nD) :
    (iprop((∃ r, prngReg c r) ∗ Pipeline.prefHeld (pcfgs (F := F) 1).pre c (fun _ => fullShare) (adm (F := F) 1).1 ∗ Pipeline.scopedRest spec1 c) : sProp 𝕄)
      ⊢ Pipeline.ΦA spec1 c := by
  unfold Pipeline.ΦA
  iintro ⟨Hreg, -, Hsc⟩
  isplitl [Hsc]; · iexact Hsc
  iexact Hreg
/-- and taken apart again at exit (the kernel has no semaphore of its own). -/
theorem phiA_out1 (c : Dev nD) :
    (Pipeline.ΦA spec1 c : sProp 𝕄) ⊢ iprop((∃ r, prngReg c r) ∗ Pipeline.ownSems0 (fun k : PEmpty => k.elim) c ∗ Pipeline.scopedRest spec1 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 1 as a segment: entered with every unscoped buffer at `U3`, left with them at `U4`.  At entry the
    windows' arrays are split out of the unscoped buffers and the rest bypasses the region; the generator register
    goes into the pipeline's invariant and comes back; nothing is owed at any point; at exit the arrays, at what the
    pipeline leaves in them, are put back beside the untouched rest. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atRefs (U3 m)) c).loose
  hwaits := Pipeline.hwaits_of_owed_zero _ _ _ _ L0 lv0 1 fun _ _ => rfl
  pre c := At (U3 m c) c
  post c := At (U4 m c) c
  X c := iprop(∃ r, prngReg c r)
  Y c := iprop(∃ r, prngReg c r)
  Z c := Pipeline.unscopedRest (Ix := Unit) (Name := ℕ) (U := UR sig nD τ) (Lvl := ℕ) spec1 c (atRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U3 m) c) fun w => A_eq1 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in1 c
  hout c := phiA_out1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (U3 m) c) (atRefs (U4 m) c) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 2 is the scoped buffers no window stages beside the generator register: made from
    what the region sorts out at entry (pipeline 2 has no prefetched table), -/
theorem phiA_in2 (c : Dev nD) :
    (iprop((∃ r, prngReg c r) ∗ Pipeline.prefHeld (pcfgs (F := F) 2).pre c (fun _ => fullShare) (adm (F := F) 2).1 ∗ Pipeline.scopedRest spec2 c) : sProp 𝕄)
      ⊢ Pipeline.ΦA spec2 c := by
  unfold Pipeline.ΦA
  iintro ⟨Hreg, -, Hsc⟩
  isplitl [Hsc]; · iexact Hsc
  iexact Hreg
/-- and taken apart again at exit (the kernel has no semaphore of its own). -/
theorem phiA_out2 (c : Dev nD) :
    (Pipeline.ΦA spec2 c : sProp 𝕄) ⊢ iprop((∃ r, prngReg c r) ∗ Pipeline.ownSems0 (fun k : PEmpty => k.elim) c ∗ Pipeline.scopedRest spec2 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 2 as a segment: entered with every unscoped buffer at `U5`, left with them at `U6`.  At entry the
    windows' arrays are split out of the unscoped buffers and the rest bypasses the region; the generator register
    goes into the pipeline's invariant and comes back; nothing is owed at any point; at exit the arrays, at what the
    pipeline leaves in them, are put back beside the untouched rest. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L0 lv0 2 fun _ _ => rfl
  pre c := At (U5 m c) c
  post c := At (U6 m c) c
  X c := iprop(∃ r, prngReg c r)
  Y c := iprop(∃ r, prngReg c r)
  Z c := Pipeline.unscopedRest (Ix := Unit) (Name := ℕ) (U := UR sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun w => A_eq2 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := (phiA_in2 c).trans (hin2 (atRefs (U5 m)) c)
  hout c := (hout2 (atRefs (U5 m)) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U5 m) c) (atRefs (U6 m) c) ((pdats m 2 c).arrAt · cfg2.N) (exit2_arr m c) (exit2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 3 is the scoped buffers no window stages beside the generator register: made from
    what the region sorts out at entry (pipeline 3 has no prefetched table), -/
theorem phiA_in3 (c : Dev nD) :
    (iprop((∃ r, prngReg c r) ∗ Pipeline.prefHeld (pcfgs (F := F) 3).pre c (fun _ => fullShare) (adm (F := F) 3).1 ∗ Pipeline.scopedRest spec3 c) : sProp 𝕄)
      ⊢ Pipeline.ΦA spec3 c := by
  unfold Pipeline.ΦA
  iintro ⟨Hreg, -, Hsc⟩
  isplitl [Hsc]; · iexact Hsc
  iexact Hreg
/-- and taken apart again at exit (the kernel has no semaphore of its own). -/
theorem phiA_out3 (c : Dev nD) :
    (Pipeline.ΦA spec3 c : sProp 𝕄) ⊢ iprop((∃ r, prngReg c r) ∗ Pipeline.ownSems0 (fun k : PEmpty => k.elim) c ∗ Pipeline.scopedRest spec3 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 3 as a segment: entered with every unscoped buffer at `U7`, left with them at `U8`.  At entry the
    windows' arrays are split out of the unscoped buffers and the rest bypasses the region; the generator register
    goes into the pipeline's invariant and comes back; nothing is owed at any point; at exit the arrays, at what the
    pipeline leaves in them, are put back beside the untouched rest. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atRefs (U7 m)) c).loose
  hwaits := Pipeline.hwaits_of_owed_zero _ _ _ _ L0 lv0 3 fun _ _ => rfl
  pre c := At (U7 m c) c
  post c := At (U8 m c) c
  X c := iprop(∃ r, prngReg c r)
  Y c := iprop(∃ r, prngReg c r)
  Z c := Pipeline.unscopedRest (Ix := Unit) (Name := ℕ) (U := UR sig nD τ) (Lvl := ℕ) spec3 c (atRefs (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (U7 m) c) fun w => A_eq3 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := (phiA_in3 c).trans (hin3 (atRefs (U7 m)) c)
  hout c := (hout3 (atRefs (U7 m)) c).trans (phiA_out3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (U7 m) c) (atRefs (U8 m) c) ((pdats m 3 c).arrAt · cfg3.N) (exit3_arr m c) (exit3_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 4 is the scoped buffers no window stages beside the generator register: made from
    what the region sorts out at entry (pipeline 4 has no prefetched table), -/
theorem phiA_in4 (c : Dev nD) :
    (iprop((∃ r, prngReg c r) ∗ Pipeline.prefHeld (pcfgs (F := F) 4).pre c (fun _ => fullShare) (adm (F := F) 4).1 ∗ Pipeline.scopedRest spec4 c) : sProp 𝕄)
      ⊢ Pipeline.ΦA spec4 c := by
  unfold Pipeline.ΦA
  iintro ⟨Hreg, -, Hsc⟩
  isplitl [Hsc]; · iexact Hsc
  iexact Hreg
/-- and taken apart again at exit (the kernel has no semaphore of its own). -/
theorem phiA_out4 (c : Dev nD) :
    (Pipeline.ΦA spec4 c : sProp 𝕄) ⊢ iprop((∃ r, prngReg c r) ∗ Pipeline.ownSems0 (fun k : PEmpty => k.elim) c ∗ Pipeline.scopedRest spec4 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 4 as a segment: entered with every unscoped buffer at `U9`, left with them at `U10`.  At entry the
    windows' arrays are split out of the unscoped buffers and the rest bypasses the region; the generator register
    goes into the pipeline's invariant and comes back; nothing is owed at any point; at exit the arrays, at what the
    pipeline leaves in them, are put back beside the untouched rest. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atRefs (U9 m)) c).loose
  hwaits := Pipeline.hwaits_of_owed_zero _ _ _ _ L0 lv0 4 fun _ _ => rfl
  pre c := At (U9 m c) c
  post c := At (U10 m c) c
  X c := iprop(∃ r, prngReg c r)
  Y c := iprop(∃ r, prngReg c r)
  Z c := Pipeline.unscopedRest (Ix := Unit) (Name := ℕ) (U := UR sig nD τ) (Lvl := ℕ) spec4 c (atRefs (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (U9 m) c) fun w => A_eq4 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in4 c
  hout c := phiA_out4 c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (U9 m) c) (atRefs (U10 m) c) ((pdats m 4 c).arrAt · cfg4.N) (exit4_arr m c) (exit4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 5 is the scoped buffers no window stages beside the generator register: made from
    what the region sorts out at entry (pipeline 5 has no prefetched table), -/
theorem phiA_in5 (c : Dev nD) :
    (iprop((∃ r, prngReg c r) ∗ Pipeline.prefHeld (pcfgs (F := F) 5).pre c (fun _ => fullShare) (adm (F := F) 5).1 ∗ Pipeline.scopedRest spec5 c) : sProp 𝕄)
      ⊢ Pipeline.ΦA spec5 c := by
  unfold Pipeline.ΦA
  iintro ⟨Hreg, -, Hsc⟩
  isplitl [Hsc]; · iexact Hsc
  iexact Hreg
/-- and taken apart again at exit (the kernel has no semaphore of its own). -/
theorem phiA_out5 (c : Dev nD) :
    (Pipeline.ΦA spec5 c : sProp 𝕄) ⊢ iprop((∃ r, prngReg c r) ∗ Pipeline.ownSems0 (fun k : PEmpty => k.elim) c ∗ Pipeline.scopedRest spec5 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 5 as a segment: entered with every unscoped buffer at `U10`, left with them at `U11`.  At entry the
    windows' arrays are split out of the unscoped buffers and the rest bypasses the region; the generator register
    goes into the pipeline's invariant and comes back; nothing is owed at any point; at exit the arrays, at what the
    pipeline leaves in them, are put back beside the untouched rest. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atRefs (U10 m)) c).loose
  hwaits := Pipeline.hwaits_of_owed_zero _ _ _ _ L0 lv0 5 fun _ _ => rfl
  pre c := At (U10 m c) c
  post c := At (U11 m c) c
  X c := iprop(∃ r, prngReg c r)
  Y c := iprop(∃ r, prngReg c r)
  Z c := Pipeline.unscopedRest (Ix := Unit) (Name := ℕ) (U := UR sig nD τ) (Lvl := ℕ) spec5 c (atRefs (U10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (U10 m) c) fun w => A_eq5 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in5 c
  hout c := phiA_out5 c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (U10 m) c) (atRefs (U11 m) c) ((pdats m 5 c).arrAt · cfg5.N) (exit5_arr m c) (exit5_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The run -/

/-- Every weakly fair execution of the program terminates without a fault, and every final memory holds every
    unscoped buffer at `U11`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U11 m c b) :=
  run_regions m ρ (outsOf m) (pdats m)
    (reg0 m) (fun _ => .rfl) (fun c => by rw [V2_eq m c]; exact .rfl) (reg1 m) (fun c => by rw [V3_eq m c]; exact .rfl) (fun c => by rw [V4_eq m c]; exact .rfl)
    (reg2 m) (fun c => by rw [V5_eq m c]; exact .rfl) (fun c => by rw [V6_eq m c]; exact .rfl) (reg3 m) (fun c => by rw [V7_eq m c]; exact .rfl) (fun c => by rw [V8_eq m c]; exact .rfl)
    (reg4 m) (fun c => by rw [V9_eq m c]; exact .rfl) (fun c => by rw [V10_eq m c]; exact .rfl) (reg5 m) (fun c => by rw [V10_eq m c]; exact .rfl) (fun c => by rw [V11_eq m c]; exact .rfl)

/-! ## The frame -/

/-- Every weakly fair execution terminates without a fault and every argument array ends as launched: no host stretch
    writes an argument and no region may change one, so the last valuation has each at its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V11_main_arg0 m (outsOf m) c),
      (h c (Proc.devRef .tc main_arg1) (Finset.mem_filter.mpr ⟨StableHlo.devRef_mem_tcRefs main_arg1, by decide⟩)).trans (V11_main_arg1 m (outsOf m) c),
      (h c (Proc.devRef .tc main_arg2) (Finset.mem_filter.mpr ⟨StableHlo.devRef_mem_tcRefs main_arg2, by decide⟩)).trans (V11_main_arg2 m (outsOf m) c),
      (h c (Proc.devRef .tc main_arg3) (Finset.mem_filter.mpr ⟨StableHlo.devRef_mem_tcRefs main_arg3, by decide⟩)).trans (V11_main_arg3 m (outsOf m) c),
      (h c (Proc.devRef .tc main_arg4) (Finset.mem_filter.mpr ⟨StableHlo.devRef_mem_tcRefs main_arg4, by decide⟩)).trans (V11_main_arg4 m (outsOf m) c),
      (h c (Proc.devRef .tc main_arg5) (Finset.mem_filter.mpr ⟨StableHlo.devRef_mem_tcRefs main_arg5, by decide⟩)).trans (V11_main_arg5 m (outsOf m) c),
      (h c (Proc.devRef .tc main_arg6) (Finset.mem_filter.mpr ⟨StableHlo.devRef_mem_tcRefs main_arg6, by decide⟩)).trans (V11_main_arg6 m (outsOf m) c),
      (h c (Proc.devRef .tc main_arg7) (Finset.mem_filter.mpr ⟨StableHlo.devRef_mem_tcRefs main_arg7, by decide⟩)).trans (V11_main_arg7 m (outsOf m) c),
      (h c (Proc.devRef .tc main_arg8) (Finset.mem_filter.mpr ⟨StableHlo.devRef_mem_tcRefs main_arg8, by decide⟩)).trans (V11_main_arg8 m (outsOf m) c),
      (h c (Proc.devRef .tc main_arg9) (Finset.mem_filter.mpr ⟨StableHlo.devRef_mem_tcRefs main_arg9, by decide⟩)).trans (V11_main_arg9 m (outsOf m) c),
      (h c (Proc.devRef .tc main_arg10) (Finset.mem_filter.mpr ⟨StableHlo.devRef_mem_tcRefs main_arg10, by decide⟩)).trans (V11_main_arg10 m (outsOf m) c),
      (h c (Proc.devRef .tc main_arg11) (Finset.mem_filter.mpr ⟨StableHlo.devRef_mem_tcRefs main_arg11, by decide⟩)).trans (V11_main_arg11 m (outsOf m) c),
      (h c (Proc.devRef .tc main_arg12) (Finset.mem_filter.mpr ⟨StableHlo.devRef_mem_tcRefs main_arg12, by decide⟩)).trans (V11_main_arg12 m (outsOf m) c),
      (h c (Proc.devRef .tc main_arg13) (Finset.mem_filter.mpr ⟨StableHlo.devRef_mem_tcRefs main_arg13, by decide⟩)).trans (V11_main_arg13 m (outsOf m) c)⟩) (run m ρ)

end Cert.Kernel.Hand

end
-- ==== Proof.KI.Run.lean ====
/-
  The six regions joined: the whole last valuation of the program.

  The entry point is eleven items, five stretches of host operations and six kernel regions.  Between two items a core
  holds every unscoped buffer whole at a valuation: the launch contents, each host stretch applied in turn, and after a
  region the one array that region writes replaced by what it leaves there (`outs`).  Beside the buffers a core carries
  only its generator register, at some state, and the fact that it owes nothing.  If every region has a segment record
  entered from the valuation before it and left at the valuation after it, then every weakly fair execution terminates
  without a fault and in every final memory EVERY unscoped buffer holds the last valuation.  Read at an argument array
  this is the frame (no item writes an argument); read at the two result arrays it is the value the algebraic claim
  compares.
-/
import proofs.«108965_j35862976922239_2_alg».proof.Proof.Gen.KernelIdeal.Regions
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core waits on another: no level is assigned. -/
abbrev L0 : GSem nD τ sig → Finset Unit := fun _ => ∅
abbrev lv0 : GSem nD τ sig → Unit → ℕ := fun _ _ => 0

/-- What a core carries beside its buffers through every item: its generator register at some state, and nothing owed. -/
abbrev Rest (c : Dev nD) : sProp 𝕄 :=
  iprop((∃ r, prngReg c r) ∗ ∃ W, owes (c : Thread nD τ) (0 : CellTallies nD τ sig Unit) W)

/-- The thread state between two items: every unscoped buffer held at `W`, beside `Rest`. -/
abbrev At (W : Valuation τ sig (Elt F)) (c : Dev nD) : sProp 𝕄 :=
  iprop(StableHlo.held (c : Thread nD τ) (Pipeline.ucRefs τ sig) W ∗ Rest c)

variable (m : (ℓ : Loc nD τ sig) → Buf (Elt F) ℓ)

set_option backward.isDefEq.respectTransparency.types false in
/-- Every final memory holds every unscoped buffer at the last valuation `V11`, given the six regions' records. -/
theorem run_regions (ρ : Dev nD → PrngReg) (outs : Outs (F := F))
    (pdats : (p : Fin 6) → (c : Dev nD) → Dat τ (Elt F) Unit ℕ (UR sig nD τ) ℕ (cfgs p) c)
    (R0 : RegionSeg (pcfgs (F := F)) adm pdats () defs₀ Variants.none L0 lv0 0)
    (hpre0 : ∀ c : Dev nD, At (V1 m c) c ⊢ R0.pre c) (hpost0 : ∀ c : Dev nD, R0.post c ⊢ At (V2 m outs c) c)
    (R1 : RegionSeg (pcfgs (F := F)) adm pdats () defs₀ Variants.none L0 lv0 1)
    (hpre1 : ∀ c : Dev nD, At (V3 m outs c) c ⊢ R1.pre c) (hpost1 : ∀ c : Dev nD, R1.post c ⊢ At (V4 m outs c) c)
    (R2 : RegionSeg (pcfgs (F := F)) adm pdats () defs₀ Variants.none L0 lv0 2)
    (hpre2 : ∀ c : Dev nD, At (V5 m outs c) c ⊢ R2.pre c) (hpost2 : ∀ c : Dev nD, R2.post c ⊢ At (V6 m outs c) c)
    (R3 : RegionSeg (pcfgs (F := F)) adm pdats () defs₀ Variants.none L0 lv0 3)
    (hpre3 : ∀ c : Dev nD, At (V7 m outs c) c ⊢ R3.pre c) (hpost3 : ∀ c : Dev nD, R3.post c ⊢ At (V8 m outs c) c)
    (R4 : RegionSeg (pcfgs (F := F)) adm pdats () defs₀ Variants.none L0 lv0 4)
    (hpre4 : ∀ c : Dev nD, At (V9 m outs c) c ⊢ R4.pre c) (hpost4 : ∀ c : Dev nD, R4.post c ⊢ At (V10 m outs c) c)
    (R5 : RegionSeg (pcfgs (F := F)) adm pdats () defs₀ Variants.none L0 lv0 5)
    (hpre5 : ∀ c : Dev nD, At (V10 m outs c) c ⊢ R5.pre c) (hpost5 : ∀ c : Dev nD, R5.post c ⊢ At (V11 m outs c) c) :
    θ_run defs (onTc (τ := τ) (main (F := F))) ⟨m, fun _ => 0, ρ⟩ (fun r => ∀ c : Dev nD,
      ∀ b ∈ Pipeline.ucRefs τ sig, r.2.mem ((c : Thread nD τ).1, b) = V11 m outs c b) := by
  refine Pipeline.θ_run_regions_kit_dev (pcfgs (F := F)) adm pdats () cellOf_inj emb₁ defs₀ Variants.none L0 lv0 m ρ main
    (segs m outs Variants.none L0 lv0 (fun _ c => Rest c) () pdats R0 R1 R2 R3 R4 R5)
    (fun c Q => ?hmain) (fun c => ?hnd) (O₀ := 0) (hL := fun _ _ => rfl) (G := fun _ => (BI.emp : sProp 𝕄))
    (u₀ := initOf (Pipeline.cells cfgs cellOf_inj) (Pipeline.launchToks cfgs cellOf_inj)) (hu₀ := ?hu)
    (T₀ := fun c => At (V0 m c) c)
    (Tₙ := fun c => iprop(StableHlo.held (c : Thread nD τ) (Pipeline.ucRefs τ sig) (V11 m outs c) ∗ ∃ r, prngReg c r))
    (hch := fun c => ⟨.rfl, hpre0 c, hpost0 c, hpre1 c, hpost1 c, hpre2 c, hpost2 c, hpre3 c, hpost3 c, hpre4 c,
      (hpost4 c).trans (hpre5 c), (hpost5 c).trans ?hlast⟩)
    (hinit := Pipeline.initEach L0 lv0 fun c => ?hinit)
    (QY := fun c s => ∀ b ∈ Pipeline.ucRefs τ sig, s.mem ((c : Thread nD τ).1, b) = V11 m outs c b)
    (hfin := fun c s' => ?hfin) (hQ := fun _ h => h)
  case hmain =>
    -- the entry point is the chain of its eleven items, and the segments' run is the chain of their programs
    rw [main_chain c, Seg.run_eq_chain]
    exact .rfl
  case hnd =>
    simp only [segs, Seg.pipes_host, Seg.pipes_region, Seg.pipes_nil]; decide
  case hu =>
    -- the launch element is the pipeline library's own; no ghost resource is dealt to the cores
    rw [ownU_emb₁, BI.bigSep_emp_const]
    iintro Hu; imodintro
    isplitl [Hu]; · iexact Hu
    iempintro
  case hlast =>
    -- the last thread state, regrouped: the buffers and the register on one side, "owes nothing" on the other
    iintro ⟨Hh, Hp, HO⟩
    isplitl [Hh Hp]
    · isplitl [Hh]; · iexact Hh
      iexact Hp
    iexact HO
  case hinit =>
    -- on each core the launch deals the buffers at the launch contents, the register, and an empty debt
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hfin =>
    -- read the held buffers against the final state
    iintro ⟨⟨Hh, -⟩, HSI⟩
    unfold StableHlo.held
    imodintro
    iapply (pointsTo_read_all (Pipeline.ucRefs τ sig) (fun b => ((c : Thread nD τ).1, b)) (V11 m outs c) s')
    isplitl [Hh] <;> iassumption

end Cert.KernelIdeal.Hand

end
-- ==== Proof.KI.Msg0.lean ====
/- The class-A half of region 0 of @main (custom_call 0, the edge-message MLP `relu(x·W1 + b1)·W2 + b2` on one
   [4096,256] tile per grid point), at a PARAMETER `V` — the TensorCore's buffer contents when the region is entered:
   each window's block at a point, what the body leaves in the output window's buffer (the canonical contents of its
   one whole-block store of the skeleton's payload), the body's triple, the pipeline's proof data and the library's
   body obligation. Generic in the float instance. -/
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for ANY proof data whose array is `V`'s and whose body leaves the block in
    place. Window 0 moves with the point; windows 1-4 have a constant index and are fetched once. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_a : Rect S4096x256 := Rect.unit (s := S4096x256) ![0, 0] S4096x256.size inb_S4096x256_S4096x256_0_0
abbrev r0_b : Rect S256x256 := Rect.unit (s := S256x256) ![0, 0] S256x256.size inb_S256x256_S256x256_0_0
abbrev r0_c : Rect S256 := Rect.unit (s := S256) ![0] S256.size inb_S256_S256_0

/-! ## What the body leaves in the output window's buffer -/

/-- Window 5's staging buffer after the body, from the five input windows' blocks: the canonical contents of its one
    store, whose payload is the skeleton's (the second affine layer over the rectified first one). -/
def out0_5 (x0 : Vec F S4096x256 .bf16) (x1 : Vec F S256x256 .f32) (x2 : Vec F S256 .f32) (x3 : Vec F S256x256 .f32) (x4 : Vec F S256 .f32) : Vec F S4096x256 .f32 :=
  View.canon [⟨r0_a, k0_pay1 (View.ld x0 r0_a) (View.ld x1 r0_b) (View.ld x2 r0_c) (View.ld x3 r0_b) (View.ld x4 r0_c)⟩]

/-- The one store takes the whole buffer, so it covers it. -/
theorem cover0_5 (p0 : Vec F S4096x256 .f32) (y : S4096x256.Idx) :
    ∃ pc ∈ ([⟨r0_a, p0⟩] : List (View.Piece (Elt F) S4096x256 .f32)), y ∈ pc.1.set :=
  View.cover_of_tiled [⟨r0_a, p0⟩] S4096x256.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords)
    (arg1 : Memref sig .tc .vmem S4096x256 .bf16) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S4096x256 .f32) (harg6 : arg6.IsWhole)
    (x0 : Vec F S4096x256 .bf16) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the library's obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Msg1.lean ====
/- The class-A half of region 1 of @main (custom_call 1, the edge-message MLP `relu(x·W1 + b1)·W2 + b2` on one
   [4096,256] tile per grid point), at a PARAMETER `V` — the TensorCore's buffer contents when the region is entered:
   each window's block at a point, what the body leaves in the output window's buffer (the canonical contents of its
   one whole-block store of the skeleton's payload), the body's triple, the pipeline's proof data and the library's
   body obligation. Generic in the float instance. -/
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for ANY proof data whose array is `V`'s and whose body leaves the block in
    place. Window 0 moves with the point; windows 1-4 have a constant index and are fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_a : Rect S4096x256 := Rect.unit (s := S4096x256) ![0, 0] S4096x256.size inb_S4096x256_S4096x256_0_0
abbrev r1_b : Rect S256x256 := Rect.unit (s := S256x256) ![0, 0] S256x256.size inb_S256x256_S256x256_0_0
abbrev r1_c : Rect S256 := Rect.unit (s := S256) ![0] S256.size inb_S256_S256_0

/-! ## What the body leaves in the output window's buffer -/

/-- Window 5's staging buffer after the body, from the five input windows' blocks: the canonical contents of its one
    store, whose payload is the skeleton's (the second affine layer over the rectified first one). -/
def out1_5 (x0 : Vec F S4096x256 .bf16) (x1 : Vec F S256x256 .f32) (x2 : Vec F S256 .f32) (x3 : Vec F S256x256 .f32) (x4 : Vec F S256 .f32) : Vec F S4096x256 .f32 :=
  View.canon [⟨r1_a, k1_pay1 (View.ld x0 r1_a) (View.ld x1 r1_b) (View.ld x2 r1_c) (View.ld x3 r1_b) (View.ld x4 r1_c)⟩]

/-- The one store takes the whole buffer, so it covers it. -/
theorem cover1_5 (p0 : Vec F S4096x256 .f32) (y : S4096x256.Idx) :
    ∃ pc ∈ ([⟨r1_a, p0⟩] : List (View.Piece (Elt F) S4096x256 .f32)), y ∈ pc.1.set :=
  View.cover_of_tiled [⟨r1_a, p0⟩] S4096x256.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S4096x256 .bf16) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S4096x256 .f32) (harg6 : arg6.IsWhole)
    (x0 : Vec F S4096x256 .bf16) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the library's obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Attn2Runs.lean ====
/- Region 2 of @main (custom_call 2: masked cross-graph attention with an online softmax over 4 key tiles per query
   tile; grid (8, 4), point t = query tile t / 4, key tile t % 4), at a PARAMETER `V` — the TensorCore's buffer
   contents when the region is entered. What the three per-case runs of the body share: each window's block at a
   point, the input windows' staging buffers holding their blocks at every point, the body's two conditions on the
   grid position in closed form (key tile 0: the running maximum, sum and weighted sum are reset first; key tile 3:
   the normalised weighted sum is stored into the output window's buffer), where the output window is idle, the three
   carried scratch buffers as memrefs, and the class invariant with those three buffers split out of the scoped rest.
   Generic in the float instance. -/
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid position -/

/-- The condition of the body's first `scf.if` (key tile 0: reset the running statistics), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4) — decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second `scf.if` (key tile 3: store the normalised output), from the grid coordinates. -/
abbrev cond2_1 (i : grid2.Coords) : Prop := k2_cond2 i = 1#1
/-- It holds at the points ≡ 3 (mod 4) — decided over the grid. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the points of key tile 0 the output window is idle: nothing is stored into it. -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- At the points of key tiles 1 and 2 the output window is idle: nothing is stored into it. -/
theorem idleAt2_4_B : ∀ t : Fin cfg2.N, ¬cond2_0 (grid2.coords t) → ¬cond2_1 (grid2.coords t) → cfg2.idle 4 (grid2.coords t) = true := by decide +kernel
/-- and its block is not written back there. -/
theorem noFlush2_4_B : ∀ t : Fin cfg2.N, ¬cond2_0 (grid2.coords t) → ¬cond2_1 (grid2.coords t) → (cfg2.win 4).flush t = false := by decide +kernel
/-- At the points of key tile 3 the output window is live: the body stores into it. -/
theorem liveAt2_4_C : ∀ t : Fin cfg2.N, ¬cond2_0 (grid2.coords t) → cond2_1 (grid2.coords t) → cfg2.idle 4 (grid2.coords t) = false := by decide +kernel

/-! ## The staging and scratch memrefs -/

/-- One staging buffer of the output window, through which its contents are stated (the choice does not matter). -/
abbrev VO2_4 : View sig .tc .vmem S1024x128 .f32 := (Memref.whole cc2_stg4_0 : Memref sig .tc .vmem S1024x128 .f32).view
/-- The three scratch operands: whole scoped buffers of the kernel's own — the running maximum, the running sum and the
    running weighted sum —, carried from point to point. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x128 .f32 := Memref.whole cc2_scratch2
/-- The same as views: what they hold is stated through these. -/
abbrev VS2_0 : View sig .tc .vmem S1024x1 .f32 := scM2_0.view
abbrev VS2_1 : View sig .tc .vmem S1024x1 .f32 := scM2_1.view
abbrev VS2_2 : View sig .tc .vmem S1024x128 .f32 := scM2_2.view

/-- The part of the core's scoped buffers the region never opens: everything but its own three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant with the three scratch operands as memrefs owned at some contents, the unopened rest of the
    scoped buffers, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ restBut2 c) ∗ (∃ r, prngReg c r)) := by
  unfold Pipeline.ΦA; rw [scopedRest2_split]; simp only [scM2_0, scM2_1, scM2_2, owns_whole]; try rfl

end Cert.KernelIdeal.Hand

end
-- ==== Proof.KI.Attn2Run.lean ====
/- Region 2 of @main (the masked attention kernel with an online softmax): the whole-body runs of the kernel in its three
   control cases — key tile 0 (the running statistics are reset first), key tiles 1 and 2, key tile 3 (the normalised
   output is stored) — by symbolic execution over the skeleton of memory operations. Generic in the float instance. -/
import proofs.«108965_j35862976922239_2_alg».proof.Proof.KI.Attn2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output window's staging memref and in the three scratch memrefs, as pieces (last
    first) AT KEY TILE 0 (the first conditional taken, the second not: the points ≡ 0 mod 4), with the proof that on whole memrefs — the four inputs' at their
    contents, the output's (idle here) at contents handed back untouched, the scratch at anything (they are reset first) —
    the body runs to the continuation holding the inputs' as they were and each scratch with its pieces written. The
    pieces are the witness the symbolic run finds. -/
noncomputable def kernelRun2_A (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILES 1 AND 2 (neither conditional taken: the points ≡ 1, 2 mod 4), with the proof that on whole memrefs — the four inputs' at their
    contents, the output's (idle here) at contents handed back untouched, the scratch at the contents the point before left —
    the body runs to the continuation holding the inputs' as they were and each scratch with its pieces written. The
    pieces are the witness the symbolic run finds. -/
noncomputable def kernelRun2_B (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILE 3 (the first conditional not taken, the second taken: the points ≡ 3 mod 4), with the proof that on whole memrefs — the four inputs' at their
    contents, the output's at anything, the scratch at the contents the point before left —
    the body runs to the continuation holding the inputs' as they were, the output's with its pieces written and each scratch with its pieces written. The
    pieces are the witness the symbolic run finds. -/
noncomputable def kernelRun2_C (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Attn2.lean ====
/- Region 2 of @main (custom_call 2: masked cross-graph attention with an online softmax over 4 key tiles per query
   tile), at a PARAMETER `V` — the TensorCore's buffer contents when the region is entered: what each of the body's
   three cases (key tile 0; key tiles 1 and 2; key tile 3) leaves in the output window's buffer and in the three carried
   scratch buffers (the running maximum, the running sum, the running weighted sum), those contents point by point as a
   recursion over the grid, the invariant that carries the scratch from point to point, the pipeline's proof data, the
   library's body obligation, and the invariant at the first point and back after the last. Generic in the float
   instance. -/
import proofs.«108965_j35862976922239_2_alg».proof.Proof.KI.Attn2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the three scratch buffers -/

/-- At key tile 0 nothing is stored into the output window's buffer (the window is idle there and not written back): a
    placeholder that nothing consults. -/
def out2_A_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x128 .f32 :=
  VO2_4.read (Elt F) (VO2_4.writes (Elt F) VO2_4.junk (kernelRun2_A c i arg2 harg2 arg3 harg3 arg4 harg4 arg5 harg5 arg6 harg6 arg7 harg7 arg8 harg8 arg9 harg9 hc0 hc1 x0 x1 x2 x3).1)

/-- At key tile 0 the pieces stored into the running maximum's buffer tile it, so they cover it. -/
theorem scover2_A_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.1 S1024x1.size (by sl_kernel_rfl) y

/-- What the body leaves in the running maximum's buffer at key tile 0: its pieces read back. -/
def sout2_A_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).2.1)

/-- At key tile 0 the pieces stored into the running sum's buffer tile it, so they cover it. -/
theorem scover2_A_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x1.Idx) :
    ∃ pc ∈ (kernelRun2_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.1 S1024x1.size (by sl_kernel_rfl) y

/-- What the body leaves in the running sum's buffer at key tile 0: its pieces read back. -/
def sout2_A_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3).2.2.1)

/-- At key tile 0 the pieces stored into the running weighted sum's buffer tile it, so they cover it. -/
theorem scover2_A_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) (y : S1024x128.Idx) :
    ∃ pc ∈ (kernelRun2_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.2.1 S1024x128.size (by sl_kernel_rfl) y

/-- What the body leaves in the running weighted sum's buffer at key tile 0: its pieces read back. -/
def sout2_A_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) : Vec F S1024x128 .f32 :=
  VS2_2.read (Elt F) (VS2_2.writes (Elt F) VS2_2.junk (kernelRun2_A c i arg2 harg2 arg3 harg3 arg4 harg4 arg5 harg5 arg6 harg6 arg7 harg7 arg8 harg8 arg9 harg9 hc0 hc1 x0 x1 x2 x3).2.2.2.1)

/-- At key tiles 1 and 2 nothing is stored into the output window's buffer (the window is idle there and not written back): a
    placeholder that nothing consults. -/
def out2_B_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO2_4.read (Elt F) (VO2_4.writes (Elt F) VO2_4.junk (kernelRun2_B c i arg2 harg2 arg3 harg3 arg4 harg4 arg5 harg5 arg6 harg6 arg7 harg7 arg8 harg8 arg9 harg9 hc0 hc1 x0 x1 x2 x3 xs0 xs1 xs2).1)

/-- At key tiles 1 and 2 the pieces stored into the running maximum's buffer tile it, so they cover it. -/
theorem scover2_B_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tiles 1 and 2: its pieces read back. -/
def sout2_B_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0 xs1 xs2).2.1)

/-- At key tiles 1 and 2 the pieces stored into the running sum's buffer tile it, so they cover it. -/
theorem scover2_B_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tiles 1 and 2: its pieces read back. -/
def sout2_B_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 xs0 xs1 xs2).2.2.1)

/-- At key tiles 1 and 2 the pieces stored into the running weighted sum's buffer tile it, so they cover it. -/
theorem scover2_B_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tiles 1 and 2: its pieces read back. -/
def sout2_B_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS2_2.read (Elt F) (VS2_2.writes (Elt F) VS2_2.junk (kernelRun2_B c i arg2 harg2 arg3 harg3 arg4 harg4 arg5 harg5 arg6 harg6 arg7 harg7 arg8 harg8 arg9 harg9 hc0 hc1 x0 x1 x2 x3 xs0 xs1 xs2).2.2.2.1)

/-- At key tile 3 the pieces stored into the output window's buffer tile it, so they cover it. -/
theorem cover2_C_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What the body leaves in the output window's buffer at key tile 3: its pieces read back. -/
def out2_C_4 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO2_4.read (Elt F) (VO2_4.writes (Elt F) VO2_4.junk (kernelRun2_C c i arg2 harg2 arg3 harg3 arg4 harg4 arg5 harg5 arg6 harg6 arg7 harg7 arg8 harg8 arg9 harg9 hc0 hc1 x0 x1 x2 x3 xs0 xs1 xs2).1)

/-- At key tile 3 the pieces stored into the running maximum's buffer tile it, so they cover it. -/
theorem scover2_C_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tile 3: its pieces read back. -/
def sout2_C_0 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 xs0 xs1 xs2).2.1)

/-- At key tile 3 the pieces stored into the running sum's buffer tile it, so they cover it. -/
theorem scover2_C_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tile 3: its pieces read back. -/
def sout2_C_1 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 hc0 hc1 x0 x1 x2 x3 xs0 xs1 xs2).2.2.1)

/-- At key tile 3 the pieces stored into the running weighted sum's buffer tile it, so they cover it. -/
theorem scover2_C_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tile 3: its pieces read back. -/
def sout2_C_2 (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS2_2.read (Elt F) (VS2_2.writes (Elt F) VS2_2.junk (kernelRun2_C c i arg2 harg2 arg3 harg3 arg4 harg4 arg5 harg5 arg6 harg6 arg7 harg7 arg8 harg8 arg9 harg9 hc0 hc1 x0 x1 x2 x3 xs0 xs1 xs2).2.2.2.1)

/-! ## The staging memrefs at a point -/

abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)

/-! ## What the output window's buffer and the scratch buffers hold after each point -/

/-- THE ACCUMULATION. What the output window's staging buffer and the three scratch buffers (the running maximum, the
    running sum, the running weighted sum) hold after the body at position `n`: the case the position's key tile selects,
    run at the point's memrefs and input blocks, the scratch at what the point before left (at key tile 0 they are reset
    first, so nothing of the point before is read). -/
def outsAt2 (c : Dev nD) : (n : ℕ) → n < cfg2.N → Vec F S1024x128 .f32 × Vec F S1024x1 .f32 × Vec F S1024x1 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2)

/-- `outsAt2` at a point of key tile 0: that case's contents (nothing of the point before is read). -/
theorem outsAt2_A (c : Dev nD) (t : Fin cfg2.N) (h0 : t.val % 4 = 0) (h1 : ¬t.val % 4 = 3) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of key tile 1 or 2: that case's contents, over what the point before left in the scratch. -/
theorem outsAt2_B (c : Dev nD) (t : Fin cfg2.N) (h0 : ¬t.val % 4 = 0) (h1 : ¬t.val % 4 = 3) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of key tile 3: that case's contents, over what the point before left in the scratch. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch from point to point -/

/-- The region invariant before position `n`: before the first point the class's (every scratch buffer at anything);
    afterwards the three scratch buffers at what the point before left in them (`outsAt2`'s scratch components), the
    unopened rest of the scoped buffers, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ restBut2 c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2) ∗ restBut2 c) ∗ (∃ r, prngReg c r)) := by
  cases n with
  | zero => exact absurd rfl hz
  | succ n => rfl

/-! ## The pipeline's proof data -/

/-- The proof data of the pipeline on core `c`: the arrays as the region finds them (`V`); after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the position's key tile says which case the point is
    in; the invariant hands the body the three scratch buffers at what the point before left (at anything at the first
    point) and takes them back at this point's contents; the unopened rest, the generator register and the core's dues
    pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0 sout2_A_1 sout2_A_2; (try dsimp only)
      by_cases hz : t.val = 0
      · rw [PhiS2_castSucc V c t, PhiS2_zero V c _ _ hz, PhiA2_eq]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0 sout2_C_1 sout2_C_2; (try dsimp only)
      by_cases hz : t.val = 0
      · exfalso; omega
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_C_1 c _ _ _ _ _ _ _ _ _ _ _ _ _ _ _ _ _ _ _ _ _ _ _ _ _ _)
              unfold owns; iexists _; isplitr
              swap; · iexact HS2
              ipureintro; exact View.read_writes_of_cover _ _ _ _ _ (scover2_C_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0 sout2_B_1 sout2_B_2; (try dsimp only)
      by_cases hz : t.val = 0
      · exfalso; omega
      · rw [PhiS2_castSucc V c t, PhiS2_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_B_1 c _ _ _ _ _ _ _ _ _ _ _ _ _ _ _ _ _ _ _ _ _ _ _ _ _ _)
              unfold owns; iexists _; isplitr
              swap; · iexact HS2
              ipureintro; exact View.read_writes_of_cover _ _ _ _ _ (scover2_B_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KI.Attn3Runs.lean ====
/- Region 3 of @main (custom_call 3: masked cross-graph attention with an online softmax over 4 key tiles per query
   tile; grid (8, 4), point t = query tile t / 4, key tile t % 4), at a PARAMETER `V` — the TensorCore's buffer
   contents when the region is entered. What the three per-case runs of the body share: each window's block at a
   point, the input windows' staging buffers holding their blocks at every point, the body's two conditions on the
   grid position in closed form (key tile 0: the running maximum, sum and weighted sum are reset first; key tile 3:
   the normalised weighted sum is stored into the output window's buffer), where the output window is idle, the three
   carried scratch buffers as memrefs, and the class invariant with those three buffers split out of the scoped rest.
   Generic in the float instance. -/
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the grid position -/

/-- The condition of the body's first `scf.if` (key tile 0: reset the running statistics), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4) — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if` (key tile 3: store the normalised output), from the grid coordinates. -/
abbrev cond3_1 (i : grid3.Coords) : Prop := k3_cond2 i = 1#1
/-- It holds at the points ≡ 3 (mod 4) — decided over the grid. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- At the points of key tile 0 the output window is idle: nothing is stored into it. -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- At the points of key tiles 1 and 2 the output window is idle: nothing is stored into it. -/
theorem idleAt3_4_B : ∀ t : Fin cfg3.N, ¬cond3_0 (grid3.coords t) → ¬cond3_1 (grid3.coords t) → cfg3.idle 4 (grid3.coords t) = true := by decide +kernel
/-- and its block is not written back there. -/
theorem noFlush3_4_B : ∀ t : Fin cfg3.N, ¬cond3_0 (grid3.coords t) → ¬cond3_1 (grid3.coords t) → (cfg3.win 4).flush t = false := by decide +kernel
/-- At the points of key tile 3 the output window is live: the body stores into it. -/
theorem liveAt3_4_C : ∀ t : Fin cfg3.N, ¬cond3_0 (grid3.coords t) → cond3_1 (grid3.coords t) → cfg3.idle 4 (grid3.coords t) = false := by decide +kernel

/-! ## The staging and scratch memrefs -/

/-- One staging buffer of the output window, through which its contents are stated (the choice does not matter). -/
abbrev VO3_4 : View sig .tc .vmem S1024x128 .f32 := (Memref.whole cc3_stg4_0 : Memref sig .tc .vmem S1024x128 .f32).view
/-- The three scratch operands: whole scoped buffers of the kernel's own — the running maximum, the running sum and the
    running weighted sum —, carried from point to point. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
/-- The same as views: what they hold is stated through these. -/
abbrev VS3_0 : View sig .tc .vmem S1024x1 .f32 := scM3_0.view
abbrev VS3_1 : View sig .tc .vmem S1024x1 .f32 := scM3_1.view
abbrev VS3_2 : View sig .tc .vmem S1024x128 .f32 := scM3_2.view

/-- The part of the core's scoped buffers the region never opens: everything but its own three scratch buffers. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three scratch operands as memrefs owned at some contents, the unopened rest of the
    scoped buffers, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ restBut3 c) ∗ (∃ r, prngReg c r)) := by
  unfold Pipeline.ΦA; rw [scopedRest3_split]; simp only [scM3_0, scM3_1, scM3_2, owns_whole]; try rfl

end Cert.KernelIdeal.Hand

end
-- ==== Proof.KI.Attn3Run.lean ====
/- Region 3 of @main (the masked attention kernel with an online softmax): the whole-body runs of the kernel in its three
   control cases — key tile 0 (the running statistics are reset first), key tiles 1 and 2, key tile 3 (the normalised
   output is stored) — by symbolic execution over the skeleton of memory operations. Generic in the float instance. -/
import proofs.«108965_j35862976922239_2_alg».proof.Proof.KI.Attn3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output window's staging memref and in the three scratch memrefs, as pieces (last
    first) AT KEY TILE 0 (the first conditional taken, the second not: the points ≡ 0 mod 4), with the proof that on whole memrefs — the four inputs' at their
    contents, the output's (idle here) at contents handed back untouched, the scratch at anything (they are reset first) —
    the body runs to the continuation holding the inputs' as they were and each scratch with its pieces written. The
    pieces are the witness the symbolic run finds. -/
noncomputable def kernelRun3_A (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILES 1 AND 2 (neither conditional taken: the points ≡ 1, 2 mod 4), with the proof that on whole memrefs — the four inputs' at their
    contents, the output's (idle here) at contents handed back untouched, the scratch at the contents the point before left —
    the body runs to the continuation holding the inputs' as they were and each scratch with its pieces written. The
    pieces are the witness the symbolic run finds. -/
noncomputable def kernelRun3_B (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

-- (the run's proof term is large: the definition's epilogue walks it past the default budget)
set_option maxHeartbeats 4000000 in
/-- What the body's stores leave in the output window's staging memref and in the three scratch memrefs, as pieces (last
    first) AT KEY TILE 3 (the first conditional not taken, the second taken: the points ≡ 3 mod 4), with the proof that on whole memrefs — the four inputs' at their
    contents, the output's at anything, the scratch at the contents the point before left —
    the body runs to the continuation holding the inputs' as they were, the output's with its pieces written and each scratch with its pieces written. The
    pieces are the witness the symbolic run finds. -/
noncomputable def kernelRun3_C (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Attn3.lean ====
/- Region 3 of @main (custom_call 3: masked cross-graph attention with an online softmax over 4 key tiles per query
   tile), at a PARAMETER `V` — the TensorCore's buffer contents when the region is entered: what each of the body's
   three cases (key tile 0; key tiles 1 and 2; key tile 3) leaves in the output window's buffer and in the three carried
   scratch buffers (the running maximum, the running sum, the running weighted sum), those contents point by point as a
   recursion over the grid, the invariant that carries the scratch from point to point, the pipeline's proof data, the
   library's body obligation, and the invariant at the first point and back after the last. Generic in the float
   instance. -/
import proofs.«108965_j35862976922239_2_alg».proof.Proof.KI.Attn3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output window's buffer and in the three scratch buffers -/

/-- At key tile 0 nothing is stored into the output window's buffer (the window is idle there and not written back): a
    placeholder that nothing consults. -/
def out3_A_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x128 .f32 :=
  VO3_4.read (Elt F) (VO3_4.writes (Elt F) VO3_4.junk (kernelRun3_A c i arg2 harg2 arg3 harg3 arg4 harg4 arg5 harg5 arg6 harg6 arg7 harg7 arg8 harg8 arg9 harg9 hc0 hc1 x0 x1 x2 x3).1)

/-- At key tile 0 the pieces stored into the running maximum's buffer tile it, so they cover it. -/
theorem scover3_A_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x1.Idx) :
    ∃ pc ∈ (kernelRun3_A c i arg2 harg2 arg3 harg3 arg4 harg4 arg5 harg5 arg6 harg6 arg7 harg7 arg8 harg8 arg9 harg9 hc0 hc1 x0 x1 x2 x3).2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.1 S1024x1.size (by sl_kernel_rfl) y

/-- What the body leaves in the running maximum's buffer at key tile 0: its pieces read back. -/
def sout3_A_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x1 .f32 :=
  VS3_0.read (Elt F) (VS3_0.writes (Elt F) VS3_0.junk (kernelRun3_A c i arg2 harg2 arg3 harg3 arg4 harg4 arg5 harg5 arg6 harg6 arg7 harg7 arg8 harg8 arg9 harg9 hc0 hc1 x0 x1 x2 x3).2.1)

/-- At key tile 0 the pieces stored into the running sum's buffer tile it, so they cover it. -/
theorem scover3_A_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x1.Idx) :
    ∃ pc ∈ (kernelRun3_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.2.1 S1024x1.size (by sl_kernel_rfl) y

/-- What the body leaves in the running sum's buffer at key tile 0: its pieces read back. -/
def sout3_A_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x1 .f32 :=
  VS3_1.read (Elt F) (VS3_1.writes (Elt F) VS3_1.junk (kernelRun3_A c i arg2 harg2 arg3 harg3 arg4 harg4 arg5 harg5 arg6 harg6 arg7 harg7 arg8 harg8 arg9 harg9 hc0 hc1 x0 x1 x2 x3).2.2.1)

/-- At key tile 0 the pieces stored into the running weighted sum's buffer tile it, so they cover it. -/
theorem scover3_A_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) (y : S1024x128.Idx) :
    ∃ pc ∈ (kernelRun3_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun3_A c i arg2 harg2 arg3 harg3 arg4 harg4 arg5 harg5 arg6 harg6 arg7 harg7 arg8 harg8 arg9 harg9 hc0 hc1 x0 x1 x2 x3).2.2.2.1 S1024x128.size (by sl_kernel_rfl) y

/-- What the body leaves in the running weighted sum's buffer at key tile 0: its pieces read back. -/
def sout3_A_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) : Vec F S1024x128 .f32 :=
  VS3_2.read (Elt F) (VS3_2.writes (Elt F) VS3_2.junk (kernelRun3_A c i arg2 harg2 arg3 harg3 arg4 harg4 arg5 harg5 arg6 harg6 arg7 harg7 arg8 harg8 arg9 harg9 hc0 hc1 x0 x1 x2 x3).2.2.2.1)

/-- At key tiles 1 and 2 nothing is stored into the output window's buffer (the window is idle there and not written back): a
    placeholder that nothing consults. -/
def out3_B_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_B c i arg2 harg2 arg3 harg3 arg4 harg4 arg5 harg5 arg6 harg6 arg7 harg7 arg8 harg8 arg9 harg9 hc0 hc1 x0 x1 x2 x3 xs0 xs1 xs2).1)

/-- At key tiles 1 and 2 the pieces stored into the running maximum's buffer tile it, so they cover it. -/
theorem scover3_B_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tiles 1 and 2: its pieces read back. -/
def sout3_B_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg2 harg2 arg3 harg3 arg4 harg4 arg5 harg5 arg6 harg6 arg7 harg7 arg8 harg8 arg9 harg9 hc0 hc1 x0 x1 x2 x3 xs0 xs1 xs2).2.1)

/-- At key tiles 1 and 2 the pieces stored into the running sum's buffer tile it, so they cover it. -/
theorem scover3_B_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tiles 1 and 2: its pieces read back. -/
def sout3_B_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 arg9 harg9 hc0 hc1 x0 x1 x2 x3 xs0 xs1 xs2).2.2.1)

/-- At key tiles 1 and 2 the pieces stored into the running weighted sum's buffer tile it, so they cover it. -/
theorem scover3_B_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tiles 1 and 2: its pieces read back. -/
def sout3_B_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg2 harg2 arg3 harg3 arg4 harg4 arg5 harg5 arg6 harg6 arg7 harg7 arg8 harg8 arg9 harg9 hc0 hc1 x0 x1 x2 x3 xs0 xs1 xs2).2.2.2.1)

/-- At key tile 3 the pieces stored into the output window's buffer tile it, so they cover it. -/
theorem cover3_C_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What the body leaves in the output window's buffer at key tile 3: its pieces read back. -/
def out3_C_4 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VO3_4.read (Elt F) (VO3_4.writes (Elt F) VO3_4.junk (kernelRun3_C c i arg2 harg2 arg3 harg3 arg4 harg4 arg5 harg5 arg6 harg6 arg7 harg7 arg8 harg8 arg9 harg9 hc0 hc1 x0 x1 x2 x3 xs0 xs1 xs2).1)

/-- At key tile 3 the pieces stored into the running maximum's buffer tile it, so they cover it. -/
theorem scover3_C_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What the body leaves in the running maximum's buffer at key tile 3: its pieces read back. -/
def sout3_C_0 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_0.read (Elt F) (VS3_0.writes (Elt F) VS3_0.junk (kernelRun3_C c i arg2 harg2 arg3 harg3 arg4 harg4 arg5 harg5 arg6 harg6 arg7 harg7 arg8 harg8 arg9 harg9 hc0 hc1 x0 x1 x2 x3 xs0 xs1 xs2).2.1)

/-- At key tile 3 the pieces stored into the running sum's buffer tile it, so they cover it. -/
theorem scover3_C_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x1.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What the body leaves in the running sum's buffer at key tile 3: its pieces read back. -/
def sout3_C_1 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 arg9 harg9 hc0 hc1 x0 x1 x2 x3 xs0 xs1 xs2).2.2.1)

/-- At key tile 3 the pieces stored into the running weighted sum's buffer tile it, so they cover it. -/
theorem scover3_C_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) (y : S1024x128.Idx) :
    ∃ pc ∈ (kernelRun3_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What the body leaves in the running weighted sum's buffer at key tile 3: its pieces read back. -/
def sout3_C_2 (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) : Vec F S1024x128 .f32 :=
  VS3_2.read (Elt F) (VS3_2.writes (Elt F) VS3_2.junk (kernelRun3_C c i arg2 harg2 arg3 harg3 arg4 harg4 arg5 harg5 arg6 harg6 arg7 harg7 arg8 harg8 arg9 harg9 hc0 hc1 x0 x1 x2 x3 xs0 xs1 xs2).2.2.2.1)

/-! ## The staging memrefs at a point -/

abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)

/-! ## What the output window's buffer and the scratch buffers hold after each point -/

/-- THE ACCUMULATION. What the output window's staging buffer and the three scratch buffers (the running maximum, the
    running sum, the running weighted sum) hold after the body at position `n`: the case the position's key tile selects,
    run at the point's memrefs and input blocks, the scratch at what the point before left (at key tile 0 they are reset
    first, so nothing of the point before is read). -/
def outsAt3 (c : Dev nD) : (n : ℕ) → n < cfg3.N → Vec F S1024x128 .f32 × Vec F S1024x1 .f32 × Vec F S1024x1 .f32 × Vec F S1024x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) scM3_2 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 4 = 0 then
      if h1 : (n + 1) % 4 = 3 then
        False.elim (by omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 4 = 3 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) scM3_2 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.1 (outsAt3 c n (Nat.lt_of_succ_lt hn)).2.2.1 (outsAt3 c n (Nat.lt_of_succ_lt hn)).2.2.2)

/-- `outsAt3` at a point of key tile 0: that case's contents (nothing of the point before is read). -/
theorem outsAt3_A (c : Dev nD) (t : Fin cfg3.N) (h0 : t.val % 4 = 0) (h1 : ¬t.val % 4 = 3) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t), sout3_A_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

/-- `outsAt3` at a point of key tile 1 or 2: that case's contents, over what the point before left in the scratch. -/
theorem outsAt3_B (c : Dev nD) (t : Fin cfg3.N) (h0 : ¬t.val % 4 = 0) (h1 : ¬t.val % 4 = 3) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of key tile 3: that case's contents, over what the point before left in the scratch. -/
theorem outsAt3_C (c : Dev nD) (t : Fin cfg3.N) (h0 : ¬t.val % 4 = 0) (h1 : t.val % 4 = 3) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_C_2 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch from point to point -/

/-- The region invariant before position `n`: before the first point the class's (every scratch buffer at anything);
    afterwards the three scratch buffers at what the point before left in them (`outsAt3`'s scratch components), the
    unopened rest of the scoped buffers, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ restBut3 c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's contents. -/
theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2.1 ∗ owns (c : Thread nD τ) scM3_2 fullShare (outsAt3 V c n hn).2.2.2) ∗ restBut3 c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2.1 ∗ owns (c : Thread nD τ) scM3_2 fullShare (outsAt3 V c (n - 1) (by omega)).2.2.2) ∗ restBut3 c) ∗ (∃ r, prngReg c r)) := by
  cases n with
  | zero => exact absurd rfl hz
  | succ n => rfl

/-! ## The pipeline's proof data -/

/-- The proof data of the pipeline on core `c`: the arrays as the region finds them (`V`); after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the position's key tile says which case the point is
    in; the invariant hands the body the three scratch buffers at what the point before left (at anything at the first
    point) and takes them back at this point's contents; the unopened rest, the generator register and the core's dues
    pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C_4 sout3_C_0 sout3_C_1 sout3_C_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_C_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_C_1 c _ _ _ _ _ _ _ _ _ _ _ _ _ _ _ _ _ _ _ _ _ _ _ _ _ _)
              unfold owns; iexists _; isplitr
              swap; · iexact HS2
              ipureintro; exact View.read_writes_of_cover _ _ _ _ _ (scover3_C_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c _ _ _ _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B_0 sout3_B_1 sout3_B_2; (try dsimp only)
      by_cases hz : t.val = 0
      · exfalso; omega
      · rw [PhiS3_castSucc V c t, PhiS3_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (scover3_B_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover3_B_1 c _ _ _ _ _ _ _ _ _ _ _ _ _ _ _ _ _ _ _ _ _ _ _ _ _ _)
              unfold owns; iexists _; isplitr
              swap; · iexact HS2
              ipureintro; exact View.read_writes_of_cover _ _ _ _ _ (scover3_B_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Hand

end
-- ==== Proof.KI.Upd4.lean ====
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Ring
import Idealize.ShloMosaic.Lib.Tactic

/-! # Region 4: the node-update layer on one tile of 2048 rows

The body reads nine staged blocks — a tile of messages, of attention sums and of node features, three
first-layer weight matrices, the first bias, the second weight matrix and the second bias — and stores, through
the whole rectangle of the result's staging buffer, the node features plus the two-layer perceptron's value.
Everything here is stated at a parameter `V`, the buffer contents the region finds when it is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, whether the block was fetched there
or kept from the point before (the block index did not move): for any proof data whose array is the entry
contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole rectangle of their buffer -/

abbrev r4_a : Rect S2048x256 := Rect.unit (s := S2048x256) ![0, 0] S2048x256.size inb_S2048x256_S2048x256_0_0
abbrev r4_b : Rect S2048x128 := Rect.unit (s := S2048x128) ![0, 0] S2048x128.size inb_S2048x128_S2048x128_0_0
abbrev r4_c : Rect S256x256 := Rect.unit (s := S256x256) ![0, 0] S256x256.size inb_S256x256_S256x256_0_0
abbrev r4_d : Rect S128x256 := Rect.unit (s := S128x256) ![0, 0] S128x256.size inb_S128x256_S128x256_0_0
abbrev r4_e : Rect S256 := Rect.unit (s := S256) ![0] S256.size inb_S256_S256_0
abbrev r4_f : Rect S256x128 := Rect.unit (s := S256x128) ![0, 0] S256x128.size inb_S256x128_S256x128_0_0
abbrev r4_g : Rect S128 := Rect.unit (s := S128) ![0] S128.size inb_S128_S128_0

/-! ## What the body leaves in the result's staging buffer -/

/-- The result tile after the body, from the nine input blocks: the one store, whose value is the node-feature
    tile (loaded a second time) plus the perceptron's value of the nine loads. -/
def out4_9 (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) : Vec F S2048x128 .f32 :=
  View.canon [⟨r4_b, k4_pay1 (k4_pay2 (View.ld x0 r4_a) (View.ld x1 r4_b) (View.ld x2 r4_b) (View.ld x3 r4_c) (View.ld x4 r4_d) (View.ld x5 r4_d) (View.ld x6 r4_e) (View.ld x7 r4_f) (View.ld x8 r4_g)) (View.ld x2 r4_b)⟩]

/-- The store's rectangle is the whole buffer, so it covers it. -/
theorem cover4_9 (p0 : Vec F S2048x128 .f32) (y : S2048x128.Idx) :
    ∃ pc ∈ ([⟨r4_b, p0⟩] : List (View.Piece (Elt F) S2048x128 .f32)), y ∈ pc.1.set :=
  View.cover_of_tiled [⟨r4_b, p0⟩] S2048x128.size (by rfl) y

/-! ## The body's triple -/

set_option maxHeartbeats 4000000 in
/-- On whole staging memrefs, the nine inputs' at read contents `xW` and the result's at anything, the body runs to
    the continuation holding the inputs' as they were and the result's at `out4_9` of the inputs'. -/
theorem sound_kernel4 (c : Dev nD) (E : Set ℕ) (i : grid4.Coords) (arg1 : Memref sig .tc .vmem S2048x256 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .f32) (harg10 : arg10.IsWhole)
    (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__upd_kernel i arg1 harg1 arg2 harg2 arg3 harg3 arg4 harg4 arg5 harg5 arg6 harg6 arg7 harg7 arg8 harg8 arg9 harg9 arg10 harg10) K := by
  simp only [cc4__upd_kernel_eq_skeleton]; unfold cc4__upd_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover4_9 _)

/-! ## The pipeline's proof data -/

/-- The proof data on core `c`: the arrays as the region finds them; after the body at point `t` each input's buffer
    at its block and the result's at `out4_9` of the nine input blocks; the invariant is the untouched rest
    (the scoped buffers and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

set_option maxHeartbeats 1000000 in
/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Upd5.lean ====
import proofs.«108965_j35862976922239_2_alg».proof.Proof.Gen.KernelIdeal.Launch
import proofs.«108965_j35862976922239_2_alg».proof.Proof.Gen.KernelIdeal.Skeleton
import proofs.«108965_j35862976922239_2_alg».proof.Proof.Gen.KernelIdeal.Points
import Idealize.ShloMosaic.Lib.Pipeline.FrameBody
import Idealize.ShloMosaic.Lib.Ring
import Idealize.ShloMosaic.Lib.Tactic

/-! # Region 5: the node-update layer on one tile of 2048 rows

The body reads nine staged blocks — a tile of messages, of attention sums and of node features, three
first-layer weight matrices, the first bias, the second weight matrix and the second bias — and stores, through
the whole rectangle of the result's staging buffer, the node features plus the two-layer perceptron's value.
Everything here is stated at a parameter `V`, the buffer contents the region finds when it is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, whether the block was fetched there
or kept from the point before (the block index did not move): for any proof data whose array is the entry
contents and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole rectangle of their buffer -/

abbrev r5_a : Rect S2048x256 := Rect.unit (s := S2048x256) ![0, 0] S2048x256.size inb_S2048x256_S2048x256_0_0
abbrev r5_b : Rect S2048x128 := Rect.unit (s := S2048x128) ![0, 0] S2048x128.size inb_S2048x128_S2048x128_0_0
abbrev r5_c : Rect S256x256 := Rect.unit (s := S256x256) ![0, 0] S256x256.size inb_S256x256_S256x256_0_0
abbrev r5_d : Rect S128x256 := Rect.unit (s := S128x256) ![0, 0] S128x256.size inb_S128x256_S128x256_0_0
abbrev r5_e : Rect S256 := Rect.unit (s := S256) ![0] S256.size inb_S256_S256_0
abbrev r5_f : Rect S256x128 := Rect.unit (s := S256x128) ![0, 0] S256x128.size inb_S256x128_S256x128_0_0
abbrev r5_g : Rect S128 := Rect.unit (s := S128) ![0] S128.size inb_S128_S128_0

/-! ## What the body leaves in the result's staging buffer -/

/-- The result tile after the body, from the nine input blocks: the one store, whose value is the node-feature
    tile (loaded a second time) plus the perceptron's value of the nine loads. -/
def out5_9 (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) : Vec F S2048x128 .f32 :=
  View.canon [⟨r5_b, k5_pay1 (k5_pay2 (View.ld x0 r5_a) (View.ld x1 r5_b) (View.ld x2 r5_b) (View.ld x3 r5_c) (View.ld x4 r5_d) (View.ld x5 r5_d) (View.ld x6 r5_e) (View.ld x7 r5_f) (View.ld x8 r5_g)) (View.ld x2 r5_b)⟩]

/-- The store's rectangle is the whole buffer, so it covers it. -/
theorem cover5_9 (p0 : Vec F S2048x128 .f32) (y : S2048x128.Idx) :
    ∃ pc ∈ ([⟨r5_b, p0⟩] : List (View.Piece (Elt F) S2048x128 .f32)), y ∈ pc.1.set :=
  View.cover_of_tiled [⟨r5_b, p0⟩] S2048x128.size (by rfl) y

/-! ## The body's triple -/

set_option maxHeartbeats 4000000 in
/-- On whole staging memrefs, the nine inputs' at read contents `xW` and the result's at anything, the body runs to
    the continuation holding the inputs' as they were and the result's at `out5_9` of the inputs'. -/
theorem sound_kernel5 (c : Dev nD) (E : Set ℕ) (i : grid5.Coords) (arg1 : Memref sig .tc .vmem S2048x256 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S256x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S2048x128 .f32) (harg10 : arg10.IsWhole)
    (x0 : Vec F S2048x256 .f32) (x1 : Vec F S2048x128 .f32) (x2 : Vec F S2048x128 .f32) (x3 : Vec F S256x256 .f32) (x4 : Vec F S128x256 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__upd_kernel i arg1 harg1 arg2 harg2 arg3 harg3 arg4 harg4 arg5 harg5 arg6 harg6 arg7 harg7 arg8 harg8 arg9 harg9 arg10 harg10) K := by
  simp only [cc5__upd_kernel_eq_skeleton]; unfold cc5__upd_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data on core `c`: the arrays as the region finds them; after the body at point `t` each input's buffer
    at its block and the result's at `out5_9` of the nine input blocks; the invariant is the untouched rest
    (the scoped buffers and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

set_option maxHeartbeats 1000000 in
/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Regs.lean ====
/-
  The six regions' segment records over one family of proof data, and the run of the whole program.

  The valuations between the items are built in order: `U1` is the launch contents after the first host stretch; after
  region K the one array it writes is replaced by what its pipeline leaves there (every point's block written back),
  every other buffer kept; each later host stretch is applied to the valuation before it.  With these contents as the
  unknowns of the generated valuations, each region's proof data at its entry contents, and each region's record, the
  joined run gives every unscoped buffer of every final memory at the last valuation `U11`.
-/
import proofs.«108965_j35862976922239_2_alg».proof.Proof.KI.Run
import proofs.«108965_j35862976922239_2_alg».proof.Proof.KI.Msg0
import proofs.«108965_j35862976922239_2_alg».proof.Proof.KI.Msg1

import proofs.«108965_j35862976922239_2_alg».proof.Proof.KI.Attn2
import proofs.«108965_j35862976922239_2_alg».proof.Proof.KI.Attn3
import proofs.«108965_j35862976922239_2_alg».proof.Proof.KI.Upd4
import proofs.«108965_j35862976922239_2_alg».proof.Proof.KI.Upd5
import proofs.«108965_j35862976922239_2_alg».proof.Proof.LibInputArrays
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
local notation "𝕄" => MT nD τ sig Unit (Elt F) ℕ (UR sig nD τ) ℕ
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- Every unscoped buffer after the first host stretch. -/
abbrev U1 (c : Dev nD) : Valuation τ sig (Elt F) := V1 m c

/-! ## Region 0: entered from `U1`, left at `U2` -/

/-- Region 0's arrays as it leaves them (each input array as entered, the result array with every point's block
    written back), every other buffer as entered. -/
def o2 (c : Dev nD) : Valuation τ sig (Elt F) :=
  Pipeline.withArrays spec0 c (U1 m c) fun w => (dat0 (atRefs (U1 m)) c).arrAt w cfg0.N
abbrev U2 (c : Dev nD) : Valuation τ sig (Elt F) := Function.update (U1 m c) main_v20 (o2 m c main_v20)

/-- The result array is window 5's. -/
theorem arrRef0_out : Pipeline.arrRef spec0 5 = main_v20 := rfl

/-- No point writes an input window back. -/
theorem noflush0 : ∀ w : Fin cfg0.W, w ≠ 5 → ∀ t : Fin cfg0.N, (cfg0.win w).flush t = false := by decide

/-- No input array is the result array. -/
theorem in_ne_out0 : ∀ w : Fin cfg0.W, w ≠ 5 → Pipeline.arrRef spec0 w ≠ main_v20 := by decide

/-- At the region's exit each of its arrays holds what the pipeline leaves: the result array by the choice of `U2`,
    an input array because no point writes it back. -/
theorem exit0_arr (c : Dev nD) (w : Fin cfg0.W) :
    (dat0 (atRefs (U1 m)) c).arrAt w cfg0.N = atRefs (U2 m) c (Pipeline.arrRef spec0 w) := by
  by_cases hw : w = 5
  · subst hw
    show _ = Function.update (U1 m c) main_v20 (o2 m c main_v20) main_v20
    rw [Function.update_self]
    unfold o2
    exact (Pipeline.withArrays_arr spec0 launch0.win.arr_inj c (U1 m c) (fun w => (dat0 (atRefs (U1 m)) c).arrAt w cfg0.N) 5).symm
  · rw [Cert.Lib.InputArrays.arrAt_of_never_flush _ w (noflush0 w hw), A_eq0]
    show _ = Function.update (U1 m c) main_v20 (o2 m c main_v20) (Proc.devRef .tc (Pipeline.arrRef spec0 w))
    rw [Function.update_of_ne (StableHlo.devRef_ne_of_ne (in_ne_out0 w hw))]

/-- Off the region's arrays nothing changed. -/
theorem exit0_rest (c : Dev nD) : ∀ b, b ∉ Finset.univ.image (Pipeline.arrRef spec0) → atRefs (U2 m) c b = atRefs (U1 m) c b := by
  intro b hb
  have hne : b ≠ main_v20 := fun e => hb (Finset.mem_image.mpr ⟨5, Finset.mem_univ _, e ▸ arrRef0_out⟩)
  show Function.update (U1 m c) main_v20 (o2 m c main_v20) (Proc.devRef .tc b) = _
  rw [Function.update_of_ne (StableHlo.devRef_ne_of_ne hne)]

/-- Every unscoped buffer after the host stretch that follows region 0. -/
abbrev U3 (c : Dev nD) : Valuation τ sig (Elt F) := StableHlo.after hostOps1 (U2 m c)

/-! ## Region 1: entered from `U3`, left at `U4` -/

/-- Region 1's arrays as it leaves them (each input array as entered, the result array with every point's block
    written back), every other buffer as entered. -/
def o4 (c : Dev nD) : Valuation τ sig (Elt F) :=
  Pipeline.withArrays spec1 c (U3 m c) fun w => (dat1 (atRefs (U3 m)) c).arrAt w cfg1.N
abbrev U4 (c : Dev nD) : Valuation τ sig (Elt F) := Function.update (U3 m c) main_v44 (o4 m c main_v44)

/-- The result array is window 5's. -/
theorem arrRef1_out : Pipeline.arrRef spec1 5 = main_v44 := rfl

/-- No point writes an input window back. -/
theorem noflush1 : ∀ w : Fin cfg1.W, w ≠ 5 → ∀ t : Fin cfg1.N, (cfg1.win w).flush t = false := by decide

/-- No input array is the result array. -/
theorem in_ne_out1 : ∀ w : Fin cfg1.W, w ≠ 5 → Pipeline.arrRef spec1 w ≠ main_v44 := by decide

/-- At the region's exit each of its arrays holds what the pipeline leaves: the result array by the choice of `U4`,
    an input array because no point writes it back. -/
theorem exit1_arr (c : Dev nD) (w : Fin cfg1.W) :
    (dat1 (atRefs (U3 m)) c).arrAt w cfg1.N = atRefs (U4 m) c (Pipeline.arrRef spec1 w) := by
  by_cases hw : w = 5
  · subst hw
    show _ = Function.update (U3 m c) main_v44 (o4 m c main_v44) main_v44
    rw [Function.update_self]
    unfold o4
    exact (Pipeline.withArrays_arr spec1 launch1.win.arr_inj c (U3 m c) (fun w => (dat1 (atRefs (U3 m)) c).arrAt w cfg1.N) 5).symm
  · rw [Cert.Lib.InputArrays.arrAt_of_never_flush _ w (noflush1 w hw), A_eq1]
    show _ = Function.update (U3 m c) main_v44 (o4 m c main_v44) (Proc.devRef .tc (Pipeline.arrRef spec1 w))
    rw [Function.update_of_ne (StableHlo.devRef_ne_of_ne (in_ne_out1 w hw))]

/-- Off the region's arrays nothing changed. -/
theorem exit1_rest (c : Dev nD) : ∀ b, b ∉ Finset.univ.image (Pipeline.arrRef spec1) → atRefs (U4 m) c b = atRefs (U3 m) c b := by
  intro b hb
  have hne : b ≠ main_v44 := fun e => hb (Finset.mem_image.mpr ⟨5, Finset.mem_univ _, e ▸ arrRef1_out⟩)
  show Function.update (U3 m c) main_v44 (o4 m c main_v44) (Proc.devRef .tc b) = _
  rw [Function.update_of_ne (StableHlo.devRef_ne_of_ne hne)]

/-- Every unscoped buffer after the host stretch that follows region 1. -/
abbrev U5 (c : Dev nD) : Valuation τ sig (Elt F) := StableHlo.after hostOps2 (U4 m c)

/-! ## Region 2: entered from `U5`, left at `U6` -/

/-- Region 2's arrays as it leaves them (each input array as entered, the result array with every point's block
    written back), every other buffer as entered. -/
def o6 (c : Dev nD) : Valuation τ sig (Elt F) :=
  Pipeline.withArrays spec2 c (U5 m c) fun w => (dat2 (atRefs (U5 m)) c).arrAt w cfg2.N
abbrev U6 (c : Dev nD) : Valuation τ sig (Elt F) := Function.update (U5 m c) main_v50 (o6 m c main_v50)

/-- The result array is window 4's. -/
theorem arrRef2_out : Pipeline.arrRef spec2 4 = main_v50 := rfl

/-- No point writes an input window back. -/
theorem noflush2 : ∀ w : Fin cfg2.W, w ≠ 4 → ∀ t : Fin cfg2.N, (cfg2.win w).flush t = false := by decide

/-- No input array is the result array. -/
theorem in_ne_out2 : ∀ w : Fin cfg2.W, w ≠ 4 → Pipeline.arrRef spec2 w ≠ main_v50 := by decide

/-- At the region's exit each of its arrays holds what the pipeline leaves: the result array by the choice of `U6`,
    an input array because no point writes it back. -/
theorem exit2_arr (c : Dev nD) (w : Fin cfg2.W) :
    (dat2 (atRefs (U5 m)) c).arrAt w cfg2.N = atRefs (U6 m) c (Pipeline.arrRef spec2 w) := by
  by_cases hw : w = 4
  · subst hw
    show _ = Function.update (U5 m c) main_v50 (o6 m c main_v50) main_v50
    rw [Function.update_self]
    unfold o6
    exact (Pipeline.withArrays_arr spec2 launch2.win.arr_inj c (U5 m c) (fun w => (dat2 (atRefs (U5 m)) c).arrAt w cfg2.N) 4).symm
  · rw [Cert.Lib.InputArrays.arrAt_of_never_flush _ w (noflush2 w hw), A_eq2]
    show _ = Function.update (U5 m c) main_v50 (o6 m c main_v50) (Proc.devRef .tc (Pipeline.arrRef spec2 w))
    rw [Function.update_of_ne (StableHlo.devRef_ne_of_ne (in_ne_out2 w hw))]

/-- Off the region's arrays nothing changed. -/
theorem exit2_rest (c : Dev nD) : ∀ b, b ∉ Finset.univ.image (Pipeline.arrRef spec2) → atRefs (U6 m) c b = atRefs (U5 m) c b := by
  intro b hb
  have hne : b ≠ main_v50 := fun e => hb (Finset.mem_image.mpr ⟨4, Finset.mem_univ _, e ▸ arrRef2_out⟩)
  show Function.update (U5 m c) main_v50 (o6 m c main_v50) (Proc.devRef .tc b) = _
  rw [Function.update_of_ne (StableHlo.devRef_ne_of_ne hne)]

/-- Every unscoped buffer after the host stretch that follows region 2. -/
abbrev U7 (c : Dev nD) : Valuation τ sig (Elt F) := StableHlo.after hostOps3 (U6 m c)

/-! ## Region 3: entered from `U7`, left at `U8` -/

/-- Region 3's arrays as it leaves them (each input array as entered, the result array with every point's block
    written back), every other buffer as entered. -/
def o8 (c : Dev nD) : Valuation τ sig (Elt F) :=
  Pipeline.withArrays spec3 c (U7 m c) fun w => (dat3 (atRefs (U7 m)) c).arrAt w cfg3.N
abbrev U8 (c : Dev nD) : Valuation τ sig (Elt F) := Function.update (U7 m c) main_v53 (o8 m c main_v53)

/-- The result array is window 4's. -/
theorem arrRef3_out : Pipeline.arrRef spec3 4 = main_v53 := rfl

/-- No point writes an input window back. -/
theorem noflush3 : ∀ w : Fin cfg3.W, w ≠ 4 → ∀ t : Fin cfg3.N, (cfg3.win w).flush t = false := by decide

/-- No input array is the result array. -/
theorem in_ne_out3 : ∀ w : Fin cfg3.W, w ≠ 4 → Pipeline.arrRef spec3 w ≠ main_v53 := by decide

/-- At the region's exit each of its arrays holds what the pipeline leaves: the result array by the choice of `U8`,
    an input array because no point writes it back. -/
theorem exit3_arr (c : Dev nD) (w : Fin cfg3.W) :
    (dat3 (atRefs (U7 m)) c).arrAt w cfg3.N = atRefs (U8 m) c (Pipeline.arrRef spec3 w) := by
  by_cases hw : w = 4
  · subst hw
    show _ = Function.update (U7 m c) main_v53 (o8 m c main_v53) main_v53
    rw [Function.update_self]
    unfold o8
    exact (Pipeline.withArrays_arr spec3 launch3.win.arr_inj c (U7 m c) (fun w => (dat3 (atRefs (U7 m)) c).arrAt w cfg3.N) 4).symm
  · rw [Cert.Lib.InputArrays.arrAt_of_never_flush _ w (noflush3 w hw), A_eq3]
    show _ = Function.update (U7 m c) main_v53 (o8 m c main_v53) (Proc.devRef .tc (Pipeline.arrRef spec3 w))
    rw [Function.update_of_ne (StableHlo.devRef_ne_of_ne (in_ne_out3 w hw))]

/-- Off the region's arrays nothing changed. -/
theorem exit3_rest (c : Dev nD) : ∀ b, b ∉ Finset.univ.image (Pipeline.arrRef spec3) → atRefs (U8 m) c b = atRefs (U7 m) c b := by
  intro b hb
  have hne : b ≠ main_v53 := fun e => hb (Finset.mem_image.mpr ⟨4, Finset.mem_univ _, e ▸ arrRef3_out⟩)
  show Function.update (U7 m c) main_v53 (o8 m c main_v53) (Proc.devRef .tc b) = _
  rw [Function.update_of_ne (StableHlo.devRef_ne_of_ne hne)]

/-- Every unscoped buffer after the host stretch that follows region 3. -/
abbrev U9 (c : Dev nD) : Valuation τ sig (Elt F) := StableHlo.after hostOps4 (U8 m c)

/-! ## Region 4: entered from `U9`, left at `U10` -/

/-- Region 4's arrays as it leaves them (each input array as entered, the result array with every point's block
    written back), every other buffer as entered. -/
def o10 (c : Dev nD) : Valuation τ sig (Elt F) :=
  Pipeline.withArrays spec4 c (U9 m c) fun w => (dat4 (atRefs (U9 m)) c).arrAt w cfg4.N
abbrev U10 (c : Dev nD) : Valuation τ sig (Elt F) := Function.update (U9 m c) main_v59 (o10 m c main_v59)

/-- The result array is window 9's. -/
theorem arrRef4_out : Pipeline.arrRef spec4 9 = main_v59 := rfl

/-- No point writes an input window back. -/
theorem noflush4 : ∀ w : Fin cfg4.W, w ≠ 9 → ∀ t : Fin cfg4.N, (cfg4.win w).flush t = false := by decide

/-- No input array is the result array. -/
theorem in_ne_out4 : ∀ w : Fin cfg4.W, w ≠ 9 → Pipeline.arrRef spec4 w ≠ main_v59 := by decide

/-- At the region's exit each of its arrays holds what the pipeline leaves: the result array by the choice of `U10`,
    an input array because no point writes it back. -/
theorem exit4_arr (c : Dev nD) (w : Fin cfg4.W) :
    (dat4 (atRefs (U9 m)) c).arrAt w cfg4.N = atRefs (U10 m) c (Pipeline.arrRef spec4 w) := by
  by_cases hw : w = 9
  · subst hw
    show _ = Function.update (U9 m c) main_v59 (o10 m c main_v59) main_v59
    rw [Function.update_self]
    unfold o10
    exact (Pipeline.withArrays_arr spec4 launch4.win.arr_inj c (U9 m c) (fun w => (dat4 (atRefs (U9 m)) c).arrAt w cfg4.N) 9).symm
  · rw [Cert.Lib.InputArrays.arrAt_of_never_flush _ w (noflush4 w hw), A_eq4]
    show _ = Function.update (U9 m c) main_v59 (o10 m c main_v59) (Proc.devRef .tc (Pipeline.arrRef spec4 w))
    rw [Function.update_of_ne (StableHlo.devRef_ne_of_ne (in_ne_out4 w hw))]

/-- Off the region's arrays nothing changed. -/
theorem exit4_rest (c : Dev nD) : ∀ b, b ∉ Finset.univ.image (Pipeline.arrRef spec4) → atRefs (U10 m) c b = atRefs (U9 m) c b := by
  intro b hb
  have hne : b ≠ main_v59 := fun e => hb (Finset.mem_image.mpr ⟨9, Finset.mem_univ _, e ▸ arrRef4_out⟩)
  show Function.update (U9 m c) main_v59 (o10 m c main_v59) (Proc.devRef .tc b) = _
  rw [Function.update_of_ne (StableHlo.devRef_ne_of_ne hne)]

/-! ## Region 5: entered from `U10`, left at `U11` -/

/-- Region 5's arrays as it leaves them (each input array as entered, the result array with every point's block
    written back), every other buffer as entered. -/
def o11 (c : Dev nD) : Valuation τ sig (Elt F) :=
  Pipeline.withArrays spec5 c (U10 m c) fun w => (dat5 (atRefs (U10 m)) c).arrAt w cfg5.N
abbrev U11 (c : Dev nD) : Valuation τ sig (Elt F) := Function.update (U10 m c) main_v60 (o11 m c main_v60)

/-- The result array is window 9's. -/
theorem arrRef5_out : Pipeline.arrRef spec5 9 = main_v60 := rfl

/-- No point writes an input window back. -/
theorem noflush5 : ∀ w : Fin cfg5.W, w ≠ 9 → ∀ t : Fin cfg5.N, (cfg5.win w).flush t = false := by decide

/-- No input array is the result array. -/
theorem in_ne_out5 : ∀ w : Fin cfg5.W, w ≠ 9 → Pipeline.arrRef spec5 w ≠ main_v60 := by decide

/-- At the region's exit each of its arrays holds what the pipeline leaves: the result array by the choice of `U11`,
    an input array because no point writes it back. -/
theorem exit5_arr (c : Dev nD) (w : Fin cfg5.W) :
    (dat5 (atRefs (U10 m)) c).arrAt w cfg5.N = atRefs (U11 m) c (Pipeline.arrRef spec5 w) := by
  by_cases hw : w = 9
  · subst hw
    show _ = Function.update (U10 m c) main_v60 (o11 m c main_v60) main_v60
    rw [Function.update_self]
    unfold o11
    exact (Pipeline.withArrays_arr spec5 launch5.win.arr_inj c (U10 m c) (fun w => (dat5 (atRefs (U10 m)) c).arrAt w cfg5.N) 9).symm
  · rw [Cert.Lib.InputArrays.arrAt_of_never_flush _ w (noflush5 w hw), A_eq5]
    show _ = Function.update (U10 m c) main_v60 (o11 m c main_v60) (Proc.devRef .tc (Pipeline.arrRef spec5 w))
    rw [Function.update_of_ne (StableHlo.devRef_ne_of_ne (in_ne_out5 w hw))]

/-- Off the region's arrays nothing changed. -/
theorem exit5_rest (c : Dev nD) : ∀ b, b ∉ Finset.univ.image (Pipeline.arrRef spec5) → atRefs (U11 m) c b = atRefs (U10 m) c b := by
  intro b hb
  have hne : b ≠ main_v60 := fun e => hb (Finset.mem_image.mpr ⟨9, Finset.mem_univ _, e ▸ arrRef5_out⟩)
  show Function.update (U10 m c) main_v60 (o11 m c main_v60) (Proc.devRef .tc b) = _
  rw [Function.update_of_ne (StableHlo.devRef_ne_of_ne hne)]

/-! ## The unknowns of the generated valuations, the proof data family -/

/-- What each region leaves in the array it writes: the generated valuations' unknowns, read only at the six points
    (item, array) the valuations name. -/
@[reducible] def outsOf : Outs (F := F)
  | 2, r, c => o2 m c (Proc.devRef .tc r)
  | 4, r, c => o4 m c (Proc.devRef .tc r)
  | 6, r, c => o6 m c (Proc.devRef .tc r)
  | 8, r, c => o8 m c (Proc.devRef .tc r)
  | 10, r, c => o10 m c (Proc.devRef .tc r)
  | 11, r, c => o11 m c (Proc.devRef .tc r)
  | _, r, c => V0 m c (Proc.devRef .tc r)

/-- Every pipeline's proof data, each at its region's entry contents. -/
def pdats : (p : Fin 6) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U7 m)) c
  | ⟨4, _⟩ => fun c => dat4 (atRefs (U9 m)) c
  | ⟨5, _⟩ => fun c => dat5 (atRefs (U10 m)) c

/-! ## The generated valuations at these unknowns are the staged ones -/

theorem V2_eq (c : Dev nD) : V2 m (outsOf m) c = U2 m c := rfl
theorem V3_eq (c : Dev nD) : V3 m (outsOf m) c = U3 m c := rfl
theorem V4_eq (c : Dev nD) : V4 m (outsOf m) c = U4 m c := rfl
theorem V5_eq (c : Dev nD) : V5 m (outsOf m) c = U5 m c := rfl
theorem V6_eq (c : Dev nD) : V6 m (outsOf m) c = U6 m c := rfl
theorem V7_eq (c : Dev nD) : V7 m (outsOf m) c = U7 m c := rfl
theorem V8_eq (c : Dev nD) : V8 m (outsOf m) c = U8 m c := rfl
theorem V9_eq (c : Dev nD) : V9 m (outsOf m) c = U9 m c := rfl
theorem V10_eq (c : Dev nD) : V10 m (outsOf m) c = U10 m c := rfl
theorem V11_eq (c : Dev nD) : V11 m (outsOf m) c = U11 m c := rfl

/-! ## The regions as segments -/

/-- The class invariant of pipeline 0 is the scoped buffers no window stages beside the generator register: made from
    what the region sorts out at entry (pipeline 0 has no prefetched table), -/
theorem phiA_in0 (c : Dev nD) :
    (iprop((∃ r, prngReg c r) ∗ Pipeline.prefHeld (pcfgs (F := F) 0).pre c (fun _ => fullShare) (adm (F := F) 0).1 ∗ Pipeline.scopedRest spec0 c) : sProp 𝕄)
      ⊢ Pipeline.ΦA spec0 c := by
  unfold Pipeline.ΦA
  iintro ⟨Hreg, -, Hsc⟩
  isplitl [Hsc]; · iexact Hsc
  iexact Hreg
/-- and taken apart again at exit (the kernel has no semaphore of its own). -/
theorem phiA_out0 (c : Dev nD) :
    (Pipeline.ΦA spec0 c : sProp 𝕄) ⊢ iprop((∃ r, prngReg c r) ∗ Pipeline.ownSems0 (fun k : PEmpty => k.elim) c ∗ Pipeline.scopedRest spec0 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 0 as a segment: entered with every unscoped buffer at `U1`, left with them at `U2`.  At entry the
    windows' arrays are split out of the unscoped buffers and the rest bypasses the region; the generator register
    goes into the pipeline's invariant and comes back; nothing is owed at any point; at exit the arrays, at what the
    pipeline leaves in them, are put back beside the untouched rest. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L0 lv0 0 fun _ _ => rfl
  pre c := At (U1 m c) c
  post c := At (U2 m c) c
  X c := iprop(∃ r, prngReg c r)
  Y c := iprop(∃ r, prngReg c r)
  Z c := Pipeline.unscopedRest (Ix := Unit) (Name := ℕ) (U := UR sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun w => A_eq0 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in0 c
  hout c := phiA_out0 c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (U1 m) c) (atRefs (U2 m) c) ((pdats m 0 c).arrAt · cfg0.N) (exit0_arr m c) (exit0_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 1 is the scoped buffers no window stages beside the generator register: made from
    what the region sorts out at entry (pipeline 1 has no prefetched table), -/
theorem phiA_in1 (c : Dev nD) :
    (iprop((∃ r, prngReg c r) ∗ Pipeline.prefHeld (pcfgs (F := F) 1).pre c (fun _ => fullShare) (adm (F := F) 1).1 ∗ Pipeline.scopedRest spec1 c) : sProp 𝕄)
      ⊢ Pipeline.ΦA spec1 c := by
  unfold Pipeline.ΦA
  iintro ⟨Hreg, -, Hsc⟩
  isplitl [Hsc]; · iexact Hsc
  iexact Hreg
/-- and taken apart again at exit (the kernel has no semaphore of its own). -/
theorem phiA_out1 (c : Dev nD) :
    (Pipeline.ΦA spec1 c : sProp 𝕄) ⊢ iprop((∃ r, prngReg c r) ∗ Pipeline.ownSems0 (fun k : PEmpty => k.elim) c ∗ Pipeline.scopedRest spec1 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 1 as a segment: entered with every unscoped buffer at `U3`, left with them at `U4`.  At entry the
    windows' arrays are split out of the unscoped buffers and the rest bypasses the region; the generator register
    goes into the pipeline's invariant and comes back; nothing is owed at any point; at exit the arrays, at what the
    pipeline leaves in them, are put back beside the untouched rest. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atRefs (U3 m)) c).loose
  hwaits := Pipeline.hwaits_of_owed_zero _ _ _ _ L0 lv0 1 fun _ _ => rfl
  pre c := At (U3 m c) c
  post c := At (U4 m c) c
  X c := iprop(∃ r, prngReg c r)
  Y c := iprop(∃ r, prngReg c r)
  Z c := Pipeline.unscopedRest (Ix := Unit) (Name := ℕ) (U := UR sig nD τ) (Lvl := ℕ) spec1 c (atRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U3 m) c) fun w => A_eq1 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in1 c
  hout c := phiA_out1 c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (U3 m) c) (atRefs (U4 m) c) ((pdats m 1 c).arrAt · cfg1.N) (exit1_arr m c) (exit1_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 2 is the scoped buffers no window stages beside the generator register: made from
    what the region sorts out at entry (pipeline 2 has no prefetched table), -/
theorem phiA_in2 (c : Dev nD) :
    (iprop((∃ r, prngReg c r) ∗ Pipeline.prefHeld (pcfgs (F := F) 2).pre c (fun _ => fullShare) (adm (F := F) 2).1 ∗ Pipeline.scopedRest spec2 c) : sProp 𝕄)
      ⊢ Pipeline.ΦA spec2 c := by
  unfold Pipeline.ΦA
  iintro ⟨Hreg, -, Hsc⟩
  isplitl [Hsc]; · iexact Hsc
  iexact Hreg
/-- and taken apart again at exit (the kernel has no semaphore of its own). -/
theorem phiA_out2 (c : Dev nD) :
    (Pipeline.ΦA spec2 c : sProp 𝕄) ⊢ iprop((∃ r, prngReg c r) ∗ Pipeline.ownSems0 (fun k : PEmpty => k.elim) c ∗ Pipeline.scopedRest spec2 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 2 as a segment: entered with every unscoped buffer at `U5`, left with them at `U6`.  At entry the
    windows' arrays are split out of the unscoped buffers and the rest bypasses the region; the generator register
    goes into the pipeline's invariant and comes back; nothing is owed at any point; at exit the arrays, at what the
    pipeline leaves in them, are put back beside the untouched rest. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L0 lv0 2 fun _ _ => rfl
  pre c := At (U5 m c) c
  post c := At (U6 m c) c
  X c := iprop(∃ r, prngReg c r)
  Y c := iprop(∃ r, prngReg c r)
  Z c := Pipeline.unscopedRest (Ix := Unit) (Name := ℕ) (U := UR sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun w => A_eq2 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := (phiA_in2 c).trans (hin2 (atRefs (U5 m)) c)
  hout c := (hout2 (atRefs (U5 m)) c).trans (phiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (U5 m) c) (atRefs (U6 m) c) ((pdats m 2 c).arrAt · cfg2.N) (exit2_arr m c) (exit2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 3 is the scoped buffers no window stages beside the generator register: made from
    what the region sorts out at entry (pipeline 3 has no prefetched table), -/
theorem phiA_in3 (c : Dev nD) :
    (iprop((∃ r, prngReg c r) ∗ Pipeline.prefHeld (pcfgs (F := F) 3).pre c (fun _ => fullShare) (adm (F := F) 3).1 ∗ Pipeline.scopedRest spec3 c) : sProp 𝕄)
      ⊢ Pipeline.ΦA spec3 c := by
  unfold Pipeline.ΦA
  iintro ⟨Hreg, -, Hsc⟩
  isplitl [Hsc]; · iexact Hsc
  iexact Hreg
/-- and taken apart again at exit (the kernel has no semaphore of its own). -/
theorem phiA_out3 (c : Dev nD) :
    (Pipeline.ΦA spec3 c : sProp 𝕄) ⊢ iprop((∃ r, prngReg c r) ∗ Pipeline.ownSems0 (fun k : PEmpty => k.elim) c ∗ Pipeline.scopedRest spec3 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 3 as a segment: entered with every unscoped buffer at `U7`, left with them at `U8`.  At entry the
    windows' arrays are split out of the unscoped buffers and the rest bypasses the region; the generator register
    goes into the pipeline's invariant and comes back; nothing is owed at any point; at exit the arrays, at what the
    pipeline leaves in them, are put back beside the untouched rest. -/
def reg3 : RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atRefs (U7 m)) c).loose
  hwaits := Pipeline.hwaits_of_owed_zero _ _ _ _ L0 lv0 3 fun _ _ => rfl
  pre c := At (U7 m c) c
  post c := At (U8 m c) c
  X c := iprop(∃ r, prngReg c r)
  Y c := iprop(∃ r, prngReg c r)
  Z c := Pipeline.unscopedRest (Ix := Unit) (Name := ℕ) (U := UR sig nD τ) (Lvl := ℕ) spec3 c (atRefs (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (U7 m) c) fun w => A_eq3 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := (phiA_in3 c).trans (hin3 (atRefs (U7 m)) c)
  hout c := (hout3 (atRefs (U7 m)) c).trans (phiA_out3 c)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (U7 m) c) (atRefs (U8 m) c) ((pdats m 3 c).arrAt · cfg3.N) (exit3_arr m c) (exit3_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 4 is the scoped buffers no window stages beside the generator register: made from
    what the region sorts out at entry (pipeline 4 has no prefetched table), -/
theorem phiA_in4 (c : Dev nD) :
    (iprop((∃ r, prngReg c r) ∗ Pipeline.prefHeld (pcfgs (F := F) 4).pre c (fun _ => fullShare) (adm (F := F) 4).1 ∗ Pipeline.scopedRest spec4 c) : sProp 𝕄)
      ⊢ Pipeline.ΦA spec4 c := by
  unfold Pipeline.ΦA
  iintro ⟨Hreg, -, Hsc⟩
  isplitl [Hsc]; · iexact Hsc
  iexact Hreg
/-- and taken apart again at exit (the kernel has no semaphore of its own). -/
theorem phiA_out4 (c : Dev nD) :
    (Pipeline.ΦA spec4 c : sProp 𝕄) ⊢ iprop((∃ r, prngReg c r) ∗ Pipeline.ownSems0 (fun k : PEmpty => k.elim) c ∗ Pipeline.scopedRest spec4 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 4 as a segment: entered with every unscoped buffer at `U9`, left with them at `U10`.  At entry the
    windows' arrays are split out of the unscoped buffers and the rest bypasses the region; the generator register
    goes into the pipeline's invariant and comes back; nothing is owed at any point; at exit the arrays, at what the
    pipeline leaves in them, are put back beside the untouched rest. -/
def reg4 : RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atRefs (U9 m)) c).loose
  hwaits := Pipeline.hwaits_of_owed_zero _ _ _ _ L0 lv0 4 fun _ _ => rfl
  pre c := At (U9 m c) c
  post c := At (U10 m c) c
  X c := iprop(∃ r, prngReg c r)
  Y c := iprop(∃ r, prngReg c r)
  Z c := Pipeline.unscopedRest (Ix := Unit) (Name := ℕ) (U := UR sig nD τ) (Lvl := ℕ) spec4 c (atRefs (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (U9 m) c) fun w => A_eq4 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in4 c
  hout c := phiA_out4 c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (U9 m) c) (atRefs (U10 m) c) ((pdats m 4 c).arrAt · cfg4.N) (exit4_arr m c) (exit4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-- The class invariant of pipeline 5 is the scoped buffers no window stages beside the generator register: made from
    what the region sorts out at entry (pipeline 5 has no prefetched table), -/
theorem phiA_in5 (c : Dev nD) :
    (iprop((∃ r, prngReg c r) ∗ Pipeline.prefHeld (pcfgs (F := F) 5).pre c (fun _ => fullShare) (adm (F := F) 5).1 ∗ Pipeline.scopedRest spec5 c) : sProp 𝕄)
      ⊢ Pipeline.ΦA spec5 c := by
  unfold Pipeline.ΦA
  iintro ⟨Hreg, -, Hsc⟩
  isplitl [Hsc]; · iexact Hsc
  iexact Hreg
/-- and taken apart again at exit (the kernel has no semaphore of its own). -/
theorem phiA_out5 (c : Dev nD) :
    (Pipeline.ΦA spec5 c : sProp 𝕄) ⊢ iprop((∃ r, prngReg c r) ∗ Pipeline.ownSems0 (fun k : PEmpty => k.elim) c ∗ Pipeline.scopedRest spec5 c) := by
  rw [Pipeline.ownSems0_none]; unfold Pipeline.ΦA
  iintro ⟨Hsc, Hreg⟩
  isplitl [Hreg]; · iexact Hreg
  isplitr; · iempintro
  iexact Hsc

set_option backward.isDefEq.respectTransparency.types false in
/-- Region 5 as a segment: entered with every unscoped buffer at `U10`, left with them at `U11`.  At entry the
    windows' arrays are split out of the unscoped buffers and the rest bypasses the region; the generator register
    goes into the pipeline's invariant and comes back; nothing is owed at any point; at exit the arrays, at what the
    pipeline leaves in them, are put back beside the untouched rest. -/
def reg5 : RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atRefs (U10 m)) c).loose
  hwaits := Pipeline.hwaits_of_owed_zero _ _ _ _ L0 lv0 5 fun _ _ => rfl
  pre c := At (U10 m c) c
  post c := At (U11 m c) c
  X c := iprop(∃ r, prngReg c r)
  Y c := iprop(∃ r, prngReg c r)
  Z c := Pipeline.unscopedRest (Ix := Unit) (Name := ℕ) (U := UR sig nD τ) (Lvl := ℕ) spec5 c (atRefs (U10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (U10 m) c) fun w => A_eq5 _ c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := phiA_in5 c
  hout c := phiA_out5 c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (U10 m) c) (atRefs (U11 m) c) ((pdats m 5 c).arrAt · cfg5.N) (exit5_arr m c) (exit5_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The run -/

/-- Every weakly fair execution of the program terminates without a fault, and every final memory holds every
    unscoped buffer at `U11`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U11 m c b) :=
  run_regions m ρ (outsOf m) (pdats m)
    (reg0 m) (fun _ => .rfl) (fun c => by rw [V2_eq m c]; exact .rfl) (reg1 m) (fun c => by rw [V3_eq m c]; exact .rfl) (fun c => by rw [V4_eq m c]; exact .rfl)
    (reg2 m) (fun c => by rw [V5_eq m c]; exact .rfl) (fun c => by rw [V6_eq m c]; exact .rfl) (reg3 m) (fun c => by rw [V7_eq m c]; exact .rfl) (fun c => by rw [V8_eq m c]; exact .rfl)
    (reg4 m) (fun c => by rw [V9_eq m c]; exact .rfl) (fun c => by rw [V10_eq m c]; exact .rfl) (reg5 m) (fun c => by rw [V10_eq m c]; exact .rfl) (fun c => by rw [V11_eq m c]; exact .rfl)

/-! ## The frame -/

/-- Every weakly fair execution terminates without a fault and every argument array ends as launched: no host stretch
    writes an argument and no region may change one, so the last valuation has each at its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c (Proc.devRef .tc main_arg0) (Finset.mem_filter.mpr ⟨StableHlo.devRef_mem_tcRefs main_arg0, by decide⟩)).trans (V11_main_arg0 m (outsOf m) c),
      (h c (Proc.devRef .tc main_arg1) (Finset.mem_filter.mpr ⟨StableHlo.devRef_mem_tcRefs main_arg1, by decide⟩)).trans (V11_main_arg1 m (outsOf m) c),
      (h c (Proc.devRef .tc main_arg2) (Finset.mem_filter.mpr ⟨StableHlo.devRef_mem_tcRefs main_arg2, by decide⟩)).trans (V11_main_arg2 m (outsOf m) c),
      (h c (Proc.devRef .tc main_arg3) (Finset.mem_filter.mpr ⟨StableHlo.devRef_mem_tcRefs main_arg3, by decide⟩)).trans (V11_main_arg3 m (outsOf m) c),
      (h c (Proc.devRef .tc main_arg4) (Finset.mem_filter.mpr ⟨StableHlo.devRef_mem_tcRefs main_arg4, by decide⟩)).trans (V11_main_arg4 m (outsOf m) c),
      (h c (Proc.devRef .tc main_arg5) (Finset.mem_filter.mpr ⟨StableHlo.devRef_mem_tcRefs main_arg5, by decide⟩)).trans (V11_main_arg5 m (outsOf m) c),
      (h c (Proc.devRef .tc main_arg6) (Finset.mem_filter.mpr ⟨StableHlo.devRef_mem_tcRefs main_arg6, by decide⟩)).trans (V11_main_arg6 m (outsOf m) c),
      (h c (Proc.devRef .tc main_arg7) (Finset.mem_filter.mpr ⟨StableHlo.devRef_mem_tcRefs main_arg7, by decide⟩)).trans (V11_main_arg7 m (outsOf m) c),
      (h c (Proc.devRef .tc main_arg8) (Finset.mem_filter.mpr ⟨StableHlo.devRef_mem_tcRefs main_arg8, by decide⟩)).trans (V11_main_arg8 m (outsOf m) c),
      (h c (Proc.devRef .tc main_arg9) (Finset.mem_filter.mpr ⟨StableHlo.devRef_mem_tcRefs main_arg9, by decide⟩)).trans (V11_main_arg9 m (outsOf m) c),
      (h c (Proc.devRef .tc main_arg10) (Finset.mem_filter.mpr ⟨StableHlo.devRef_mem_tcRefs main_arg10, by decide⟩)).trans (V11_main_arg10 m (outsOf m) c),
      (h c (Proc.devRef .tc main_arg11) (Finset.mem_filter.mpr ⟨StableHlo.devRef_mem_tcRefs main_arg11, by decide⟩)).trans (V11_main_arg11 m (outsOf m) c),
      (h c (Proc.devRef .tc main_arg12) (Finset.mem_filter.mpr ⟨StableHlo.devRef_mem_tcRefs main_arg12, by decide⟩)).trans (V11_main_arg12 m (outsOf m) c),
      (h c (Proc.devRef .tc main_arg13) (Finset.mem_filter.mpr ⟨StableHlo.devRef_mem_tcRefs main_arg13, by decide⟩)).trans (V11_main_arg13 m (outsOf m) c)⟩) (run m ρ)

end Cert.KernelIdeal.Hand

end
-- ==== Proof.RefRunProof.lean ====
/- The reference program's run read back: every weakly fair execution of @main — a list of 146 host operations —
   terminates with each of its two results at the operations' composed term of the arguments' launch contents and
   every argument unchanged. An argument is unchanged because no operation of the list writes it; a result is read
   through the list, each operation's result at its own buffer being its function of its operands' contents. -/
import proofs.«108965_j35862976922239_2_alg».proof.Proof.RefRun
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## A concatenation is read operand by operand -/

theorem concatenate_pair_congr {α : Type} (t : Shape) (a : Fin t.rank) (s₁ s₂ : Shape) (x x' : s₁.Idx → α) (y y' : s₂.Idx → α)
    (h : Shape.Concatenates (([⟨s₁, x⟩, ⟨s₂, y⟩] : List ((s : Shape) × (s.Idx → α))).map (·.1)) t a) (hx : x = x') (hy : y = y') :
    concatenate t a [⟨s₁, x⟩, ⟨s₂, y⟩] h = concatenate t a [⟨s₁, x'⟩, ⟨s₂, y'⟩] h := by
  subst hx; subst hy; rfl

theorem concatenate_triple_congr {α : Type} (t : Shape) (a : Fin t.rank) (s₁ s₂ s₃ : Shape) (x x' : s₁.Idx → α) (y y' : s₂.Idx → α) (z z' : s₃.Idx → α)
    (h : Shape.Concatenates (([⟨s₁, x⟩, ⟨s₂, y⟩, ⟨s₃, z⟩] : List ((s : Shape) × (s.Idx → α))).map (·.1)) t a) (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx; subst hy; subst hz; rfl

attribute [local congr] concatenate_pair_congr concatenate_triple_congr

/-! ## A literal family of three, at each of its indices (by computation) -/

theorem vec3_zero {α : Type} (a b c : α) : (![a, b, c] : Fin 3 → α) 0 = a := rfl
theorem vec3_one {α : Type} (a b c : α) : (![a, b, c] : Fin 3 → α) 1 = b := rfl
theorem vec3_two {α : Type} (a b c : α) : (![a, b, c] : Fin 3 → α) 2 = c := rfl

/-! ## No operation writes an argument -/

/-- The references the operations write: each operation's one result, in order. -/
abbrev ops_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_call0_cst, main_call0_v0, main_v23, main_v24, main_v25, main_v26, main_v27, main_cst, main_v28, main_v29, main_v30, main_v31, main_v32, main_v33, main_v34, main_c_3, main_v35, main_v36, main_c_4, main_v37, main_v38, main_v39, main_v40, main_v41, main_c_5, main_v42, main_v43, main_c_6, main_v44, main_v45, main_v46, main_v47, main_v48, main_v49, main_v50, main_v51, main_v52, main_v53, main_call1_cst, main_call1_v0, main_v54, main_v55, main_v56, main_v57, main_v58, main_cst_7, main_v59, main_v60, main_v61, main_v62, main_v63, main_v64, main_v65, main_v66, main_v67, main_v68, main_cst_8, main_call2_v0, main_call2_v1, main_v69, main_cst_9, main_v70, main_cst_10, main_v71, main_v72, main_v73, main_v74, main_v75, main_v76, main_cst_11, main_v77, main_v78, main_v79, main_v80, main_cst_12, main_v81, main_cst_13, main_v82, main_v83, main_v84, main_v85, main_v86, main_v87, main_cst_14, main_v88, main_v89, main_v90, main_v91, main_v92, main_v93, main_v94, main_v95, main_v96, main_v97, main_v98, main_v99, main_v100, main_v101, main_call3_cst, main_call3_v0, main_v102, main_v103, main_v104, main_v105, main_v106, main_v107, main_v108, main_v109, main_v110, main_v111, main_v112, main_call4_cst, main_call4_v0, main_v113, main_v114, main_v115, main_v116, main_v117, main_v118]

set_option maxRecDepth 8192 in
theorem ops_writes : (ops : List (HloOp τ sig (Elt F))).Forall fun op => op.writes ⊆ (ops_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference no operation writes keeps its contents through the whole list. -/
theorem kept (V : Valuation τ sig (Elt F)) (r : Ref sig .tc) (h : r ∉ ops_W) :
    after (ops : List (HloOp τ sig (Elt F))) V (Proc.devRef .tc r) = V (Proc.devRef .tc r) :=
  after_of_writes_sub ops V ops_writes h

theorem kept_main_arg0 (V : Valuation τ sig (Elt F)) : after (ops : List (HloOp τ sig (Elt F))) V (Proc.devRef .tc main_arg0) = V (Proc.devRef .tc main_arg0) := kept V main_arg0 (by decide)
theorem kept_main_arg1 (V : Valuation τ sig (Elt F)) : after (ops : List (HloOp τ sig (Elt F))) V (Proc.devRef .tc main_arg1) = V (Proc.devRef .tc main_arg1) := kept V main_arg1 (by decide)
theorem kept_main_arg2 (V : Valuation τ sig (Elt F)) : after (ops : List (HloOp τ sig (Elt F))) V (Proc.devRef .tc main_arg2) = V (Proc.devRef .tc main_arg2) := kept V main_arg2 (by decide)
theorem kept_main_arg3 (V : Valuation τ sig (Elt F)) : after (ops : List (HloOp τ sig (Elt F))) V (Proc.devRef .tc main_arg3) = V (Proc.devRef .tc main_arg3) := kept V main_arg3 (by decide)
theorem kept_main_arg4 (V : Valuation τ sig (Elt F)) : after (ops : List (HloOp τ sig (Elt F))) V (Proc.devRef .tc main_arg4) = V (Proc.devRef .tc main_arg4) := kept V main_arg4 (by decide)
theorem kept_main_arg5 (V : Valuation τ sig (Elt F)) : after (ops : List (HloOp τ sig (Elt F))) V (Proc.devRef .tc main_arg5) = V (Proc.devRef .tc main_arg5) := kept V main_arg5 (by decide)
theorem kept_main_arg6 (V : Valuation τ sig (Elt F)) : after (ops : List (HloOp τ sig (Elt F))) V (Proc.devRef .tc main_arg6) = V (Proc.devRef .tc main_arg6) := kept V main_arg6 (by decide)
theorem kept_main_arg7 (V : Valuation τ sig (Elt F)) : after (ops : List (HloOp τ sig (Elt F))) V (Proc.devRef .tc main_arg7) = V (Proc.devRef .tc main_arg7) := kept V main_arg7 (by decide)
theorem kept_main_arg8 (V : Valuation τ sig (Elt F)) : after (ops : List (HloOp τ sig (Elt F))) V (Proc.devRef .tc main_arg8) = V (Proc.devRef .tc main_arg8) := kept V main_arg8 (by decide)
theorem kept_main_arg9 (V : Valuation τ sig (Elt F)) : after (ops : List (HloOp τ sig (Elt F))) V (Proc.devRef .tc main_arg9) = V (Proc.devRef .tc main_arg9) := kept V main_arg9 (by decide)
theorem kept_main_arg10 (V : Valuation τ sig (Elt F)) : after (ops : List (HloOp τ sig (Elt F))) V (Proc.devRef .tc main_arg10) = V (Proc.devRef .tc main_arg10) := kept V main_arg10 (by decide)
theorem kept_main_arg11 (V : Valuation τ sig (Elt F)) : after (ops : List (HloOp τ sig (Elt F))) V (Proc.devRef .tc main_arg11) = V (Proc.devRef .tc main_arg11) := kept V main_arg11 (by decide)
theorem kept_main_arg12 (V : Valuation τ sig (Elt F)) : after (ops : List (HloOp τ sig (Elt F))) V (Proc.devRef .tc main_arg12) = V (Proc.devRef .tc main_arg12) := kept V main_arg12 (by decide)
theorem kept_main_arg13 (V : Valuation τ sig (Elt F)) : after (ops : List (HloOp τ sig (Elt F))) V (Proc.devRef .tc main_arg13) = V (Proc.devRef .tc main_arg13) := kept V main_arg13 (by decide)

/-! ## The two results, read through the operations -/

set_option maxRecDepth 65536 in
set_option maxHeartbeats 58400000 in
/-- The result `main_v107` read through the operations: each operation's result at its own buffer is its function of
    its operands' contents, any other buffer is as it was; a concatenation is read operand by operand. -/
theorem res_v107 (m : (ℓ : Loc nD τ sig) → Buf (Elt F) ℓ) (c : Dev nD) :
    after (ops : List (HloOp τ sig (Elt F))) (launchContents m c) (Proc.devRef .tc main_v107) = res_main_v107 m c := by
  unfold res_main_v107
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    vec3_zero, vec3_one, vec3_two]
  all_goals rfl

set_option maxRecDepth 65536 in
set_option maxHeartbeats 58400000 in
/-- The result `main_v118` read through the operations: each operation's result at its own buffer is its function of
    its operands' contents, any other buffer is as it was; a concatenation is read operand by operand. -/
theorem res_v118 (m : (ℓ : Loc nD τ sig) → Buf (Elt F) ℓ) (c : Dev nD) :
    after (ops : List (HloOp τ sig (Elt F))) (launchContents m c) (Proc.devRef .tc main_v118) = res_main_v118 m c := by
  unfold res_main_v118
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    vec3_zero, vec3_one, vec3_two]
  all_goals rfl

/-! ## The run -/

/-- On every device, for any float values, from any memory with zero counters: every weakly fair execution of @main
    terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = res_main_v107 m c
      ∧ r.2.mem ((c.tc : Thread nD τ).loc main_v118) = res_main_v118 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v107).trans (res_v107 m c), (h c main_v118).trans (res_v118 m c),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _)⟩)
    (run_seq scopedRefs_eq scopedSems_eq defs main (fun _ => ops) main_eq (fun _ => ops_sub) m ρ)

end Cert.ReferenceIdeal.ValueP

end
-- ==== Proof.KI.HostReads.lean ====
/-
  What the host stretches of the program write, as functions of the buffers they read.

  Between the kernel regions the program runs plain host operations: it cuts the two rows out of an edge list, wraps
  negative node numbers, gathers the rows of the node features at an edge's two endpoints and lays them side by side,
  adds the edge messages up per target node, reshapes the batch numbers into a column and a row, subtracts the attention
  output from the features, and cuts the update weights into their three row blocks.  Each of these is named here once
  as a function of its inputs, and each buffer a later region reads is shown to hold that function of the valuation the
  stretch started from, whatever that valuation is.
-/
import proofs.«108965_j35862976922239_2_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The shared host chains -/

/-- Row 0 of an edge list: the target node of every edge. -/
def tgtOf (e : (⟨S2x131072, .i32⟩ : BufTy).Contents (Elt F)) : (⟨S131072, .i32⟩ : BufTy).Contents (Elt F) :=
  shapeCast S131072 (extractStridedSlice S1x131072 ![0, 0] e slices_S2x131072_S1x131072_0_0) shapeCasts_S1x131072_S131072

/-- Row 1 of an edge list: the source node of every edge. -/
def srcOf (e : (⟨S2x131072, .i32⟩ : BufTy).Contents (Elt F)) : (⟨S131072, .i32⟩ : BufTy).Contents (Elt F) :=
  shapeCast S131072 (extractStridedSlice S1x131072 ![1, 0] e slices_S2x131072_S1x131072_1_0) shapeCasts_S1x131072_S131072

/-- A negative node number counts from the end: `v < 0 ? v + 8192 : v`. -/
def wrapIdx (v : (⟨S131072, .i32⟩ : BufTy).Contents (Elt F)) : (⟨S131072, .i32⟩ : BufTy).Contents (Elt F) :=
  select (cmpi .slt v (broadcastInDim S131072 ![] bcast_S_S131072 (constantI S_ 32 0#32)))
    (addi v (broadcastInDim S131072 ![] bcast_S_S131072 (constantI S_ 32 8192#32))) v

/-- The rows of the node features named by a vector of node numbers. -/
def gatherRows (x : (⟨S8192x128, .f32⟩ : BufTy).Contents (Elt F)) (v : (⟨S131072, .i32⟩ : BufTy).Contents (Elt F)) :
    (⟨S131072x128, .f32⟩ : BufTy).Contents (Elt F) :=
  Host.gather gather_S8192x128_S131072x1_S131072x128_1_0_n_n_0_1_1128 x
    (broadcastInDim S131072x1 ![0] bcast_S131072_S131072x1_0 (wrapIdx v))

/-- The edge MLP's input: the source's features beside the target's, in the narrow float format. -/
def miOf (x : (⟨S8192x128, .f32⟩ : BufTy).Contents (Elt F)) (e : (⟨S2x131072, .i32⟩ : BufTy).Contents (Elt F)) :
    (⟨S131072x256, .bf16⟩ : BufTy).Contents (Elt F) :=
  truncf .bf16 (concatenate S131072x256 1 [⟨S131072x128, gatherRows x (srcOf e)⟩, ⟨S131072x128, gatherRows x (tgtOf e)⟩]
    concatenates_S131072x128_S131072x128_S131072x256_d1) bitsLt_bf16_f32

/-- The edge messages added up per target node. -/
def segSum (tgt : (⟨S131072, .i32⟩ : BufTy).Contents (Elt F)) (u : (⟨S131072x256, .f32⟩ : BufTy).Contents (Elt F)) :
    (⟨S8192x256, .f32⟩ : BufTy).Contents (Elt F) :=
  Host.scatterAdd scatter_S8192x256_S131072x1_S131072x256_1_0_0_1
    (broadcastInDim S8192x256 ![] bcast_S_S8192x256 (constant S_ .f32 0x00000000#32))
    (broadcastInDim S131072x1 ![0] bcast_S131072_S131072x1_0 tgt) u

/-! ## What each stretch leaves in the buffers the regions read -/

variable (W : Valuation τ sig (Elt F))

theorem host0_v1 : StableHlo.after hostOps0 W main_v1 = tgtOf (W main_arg1) := by
  unfold tgtOf; after_results <;> rfl
set_option maxHeartbeats 2000000 in
theorem host0_v19 : StableHlo.after hostOps0 W main_v19 = miOf (W main_arg0) (W main_arg1) := by
  unfold miOf gatherRows wrapIdx srcOf tgtOf; after_results_simp <;> rfl

theorem host1_v23 : StableHlo.after hostOps1 W main_v23 = segSum (W main_v1) (W main_v20) := by
  unfold segSum; after_results <;> rfl
theorem host1_v25 : StableHlo.after hostOps1 W main_v25 = tgtOf (W main_arg4) := by
  unfold tgtOf; after_results <;> rfl
set_option maxHeartbeats 2000000 in
theorem host1_v43 : StableHlo.after hostOps1 W main_v43 = miOf (W main_arg3) (W main_arg4) := by
  unfold miOf gatherRows wrapIdx srcOf tgtOf; after_results_simp <;> rfl

theorem host2_v47 : StableHlo.after hostOps2 W main_v47 = segSum (W main_v25) (W main_v44) := by
  unfold segSum; after_results <;> rfl
theorem host2_v48 : StableHlo.after hostOps2 W main_v48 = shapeCast S8192x1 (W main_arg2) shapeCasts_S8192_S8192x1 := by
  after_results <;> rfl
theorem host2_v49 : StableHlo.after hostOps2 W main_v49 = shapeCast S1x8192 (W main_arg5) shapeCasts_S8192_S1x8192 := by
  after_results <;> rfl

theorem host3_v51 : StableHlo.after hostOps3 W main_v51 = shapeCast S8192x1 (W main_arg5) shapeCasts_S8192_S8192x1 := by
  after_results <;> rfl
theorem host3_v52 : StableHlo.after hostOps3 W main_v52 = shapeCast S1x8192 (W main_arg2) shapeCasts_S8192_S1x8192 := by
  after_results <;> rfl

theorem host4_v54 : StableHlo.after hostOps4 W main_v54 = subf (W main_arg0) (W main_v50) := by
  after_results <;> rfl
theorem host4_v55 : StableHlo.after hostOps4 W main_v55 = subf (W main_arg3) (W main_v53) := by
  after_results <;> rfl
theorem host4_v56 : StableHlo.after hostOps4 W main_v56 = extractStridedSlice S256x256 ![0, 0] (W main_arg10) slices_S512x256_S256x256_0_0 := by
  after_results <;> rfl
theorem host4_v57 : StableHlo.after hostOps4 W main_v57 = extractStridedSlice S128x256 ![256, 0] (W main_arg10) slices_S512x256_S128x256_256_0 := by
  after_results <;> rfl
theorem host4_v58 : StableHlo.after hostOps4 W main_v58 = extractStridedSlice S128x256 ![384, 0] (W main_arg10) slices_S512x256_S128x256_384_0 := by
  after_results <;> rfl

end Cert.KernelIdeal.Hand

end
-- ==== Proof.MsgSpec.lean ====
/- The edge-message specification: one edge's message as a function of the edge's feature row and the two affine
   layers, index by index on the extended reals — `relu(x·W1 + b1)·W2 + b2`, each matrix product a sum over the
   256 hidden coordinates, in the bracketing "(sum) + bias". Imports no program. -/
import Idealize.ShloMosaic.PureOps.Ideal.Laws
import Idealize.ShloMosaic.Lib.ValueIdx

noncomputable section

open scoped BigOperators

namespace Cert.MsgSpec

open Idealize.ShloMosaic Idealize.ShloMosaic.ValueIdx

/-- The message of edge `e` at output coordinate `j`: the second affine layer over the rectified first one. -/
def msgAt {E : Nat} (x : (⟨2, ![E, 256]⟩ : Shape).Idx → EReal) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin E) (j : Fin 256) : EReal :=
  (∑ h : Fin 256, max ((∑ k : Fin 256, x (ix2 e k) * W1 (ix2 k h)) + b1 (ix1 h)) 0 * W2 (ix2 h j)) + b2 (ix1 j)

/-- The whole message array, index by index. -/
def MsgG {E : Nat} (x : (⟨2, ![E, 256]⟩ : Shape).Idx → EReal) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) : (⟨2, ![E, 256]⟩ : Shape).Idx → EReal :=
  fun i => msgAt x W1 b1 W2 b2 (i 0) (i 1)

theorem MsgG_ix2 {E : Nat} (x : (⟨2, ![E, 256]⟩ : Shape).Idx → EReal) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (e : Fin E) (j : Fin 256) :
    MsgG x W1 b1 W2 b2 (ix2 e j)
      = (∑ h : Fin 256, max ((∑ k : Fin 256, x (ix2 e k) * W1 (ix2 k h)) + b1 (ix1 h)) 0 * W2 (ix2 h j)) + b2 (ix1 j) := rfl

end Cert.MsgSpec

end
-- ==== Proof.KI.MsgPay.lean ====
/- The message kernels' payload at the ideal values, read at an index: the store's value at row `p`, column `q` of a
   tile is the edge-message specification of the tile's loaded blocks there. Both message kernels print the same payload. -/
import proofs.«108965_j35862976922239_2_alg».proof.Proof.Gen.KernelIdeal.Skeleton
import proofs.«108965_j35862976922239_2_alg».proof.Proof.MsgSpec
import Idealize.ShloMosaic.Lib.Pipeline.Value
import Idealize.ShloMosaic.Lib.ValueIdx

noncomputable section

open scoped BigOperators

namespace Cert.KernelIdeal.Hand

open Cert.KernelIdeal Cert.KernelIdeal.Gen Cert.MsgSpec
open Idealize.ShloMosaic Idealize.ShloMosaic.ValueIdx

local notation "D₀" => dot_S4096x256_S256x256_S4096x256_1_0_0_1_n_n

/-! ## The tile product's operand indices -/

theorem msg_lhs0 (i : S4096x256.Idx) (k : (D₀).contr.Idx) : ((D₀).lhsIdx i k 0).val = (i 0).val := by
  unfold DotDims.lhsIdx
  rw [dif_neg (show ¬(0 : Fin S4096x256.rank) ∈ (D₀).lhsBatch by decide), dif_pos (show (0 : Fin S4096x256.rank) ∈ (D₀).lhsNonContracting by decide)]
  rfl
theorem msg_lhs1 (i : S4096x256.Idx) (k : (D₀).contr.Idx) : ((D₀).lhsIdx i k 1).val = (k ⟨0, by decide⟩).val :=
  (D₀).lhsIdx_val_of_single rfl i k
theorem msg_rhs0 (i : S4096x256.Idx) (k : (D₀).contr.Idx) : ((D₀).rhsIdx i k 0).val = (k ⟨0, by decide⟩).val :=
  (D₀).rhsIdx_val_of_single rfl i k
theorem msg_rhs1 (i : S4096x256.Idx) (k : (D₀).contr.Idx) : ((D₀).rhsIdx i k 1).val = (i 1).val := by
  unfold DotDims.rhsIdx
  rw [dif_neg (show ¬(1 : Fin S256x256.rank) ∈ (D₀).rhsBatch by decide), dif_pos (show (1 : Fin S256x256.rank) ∈ (D₀).rhsNonContracting by decide)]
  rfl

/-- A tile product into the zero splat, at row `p` and column `q`: the sum over the 256 contracted coordinates. -/
theorem msg_matmul_apply {φ₁ φ₂ : FTy} (A : FVec Ideal S4096x256 φ₁) (B : FVec Ideal S256x256 φ₂) (p : Fin 4096) (q : Fin 256) :
    FloatOps.matmul (D₀) none A B (constant S4096x256 .f32 0x00000000#32) (ix2 p q) = ∑ k : Fin 256, A (ix2 p k) * B (ix2 k q) := by
  rw [Ideal.matmul_constant_zero_apply, ← Equiv.sum_comp (contrEquiv1 (D₀) 256 rfl rfl).symm]
  refine Finset.sum_congr rfl fun k _ => ?_
  have hk := contrEquiv1_symm_val (D₀) 256 rfl rfl k
  have el : (D₀).lhsIdx (ix2 p q) ((contrEquiv1 (D₀) 256 rfl rfl).symm k) = ix2 p k := funext fun a => Fin.ext (by
    match a with
    | ⟨0, _⟩ => exact msg_lhs0 _ _
    | ⟨1, _⟩ => exact (msg_lhs1 _ _).trans hk)
  have er : (D₀).rhsIdx (ix2 p q) ((contrEquiv1 (D₀) 256 rfl rfl).symm k) = ix2 k q := funext fun a => Fin.ext (by
    match a with
    | ⟨0, _⟩ => exact (msg_rhs0 _ _).trans hk
    | ⟨1, _⟩ => exact msg_rhs1 _ _)
  rw [el, er]

/-- A bias vector laid along every row of a tile, at row `p` and column `q`: the vector at `q`. -/
theorem msg_bias_apply {α : Type} (x : S256.Idx → α) (p : Fin 4096) (q : Fin 256) :
    broadcastTo S4096x256 (shapeCast S1x256 x shapeCasts_S256_S1x256) broadcasts_S1x256_S4096x256 (ix2 p q) = x (ix1 q) := by
  have e1 := broadcastTo_apply (shapeCast S1x256 x shapeCasts_S256_S1x256) broadcasts_S1x256_S4096x256 (ix2 p q) (ix2 (0 : Fin 1) q) (by
    intro a
    match a with
    | ⟨0, _⟩ => rfl
    | ⟨1, _⟩ => rfl)
  have e2 := shapeCast_apply x shapeCasts_S256_S1x256 (ix2 (0 : Fin 1) q) (ix1 q) (by
    rw [Shape.rowMajor_val_two, Shape.rowMajor_val_one]; show q.val = 0 * 256 + q.val; omega)
  exact e1.trans e2

/-! ## The payloads -/

theorem k0_pay1_apply (x0 : Vec Ideal S4096x256 .bf16) (x1 : Vec Ideal S256x256 .f32) (x2 : Vec Ideal S256 .f32)
    (x3 : Vec Ideal S256x256 .f32) (x4 : Vec Ideal S256 .f32) (p : Fin 4096) (q : Fin 256) :
    k0_pay1 x0 x1 x2 x3 x4 (ix2 p q) = msgAt (E := 4096) x0 x1 x2 x3 x4 p q := by
  unfold k0_pay1 msgAt
  simp only [matmul]
  rw [addf_apply, msg_matmul_apply, msg_bias_apply]
  refine congrArg (· + x4 (ix1 q)) (Finset.sum_congr rfl fun h _ => ?_)
  rw [truncf_apply, truncf_apply, maximumf_apply, addf_apply, msg_matmul_apply, msg_bias_apply, broadcast_apply]
  rw [shapeCast_self]
  simp only [truncf_apply]
  rw [show (FloatOps.ofBits FTy.f32 0x00000000#32 : Ideal .f32) = 0 from Ideal.ofBits_zero_f32]

theorem k1_pay1_apply (x0 : Vec Ideal S4096x256 .bf16) (x1 : Vec Ideal S256x256 .f32) (x2 : Vec Ideal S256 .f32)
    (x3 : Vec Ideal S256x256 .f32) (x4 : Vec Ideal S256 .f32) (p : Fin 4096) (q : Fin 256) :
    k1_pay1 x0 x1 x2 x3 x4 (ix2 p q) = msgAt (E := 4096) x0 x1 x2 x3 x4 p q := by
  unfold k1_pay1 msgAt
  simp only [matmul]
  rw [addf_apply, msg_matmul_apply, msg_bias_apply]
  refine congrArg (· + x4 (ix1 q)) (Finset.sum_congr rfl fun h _ => ?_)
  rw [truncf_apply, truncf_apply, maximumf_apply, addf_apply, msg_matmul_apply, msg_bias_apply, broadcast_apply]
  rw [shapeCast_self]
  simp only [truncf_apply]
  rw [show (FloatOps.ofBits FTy.f32 0x00000000#32 : Ideal .f32) = 0 from Ideal.ofBits_zero_f32]

end Cert.KernelIdeal.Hand

end
-- ==== Proof.KI.Msg0Value.lean ====
/- The VALUE half of region 0 of @main at the ideal values: after the region, the message array (window 5's array)
   is the edge-message specification of the region's five input arrays, index by index. Each point writes back the
   block of the specification at the point (the payload at an index, with every input block read where the output's
   rectangle says), and the 32 row blocks tile the array. -/
import proofs.«108965_j35862976922239_2_alg».proof.Proof.KI.Msg0
import proofs.«108965_j35862976922239_2_alg».proof.Proof.KI.MsgPay
import Idealize.ShloMosaic.Lib.Pipeline.Value

set_option maxRecDepth 16384

noncomputable section

open scoped BigOperators

namespace Cert.KernelIdeal.Hand

open Cert.KernelIdeal Cert.KernelIdeal.Gen Cert.MsgSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem msg_hz2_r0 : (![0, 0] : Fin 2 → Nat) = fun _ => 0 := funext fun a => by fin_cases a <;> rfl
theorem msg_hz1_r0 : (![0] : Fin 1 → Nat) = fun _ => 0 := funext fun a => by fin_cases a <;> rfl

/-- One tile of messages is the specification's rows `r … r + 4095`: the payload of a tile whose feature block is
    those rows of `X`, at `j`, is the specification at the array index `i` that `j` is in the array. -/
theorem msg_tile0 (X : S131072x256.Idx → EReal) (W1 : S256x256.Idx → EReal) (b1 : S256.Idx → EReal)
    (W2 : S256x256.Idx → EReal) (b2 : S256.Idx → EReal) (x0 : S4096x256.Idx → EReal) (r : Nat)
    (hx0 : ∀ (p : Fin 4096) (k : Fin 256) (hr : r + p.val < 131072), x0 (ix2 p k) = X (ix2 ⟨r + p.val, hr⟩ k))
    (j : S4096x256.Idx) (i : S131072x256.Idx) (hi0 : (i 0).val = r + (j 0).val) (hi1 : (i 1).val = (j 1).val) :
    k0_pay1 (F := Ideal) x0 W1 b1 W2 b2 j = MsgG X W1 b1 W2 b2 i := by
  obtain ⟨p, q, rfl⟩ : ∃ (p : Fin 4096) (q : Fin 256), j = ix2 p q := ⟨j 0, j 1, eq_ix2 j⟩
  obtain ⟨e, q', rfl⟩ : ∃ (e : Fin 131072) (q' : Fin 256), i = ix2 e q' := ⟨i 0, i 1, eq_ix2 i⟩
  have hq : q' = q := Fin.ext hi1
  subst hq
  have he : ∀ k : Fin 256, x0 (ix2 p k) = X (ix2 e k) := fun k => by
    have hr : r + p.val < 131072 := by have := e.isLt; have h : e.val = r + p.val := hi0; omega
    rw [hx0 p k hr]
    exact congrArg (fun z => X (ix2 z k)) (Fin.ext (show r + p.val = e.val from hi0.symm))
  rw [k0_pay1_apply, MsgG_ix2]
  unfold msgAt
  simp only [he]

/-- The printed index maps, decided over the grid: the feature window and the message window are at row block `t`;
    the weights' and biases' windows stay at block 0. -/
theorem msg_idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- The weights' and biases' blocks are their whole arrays at every point. -/
theorem iblk0_1_eq (c : Dev nD) (t : Fin cfg0.N) : (iblk0 V c 1 t : S256x256.Idx → EReal) = V c (Pipeline.arrRef spec0 1) := by
  obtain ⟨-, -, -, -, e0, e1, -⟩ := msg_idx_facts0 t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega
theorem iblk0_2_eq (c : Dev nD) (t : Fin cfg0.N) : (iblk0 V c 2 t : S256.Idx → EReal) = V c (Pipeline.arrRef spec0 2) := by
  obtain ⟨-, -, -, -, -, -, e0, -⟩ := msg_idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 1) * 256 + 1 * (y 0).val = (y 0).val; omega
theorem iblk0_3_eq (c : Dev nD) (t : Fin cfg0.N) : (iblk0 V c 3 t : S256x256.Idx → EReal) = V c (Pipeline.arrRef spec0 3) := by
  obtain ⟨-, -, -, -, -, -, -, e0, e1, -⟩ := msg_idx_facts0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem iblk0_4_eq (c : Dev nD) (t : Fin cfg0.N) : (iblk0 V c 4 t : S256.Idx → EReal) = V c (Pipeline.arrRef spec0 4) := by
  obtain ⟨-, -, -, -, -, -, -, -, -, e0⟩ := msg_idx_facts0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 1) * 256 + 1 * (y 0).val = (y 0).val; omega

/-- The feature block at point `t` is rows `4096 t …` of the feature array. -/
theorem iblk0_0_apply (c : Dev nD) (t : Fin cfg0.N) (p : Fin 4096) (k : Fin 256) (hr : t.val * 4096 + p.val < 131072) :
    (iblk0 V c 0 t : S4096x256.Idx → EReal) (ix2 p k) = (V c (Pipeline.arrRef spec0 0) : S131072x256.Idx → EReal) (ix2 ⟨t.val * 4096 + p.val, hr⟩ k) := by
  obtain ⟨e0, e1, -⟩ := msg_idx_facts0 t
  show V c (Pipeline.arrRef spec0 0) (((cfg0.win 0).blk t).view.emb (ix2 p k)) = V c (Pipeline.arrRef spec0 0) (ix2 ⟨t.val * 4096 + p.val, hr⟩ k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * k.val = k.val; omega

/-- WHAT POINT `t` WRITES BACK is block `t` of the specification of the input arrays as the region finds them. -/
theorem flushed0_eq (c : Dev nD) (t : Fin cfg0.N) :
    (dat0 (F := Ideal) V c).flushed 5 t = ((cfg0.win 5).blk t).view.read (Elt Ideal)
      (MsgG (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero msg_hz2_r0]
  simp only [View.ld_unit_zero (S := S4096x256) msg_hz2_r0, View.ld_unit_zero (S := S256x256) msg_hz2_r0, View.ld_unit_zero (S := S256) msg_hz1_r0]
  rw [iblk0_1_eq, iblk0_2_eq, iblk0_3_eq, iblk0_4_eq]
  obtain ⟨-, -, e0, e1, -⟩ := msg_idx_facts0 t
  funext j
  show k0_pay1 (F := Ideal) (iblk0 V c 0 t) (V c (Pipeline.arrRef spec0 1)) (V c (Pipeline.arrRef spec0 2)) (V c (Pipeline.arrRef spec0 3)) (V c (Pipeline.arrRef spec0 4)) j
    = MsgG (V c (Pipeline.arrRef spec0 0)) (V c (Pipeline.arrRef spec0 1)) (V c (Pipeline.arrRef spec0 2)) (V c (Pipeline.arrRef spec0 3)) (V c (Pipeline.arrRef spec0 4)) (((cfg0.win 5).blk t).view.emb j)
  refine msg_tile0 _ _ _ _ _ _ (t.val * 4096) (fun p k hr => iblk0_0_apply V c t p k hr) j _ ?_ ?_
  · show win0_5.index t (0 : Fin 2) * 4096 + 1 * (j 0).val = t.val * 4096 + (j 0).val; omega
  · show win0_5.index t (1 : Fin 2) * 256 + 1 * (j 1).val = (j 1).val; omega

/-- An index of the message array is in point `t`'s block iff each coordinate is in the block's range on its axis. -/
theorem mem_blk0_5 (t : Fin cfg0.N) (i : S131072x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v20).slice (win0_5.rect t)).set ↔ _
  rw [View.set_slice_whole, Rect.mem_set_unit]
  exact Iff.rfl

/-- The 32 row blocks tile the message array: row `e` is in the block of point `e / 4096`. -/
theorem cover0_arr (i : S131072x256.Idx) : ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 4096 < cfg0.N := by show _ < grid0.N; rw [N_0]; omega
  refine ⟨⟨(i 0).val / 4096, hN⟩, flush0_5 _, ?_⟩
  obtain ⟨-, -, e0, e1, -⟩ := msg_idx_facts0 ⟨(i 0).val / 4096, hN⟩
  rw [mem_blk0_5]
  intro a
  match a with
  | ⟨0, _⟩ => show win0_5.index ⟨(i 0).val / 4096, hN⟩ (0 : Fin 2) * 4096 ≤ (i 0).val ∧ (i 0).val < win0_5.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win0_5.index ⟨(i 0).val / 4096, hN⟩ (1 : Fin 2) * 256 ≤ (i 1).val ∧ (i 1).val < win0_5.index ⟨(i 0).val / 4096, hN⟩ (1 : Fin 2) * 256 + 256; omega

/-- THE MESSAGE ARRAY after the region: the specification of the region's five input arrays. -/
theorem final0 (c : Dev nD) : (dat0 (F := Ideal) V c).arrAt 5 cfg0.N
    = MsgG (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed0_eq V c t) cover0_arr

end Cert.KernelIdeal.Hand

end
-- ==== Proof.KI.Msg1Value.lean ====
/- The VALUE half of region 1 of @main at the ideal values: after the region, the message array (window 5's array)
   is the edge-message specification of the region's five input arrays, index by index. Each point writes back the
   block of the specification at the point (the payload at an index, with every input block read where the output's
   rectangle says), and the 32 row blocks tile the array. -/
import proofs.«108965_j35862976922239_2_alg».proof.Proof.KI.Msg1
import proofs.«108965_j35862976922239_2_alg».proof.Proof.KI.MsgPay
import Idealize.ShloMosaic.Lib.Pipeline.Value

set_option maxRecDepth 16384

noncomputable section

open scoped BigOperators

namespace Cert.KernelIdeal.Hand

open Cert.KernelIdeal Cert.KernelIdeal.Gen Cert.MsgSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem msg_hz2_r1 : (![0, 0] : Fin 2 → Nat) = fun _ => 0 := funext fun a => by fin_cases a <;> rfl
theorem msg_hz1_r1 : (![0] : Fin 1 → Nat) = fun _ => 0 := funext fun a => by fin_cases a <;> rfl

/-- One tile of messages is the specification's rows `r … r + 4095`: the payload of a tile whose feature block is
    those rows of `X`, at `j`, is the specification at the array index `i` that `j` is in the array. -/
theorem msg_tile1 (X : S131072x256.Idx → EReal) (W1 : S256x256.Idx → EReal) (b1 : S256.Idx → EReal)
    (W2 : S256x256.Idx → EReal) (b2 : S256.Idx → EReal) (x0 : S4096x256.Idx → EReal) (r : Nat)
    (hx0 : ∀ (p : Fin 4096) (k : Fin 256) (hr : r + p.val < 131072), x0 (ix2 p k) = X (ix2 ⟨r + p.val, hr⟩ k))
    (j : S4096x256.Idx) (i : S131072x256.Idx) (hi0 : (i 0).val = r + (j 0).val) (hi1 : (i 1).val = (j 1).val) :
    k1_pay1 (F := Ideal) x0 W1 b1 W2 b2 j = MsgG X W1 b1 W2 b2 i := by
  obtain ⟨p, q, rfl⟩ : ∃ (p : Fin 4096) (q : Fin 256), j = ix2 p q := ⟨j 0, j 1, eq_ix2 j⟩
  obtain ⟨e, q', rfl⟩ : ∃ (e : Fin 131072) (q' : Fin 256), i = ix2 e q' := ⟨i 0, i 1, eq_ix2 i⟩
  have hq : q' = q := Fin.ext hi1
  subst hq
  have he : ∀ k : Fin 256, x0 (ix2 p k) = X (ix2 e k) := fun k => by
    have hr : r + p.val < 131072 := by have := e.isLt; have h : e.val = r + p.val := hi0; omega
    rw [hx0 p k hr]
    exact congrArg (fun z => X (ix2 z k)) (Fin.ext (show r + p.val = e.val from hi0.symm))
  rw [k1_pay1_apply, MsgG_ix2]
  unfold msgAt
  simp only [he]

/-- The printed index maps, decided over the grid: the feature window and the message window are at row block `t`;
    the weights' and biases' windows stay at block 0. -/
theorem msg_idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0 :=
  (by decide +kernel : ∀ t : Fin grid1.N, _)

/-- The weights' and biases' blocks are their whole arrays at every point. -/
theorem iblk1_1_eq (c : Dev nD) (t : Fin cfg1.N) : (iblk1 V c 1 t : S256x256.Idx → EReal) = V c (Pipeline.arrRef spec1 1) := by
  obtain ⟨-, -, -, -, e0, e1, -⟩ := msg_idx_facts1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega
theorem iblk1_2_eq (c : Dev nD) (t : Fin cfg1.N) : (iblk1 V c 2 t : S256.Idx → EReal) = V c (Pipeline.arrRef spec1 2) := by
  obtain ⟨-, -, -, -, -, -, e0, -⟩ := msg_idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 1) * 256 + 1 * (y 0).val = (y 0).val; omega
theorem iblk1_3_eq (c : Dev nD) (t : Fin cfg1.N) : (iblk1 V c 3 t : S256x256.Idx → EReal) = V c (Pipeline.arrRef spec1 3) := by
  obtain ⟨-, -, -, -, -, -, -, e0, e1, -⟩ := msg_idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega
theorem iblk1_4_eq (c : Dev nD) (t : Fin cfg1.N) : (iblk1 V c 4 t : S256.Idx → EReal) = V c (Pipeline.arrRef spec1 4) := by
  obtain ⟨-, -, -, -, -, -, -, -, -, e0⟩ := msg_idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 1) * 256 + 1 * (y 0).val = (y 0).val; omega

/-- The feature block at point `t` is rows `4096 t …` of the feature array. -/
theorem iblk1_0_apply (c : Dev nD) (t : Fin cfg1.N) (p : Fin 4096) (k : Fin 256) (hr : t.val * 4096 + p.val < 131072) :
    (iblk1 V c 0 t : S4096x256.Idx → EReal) (ix2 p k) = (V c (Pipeline.arrRef spec1 0) : S131072x256.Idx → EReal) (ix2 ⟨t.val * 4096 + p.val, hr⟩ k) := by
  obtain ⟨e0, e1, -⟩ := msg_idx_facts1 t
  show V c (Pipeline.arrRef spec1 0) (((cfg1.win 0).blk t).view.emb (ix2 p k)) = V c (Pipeline.arrRef spec1 0) (ix2 ⟨t.val * 4096 + p.val, hr⟩ k)
  refine congrArg _ (funext fun a => Fin.ext ?_)
  match a with
  | ⟨0, _⟩ => show win1_0.index t (0 : Fin 2) * 4096 + 1 * p.val = t.val * 4096 + p.val; omega
  | ⟨1, _⟩ => show win1_0.index t (1 : Fin 2) * 256 + 1 * k.val = k.val; omega

/-- WHAT POINT `t` WRITES BACK is block `t` of the specification of the input arrays as the region finds them. -/
theorem flushed1_eq (c : Dev nD) (t : Fin cfg1.N) :
    (dat1 (F := Ideal) V c).flushed 5 t = ((cfg1.win 5).blk t).view.read (Elt Ideal)
      (MsgG (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero msg_hz2_r1]
  simp only [View.ld_unit_zero (S := S4096x256) msg_hz2_r1, View.ld_unit_zero (S := S256x256) msg_hz2_r1, View.ld_unit_zero (S := S256) msg_hz1_r1]
  rw [iblk1_1_eq, iblk1_2_eq, iblk1_3_eq, iblk1_4_eq]
  obtain ⟨-, -, e0, e1, -⟩ := msg_idx_facts1 t
  funext j
  show k1_pay1 (F := Ideal) (iblk1 V c 0 t) (V c (Pipeline.arrRef spec1 1)) (V c (Pipeline.arrRef spec1 2)) (V c (Pipeline.arrRef spec1 3)) (V c (Pipeline.arrRef spec1 4)) j
    = MsgG (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  refine msg_tile1 _ _ _ _ _ _ (t.val * 4096) (fun p k hr => iblk1_0_apply V c t p k hr) j _ ?_ ?_
  · show win1_5.index t (0 : Fin 2) * 4096 + 1 * (j 0).val = t.val * 4096 + (j 0).val; omega
  · show win1_5.index t (1 : Fin 2) * 256 + 1 * (j 1).val = (j 1).val; omega

/-- An index of the message array is in point `t`'s block iff each coordinate is in the block's range on its axis. -/
theorem mem_blk1_5 (t : Fin cfg1.N) (i : S131072x256.Idx) :
    i ∈ ((cfg1.win 5).blk t).view.set ↔ ∀ a : Fin 2, win1_5.index t a * S4096x256.size a ≤ (i a).val ∧ (i a).val < win1_5.index t a * S4096x256.size a + S4096x256.size a := by
  show i ∈ ((View.whole main_v44).slice (win1_5.rect t)).set ↔ _
  rw [View.set_slice_whole, Rect.mem_set_unit]
  exact Iff.rfl

/-- The 32 row blocks tile the message array: row `e` is in the block of point `e / 4096`. -/
theorem cover1_arr (i : S131072x256.Idx) : ∃ t : Fin cfg1.N, (cfg1.win 5).flush t = true ∧ i ∈ ((cfg1.win 5).blk t).view.set := by
  have hi0 : (i 0).val < 131072 := (i 0).isLt
  have hi1 : (i 1).val < 256 := (i 1).isLt
  have hN : (i 0).val / 4096 < cfg1.N := by show _ < grid1.N; rw [N_1]; omega
  refine ⟨⟨(i 0).val / 4096, hN⟩, flush1_5 _, ?_⟩
  obtain ⟨-, -, e0, e1, -⟩ := msg_idx_facts1 ⟨(i 0).val / 4096, hN⟩
  rw [mem_blk1_5]
  intro a
  match a with
  | ⟨0, _⟩ => show win1_5.index ⟨(i 0).val / 4096, hN⟩ (0 : Fin 2) * 4096 ≤ (i 0).val ∧ (i 0).val < win1_5.index ⟨(i 0).val / 4096, hN⟩ (0 : Fin 2) * 4096 + 4096; rw [e0]; show (i 0).val / 4096 * 4096 ≤ (i 0).val ∧ (i 0).val < (i 0).val / 4096 * 4096 + 4096; omega
  | ⟨1, _⟩ => show win1_5.index ⟨(i 0).val / 4096, hN⟩ (1 : Fin 2) * 256 ≤ (i 1).val ∧ (i 1).val < win1_5.index ⟨(i 0).val / 4096, hN⟩ (1 : Fin 2) * 256 + 256; omega

/-- THE MESSAGE ARRAY after the region: the specification of the region's five input arrays. -/
theorem final1 (c : Dev nD) : (dat1 (F := Ideal) V c).arrAt 5 cfg1.N
    = MsgG (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1_arr

end Cert.KernelIdeal.Hand

end
-- ==== Proof.KI.Attn2Pieces.lean ====
/- Region 2 of @main (the masked attention kernel with an online softmax): what each of the body's three cases leaves in
   the three carried scratch buffers and (at key tile 3) in the output window's buffer, as the skeleton's payloads of
   the point's four input blocks and of what the point before left. Generic in the float instance. -/
import proofs.«108965_j35862976922239_2_alg».proof.Proof.KI.Attn2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores' offsets are all zero. -/
theorem hz2 : (![0, 0] : Fin 2 → ℕ) = fun _ => 0 := by funext a; fin_cases a <;> rfl

/-- At key tile 0 (after the reset: from −∞, 0, 0) the body leaves in the running maximum's buffer the skeleton's payload of the point's four input blocks. -/
theorem sout2_A_0_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) :
    sout2_A_0 c i arg2 harg2 arg3 harg3 arg4 harg4 arg5 harg5 arg6 harg6 arg7 harg7 arg8 harg8 arg9 harg9 hc0 hc1 x0 x1 x2 x3 = k2_pay2 (k2_pay9 x0 x1 x2 x3 (k2_pay4 (F := F))) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3)]
  unfold kernelRun2_A; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 0 (after the reset: from −∞, 0, 0) the body leaves in the running sum's buffer the skeleton's payload of the point's four input blocks. -/
theorem sout2_A_1_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) :
    sout2_A_1 c i arg2 harg2 arg3 harg3 arg4 harg4 arg5 harg5 arg6 harg6 arg7 harg7 arg8 harg8 arg9 harg9 hc0 hc1 x0 x1 x2 x3 = k2_pay12 x0 x1 x2 x3 (k2_pay4 (F := F)) (k2_pay4 (F := F)) (k2_pay5 (F := F)) := by
  unfold sout2_A_1
  rw [View.read_writes_eq_canon _ _ _ (scover2_A_1 c i arg2 harg2 arg3 harg3 arg4 harg4 arg5 harg5 arg6 harg6 arg7 harg7 arg8 harg8 arg9 harg9 hc0 hc1 x0 x1 x2 x3)]
  unfold kernelRun2_A; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 0 (after the reset: from −∞, 0, 0) the body leaves in the running weighted sum's buffer the skeleton's payload of the point's four input blocks. -/
theorem sout2_A_2_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond2_0 i) (hc1 : ¬cond2_1 i)
    (x0 : Vec F S1024x128 .f32) (x1 : Vec F S2048x128 .f32) (x2 : Vec F S1024x1 .i32) (x3 : Vec F S1x2048 .i32) :
    sout2_A_2 c i arg2 harg2 arg3 harg3 arg4 harg4 arg5 harg5 arg6 harg6 arg7 harg7 arg8 harg8 arg9 harg9 hc0 hc1 x0 x1 x2 x3 = k2_pay1 (k2_pay7 x1) (k2_pay10 x0 x1 x2 x3 (k2_pay4 (F := F)) (k2_pay4 (F := F))) (k2_pay11 x0 x1 x2 x3 (k2_pay4 (F := F))) (k2_pay6 (F := F)) := by
  unfold sout2_A_2
  rw [View.read_writes_eq_canon _ _ _ (scover2_A_2 c i arg2 harg2 arg3 harg3 arg4 harg4 arg5 harg5 arg6 harg6 arg7 harg7 arg8 harg8 arg9 harg9 hc0 hc1 x0 x1 x2 x3)]
  unfold kernelRun2_A; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tiles 1 and 2 the body leaves in the running maximum's buffer the skeleton's payload of the point's four input blocks and what the point before left. -/
theorem sout2_B_0_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_B_0 c i arg2 harg2 arg3 harg3 arg4 harg4 arg5 harg5 arg6 harg6 arg7 harg7 arg8 harg8 arg9 harg9 hc0 hc1 x0 x1 x2 x3 xs0 xs1 xs2 = k2_pay2 (k2_pay9 x0 x1 x2 x3 xs0) := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 xs0 xs1 xs2)]
  unfold kernelRun2_B; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tiles 1 and 2 the body leaves in the running sum's buffer the skeleton's payload of the point's four input blocks and what the point before left. -/
theorem sout2_B_1_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_B_1 c i arg2 harg2 arg3 harg3 arg4 harg4 arg5 harg5 arg6 harg6 arg7 harg7 arg8 harg8 arg9 harg9 hc0 hc1 x0 x1 x2 x3 xs0 xs1 xs2 = k2_pay12 x0 x1 x2 x3 xs0 xs0 xs1 := by
  unfold sout2_B_1
  rw [View.read_writes_eq_canon _ _ _ (scover2_B_1 c i arg2 harg2 arg3 harg3 arg4 harg4 arg5 harg5 arg6 harg6 arg7 harg7 arg8 harg8 arg9 harg9 hc0 hc1 x0 x1 x2 x3 xs0 xs1 xs2)]
  unfold kernelRun2_B; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tiles 1 and 2 the body leaves in the running weighted sum's buffer the skeleton's payload of the point's four input blocks and what the point before left. -/
theorem sout2_B_2_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : ¬cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_B_2 c i arg2 harg2 arg3 harg3 arg4 harg4 arg5 harg5 arg6 harg6 arg7 harg7 arg8 harg8 arg9 harg9 hc0 hc1 x0 x1 x2 x3 xs0 xs1 xs2 = k2_pay1 (k2_pay7 x1) (k2_pay10 x0 x1 x2 x3 xs0 xs0) (k2_pay11 x0 x1 x2 x3 xs0) xs2 := by
  unfold sout2_B_2
  rw [View.read_writes_eq_canon _ _ _ (scover2_B_2 c i arg2 harg2 arg3 harg3 arg4 harg4 arg5 harg5 arg6 harg6 arg7 harg7 arg8 harg8 arg9 harg9 hc0 hc1 x0 x1 x2 x3 xs0 xs1 xs2)]
  unfold kernelRun2_B; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 3 the body leaves in the running maximum's buffer the skeleton's payload of the point's four input blocks and what the point before left. -/
theorem sout2_C_0_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_C_0 c i arg2 harg2 arg3 harg3 arg4 harg4 arg5 harg5 arg6 harg6 arg7 harg7 arg8 harg8 arg9 harg9 hc0 hc1 x0 x1 x2 x3 xs0 xs1 xs2 = k2_pay2 (k2_pay9 x0 x1 x2 x3 xs0) := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 xs0 xs1 xs2)]
  unfold kernelRun2_C; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 3 the body leaves in the running sum's buffer the skeleton's payload of the point's four input blocks and what the point before left. -/
theorem sout2_C_1_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_C_1 c i arg2 harg2 arg3 harg3 arg4 harg4 arg5 harg5 arg6 harg6 arg7 harg7 arg8 harg8 arg9 harg9 hc0 hc1 x0 x1 x2 x3 xs0 xs1 xs2 = k2_pay12 x0 x1 x2 x3 xs0 xs0 xs1 := by
  unfold sout2_C_1
  rw [View.read_writes_eq_canon _ _ _ (scover2_C_1 c i arg2 harg2 arg3 harg3 arg4 harg4 arg5 harg5 arg6 harg6 arg7 harg7 arg8 harg8 arg9 harg9 hc0 hc1 x0 x1 x2 x3 xs0 xs1 xs2)]
  unfold kernelRun2_C; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 3 the body leaves in the running weighted sum's buffer the skeleton's payload of the point's four input blocks and what the point before left. -/
theorem sout2_C_2_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout2_C_2 c i arg2 harg2 arg3 harg3 arg4 harg4 arg5 harg5 arg6 harg6 arg7 harg7 arg8 harg8 arg9 harg9 hc0 hc1 x0 x1 x2 x3 xs0 xs1 xs2 = k2_pay1 (k2_pay7 x1) (k2_pay10 x0 x1 x2 x3 xs0 xs0) (k2_pay11 x0 x1 x2 x3 xs0) xs2 := by
  unfold sout2_C_2
  rw [View.read_writes_eq_canon _ _ _ (scover2_C_2 c i arg2 harg2 arg3 harg3 arg4 harg4 arg5 harg5 arg6 harg6 arg7 harg7 arg8 harg8 arg9 harg9 hc0 hc1 x0 x1 x2 x3 xs0 xs1 xs2)]
  unfold kernelRun2_C; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

/-- At key tile 3 the body leaves in the output window's buffer the normalised weighted sum: the skeleton's last payload of
    the new running weighted sum and the new running sum. -/
theorem out2_C_4_eq (c : Dev nD) (i : grid2.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond2_0 i) (hc1 : cond2_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    out2_C_4 c i arg2 harg2 arg3 harg3 arg4 harg4 arg5 harg5 arg6 harg6 arg7 harg7 arg8 harg8 arg9 harg9 hc0 hc1 x0 x1 x2 x3 xs0 xs1 xs2 = k2_pay3 (k2_pay1 (k2_pay7 x1) (k2_pay10 x0 x1 x2 x3 xs0 xs0) (k2_pay11 x0 x1 x2 x3 xs0) xs2) (k2_pay12 x0 x1 x2 x3 xs0 xs0 xs1) := by
  unfold out2_C_4
  rw [View.read_writes_eq_canon _ _ _ (cover2_C_4 c i arg2 harg2 arg3 harg3 arg4 harg4 arg5 harg5 arg6 harg6 arg7 harg7 arg8 harg8 arg9 harg9 hc0 hc1 x0 x1 x2 x3 xs0 xs1 xs2)]
  unfold kernelRun2_C; dsimp only
  sl_unfold_words
  simp only [View.readAt_eq_ld, harg2.read_unread, harg3.read_unread, harg4.read_unread, harg5.read_unread, harg7.read_unread, harg8.read_unread, harg9.read_unread,
    View.ld_unit_zero (S := S1024x128) hz2, View.ld_unit_zero (S := S2048x128) hz2, View.ld_unit_zero (S := S1024x1) hz2, View.ld_unit_zero (S := S1x2048) hz2,
    View.readCov_unit_zero (S := S1024x1) arg7.view hz2, View.readCov_unit_zero (S := S1024x1) arg8.view hz2, View.readCov_unit_zero (S := S1024x128) arg9.view hz2,
    View.canon_cons_unit_zero (S := S1024x1) hz2, View.canon_cons_unit_zero (S := S1024x128) hz2, View.canon_unit_zero (S := S1024x1) hz2, View.canon_unit_zero (S := S1024x128) hz2]

end Cert.KernelIdeal.Hand

end
-- ==== Proof.KI.Attn2Pay.lean ====
/- The attention kernel's payloads at the ideal values, read at explicit coordinates of a tile: the masked scores of a
   1024-row query tile against a 2048-row key tile, the running maximum, the rescaling factor, the shifted exponentials,
   the running sum, the running weighted sum and the final quotient. -/
import proofs.«108965_j35862976922239_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

namespace Attn2

local notation "DQK" => dot_S1024x128_S2048x128_S1024x2048_1_1_0_0_n_n
local notation "DPV" => dot_S1024x2048_S2048x128_S1024x128_1_0_0_1_n_n

/-! ## Layout operations at a tile's coordinates -/

/-- A column laid along every lane of a [1024,128] tile. -/
theorem col128 {α : Type} (v : S1024x1.Idx → α) (r : Fin 1024) (d : Fin 128) :
    broadcastTo S1024x128 v broadcasts_S1024x1_S1024x128 (ix2 r d) = v (ix2 r (0 : Fin 1)) :=
  broadcastTo_apply v broadcasts_S1024x1_S1024x128 (ix2 r d) (ix2 r (0 : Fin 1)) (by
    intro a
    match a with
    | ⟨0, _⟩ => rfl
    | ⟨1, _⟩ => rfl)

/-- A column laid along every lane of a [1024,2048] tile. -/
theorem col2048 {α : Type} (v : S1024x1.Idx → α) (r : Fin 1024) (j : Fin 2048) :
    broadcastTo S1024x2048 v broadcasts_S1024x1_S1024x2048 (ix2 r j) = v (ix2 r (0 : Fin 1)) :=
  broadcastTo_apply v broadcasts_S1024x1_S1024x2048 (ix2 r j) (ix2 r (0 : Fin 1)) (by
    intro a
    match a with
    | ⟨0, _⟩ => rfl
    | ⟨1, _⟩ => rfl)

/-- A row laid along every sublane of a [1024,2048] tile. -/
theorem row2048 {α : Type} (w : S1x2048.Idx → α) (r : Fin 1024) (j : Fin 2048) :
    broadcastTo S1024x2048 w broadcasts_S1x2048_S1024x2048 (ix2 r j) = w (ix2 (0 : Fin 1) j) :=
  broadcastTo_apply w broadcasts_S1x2048_S1024x2048 (ix2 r j) (ix2 (0 : Fin 1) j) (by
    intro a
    match a with
    | ⟨0, _⟩ => rfl
    | ⟨1, _⟩ => rfl)

/-- A vector of 1024 entries reshaped to a column. -/
theorem toCol {α : Type} (v : S1024.Idx → α) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_two, Shape.rowMajor_val_one]; show r.val = r.val * 1 + 0; omega)

/-- Row `r` of the tile with the reduced lane coordinate put back. -/
theorem lift_row (r : Fin 1024) (k : Fin (S1024x2048.size 1)) :
    reduces_S1024x2048_S1024.lift (ix1 r) k = ix2 r (⟨k.val, k.isLt⟩ : Fin 2048) := by
  funext c; apply Fin.ext
  fin_cases c <;> rfl

/-! ## The two tile products -/

theorem qk_lhs0 (i : S1024x2048.Idx) (k : (DQK).contr.Idx) : ((DQK).lhsIdx i k 0).val = (i 0).val := by
  unfold DotDims.lhsIdx
  rw [dif_neg (show ¬(0 : Fin S1024x128.rank) ∈ (DQK).lhsBatch by decide), dif_pos (show (0 : Fin S1024x128.rank) ∈ (DQK).lhsNonContracting by decide)]
  rfl
theorem qk_lhs1 (i : S1024x2048.Idx) (k : (DQK).contr.Idx) : ((DQK).lhsIdx i k 1).val = (k ⟨0, by decide⟩).val :=
  (DQK).lhsIdx_val_of_single rfl i k
theorem qk_rhs0 (i : S1024x2048.Idx) (k : (DQK).contr.Idx) : ((DQK).rhsIdx i k 0).val = (i 1).val := by
  unfold DotDims.rhsIdx
  rw [dif_neg (show ¬(0 : Fin S2048x128.rank) ∈ (DQK).rhsBatch by decide), dif_pos (show (0 : Fin S2048x128.rank) ∈ (DQK).rhsNonContracting by decide)]
  rfl
theorem qk_rhs1 (i : S1024x2048.Idx) (k : (DQK).contr.Idx) : ((DQK).rhsIdx i k 1).val = (k ⟨0, by decide⟩).val :=
  (DQK).rhsIdx_val_of_single rfl i k

/-- The query-by-key tile product into the zero splat, at query row `r`, key row `j`: the contraction over the 128
    features. -/
theorem qk_apply {φ₁ φ₂ : FTy} (A : FVec Ideal S1024x128 φ₁) (B : FVec Ideal S2048x128 φ₂) (r : Fin 1024) (j : Fin 2048) :
    FloatOps.matmul (DQK) none A B (constant S1024x2048 .f32 0x00000000#32) (ix2 r j) = ∑ k : Fin 128, A (ix2 r k) * B (ix2 j k) := by
  rw [Ideal.matmul_constant_zero_apply, ← Equiv.sum_comp (contrEquiv1 (DQK) 128 rfl rfl).symm]
  refine Finset.sum_congr rfl fun k _ => ?_
  have hk := contrEquiv1_symm_val (DQK) 128 rfl rfl k
  have el : (DQK).lhsIdx (ix2 r j) ((contrEquiv1 (DQK) 128 rfl rfl).symm k) = ix2 r k := funext fun a => Fin.ext (by
    match a with
    | ⟨0, _⟩ => exact qk_lhs0 _ _
    | ⟨1, _⟩ => exact (qk_lhs1 _ _).trans hk)
  have er : (DQK).rhsIdx (ix2 r j) ((contrEquiv1 (DQK) 128 rfl rfl).symm k) = ix2 j k := funext fun a => Fin.ext (by
    match a with
    | ⟨0, _⟩ => exact qk_rhs0 _ _
    | ⟨1, _⟩ => exact (qk_rhs1 _ _).trans hk)
  rw [el, er]

theorem pv_lhs0 (i : S1024x128.Idx) (k : (DPV).contr.Idx) : ((DPV).lhsIdx i k 0).val = (i 0).val := by
  unfold DotDims.lhsIdx
  rw [dif_neg (show ¬(0 : Fin S1024x2048.rank) ∈ (DPV).lhsBatch by decide), dif_pos (show (0 : Fin S1024x2048.rank) ∈ (DPV).lhsNonContracting by decide)]
  rfl
theorem pv_lhs1 (i : S1024x128.Idx) (k : (DPV).contr.Idx) : ((DPV).lhsIdx i k 1).val = (k ⟨0, by decide⟩).val :=
  (DPV).lhsIdx_val_of_single rfl i k
theorem pv_rhs0 (i : S1024x128.Idx) (k : (DPV).contr.Idx) : ((DPV).rhsIdx i k 0).val = (k ⟨0, by decide⟩).val :=
  (DPV).rhsIdx_val_of_single rfl i k
theorem pv_rhs1 (i : S1024x128.Idx) (k : (DPV).contr.Idx) : ((DPV).rhsIdx i k 1).val = (i 1).val := by
  unfold DotDims.rhsIdx
  rw [dif_neg (show ¬(1 : Fin S2048x128.rank) ∈ (DPV).rhsBatch by decide), dif_pos (show (1 : Fin S2048x128.rank) ∈ (DPV).rhsNonContracting by decide)]
  rfl

/-- The weights-by-values tile product into the zero splat, at query row `r`, feature `d`: the contraction over the
    2048 key rows. -/
theorem pv_apply {φ₁ φ₂ : FTy} (A : FVec Ideal S1024x2048 φ₁) (B : FVec Ideal S2048x128 φ₂) (r : Fin 1024) (d : Fin 128) :
    FloatOps.matmul (DPV) none A B (constant S1024x128 .f32 0x00000000#32) (ix2 r d) = ∑ j : Fin 2048, A (ix2 r j) * B (ix2 j d) := by
  rw [Ideal.matmul_constant_zero_apply, ← Equiv.sum_comp (contrEquiv1 (DPV) 2048 rfl rfl).symm]
  refine Finset.sum_congr rfl fun k _ => ?_
  have hk := contrEquiv1_symm_val (DPV) 2048 rfl rfl k
  have el : (DPV).lhsIdx (ix2 r d) ((contrEquiv1 (DPV) 2048 rfl rfl).symm k) = ix2 r k := funext fun a => Fin.ext (by
    match a with
    | ⟨0, _⟩ => exact pv_lhs0 _ _
    | ⟨1, _⟩ => exact (pv_lhs1 _ _).trans hk)
  have er : (DPV).rhsIdx (ix2 r d) ((contrEquiv1 (DPV) 2048 rfl rfl).symm k) = ix2 k d := funext fun a => Fin.ext (by
    match a with
    | ⟨0, _⟩ => exact (pv_rhs0 _ _).trans hk
    | ⟨1, _⟩ => exact pv_rhs1 _ _)
  rw [el, er]

/-! ## The payloads -/

/-- The masked score of query row `r` of the tile against key row `j` of the tile. -/
def tscore (x0 : Vec Ideal S1024x128 .f32) (x1 : Vec Ideal S2048x128 .f32) (x2 : Vec Ideal S1024x1 .i32) (x3 : Vec Ideal S1x2048 .i32)
    (r : Fin 1024) (j : Fin 2048) : EReal :=
  Scalar.select (IntOp.cmpi .eq (x2 (ix2 r (0 : Fin 1))) (x3 (ix2 (0 : Fin 1) j))) (∑ k : Fin 128, x0 (ix2 r k) * x1 (ix2 j k))
    (Ideal.ofBits .f32 0xF149F2CA#32)

/-- The score tile. -/
theorem pay8_apply (x0 : Vec Ideal S1024x128 .f32) (x1 : Vec Ideal S2048x128 .f32) (x2 : Vec Ideal S1024x1 .i32) (x3 : Vec Ideal S1x2048 .i32)
    (r : Fin 1024) (j : Fin 2048) : k2_pay8 x0 x1 x2 x3 (ix2 r j) = tscore x0 x1 x2 x3 r j := by
  unfold k2_pay8 k2_pay7 tscore
  simp only [matmul]
  rw [select_apply, qk_apply, broadcast_apply]
  simp only [truncf_apply]
  show Scalar.select (IntOp.cmpi .eq (broadcastTo S1024x2048 (shapeCast S1024x1 x2 shapeCasts_S1024x1_S1024x1) broadcasts_S1024x1_S1024x2048 (ix2 r j))
      (broadcastTo S1024x2048 (shapeCast S1x2048 x3 shapeCasts_S1x2048_S1x2048) broadcasts_S1x2048_S1024x2048 (ix2 r j))) _ _ = _
  rw [col2048, row2048, shapeCast_self, shapeCast_self]
  rfl

/-- The new running maximum of row `r`: the old one joined with the maximum of the row's scores (folded from -∞). -/
theorem pay9_apply (x0 : Vec Ideal S1024x128 .f32) (x1 : Vec Ideal S2048x128 .f32) (x2 : Vec Ideal S1024x1 .i32) (x3 : Vec Ideal S1x2048 .i32)
    (sm : Vec Ideal S1024x1 .f32) (r : Fin 1024) :
    k2_pay9 x0 x1 x2 x3 sm (ix2 r (0 : Fin 1))
      = max (sm (ix2 r (0 : Fin 1))) (Finset.univ.fold max ⊥ (fun j : Fin 2048 => tscore x0 x1 x2 x3 r j)) := by
  unfold k2_pay9
  rw [maximumf_apply, toCol]
  refine congrArg (max (sm (ix2 r (0 : Fin 1)))) ?_
  refine (Ideal.multiReduction_maximumf_single (k2_pay8 x0 x1 x2 x3) 0xFF800000#32 reduces_S1024x2048_S1024 (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  rw [hb]
  refine congrArg (fun f => Finset.fold max (⊥ : EReal) f (Finset.univ : Finset (Fin 2048))) (funext fun j => ?_)
  show k2_pay8 x0 x1 x2 x3 (reduces_S1024x2048_S1024.lift (ix1 r) j) = _
  rw [lift_row]
  exact pay8_apply x0 x1 x2 x3 r j

/-- The rescaling factor of row `r`: the exponential of (old maximum - new maximum). -/
theorem pay10_apply (x0 : Vec Ideal S1024x128 .f32) (x1 : Vec Ideal S2048x128 .f32) (x2 : Vec Ideal S1024x1 .i32) (x3 : Vec Ideal S1x2048 .i32)
    (sm sm' : Vec Ideal S1024x1 .f32) (r : Fin 1024) :
    k2_pay10 x0 x1 x2 x3 sm sm' (ix2 r (0 : Fin 1))
      = Ideal.exp (sm' (ix2 r (0 : Fin 1)) - k2_pay9 x0 x1 x2 x3 sm (ix2 r (0 : Fin 1))) := rfl

/-- The shifted exponential of the score at (r, j). -/
theorem pay11_apply (x0 : Vec Ideal S1024x128 .f32) (x1 : Vec Ideal S2048x128 .f32) (x2 : Vec Ideal S1024x1 .i32) (x3 : Vec Ideal S1x2048 .i32)
    (sm : Vec Ideal S1024x1 .f32) (r : Fin 1024) (j : Fin 2048) :
    k2_pay11 x0 x1 x2 x3 sm (ix2 r j)
      = Ideal.exp (tscore x0 x1 x2 x3 r j - k2_pay9 x0 x1 x2 x3 sm (ix2 r (0 : Fin 1))) := by
  unfold k2_pay11
  show Ideal.exp (k2_pay8 x0 x1 x2 x3 (ix2 r j) - broadcastTo S1024x2048 (k2_pay9 x0 x1 x2 x3 sm) broadcasts_S1024x1_S1024x2048 (ix2 r j)) = _
  rw [col2048, pay8_apply]

/-- The new running sum of row `r`: the rescaled old one plus the row's sum of shifted exponentials. -/
theorem pay12_apply (x0 : Vec Ideal S1024x128 .f32) (x1 : Vec Ideal S2048x128 .f32) (x2 : Vec Ideal S1024x1 .i32) (x3 : Vec Ideal S1x2048 .i32)
    (sm sm' sl : Vec Ideal S1024x1 .f32) (r : Fin 1024) :
    k2_pay12 x0 x1 x2 x3 sm sm' sl (ix2 r (0 : Fin 1))
      = k2_pay10 x0 x1 x2 x3 sm sm' (ix2 r (0 : Fin 1)) * sl (ix2 r (0 : Fin 1))
          + ∑ j : Fin 2048, k2_pay11 x0 x1 x2 x3 sm (ix2 r j) := by
  unfold k2_pay12
  rw [shapeCast_self, addf_apply, mulf_apply, toCol]
  refine congrArg (fun z : EReal => k2_pay10 x0 x1 x2 x3 sm sm' (ix2 r (0 : Fin 1)) * sl (ix2 r (0 : Fin 1)) + z) ?_
  refine (Ideal.multiReduction_add_single (k2_pay11 x0 x1 x2 x3 sm) 0x00000000#32 reduces_S1024x2048_S1024 (.inl rfl) rfl (ix1 r)).trans ?_
  exact Finset.sum_congr rfl fun j _ => by rw [lift_row]; rfl

/-- The new running weighted sum at (r, d): the rescaled old one plus the weights contracted with the key tile's column. -/
theorem pay1_apply (x1 : Vec Ideal S2048x128 .f32) (a : FVec Ideal S1024x1 .f32) (p : FVec Ideal S1024x2048 .f32)
    (acc : Vec Ideal S1024x128 .f32) (r : Fin 1024) (d : Fin 128) :
    k2_pay1 (k2_pay7 x1) a p acc (ix2 r d)
      = a (ix2 r (0 : Fin 1)) * acc (ix2 r d) + ∑ j : Fin 2048, p (ix2 r j) * x1 (ix2 j d) := by
  unfold k2_pay1 k2_pay7
  simp only [matmul]
  rw [shapeCast_self, addf_apply, mulf_apply, col128, pv_apply]
  simp only [truncf_apply]

/-- The final quotient at (r, d). -/
theorem pay3_apply (acc : Vec Ideal S1024x128 .f32) (l : Vec Ideal S1024x1 .f32) (r : Fin 1024) (d : Fin 128) :
    k2_pay3 acc l (ix2 r d) = Ideal.div (acc (ix2 r d)) (l (ix2 r (0 : Fin 1))) := by
  unfold k2_pay3
  rw [divf_apply, col128]

theorem pay2_eq {F : FTy → Type} [FloatOps F] (v : FVec F S1024x1 .f32) : k2_pay2 v = v := by
  unfold k2_pay2
  exact shapeCast_self v _

/-- The reset values: -∞, 0, 0. -/
theorem pay4_apply (i : S1024x1.Idx) : (k2_pay4 (F := Ideal)) i = ⊥ := by
  unfold k2_pay4
  rw [shapeCast_self, broadcast_apply]
  show Ideal.ofBits .f32 0xFF800000#32 = ⊥
  simp [Ideal.ofBits, Ideal.ieee]

theorem pay5_apply (i : S1024x1.Idx) : (k2_pay5 (F := Ideal)) i = 0 := by
  unfold k2_pay5
  rw [shapeCast_self, broadcast_apply]
  exact Ideal.ofBits_zero_f32

theorem pay6_apply (i : S1024x128.Idx) : (k2_pay6 (F := Ideal)) i = 0 := by
  unfold k2_pay6
  rw [shapeCast_self, broadcast_apply]
  exact Ideal.ofBits_zero_f32

end Attn2

end Cert.KernelIdeal.Hand

end
-- ==== Proof.LibSoftmaxShift.lean ====
/-
  The algebra behind a softmax-weighted sum, on the extended reals.

  For real scores σ d and real features φ d over a finite nonempty index type, and any real shift μ,

      ∑ d, (exp (σ d - μ) / ∑ d', exp (σ d' - μ)) · φ d  =  (∑ d, exp (σ d) · φ d) / (∑ d, exp (σ d)) :

  the shift multiplies numerator and denominator of every weight by the same positive number exp (-μ), and the common
  positive denominator leaves the sum. The same identity is then read on the extended reals, where exp, the quotient and
  the sums are the exact operations of the ideal float values, for entries that are real numbers; and the maximum of
  finitely many real numbers, folded from -∞, is a real number, so it may serve as the shift.
-/
import Idealize.ShloMosaic.PureOps.Ideal

noncomputable section

namespace Cert.SoftmaxLaw

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The shifted softmax weights sum the features to the unshifted quotient, over the reals. -/
theorem real_shift {ι : Type*} [Fintype ι] [Nonempty ι] (σ φ : ι → ℝ) (μ : ℝ) :
    ∑ d, Real.exp (σ d - μ) / (∑ d', Real.exp (σ d' - μ)) * φ d
      = (∑ d, Real.exp (σ d) * φ d) / (∑ d, Real.exp (σ d)) := by
  have hZ : 0 < ∑ d, Real.exp (σ d) := Finset.sum_pos (fun d _ => Real.exp_pos _) Finset.univ_nonempty
  have hμ : 0 < Real.exp μ := Real.exp_pos μ
  have hden : ∑ d', Real.exp (σ d' - μ) = (∑ d', Real.exp (σ d')) / Real.exp μ := by
    rw [Finset.sum_div Finset.univ (fun d' => Real.exp (σ d')) (Real.exp μ)]
    exact Finset.sum_congr rfl fun d _ => Real.exp_sub _ _
  rw [hden, Finset.sum_div Finset.univ (fun d => Real.exp (σ d) * φ d) (∑ d, Real.exp (σ d))]
  refine Finset.sum_congr rfl fun d _ => ?_
  rw [Real.exp_sub]
  field_simp

/-- The sum of exponentials of real scores is a positive real, in particular not zero. -/
theorem sum_exp_ne_zero {ι : Type*} [Fintype ι] [Nonempty ι] (σ : ι → ℝ) : (∑ d, Real.exp (σ d)) ≠ 0 :=
  ne_of_gt (Finset.sum_pos (fun d _ => Real.exp_pos _) Finset.univ_nonempty)

/-- The identity on the extended reals: for scores, features and a shift that are real numbers, the sum from zero of
    the shifted weights (each the exponential over the sum from zero of the exponentials) times the features is the
    quotient of the two unshifted sums. -/
theorem shift {ι : Type*} [Fintype ι] [Nonempty ι] (s f : ι → EReal) (M : EReal) (σ φ : ι → ℝ) (μ : ℝ)
    (hs : ∀ d, s d = (σ d : EReal)) (hf : ∀ d, f d = (φ d : EReal)) (hM : M = (μ : EReal)) :
    (0 : EReal) + ∑ d, Ideal.div (Ideal.exp (s d - M)) (0 + ∑ d', Ideal.exp (s d' - M)) * f d
      = Ideal.div (∑ d, Ideal.exp (s d) * f d) (∑ d, Ideal.exp (s d)) := by
  have e1 : ∀ d, Ideal.exp (s d - M) = ((Real.exp (σ d - μ) : ℝ) : EReal) := fun d => by
    rw [hs d, hM, ← EReal.coe_sub, Ideal.exp_coe]
  have e2 : ∀ d, Ideal.exp (s d) = ((Real.exp (σ d) : ℝ) : EReal) := fun d => by
    rw [hs d, Ideal.exp_coe]
  simp only [e1, e2, hf, zero_add, ← coe_sum, ← EReal.coe_mul]
  rw [Ideal.div_coe (sum_exp_ne_zero σ)]
  simp only [Ideal.div_coe (sum_exp_ne_zero fun d => σ d - μ), ← EReal.coe_mul, ← coe_sum]
  rw [EReal.coe_eq_coe_iff, mul_one_div, ← real_shift σ φ μ]
  exact Finset.sum_congr rfl fun d _ => by rw [mul_one_div]

/-- The fold of max from -∞ over a nonempty finite family of real numbers is a real number. -/
theorem fold_max_real {ι : Type*} (op : EReal → EReal → EReal) [Std.Commutative op] [Std.Associative op]
    (hop : ∀ x y, op x y = max x y) (s : Finset ι) (hne : s.Nonempty) (f : ι → EReal) (hf : ∀ i, ∃ r : ℝ, f i = (r : EReal)) :
    ∃ r : ℝ, s.fold op ⊥ f = (r : EReal) := by
  classical
  have key : ∀ t : Finset ι, (t.fold op ⊥ f = ⊥ ∧ t = ∅) ∨ ∃ r : ℝ, t.fold op ⊥ f = (r : EReal) := by
    intro t
    refine Finset.induction_on t ?_ ?_
    · exact Or.inl ⟨Finset.fold_empty, rfl⟩
    · intro a t ha ih
      refine Or.inr ?_
      rw [Finset.fold_insert ha, hop]
      obtain ⟨ra, hra⟩ := hf a
      rcases ih with ⟨hb, _⟩ | ⟨r, hr⟩
      · rw [hb, hra]; exact ⟨ra, max_eq_left bot_le⟩
      · rw [hr, hra]
        rcases max_choice (ra : EReal) (r : EReal) with h | h
        · exact ⟨ra, h⟩
        · exact ⟨r, h⟩
  rcases key s with ⟨_, he⟩ | h
  · exact absurd he hne.ne_empty
  · exact h

end Cert.SoftmaxLaw

end
-- ==== Proof.LibOnlineSoftmax.lean ====
/-
  The online form of a softmax-weighted sum, on the extended reals.

  A row of scores is read in blocks of width b: block k holds the scores s k j and the values v k j, j < b. The online
  form keeps three running quantities and folds one block at a time into them:

      the running maximum        m₀ = -∞,   mₖ₊₁ = max mₖ (the maximum of block k),
      the running denominator    l₀ = 0,    lₖ₊₁ = exp (mₖ - mₖ₊₁) · lₖ + ∑ j, exp (s k j - mₖ₊₁),
      the running numerator      a₀ = 0,    aₖ₊₁ = exp (mₖ - mₖ₊₁) · aₖ + ∑ j, exp (s k j - mₖ₊₁) · v k j :

  when a block raises the maximum, what was accumulated under the old maximum is rescaled to the new one by the factor
  exp (old - new). For scores and values that are real numbers, and b > 0, after k ≥ 1 blocks

      mₖ is a real number μ,     lₖ = ∑ k' < k, ∑ j, exp (s k' j - μ),     aₖ = ∑ k' < k, ∑ j, exp (s k' j - μ) · v k' j,

  by induction on k with exp (μ - μ') · exp (x - μ) = exp (x - μ') (at the first block the old maximum is -∞ and the old
  sums are 0, and the rescaled term vanishes). Numerator and denominator therefore carry the common positive factor
  exp (-μ), and the quotient aₙ / lₙ is the softmax-weighted sum with no shift at all,

      aₙ / lₙ  =  (∑ k < n, ∑ j, exp (s k j) · v k j) / (∑ k < n, ∑ j, exp (s k j)),

  which is also what every max-shifted softmax over the same entries equals (the module on the shifted form). Here exp,
  the quotient, the products and the sums are the exact operations of the ideal float values on the extended reals.
-/
import Idealize.ShloMosaic.PureOps.Ideal
import proofs.«108965_j35862976922239_2_alg».proof.Proof.LibSoftmaxShift

noncomputable section

namespace Cert.OnlineSoftmax

open Idealize.ShloMosaic

variable {b : ℕ}

/-- the running maximum after k blocks, from −∞ -/
def mx (s : ℕ → Fin b → EReal) : ℕ → EReal
  | 0 => ⊥
  | k + 1 => max (mx s k) (Finset.univ.fold max ⊥ (s k))

/-- the running sum of exponentials, rescaled to the new maximum when a block is added -/
def den (s : ℕ → Fin b → EReal) : ℕ → EReal
  | 0 => 0
  | k + 1 => Ideal.exp (mx s k - mx s (k + 1)) * den s k + ∑ j : Fin b, Ideal.exp (s k j - mx s (k + 1))

/-- the running weighted sum of values, rescaled likewise -/
def num (s v : ℕ → Fin b → EReal) : ℕ → EReal
  | 0 => 0
  | k + 1 => Ideal.exp (mx s k - mx s (k + 1)) * num s v k + ∑ j : Fin b, Ideal.exp (s k j - mx s (k + 1)) * v k j

/-! ### The recurrences, as rewriting rules -/

theorem mx_zero (s : ℕ → Fin b → EReal) : mx s 0 = ⊥ := rfl

theorem mx_succ (s : ℕ → Fin b → EReal) (k : ℕ) : mx s (k + 1) = max (mx s k) (Finset.univ.fold max ⊥ (s k)) := rfl

theorem den_zero (s : ℕ → Fin b → EReal) : den s 0 = 0 := rfl

theorem den_succ (s : ℕ → Fin b → EReal) (k : ℕ) :
    den s (k + 1) = Ideal.exp (mx s k - mx s (k + 1)) * den s k + ∑ j : Fin b, Ideal.exp (s k j - mx s (k + 1)) := rfl

theorem num_zero (s v : ℕ → Fin b → EReal) : num s v 0 = 0 := rfl

theorem num_succ (s v : ℕ → Fin b → EReal) (k : ℕ) :
    num s v (k + 1)
      = Ideal.exp (mx s k - mx s (k + 1)) * num s v k + ∑ j : Fin b, Ideal.exp (s k j - mx s (k + 1)) * v k j := rfl

/-- The running denominator is the running numerator of the constant values 1. -/
theorem den_eq_num (s : ℕ → Fin b → EReal) : ∀ k, den s k = num s (fun _ _ => 1) k
  | 0 => rfl
  | k + 1 => by rw [den_succ, num_succ, den_eq_num s k]; simp only [mul_one]

/-! ### The running maximum is a real number once a block has been read -/

/-- The maximum of one block of real numbers, folded from -∞, is a real number (the block is not empty). -/
theorem block_max_real (hb : 0 < b) (x : Fin b → EReal) (hx : ∀ j, ∃ r : ℝ, x j = (r : EReal)) :
    ∃ r : ℝ, Finset.univ.fold max ⊥ x = (r : EReal) :=
  haveI : Nonempty (Fin b) := ⟨⟨0, hb⟩⟩
  Cert.SoftmaxLaw.fold_max_real max (fun _ _ => rfl) Finset.univ Finset.univ_nonempty x hx

/-- After at least one block of real scores the running maximum is a real number. -/
theorem mx_real (hb : 0 < b) (s : ℕ → Fin b → EReal) (hs : ∀ k j, ∃ r : ℝ, s k j = (r : EReal)) (k : ℕ) :
    ∃ μ : ℝ, mx s (k + 1) = (μ : EReal) := by
  induction k with
  | zero =>
    obtain ⟨r, hr⟩ := block_max_real hb (s 0) (hs 0)
    exact ⟨r, by rw [mx_succ, mx_zero, hr]; exact max_eq_right bot_le⟩
  | succ k ih =>
    obtain ⟨μ, hμ⟩ := ih
    obtain ⟨r, hr⟩ := block_max_real hb (s (k + 1)) (hs (k + 1))
    rw [mx_succ, hμ, hr]
    rcases max_choice (μ : EReal) (r : EReal) with h | h
    · exact ⟨μ, h⟩
    · exact ⟨r, h⟩

/-! ### One block's sums, and the rescaling, over the reals -/

/-- One block's weighted sum of exponentials shifted by a real number, as the real number it is. -/
theorem block_sum_coe (s v : ℕ → Fin b → EReal) (σ φ : ℕ → Fin b → ℝ)
    (hs : ∀ k j, s k j = (σ k j : EReal)) (hv : ∀ k j, v k j = (φ k j : EReal)) (k : ℕ) (μ : ℝ) :
    ∑ j : Fin b, Ideal.exp (s k j - (μ : EReal)) * v k j = ((∑ j : Fin b, Real.exp (σ k j - μ) * φ k j : ℝ) : EReal) := by
  rw [Cert.SoftmaxLaw.coe_sum]
  exact Finset.sum_congr rfl fun j _ => by rw [hs k j, hv k j, ← EReal.coe_sub, Ideal.exp_coe, ← EReal.coe_mul]

/-- Rescaling from the shift μ to the shift μ': exp (μ - μ') · exp (x - μ) = exp (x - μ'), term by term. -/
theorem real_rescale (σ φ : ℕ → Fin b → ℝ) (k : ℕ) (μ μ' : ℝ) :
    Real.exp (μ - μ') * (∑ k' ∈ Finset.range k, ∑ j : Fin b, Real.exp (σ k' j - μ) * φ k' j)
      = ∑ k' ∈ Finset.range k, ∑ j : Fin b, Real.exp (σ k' j - μ') * φ k' j := by
  rw [Finset.mul_sum]
  refine Finset.sum_congr rfl fun k' _ => ?_
  rw [Finset.mul_sum]
  refine Finset.sum_congr rfl fun j _ => ?_
  have e : μ - μ' + (σ k' j - μ) = σ k' j - μ' := by ring
  rw [← mul_assoc, ← Real.exp_add, e]

/-- A shift by μ is the factor exp (-μ) on the whole double sum. -/
theorem real_unshift (σ φ : ℕ → Fin b → ℝ) (k : ℕ) (μ : ℝ) :
    ∑ k' ∈ Finset.range k, ∑ j : Fin b, Real.exp (σ k' j - μ) * φ k' j
      = Real.exp (-μ) * (∑ k' ∈ Finset.range k, ∑ j : Fin b, Real.exp (σ k' j) * φ k' j) := by
  have h := real_rescale σ φ k 0 μ
  simp only [sub_zero, zero_sub] at h
  exact h.symm

/-! ### The closed forms -/

/-- THE RUNNING NUMERATOR after k + 1 blocks of real scores and values, the running maximum being the real number μ:
    the sum over all entries read so far of exp (score - μ) · value. -/
theorem num_closed (hb : 0 < b) (s v : ℕ → Fin b → EReal) (σ φ : ℕ → Fin b → ℝ)
    (hs : ∀ k j, s k j = (σ k j : EReal)) (hv : ∀ k j, v k j = (φ k j : EReal)) :
    ∀ (k : ℕ) (μ : ℝ), mx s (k + 1) = (μ : EReal) →
      num s v (k + 1) = ((∑ k' ∈ Finset.range (k + 1), ∑ j : Fin b, Real.exp (σ k' j - μ) * φ k' j : ℝ) : EReal) := by
  intro k
  induction k with
  | zero =>
    intro μ hμ
    rw [num_succ, num_zero, mul_zero, zero_add, hμ, block_sum_coe s v σ φ hs hv, Finset.sum_range_one]
  | succ k ih =>
    intro μ' hμ'
    obtain ⟨μ, hμ⟩ := mx_real hb s (fun k j => ⟨σ k j, hs k j⟩) k
    rw [num_succ, hμ', hμ, ih μ hμ, block_sum_coe s v σ φ hs hv, ← EReal.coe_sub, Ideal.exp_coe, ← EReal.coe_mul,
      ← EReal.coe_add, real_rescale, ← Finset.sum_range_succ]

/-- THE RUNNING DENOMINATOR after k + 1 blocks of real scores, the running maximum being the real number μ: the sum over
    all entries read so far of exp (score - μ). -/
theorem den_closed (hb : 0 < b) (s : ℕ → Fin b → EReal) (σ : ℕ → Fin b → ℝ) (hs : ∀ k j, s k j = (σ k j : EReal))
    (k : ℕ) (μ : ℝ) (hμ : mx s (k + 1) = (μ : EReal)) :
    den s (k + 1) = ((∑ k' ∈ Finset.range (k + 1), ∑ j : Fin b, Real.exp (σ k' j - μ) : ℝ) : EReal) := by
  rw [den_eq_num, num_closed hb s (fun _ _ => 1) σ (fun _ _ => 1) hs (fun _ _ => EReal.coe_one.symm) k μ hμ]
  simp only [mul_one]

/-- A double sum of exponentials over at least one nonempty block is positive. -/
theorem sum_exp_pos (hb : 0 < b) (τ : ℕ → Fin b → ℝ) (k : ℕ) :
    0 < ∑ k' ∈ Finset.range (k + 1), ∑ j : Fin b, Real.exp (τ k' j) :=
  haveI : Nonempty (Fin b) := ⟨⟨0, hb⟩⟩
  Finset.sum_pos (fun _ _ => Finset.sum_pos (fun _ _ => Real.exp_pos _) Finset.univ_nonempty) Finset.nonempty_range_add_one

/-- The running denominator after at least one block of real scores is a positive real number. -/
theorem den_pos (hb : 0 < b) (s : ℕ → Fin b → EReal) (σ : ℕ → Fin b → ℝ) (hs : ∀ k j, s k j = (σ k j : EReal)) (k : ℕ) :
    ∃ d : ℝ, 0 < d ∧ den s (k + 1) = (d : EReal) := by
  obtain ⟨μ, hμ⟩ := mx_real hb s (fun k j => ⟨σ k j, hs k j⟩) k
  exact ⟨_, sum_exp_pos hb (fun k' j => σ k' j - μ) k, den_closed hb s σ hs k μ hμ⟩

/-! ### The online quotient is the unshifted softmax-weighted sum -/

/-- ONLINE SOFTMAX: for real scores and values read in n ≥ 1 blocks of width b > 0, the running numerator over the
    running denominator is the quotient of the two unshifted sums over all n · b entries. -/
theorem online (hb : 0 < b) (s v : ℕ → Fin b → EReal) (σ φ : ℕ → Fin b → ℝ)
    (hs : ∀ k j, s k j = (σ k j : EReal)) (hv : ∀ k j, v k j = (φ k j : EReal)) (n : ℕ) (hn : 0 < n) :
    Ideal.div (num s v n) (den s n)
      = Ideal.div (∑ k : Fin n, ∑ j : Fin b, Ideal.exp (s k j) * v k j) (∑ k : Fin n, ∑ j : Fin b, Ideal.exp (s k j)) := by
  obtain ⟨m, rfl⟩ := Nat.exists_eq_succ_of_ne_zero hn.ne'
  obtain ⟨μ, hμ⟩ := mx_real hb s (fun k j => ⟨σ k j, hs k j⟩) m
  have eN : ∑ k : Fin (m + 1), ∑ j : Fin b, Ideal.exp (s k j) * v k j
      = ((∑ k' ∈ Finset.range (m + 1), ∑ j : Fin b, Real.exp (σ k' j) * φ k' j : ℝ) : EReal) := by
    rw [← Finset.sum_range (fun k => ∑ j : Fin b, Ideal.exp (s k j) * v k j), Cert.SoftmaxLaw.coe_sum]
    refine Finset.sum_congr rfl fun k _ => ?_
    rw [Cert.SoftmaxLaw.coe_sum]
    exact Finset.sum_congr rfl fun j _ => by rw [hs k j, hv k j, Ideal.exp_coe, ← EReal.coe_mul]
  have eD : ∑ k : Fin (m + 1), ∑ j : Fin b, Ideal.exp (s k j)
      = ((∑ k' ∈ Finset.range (m + 1), ∑ j : Fin b, Real.exp (σ k' j) : ℝ) : EReal) := by
    rw [← Finset.sum_range (fun k => ∑ j : Fin b, Ideal.exp (s k j)), Cert.SoftmaxLaw.coe_sum]
    refine Finset.sum_congr rfl fun k _ => ?_
    rw [Cert.SoftmaxLaw.coe_sum]
    exact Finset.sum_congr rfl fun j _ => by rw [hs k j, Ideal.exp_coe]
  have hD : 0 < ∑ k' ∈ Finset.range (m + 1), ∑ j : Fin b, Real.exp (σ k' j) := sum_exp_pos hb σ m
  have hDμ : 0 < ∑ k' ∈ Finset.range (m + 1), ∑ j : Fin b, Real.exp (σ k' j - μ) :=
    sum_exp_pos hb (fun k' j => σ k' j - μ) m
  have hNμ := real_unshift σ φ (m + 1) μ
  have hDμ' := real_unshift σ (fun _ _ => 1) (m + 1) μ
  simp only [mul_one] at hDμ'
  have he : 0 < Real.exp (-μ) := Real.exp_pos _
  rw [eN, eD, num_closed hb s v σ φ hs hv m μ hμ, den_closed hb s σ hs m μ hμ, Ideal.div_coe hDμ.ne',
    Ideal.div_coe hD.ne', ← EReal.coe_mul, ← EReal.coe_mul, EReal.coe_eq_coe_iff, hNμ, hDμ']
  field_simp

end Cert.OnlineSoftmax

end
-- ==== Proof.SpecSoftmax.lean ====
/-
  One row of masked cross attention, on the extended reals.

  A row of attention has 8192 scores s j and 8192 values v j (one per key). Its result is the softmax-weighted average
  of the values,

      A(s, v)  =  (∑ j, exp (s j) · v j) / (∑ j, exp (s j)),

  written here with no shift at all: for scores and values that are real numbers every exponential is a positive real
  number, both sums are real, the denominator is positive, and nothing overflows on the extended reals. Three
  arrangements of the same number are related to it:

    * the normalised-weights arrangement at a real shift M,  ∑ j, (exp (s j - M) / ∑ j', exp (s j' - M)) · v j :
      the common positive denominator leaves the sum, and the factor exp (-M) cancels;
    * the quotient arrangement at a real shift M,  (∑ j, exp (s j - M) · v j) / (∑ j, exp (s j - M)) :
      numerator and denominator carry the same positive factor exp (-M);
    * the online arrangement: the 8192 keys are read in 4 blocks of 2048 (key 2048 · k + i is entry i of block k), and a
      running maximum, a running denominator and a running numerator are updated block by block, what was accumulated
      under the old maximum being rescaled by exp (old - new) (at the first block the old maximum is -∞, its exponential
      is 0, and the old sums are 0). After the fourth block numerator / denominator is A(s, v).
-/
import Idealize.ShloMosaic.PureOps.Ideal
import proofs.«108965_j35862976922239_2_alg».proof.Proof.LibSoftmaxShift
import proofs.«108965_j35862976922239_2_alg».proof.Proof.LibOnlineSoftmax

noncomputable section

namespace Cert.Spec

open Idealize.ShloMosaic

/-- The softmax-weighted average of the values `v` under the scores `s`, with no shift. -/
def softAvg {n : ℕ} (s v : Fin n → EReal) : EReal :=
  Ideal.div (∑ j, Ideal.exp (s j) * v j) (∑ j, Ideal.exp (s j))

/-- The same quotient with every score shifted by `M`. -/
def softAvgAt {n : ℕ} (s v : Fin n → EReal) (M : EReal) : EReal :=
  Ideal.div (∑ j, Ideal.exp (s j - M) * v j) (∑ j, Ideal.exp (s j - M))

/-- Over the reals, a common shift of the scores leaves the quotient of the two sums unchanged. -/
theorem real_quot_shift {ι : Type*} [Fintype ι] (σ φ : ι → ℝ) (μ : ℝ) :
    (∑ d, Real.exp (σ d - μ) * φ d) / (∑ d, Real.exp (σ d - μ))
      = (∑ d, Real.exp (σ d) * φ d) / (∑ d, Real.exp (σ d)) := by
  have h1 : ∀ d, Real.exp (σ d - μ) = Real.exp (σ d) * Real.exp (-μ) := fun d => by
    rw [← Real.exp_add, sub_eq_add_neg]
  have h2 : ∀ d, Real.exp (σ d) * Real.exp (-μ) * φ d = Real.exp (σ d) * φ d * Real.exp (-μ) := fun d => by ring
  simp only [h1, h2, ← Finset.sum_mul]
  rw [mul_div_mul_right _ _ (Real.exp_pos _).ne']

/-- SHIFT INVARIANCE of the quotient arrangement: for real scores, real values and a real shift, the shifted quotient is
    the unshifted one. -/
theorem softAvgAt_eq {n : ℕ} (hn : 0 < n) (s v : Fin n → EReal) (M : EReal)
    (hs : ∀ j, ∃ r : ℝ, s j = (r : EReal)) (hv : ∀ j, ∃ r : ℝ, v j = (r : EReal)) (hM : ∃ r : ℝ, M = (r : EReal)) :
    softAvgAt s v M = softAvg s v := by
  haveI : Nonempty (Fin n) := ⟨⟨0, hn⟩⟩
  choose σ hσ using hs
  choose φ hφ using hv
  obtain ⟨μ, rfl⟩ := hM
  unfold softAvgAt softAvg
  have e1 : ∀ d, Ideal.exp (s d - (μ : EReal)) = ((Real.exp (σ d - μ) : ℝ) : EReal) := fun d => by
    rw [hσ d, ← EReal.coe_sub, Ideal.exp_coe]
  have e2 : ∀ d, Ideal.exp (s d) = ((Real.exp (σ d) : ℝ) : EReal) := fun d => by rw [hσ d, Ideal.exp_coe]
  simp only [e1, e2, hφ, ← EReal.coe_mul, ← Cert.SoftmaxLaw.coe_sum]
  rw [Ideal.div_coe (Cert.SoftmaxLaw.sum_exp_ne_zero σ), Ideal.div_coe (Cert.SoftmaxLaw.sum_exp_ne_zero fun d => σ d - μ),
    ← EReal.coe_mul, ← EReal.coe_mul, EReal.coe_eq_coe_iff, mul_one_div, mul_one_div, real_quot_shift]

/-- THE NORMALISED-WEIGHTS ARRANGEMENT: each weight is the shifted exponential over the sum (from zero) of the shifted
    exponentials, and the weights multiply the values; for real scores, values and shift this is the unshifted
    quotient. -/
theorem weights_eq {n : ℕ} (hn : 0 < n) (s v : Fin n → EReal) (M : EReal)
    (hs : ∀ j, ∃ r : ℝ, s j = (r : EReal)) (hv : ∀ j, ∃ r : ℝ, v j = (r : EReal)) (hM : ∃ r : ℝ, M = (r : EReal)) :
    ∑ j, Ideal.div (Ideal.exp (s j - M)) (0 + ∑ j', Ideal.exp (s j' - M)) * v j = softAvg s v := by
  haveI : Nonempty (Fin n) := ⟨⟨0, hn⟩⟩
  choose σ hσ using hs
  choose φ hφ using hv
  obtain ⟨μ, hμ⟩ := hM
  have h := Cert.SoftmaxLaw.shift s v M σ φ μ hσ hφ hμ
  rw [zero_add] at h
  exact h

/-- The same with the sum of the exponentials not started from zero. -/
theorem weights_eq' {n : ℕ} (hn : 0 < n) (s v : Fin n → EReal) (M : EReal)
    (hs : ∀ j, ∃ r : ℝ, s j = (r : EReal)) (hv : ∀ j, ∃ r : ℝ, v j = (r : EReal)) (hM : ∃ r : ℝ, M = (r : EReal)) :
    ∑ j, Ideal.div (Ideal.exp (s j - M)) (∑ j', Ideal.exp (s j' - M)) * v j = softAvg s v := by
  have h := weights_eq hn s v M hs hv hM
  simp only [zero_add] at h
  exact h

/-! ### The online arrangement over 4 blocks of 2048 keys -/

/-- Block `k` of a row of 8192 entries read in 4 blocks of 2048: entry `i` of block `k` is entry `2048 · k + i` of the
    row (and 0 past the fourth block, which is never read). -/
def blk (f : Fin 8192 → EReal) (k : ℕ) (i : Fin 2048) : EReal :=
  if h : k < 4 then f ⟨2048 * k + i.val, by have := i.isLt; omega⟩ else 0

theorem blk_of_lt (f : Fin 8192 → EReal) (k : ℕ) (hk : k < 4) (i : Fin 2048) :
    blk f k i = f ⟨2048 * k + i.val, by have := i.isLt; omega⟩ := dif_pos hk

/-- Every entry of every block of a real row is real. -/
theorem blk_real (f : Fin 8192 → EReal) (hf : ∀ j, ∃ r : ℝ, f j = (r : EReal)) (k : ℕ) (i : Fin 2048) :
    ∃ r : ℝ, blk f k i = (r : EReal) := by
  unfold blk
  split
  · exact hf _
  · exact ⟨0, EReal.coe_zero.symm⟩

/-- A sum over the 4 blocks of the sums over each block is the sum over the whole row. -/
theorem sum_blocks {α : Type*} [AddCommMonoid α] (g : Fin 8192 → α) :
    ∑ k : Fin 4, ∑ i : Fin 2048, g ⟨2048 * k.val + i.val, by have := k.isLt; have := i.isLt; omega⟩ = ∑ j : Fin 8192, g j := by
  have h1 : ∑ j : Fin 8192, g j
      = (∑ j : Fin 6144, g ⟨j.val, by have := j.isLt; omega⟩) + ∑ i : Fin 2048, g ⟨6144 + i.val, by have := i.isLt; omega⟩ :=
    Fin.sum_univ_add (a := 6144) (b := 2048) g
  have h2 : ∑ j : Fin 6144, g ⟨j.val, by have := j.isLt; omega⟩
      = (∑ j : Fin 4096, g ⟨j.val, by have := j.isLt; omega⟩) + ∑ i : Fin 2048, g ⟨4096 + i.val, by have := i.isLt; omega⟩ :=
    Fin.sum_univ_add (a := 4096) (b := 2048) (fun j : Fin 6144 => g ⟨j.val, by have := j.isLt; omega⟩)
  have h3 : ∑ j : Fin 4096, g ⟨j.val, by have := j.isLt; omega⟩
      = (∑ j : Fin 2048, g ⟨j.val, by have := j.isLt; omega⟩) + ∑ i : Fin 2048, g ⟨2048 + i.val, by have := i.isLt; omega⟩ :=
    Fin.sum_univ_add (a := 2048) (b := 2048) (fun j : Fin 4096 => g ⟨j.val, by have := j.isLt; omega⟩)
  rw [h1, h2, h3, Fin.sum_univ_four]
  have e0 : ∀ i : Fin 2048, g ⟨2048 * (0 : Fin 4).val + i.val, by have := i.isLt; simp; omega⟩ = g ⟨i.val, by have := i.isLt; omega⟩ :=
    fun i => congrArg g (Fin.ext (by simp))
  have e1 : ∀ i : Fin 2048, g ⟨2048 * (1 : Fin 4).val + i.val, by have := i.isLt; simp; omega⟩ = g ⟨2048 + i.val, by have := i.isLt; omega⟩ :=
    fun i => congrArg g (Fin.ext (by simp))
  have e2 : ∀ i : Fin 2048, g ⟨2048 * (2 : Fin 4).val + i.val, by have := i.isLt; simp; omega⟩ = g ⟨4096 + i.val, by have := i.isLt; omega⟩ :=
    fun i => congrArg g (Fin.ext (by simp))
  have e3 : ∀ i : Fin 2048, g ⟨2048 * (3 : Fin 4).val + i.val, by have := i.isLt; simp; omega⟩ = g ⟨6144 + i.val, by have := i.isLt; omega⟩ :=
    fun i => congrArg g (Fin.ext (by simp))
  simp only [e0, e1, e2, e3]

/-- THE ONLINE ARRANGEMENT: the running numerator over the running denominator after the four blocks of a real row of
    scores and a real row of values is the unshifted softmax-weighted average over all 8192 keys. The recurrences are
    `Cert.OnlineSoftmax.mx`, `den`, `num` (rules `mx_succ`, `den_succ`, `num_succ`): with m the old and m' the new
    maximum, m' = max m (the block's maximum folded from -∞), l' = exp (m - m') · l + ∑ i, exp (s i - m'),
    acc' = exp (m - m') · acc + ∑ i, exp (s i - m') · v i, from (-∞, 0, 0). -/
theorem online4 (s v : Fin 8192 → EReal)
    (hs : ∀ j, ∃ r : ℝ, s j = (r : EReal)) (hv : ∀ j, ∃ r : ℝ, v j = (r : EReal)) :
    Ideal.div (Cert.OnlineSoftmax.num (blk s) (blk v) 4) (Cert.OnlineSoftmax.den (blk s) 4) = softAvg s v := by
  have hsb := blk_real s hs
  have hvb := blk_real v hv
  choose σ hσ using hsb
  choose φ hφ using hvb
  have eN : ∑ k : Fin 4, ∑ i : Fin 2048, Ideal.exp (blk s k i) * blk v k i = ∑ j, Ideal.exp (s j) * v j := by
    rw [← sum_blocks (fun j => Ideal.exp (s j) * v j)]
    refine Finset.sum_congr rfl fun k _ => Finset.sum_congr rfl fun i _ => ?_
    rw [blk_of_lt s k k.isLt, blk_of_lt v k k.isLt]
  have eD : ∑ k : Fin 4, ∑ i : Fin 2048, Ideal.exp (blk s k i) = ∑ j, Ideal.exp (s j) := by
    rw [← sum_blocks (fun j => Ideal.exp (s j))]
    refine Finset.sum_congr rfl fun k _ => Finset.sum_congr rfl fun i _ => ?_
    rw [blk_of_lt s k k.isLt]
  rw [Cert.OnlineSoftmax.online (by norm_num) (blk s) (blk v) σ φ hσ hφ 4 (by norm_num), eN, eD, softAvg]

/-- After each of the four blocks of a real row the running maximum is a real number and the running denominator a
    positive real number (so the final division is a division of reals by a positive real). -/
theorem online_mx_real (s : Fin 8192 → EReal) (hs : ∀ j, ∃ r : ℝ, s j = (r : EReal)) (k : ℕ) :
    ∃ μ : ℝ, Cert.OnlineSoftmax.mx (blk s) (k + 1) = (μ : EReal) :=
  Cert.OnlineSoftmax.mx_real (by norm_num) (blk s) (blk_real s hs) k

end Cert.Spec

end
-- ==== Proof.SpecFinite.lean ====
/-
  Real numbers stay real numbers.

  An extended real is "a real number" when it is the coercion of one, `∃ r : ℝ, x = r`. Under the precondition that every
  float input is finite, every entry of the node features is a real number; sums, differences, products and maxima of real
  numbers are real, so every attention score ∑ d, x₁ (n, d) · x₂ (j, d) is a real number, so is the masked score (the score,
  or the literal -1e30 where the two nodes lie in different graphs), and so is every row or column maximum of the masked
  scores. These are exactly the hypotheses the softmax laws ask for.
-/
import Idealize.ShloMosaic.PureOps.Ideal
import Idealize.ShloMosaic.PureOps.Ideal.Laws

namespace Cert.Spec

open Idealize.ShloMosaic

/-- An extended real that is neither infinity is a real number. -/
theorem real_of_ne (x : EReal) (h1 : x ≠ ⊤) (h2 : x ≠ ⊥) : ∃ r : ℝ, x = (r : EReal) :=
  ⟨x.toReal, (EReal.coe_toReal h1 h2).symm⟩

/-- An extended real of finite absolute value (`max x (-x) < +∞`, the float `|x| < inf`) is a real number. -/
theorem real_of_abs_lt_top (x : EReal) (h : max x (-x) < ⊤) : ∃ r : ℝ, x = (r : EReal) := by
  induction x using EReal.rec with
  | bot => simp at h
  | coe r => exact ⟨r, rfl⟩
  | top => simp at h

theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem sub_real {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem max_real {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

/-- The maximum with -∞ changes nothing. -/
theorem max_bot_real {x : EReal} (hx : ∃ r : ℝ, x = (r : EReal)) : ∃ r : ℝ, max ⊥ x = (r : EReal) := by
  rw [max_eq_right bot_le]; exact hx

/-- A finite sum of real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (hf a (Finset.mem_insert_self a s)) (ih fun i hi => hf i (Finset.mem_insert_of_mem hi))

/-- A contraction of two real rows is a real number: every attention score is real. -/
theorem dot_real {ι : Type*} [Fintype ι] (a b : ι → EReal) (ha : ∀ k, ∃ r : ℝ, a k = (r : EReal))
    (hb : ∀ k, ∃ r : ℝ, b k = (r : EReal)) : ∃ r : ℝ, ∑ k, a k * b k = (r : EReal) :=
  sum_real Finset.univ _ fun k _ => mul_real (ha k) (hb k)

/-- The mask's stand-in for -∞, the float literal -1e30, is a real number. -/
theorem negBig_real : ∃ r : ℝ, Ideal.ofBits .f32 0xF149F2CA#32 = (r : EReal) := by
  refine real_of_ne _ ?_ ?_
  · simp [Ideal.ofBits, Ideal.ieee]
    exact_mod_cast EReal.coe_ne_bot ((13234890 : ℝ) * 2 ^ 76)
  · simp [Ideal.ofBits, Ideal.ieee]
    exact_mod_cast EReal.coe_ne_top ((13234890 : ℝ) * 2 ^ 76)

/-- A selection between two real numbers is a real number: every masked score is real. -/
theorem select_real (c : BitVec 1) {x y : EReal} (hx : ∃ r : ℝ, x = (r : EReal)) (hy : ∃ r : ℝ, y = (r : EReal)) :
    ∃ r : ℝ, Scalar.select c x y = (r : EReal) := by
  unfold Scalar.select
  split
  · exact hx
  · exact hy

/-- The score of two real rows is symmetric in the rows: the two attention directions read the same scores. -/
theorem dot_comm {ι : Type*} [Fintype ι] (a b : ι → EReal) : ∑ k, a k * b k = ∑ k, b k * a k :=
  Finset.sum_congr rfl fun k _ => mul_comm _ _

end Cert.Spec
-- ==== Proof.SpecAttn.lean ====
/-
  Masked cross attention between two graphs, as one function of the node features and the graph labels.

  Node n of the querying graph attends to node j of the other graph with the score

      σ(n, j)  =  ∑ d < 128, q (n, d) · k (j, d)     if the two nodes carry the same graph label,
                  -1e30 (the float literal)           otherwise,

  and its attention output is the softmax-weighted average over all 8192 nodes j of the other graph's feature rows,
  `softAvg (σ(n, ·)) (k (·, d))` — written with no shift (the module on the softmax arrangements relates the shifted and
  the online arrangements to it). The score is symmetric: σ of (q, k, labels) at (n, j) is σ of (k, q, swapped labels)
  at (j, n), because the product and the equality test are commutative; so the second direction of attention (the
  other graph querying the first) reads the same score matrix by columns.

  For real features every score is a real number (a finite sum of products of reals, or the literal), which is what the
  softmax laws need.
-/
import Idealize.ShloMosaic.PureOps.Ideal
import Idealize.ShloMosaic.PureOps.Ideal.Laws
import Idealize.ShloMosaic.Lib.ValueIdx
import proofs.«108965_j35862976922239_2_alg».proof.Proof.SpecSoftmax
import proofs.«108965_j35862976922239_2_alg».proof.Proof.SpecFinite

noncomputable section

namespace Cert.Spec

open Idealize.ShloMosaic Idealize.ShloMosaic.ValueIdx

/-- The masked score of query node `n` against key node `j`. -/
def mscore (xq xk : (⟨2, ![8192, 128]⟩ : Shape).Idx → EReal) (bq bk : (⟨1, ![8192]⟩ : Shape).Idx → BitVec 32)
    (n j : Fin 8192) : EReal :=
  Scalar.select (IntOp.cmpi .eq (bq (ix1 n)) (bk (ix1 j))) (∑ k : Fin 128, xq (ix2 n k) * xk (ix2 j k))
    (Ideal.ofBits .f32 0xF149F2CA#32)

/-- The attention output of every query node: the softmax-weighted average of the key graph's feature rows. -/
def attnG (xq xk : (⟨2, ![8192, 128]⟩ : Shape).Idx → EReal) (bq bk : (⟨1, ![8192]⟩ : Shape).Idx → BitVec 32) :
    (⟨2, ![8192, 128]⟩ : Shape).Idx → EReal :=
  fun i => softAvg (fun j => mscore xq xk bq bk (i 0) j) (fun j => xk (ix2 j (i 1)))

theorem attnG_ix2 (xq xk : (⟨2, ![8192, 128]⟩ : Shape).Idx → EReal) (bq bk : (⟨1, ![8192]⟩ : Shape).Idx → BitVec 32)
    (n : Fin 8192) (d : Fin 128) :
    attnG xq xk bq bk (ix2 n d) = softAvg (fun j => mscore xq xk bq bk n j) (fun j => xk (ix2 j d)) := rfl

/-- The equality test of two labels is symmetric. -/
theorem cmpi_eq_comm (a b : BitVec 32) : IntOp.cmpi .eq a b = IntOp.cmpi .eq b a := by
  show BitVec.ofBool (a == b) = BitVec.ofBool (b == a)
  by_cases h : a = b
  · subst h; rfl
  · have h' : ¬ b = a := fun e => h e.symm
    rw [beq_false_of_ne h, beq_false_of_ne h']

/-- The score matrix of the second direction is the transpose of the first's. -/
theorem mscore_swap (xq xk : (⟨2, ![8192, 128]⟩ : Shape).Idx → EReal) (bq bk : (⟨1, ![8192]⟩ : Shape).Idx → BitVec 32)
    (n j : Fin 8192) : mscore xq xk bq bk n j = mscore xk xq bk bq j n := by
  unfold mscore
  rw [cmpi_eq_comm, dot_comm]

/-- Every masked score of real features is a real number. -/
theorem mscore_real (xq xk : (⟨2, ![8192, 128]⟩ : Shape).Idx → EReal) (bq bk : (⟨1, ![8192]⟩ : Shape).Idx → BitVec 32)
    (hq : ∀ i, ∃ r : ℝ, xq i = (r : EReal)) (hk : ∀ i, ∃ r : ℝ, xk i = (r : EReal)) (n j : Fin 8192) :
    ∃ r : ℝ, mscore xq xk bq bk n j = (r : EReal) :=
  select_real _ (dot_real _ _ (fun k => hq (ix2 n k)) (fun k => hk (ix2 j k))) negBig_real

/-- The second direction, read through the first direction's score matrix by columns: the softmax-weighted average over
    the rows n of column j is the attention output of query node j of the swapped problem. -/
theorem attnG_swap_ix2 (x1 x2 : (⟨2, ![8192, 128]⟩ : Shape).Idx → EReal) (b1 b2 : (⟨1, ![8192]⟩ : Shape).Idx → BitVec 32)
    (j : Fin 8192) (d : Fin 128) :
    softAvg (fun n => mscore x1 x2 b1 b2 n j) (fun n => x1 (ix2 n d)) = attnG x2 x1 b2 b1 (ix2 j d) := by
  rw [attnG_ix2]
  exact congrArg (fun s => softAvg s fun n => x1 (ix2 n d)) (funext fun n => mscore_swap x1 x2 b1 b2 n j)

end Cert.Spec

end
-- ==== Proof.KI.Attn2Value.lean ====
import proofs.«108965_j35862976922239_2_alg».proof.Proof.KI.Attn2
import proofs.«108965_j35862976922239_2_alg».proof.Proof.KI.Attn2Pieces
import proofs.«108965_j35862976922239_2_alg».proof.Proof.KI.Attn2Pay
import proofs.«108965_j35862976922239_2_alg».proof.Proof.SpecAttn
import Idealize.ShloMosaic.Lib.Pipeline.Value
import Idealize.ShloMosaic.Lib.ValueIdx

/-! # The attention region: the result array after the region, as one function of the four input arrays

At the extended reals. The grid has 8 query tiles of 1024 rows by 4 key tiles of 2048 rows; point `t` has query tile
`t / 4` and key tile `t % 4`. At key tile 0 the three scratch buffers are reset to (-∞, 0, 0); every point folds its key
tile into them: the running maximum is joined with the tile's row maximum, and the running sum and the running weighted
sum are rescaled by exp (old maximum - new maximum) and increased by the tile's sums of shifted exponentials. So after
point `t`, row `r` of the scratch holds the online recurrence of row `1024 (t / 4) + r` of the masked scores after
`t % 4 + 1` blocks. At key tile 3 the quotient is stored into the output tile and written back to rows
`1024 (t / 4) …` of the result; the eight such points cover its 8192 rows. For real features the quotient after four
blocks is the unshifted softmax-weighted average, so the result array is the attention specification of the arrays the
region found. -/

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Spec Cert.OnlineSoftmax

namespace Attn2

/-! ## One key tile folded into one row of the scratch -/

section Step

variable (xq xk : S8192x128.Idx → EReal) (bq : S8192x1.Idx → BitVec 32) (bk : S1x8192.Idx → BitVec 32)

/-- The query graph's labels as a vector. -/
abbrev lq : (⟨1, ![8192]⟩ : Shape).Idx → BitVec 32 := fun i => bq (ix2 (i 0) (0 : Fin 1))
/-- The key graph's labels as a vector. -/
abbrev lk : (⟨1, ![8192]⟩ : Shape).Idx → BitVec 32 := fun i => bk (ix2 (0 : Fin 1) (i 0))

/-- Row `n` of the masked scores. -/
abbrev srow (n : Fin 8192) : Fin 8192 → EReal := fun j => mscore xq xk (lq bq) (lk bk) n j
/-- Column `d` of the key graph's features. -/
abbrev vcol (d : Fin 128) : Fin 8192 → EReal := fun j => xk (ix2 j d)

variable (x0 : Vec Ideal S1024x128 .f32) (x1 : Vec Ideal S2048x128 .f32) (x2 : Vec Ideal S1024x1 .i32) (x3 : Vec Ideal S1x2048 .i32)
  (qt kv : Nat) (hqt : qt < 8) (hkv : kv < 4)
  (h0 : ∀ (r : Fin 1024) (k : Fin 128), x0 (ix2 r k) = xq (ix2 (⟨qt * 1024 + r.val, by have := r.isLt; omega⟩ : Fin 8192) k))
  (h1 : ∀ (j : Fin 2048) (k : Fin 128), x1 (ix2 j k) = xk (ix2 (⟨kv * 2048 + j.val, by have := j.isLt; omega⟩ : Fin 8192) k))
  (h2 : ∀ r : Fin 1024, x2 (ix2 r (0 : Fin 1)) = bq (ix2 (⟨qt * 1024 + r.val, by have := r.isLt; omega⟩ : Fin 8192) (0 : Fin 1)))
  (h3 : ∀ j : Fin 2048, x3 (ix2 (0 : Fin 1) j) = bk (ix2 (0 : Fin 1) (⟨kv * 2048 + j.val, by have := j.isLt; omega⟩ : Fin 8192)))

include hqt hkv h0 h1 h2 h3

/-- The tile's score at (r, j) is entry j of block kv of row `1024 qt + r` of the masked scores. -/
theorem tscore_eq (r : Fin 1024) (j : Fin 2048) :
    tscore x0 x1 x2 x3 r j = blk (srow xq xk bq bk ⟨qt * 1024 + r.val, by have := r.isLt; omega⟩) kv j := by
  rw [blk_of_lt _ kv hkv]
  unfold tscore
  simp only [h0, h1, h2, h3]
  have e : (⟨kv * 2048 + j.val, by have := j.isLt; omega⟩ : Fin 8192) = ⟨2048 * kv + j.val, by have := j.isLt; omega⟩ :=
    Fin.ext (by show kv * 2048 + j.val = 2048 * kv + j.val; omega)
  rw [e]
  rfl

/-- The key tile's feature at (j, d) is entry j of block kv of column d. -/
theorem vblk_eq (j : Fin 2048) (d : Fin 128) : x1 (ix2 j d) = blk (vcol xk d) kv j := by
  rw [blk_of_lt _ kv hkv, h1]
  exact congrArg (fun i : Fin 8192 => xk (ix2 i d)) (Fin.ext (by show kv * 2048 + j.val = 2048 * kv + j.val; omega))

/-- THE FOLD OF ONE KEY TILE, row r: if the scratch holds the online recurrence of the row after kv blocks, the stored
    values are the recurrence after kv + 1 blocks. -/
theorem step_max (xs0 : Vec Ideal S1024x1 .f32) (r : Fin 1024)
    (e0 : xs0 (ix2 r (0 : Fin 1)) = mx (blk (srow xq xk bq bk ⟨qt * 1024 + r.val, by have := r.isLt; omega⟩)) kv) :
    k2_pay9 x0 x1 x2 x3 xs0 (ix2 r (0 : Fin 1))
      = mx (blk (srow xq xk bq bk ⟨qt * 1024 + r.val, by have := r.isLt; omega⟩)) (kv + 1) := by
  rw [pay9_apply, mx_succ, e0]
  refine congrArg (max _) ?_
  exact congrArg (fun f => Finset.fold max (⊥ : EReal) f (Finset.univ : Finset (Fin 2048)))
    (funext fun j => tscore_eq xq xk bq bk x0 x1 x2 x3 qt kv hqt hkv h0 h1 h2 h3 r j)

theorem step_den (xs0 xs1 : Vec Ideal S1024x1 .f32) (r : Fin 1024)
    (e0 : xs0 (ix2 r (0 : Fin 1)) = mx (blk (srow xq xk bq bk ⟨qt * 1024 + r.val, by have := r.isLt; omega⟩)) kv)
    (e1 : xs1 (ix2 r (0 : Fin 1)) = den (blk (srow xq xk bq bk ⟨qt * 1024 + r.val, by have := r.isLt; omega⟩)) kv) :
    k2_pay12 x0 x1 x2 x3 xs0 xs0 xs1 (ix2 r (0 : Fin 1))
      = den (blk (srow xq xk bq bk ⟨qt * 1024 + r.val, by have := r.isLt; omega⟩)) (kv + 1) := by
  rw [pay12_apply, pay10_apply, den_succ, step_max xq xk bq bk x0 x1 x2 x3 qt kv hqt hkv h0 h1 h2 h3 xs0 r e0, e0, e1]
  refine congrArg (_ * _ + ·) (Finset.sum_congr rfl fun j _ => ?_)
  rw [pay11_apply, step_max xq xk bq bk x0 x1 x2 x3 qt kv hqt hkv h0 h1 h2 h3 xs0 r e0,
    tscore_eq xq xk bq bk x0 x1 x2 x3 qt kv hqt hkv h0 h1 h2 h3 r j]

theorem step_num (xs0 : Vec Ideal S1024x1 .f32) (xs2 : Vec Ideal S1024x128 .f32) (r : Fin 1024) (d : Fin 128)
    (e0 : xs0 (ix2 r (0 : Fin 1)) = mx (blk (srow xq xk bq bk ⟨qt * 1024 + r.val, by have := r.isLt; omega⟩)) kv)
    (e2 : xs2 (ix2 r d) = num (blk (srow xq xk bq bk ⟨qt * 1024 + r.val, by have := r.isLt; omega⟩)) (blk (vcol xk d)) kv) :
    k2_pay1 (k2_pay7 x1) (k2_pay10 x0 x1 x2 x3 xs0 xs0) (k2_pay11 x0 x1 x2 x3 xs0) xs2 (ix2 r d)
      = num (blk (srow xq xk bq bk ⟨qt * 1024 + r.val, by have := r.isLt; omega⟩)) (blk (vcol xk d)) (kv + 1) := by
  rw [pay1_apply, pay10_apply, num_succ, step_max xq xk bq bk x0 x1 x2 x3 qt kv hqt hkv h0 h1 h2 h3 xs0 r e0, e0, e2]
  refine congrArg (_ * _ + ·) (Finset.sum_congr rfl fun j _ => ?_)
  rw [pay11_apply, step_max xq xk bq bk x0 x1 x2 x3 qt kv hqt hkv h0 h1 h2 h3 xs0 r e0,
    tscore_eq xq xk bq bk x0 x1 x2 x3 qt kv hqt hkv h0 h1 h2 h3 r j, vblk_eq xq xk bq bk x0 x1 x2 x3 qt kv hqt hkv h0 h1 h2 h3 j d]

end Step

end Attn2

open Attn2

variable (V : (c : Dev nD) → (b : Ref sig .tc) → Buf (Elt Ideal) ((c : Thread nD τ).loc b))

/-! ## The windows' blocks in the arrays -/

/-- The printed index maps, decided over the 32 points: the query-side windows and the output move with the query tile
    along the rows, the key-side windows with the key tile (the key labels along the lanes). -/
theorem idx_facts2 : ∀ t : Fin cfg2.N,
    win2_0.index t (0 : Fin 2) = t.val / 4
    ∧ win2_0.index t (1 : Fin 2) = 0
    ∧ win2_1.index t (0 : Fin 2) = t.val % 4
    ∧ win2_1.index t (1 : Fin 2) = 0
    ∧ win2_2.index t (0 : Fin 2) = t.val / 4
    ∧ win2_2.index t (1 : Fin 2) = 0
    ∧ win2_3.index t (0 : Fin 2) = 0
    ∧ win2_3.index t (1 : Fin 2) = t.val % 4
    ∧ win2_4.index t (0 : Fin 2) = t.val / 4
    ∧ win2_4.index t (1 : Fin 2) = 0 :=
  (by decide +kernel : ∀ t : Fin grid2.N, _)

theorem blk2_0_read (c : Dev nD) (t : Fin cfg2.N) (r : Fin 1024) (k : Fin 128) (hlt : t.val / 4 * 1024 + r.val < 8192) :
    (iblk2 V c 0 t : Vec Ideal S1024x128 .f32) (ix2 r k) = V c (Pipeline.arrRef spec2 0) (ix2 ⟨t.val / 4 * 1024 + r.val, hlt⟩ k) := by
  have e := idx_facts2 t
  show V c (Pipeline.arrRef spec2 0) (((cfg2.win 0).blk t).view.emb (ix2 r k)) = _
  refine congrArg _ (funext fun a => Fin.ext ?_)
  match a with
  | ⟨0, _⟩ => show win2_0.index t (0 : Fin 2) * 1024 + 1 * r.val = t.val / 4 * 1024 + r.val; omega
  | ⟨1, _⟩ => show win2_0.index t (1 : Fin 2) * 128 + 1 * k.val = k.val; omega

theorem blk2_1_read (c : Dev nD) (t : Fin cfg2.N) (j : Fin 2048) (k : Fin 128) (hlt : t.val % 4 * 2048 + j.val < 8192) :
    (iblk2 V c 1 t : Vec Ideal S2048x128 .f32) (ix2 j k) = V c (Pipeline.arrRef spec2 1) (ix2 ⟨t.val % 4 * 2048 + j.val, hlt⟩ k) := by
  have e := idx_facts2 t
  show V c (Pipeline.arrRef spec2 1) (((cfg2.win 1).blk t).view.emb (ix2 j k)) = _
  refine congrArg _ (funext fun a => Fin.ext ?_)
  match a with
  | ⟨0, _⟩ => show win2_1.index t (0 : Fin 2) * 2048 + 1 * j.val = t.val % 4 * 2048 + j.val; omega
  | ⟨1, _⟩ => show win2_1.index t (1 : Fin 2) * 128 + 1 * k.val = k.val; omega

theorem blk2_2_read (c : Dev nD) (t : Fin cfg2.N) (r : Fin 1024) (hlt : t.val / 4 * 1024 + r.val < 8192) :
    (iblk2 V c 2 t : Vec Ideal S1024x1 .i32) (ix2 r (0 : Fin 1)) = V c (Pipeline.arrRef spec2 2) (ix2 ⟨t.val / 4 * 1024 + r.val, hlt⟩ (0 : Fin 1)) := by
  have e := idx_facts2 t
  show V c (Pipeline.arrRef spec2 2) (((cfg2.win 2).blk t).view.emb (ix2 r (0 : Fin 1))) = _
  refine congrArg _ (funext fun a => Fin.ext ?_)
  match a with
  | ⟨0, _⟩ => show win2_2.index t (0 : Fin 2) * 1024 + 1 * r.val = t.val / 4 * 1024 + r.val; omega
  | ⟨1, _⟩ => show win2_2.index t (1 : Fin 2) * 1 + 1 * 0 = 0; omega

theorem blk2_3_read (c : Dev nD) (t : Fin cfg2.N) (j : Fin 2048) (hlt : t.val % 4 * 2048 + j.val < 8192) :
    (iblk2 V c 3 t : Vec Ideal S1x2048 .i32) (ix2 (0 : Fin 1) j) = V c (Pipeline.arrRef spec2 3) (ix2 (0 : Fin 1) ⟨t.val % 4 * 2048 + j.val, hlt⟩) := by
  have e := idx_facts2 t
  show V c (Pipeline.arrRef spec2 3) (((cfg2.win 3).blk t).view.emb (ix2 (0 : Fin 1) j)) = _
  refine congrArg _ (funext fun a => Fin.ext ?_)
  match a with
  | ⟨0, _⟩ => show win2_3.index t (0 : Fin 2) * 1 + 1 * 0 = 0; omega
  | ⟨1, _⟩ => show win2_3.index t (1 : Fin 2) * 2048 + 1 * j.val = t.val % 4 * 2048 + j.val; omega

theorem read_blk2_4 (G : S8192x128.Idx → EReal) (t : Fin cfg2.N) (r : Fin 1024) (d : Fin 128) (hlt : t.val / 4 * 1024 + r.val < 8192) :
    ((cfg2.win 4).blk t).view.read (Elt Ideal) G (ix2 r d) = G (ix2 ⟨t.val / 4 * 1024 + r.val, hlt⟩ d) := by
  have e := idx_facts2 t
  show G (((cfg2.win 4).blk t).view.emb (ix2 r d)) = _
  refine congrArg G (funext fun a => Fin.ext ?_)
  match a with
  | ⟨0, _⟩ => show win2_4.index t (0 : Fin 2) * 1024 + 1 * r.val = t.val / 4 * 1024 + r.val; omega
  | ⟨1, _⟩ => show win2_4.index t (1 : Fin 2) * 128 + 1 * d.val = d.val; omega

/-! ## The scratch after each point -/

/-- The four arrays the region reads, as it finds them. -/
abbrev aq2 (c : Dev nD) : S8192x128.Idx → EReal := V c (Pipeline.arrRef spec2 0)
abbrev ak2 (c : Dev nD) : S8192x128.Idx → EReal := V c (Pipeline.arrRef spec2 1)
abbrev abq2 (c : Dev nD) : S8192x1.Idx → BitVec 32 := V c (Pipeline.arrRef spec2 2)
abbrev abk2 (c : Dev nD) : S1x8192.Idx → BitVec 32 := V c (Pipeline.arrRef spec2 3)

/-- THE INVARIANT. After point n (query tile n / 4, key tile n % 4), row r of the three scratch buffers holds the online
    recurrence of row `1024 (n / 4) + r` of the masked scores after n % 4 + 1 blocks. -/
theorem scratch2_eq (c : Dev nD) : ∀ (n : ℕ) (hn : n < cfg2.N) (r : Fin 1024),
    (outsAt2 V c n hn).2.1 (ix2 r (0 : Fin 1))
        = mx (blk (srow (aq2 V c) (ak2 V c) (abq2 V c) (abk2 V c) ⟨n / 4 * 1024 + r.val, by have := r.isLt; have : n < 32 := lt_of_lt_of_eq hn N_2; omega⟩)) (n % 4 + 1)
    ∧ (outsAt2 V c n hn).2.2.1 (ix2 r (0 : Fin 1))
        = den (blk (srow (aq2 V c) (ak2 V c) (abq2 V c) (abk2 V c) ⟨n / 4 * 1024 + r.val, by have := r.isLt; have : n < 32 := lt_of_lt_of_eq hn N_2; omega⟩)) (n % 4 + 1)
    ∧ ∀ d : Fin 128, (outsAt2 V c n hn).2.2.2 (ix2 r d)
        = num (blk (srow (aq2 V c) (ak2 V c) (abq2 V c) (abk2 V c) ⟨n / 4 * 1024 + r.val, by have := r.isLt; have : n < 32 := lt_of_lt_of_eq hn N_2; omega⟩)) (blk (vcol (ak2 V c) d)) (n % 4 + 1) := by
  intro n
  induction n with
  | zero =>
    intro hn r
    have h32 : (0 : ℕ) < 32 := by omega
    rw [outsAt2_A V c ⟨0, hn⟩ rfl (by dsimp only; omega)]
    dsimp only
    rw [sout2_A_0_eq, sout2_A_1_eq, sout2_A_2_eq, pay2_eq]
    have H0 := fun (r : Fin 1024) (k : Fin 128) => blk2_0_read V c ⟨0, hn⟩ r k (by have := r.isLt; show 0 / 4 * 1024 + r.val < 8192; omega)
    have H1 := fun (j : Fin 2048) (k : Fin 128) => blk2_1_read V c ⟨0, hn⟩ j k (by have := j.isLt; show 0 % 4 * 2048 + j.val < 8192; omega)
    have H2 := fun (r : Fin 1024) => blk2_2_read V c ⟨0, hn⟩ r (by have := r.isLt; show 0 / 4 * 1024 + r.val < 8192; omega)
    have H3 := fun (j : Fin 2048) => blk2_3_read V c ⟨0, hn⟩ j (by have := j.isLt; show 0 % 4 * 2048 + j.val < 8192; omega)
    exact ⟨step_max (aq2 V c) (ak2 V c) (abq2 V c) (abk2 V c) _ _ _ _ (0 / 4) (0 % 4) (by omega) (by omega) H0 H1 H2 H3 _ r (pay4_apply _),
      step_den (aq2 V c) (ak2 V c) (abq2 V c) (abk2 V c) _ _ _ _ (0 / 4) (0 % 4) (by omega) (by omega) H0 H1 H2 H3 _ _ r (pay4_apply _) (pay5_apply _),
      fun d => step_num (aq2 V c) (ak2 V c) (abq2 V c) (abk2 V c) _ _ _ _ (0 / 4) (0 % 4) (by omega) (by omega) H0 H1 H2 H3 _ _ r d (pay4_apply _) (pay6_apply _)⟩
  | succ n ih =>
    intro hn r
    have h32 : n + 1 < 32 := lt_of_lt_of_eq hn N_2
    have H0 := fun (r : Fin 1024) (k : Fin 128) => blk2_0_read V c ⟨n + 1, hn⟩ r k (by have := r.isLt; show (n + 1) / 4 * 1024 + r.val < 8192; omega)
    have H1 := fun (j : Fin 2048) (k : Fin 128) => blk2_1_read V c ⟨n + 1, hn⟩ j k (by have := j.isLt; show (n + 1) % 4 * 2048 + j.val < 8192; omega)
    have H2 := fun (r : Fin 1024) => blk2_2_read V c ⟨n + 1, hn⟩ r (by have := r.isLt; show (n + 1) / 4 * 1024 + r.val < 8192; omega)
    have H3 := fun (j : Fin 2048) => blk2_3_read V c ⟨n + 1, hn⟩ j (by have := j.isLt; show (n + 1) % 4 * 2048 + j.val < 8192; omega)
    by_cases hA : (n + 1) % 4 = 0
    · rw [outsAt2_A V c ⟨n + 1, hn⟩ hA (by dsimp only; omega)]
      dsimp only
      rw [sout2_A_0_eq, sout2_A_1_eq, sout2_A_2_eq, pay2_eq]
      have hk0 : (n + 1) % 4 + 1 = 0 + 1 := by omega
      have e0 : (k2_pay4 (F := Ideal)) (ix2 r (0 : Fin 1)) = mx (blk (srow (aq2 V c) (ak2 V c) (abq2 V c) (abk2 V c) ⟨(n + 1) / 4 * 1024 + r.val, by have := r.isLt; omega⟩)) ((n + 1) % 4) := by
        rw [hA]; exact pay4_apply _
      have e1 : (k2_pay5 (F := Ideal)) (ix2 r (0 : Fin 1)) = den (blk (srow (aq2 V c) (ak2 V c) (abq2 V c) (abk2 V c) ⟨(n + 1) / 4 * 1024 + r.val, by have := r.isLt; omega⟩)) ((n + 1) % 4) := by
        rw [hA]; exact pay5_apply _
      have e2 : ∀ d : Fin 128, (k2_pay6 (F := Ideal)) (ix2 r d) = num (blk (srow (aq2 V c) (ak2 V c) (abq2 V c) (abk2 V c) ⟨(n + 1) / 4 * 1024 + r.val, by have := r.isLt; omega⟩)) (blk (vcol (ak2 V c) d)) ((n + 1) % 4) := by
        intro d; rw [hA]; exact pay6_apply _
      exact ⟨step_max (aq2 V c) (ak2 V c) (abq2 V c) (abk2 V c) _ _ _ _ ((n + 1) / 4) ((n + 1) % 4) (by omega) (by omega) H0 H1 H2 H3 _ r e0,
        step_den (aq2 V c) (ak2 V c) (abq2 V c) (abk2 V c) _ _ _ _ ((n + 1) / 4) ((n + 1) % 4) (by omega) (by omega) H0 H1 H2 H3 _ _ r e0 e1,
        fun d => step_num (aq2 V c) (ak2 V c) (abq2 V c) (abk2 V c) _ _ _ _ ((n + 1) / 4) ((n + 1) % 4) (by omega) (by omega) H0 H1 H2 H3 _ _ r d e0 (e2 d)⟩
    · have hq : n / 4 = (n + 1) / 4 := by omega
      have hk : n % 4 + 1 = (n + 1) % 4 := by omega
      have hnlt : n < cfg2.N := Nat.lt_of_succ_lt hn
      obtain ⟨i0, i1, i2⟩ := ih hnlt r
      have e0 : (outsAt2 V c n hnlt).2.1 (ix2 r (0 : Fin 1)) = mx (blk (srow (aq2 V c) (ak2 V c) (abq2 V c) (abk2 V c) ⟨(n + 1) / 4 * 1024 + r.val, by have := r.isLt; omega⟩)) ((n + 1) % 4) := by
        rw [i0]; simp only [hq, hk]
      have e1 : (outsAt2 V c n hnlt).2.2.1 (ix2 r (0 : Fin 1)) = den (blk (srow (aq2 V c) (ak2 V c) (abq2 V c) (abk2 V c) ⟨(n + 1) / 4 * 1024 + r.val, by have := r.isLt; omega⟩)) ((n + 1) % 4) := by
        rw [i1]; simp only [hq, hk]
      have e2 : ∀ d : Fin 128, (outsAt2 V c n hnlt).2.2.2 (ix2 r d) = num (blk (srow (aq2 V c) (ak2 V c) (abq2 V c) (abk2 V c) ⟨(n + 1) / 4 * 1024 + r.val, by have := r.isLt; omega⟩)) (blk (vcol (ak2 V c) d)) ((n + 1) % 4) := by
        intro d; rw [i2 d]; simp only [hq, hk]
      by_cases hC : (n + 1) % 4 = 3
      · rw [outsAt2_C V c ⟨n + 1, hn⟩ hA hC]
        dsimp only
        rw [sout2_C_0_eq, sout2_C_1_eq, sout2_C_2_eq, pay2_eq]
        exact ⟨step_max (aq2 V c) (ak2 V c) (abq2 V c) (abk2 V c) _ _ _ _ ((n + 1) / 4) ((n + 1) % 4) (by omega) (by omega) H0 H1 H2 H3 _ r e0,
          step_den (aq2 V c) (ak2 V c) (abq2 V c) (abk2 V c) _ _ _ _ ((n + 1) / 4) ((n + 1) % 4) (by omega) (by omega) H0 H1 H2 H3 _ _ r e0 e1,
          fun d => step_num (aq2 V c) (ak2 V c) (abq2 V c) (abk2 V c) _ _ _ _ ((n + 1) / 4) ((n + 1) % 4) (by omega) (by omega) H0 H1 H2 H3 _ _ r d e0 (e2 d)⟩
      · rw [outsAt2_B V c ⟨n + 1, hn⟩ hA hC]
        dsimp only
        rw [sout2_B_0_eq, sout2_B_1_eq, sout2_B_2_eq, pay2_eq]
        exact ⟨step_max (aq2 V c) (ak2 V c) (abq2 V c) (abk2 V c) _ _ _ _ ((n + 1) / 4) ((n + 1) % 4) (by omega) (by omega) H0 H1 H2 H3 _ r e0,
          step_den (aq2 V c) (ak2 V c) (abq2 V c) (abk2 V c) _ _ _ _ ((n + 1) / 4) ((n + 1) % 4) (by omega) (by omega) H0 H1 H2 H3 _ _ r e0 e1,
          fun d => step_num (aq2 V c) (ak2 V c) (abq2 V c) (abk2 V c) _ _ _ _ ((n + 1) / 4) ((n + 1) % 4) (by omega) (by omega) H0 H1 H2 H3 _ _ r d e0 (e2 d)⟩

/-! ## What each flushing point writes back -/

/-- The attention specification of the arrays the region found. -/
abbrev G2 (c : Dev nD) : S8192x128.Idx → EReal :=
  attnG (aq2 V c) (ak2 V c) (lq (abq2 V c)) (lk (abk2 V c))

/-- At key tile 3 the output tile holds, at (r, d), the attention specification at row `1024 (t / 4) + r`. -/
theorem out2_eq (c : Dev nD) (hq : ∀ i, ∃ x : ℝ, aq2 V c i = (x : EReal)) (hk : ∀ i, ∃ x : ℝ, ak2 V c i = (x : EReal))
    (t : Fin cfg2.N) (h3 : t.val % 4 = 3) (r : Fin 1024) (d : Fin 128) (hlt : t.val / 4 * 1024 + r.val < 8192) :
    (outsAt2 V c t.val t.isLt).1 (ix2 r d) = G2 V c (ix2 ⟨t.val / 4 * 1024 + r.val, hlt⟩ d) := by
  have hI := scratch2_eq V c t.val t.isLt r
  have hA : ¬t.val % 4 = 0 := by omega
  rw [outsAt2_C V c t hA h3] at hI ⊢
  dsimp only at hI ⊢
  rw [sout2_C_1_eq] at hI
  rw [sout2_C_2_eq] at hI
  rw [out2_C_4_eq, pay3_apply, hI.2.1, hI.2.2 d]
  have e4 : t.val % 4 + 1 = 4 := by omega
  rw [e4]
  exact online4 _ _ (mscore_real (aq2 V c) (ak2 V c) _ _ hq hk _) (fun j => hk _)

theorem flushed2_eq (c : Dev nD) (hq : ∀ i, ∃ x : ℝ, aq2 V c i = (x : EReal)) (hk : ∀ i, ∃ x : ℝ, ak2 V c i = (x : EReal))
    (t : Fin cfg2.N) (hf : (cfg2.win 4).flush t = true) :
    (dat2 (F := Ideal) V c).flushed 4 t = ((cfg2.win 4).blk t).view.read (Elt Ideal) (G2 V c) := by
  have h3 : t.val % 4 = 3 := (flush2_4 t).mp hf
  have ht : t.val < 32 := lt_of_lt_of_eq t.isLt N_2
  show (cfg2.win 4).cut (grid2.coords t) ((dat2 V c).after 4 t) = _
  rw [after2_4]
  funext y
  obtain ⟨r, d, rfl⟩ : ∃ (r : Fin 1024) (d : Fin 128), y = ix2 r d := ⟨y 0, y 1, eq_ix2 y⟩
  have hlt : t.val / 4 * 1024 + r.val < 8192 := by have := r.isLt; omega
  show (outsAt2 V c t.val t.isLt).1 (ix2 r d) = _
  exact (out2_eq V c hq hk t h3 r d hlt).trans (read_blk2_4 (G2 V c) t r d hlt).symm

/-! ## The eight flushed blocks cover the result -/

theorem mem_blk2_4 (t : Fin cfg2.N) (i : S8192x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v50).slice (win2_4.rect t)).set ↔ _
  rw [View.set_slice_whole, Rect.mem_set_unit]
  exact Iff.rfl

/-- Row n is in the block of point `4 (n / 1024) + 3`, which writes back. -/
theorem cover2_arr (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  have hN := N_2
  let t : Fin cfg2.N := ⟨4 * ((i 0).val / 1024) + 3, lt_of_lt_of_eq (by omega) N_2.symm⟩
  have htv : t.val = 4 * ((i 0).val / 1024) + 3 := rfl
  have e := idx_facts2 t
  refine ⟨t, (flush2_4 t).mpr (by omega), ?_⟩
  rw [mem_blk2_4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 128 ≤ (i 1).val ∧ (i 1).val < win2_4.index t (1 : Fin 2) * 128 + 128; omega

/-! ## The result array after the region -/

/-- The result array after the region is the attention specification of the four arrays the region found, for real
    features. -/
theorem final2 (c : Dev nD) (hq : ∀ i, ∃ x : ℝ, V c (Pipeline.arrRef spec2 0) i = (x : EReal))
    (hk : ∀ i, ∃ x : ℝ, V c (Pipeline.arrRef spec2 1) i = (x : EReal)) :
    (dat2 (F := Ideal) V c).arrAt 4 cfg2.N
      = attnG (V c (Pipeline.arrRef spec2 0)) (V c (Pipeline.arrRef spec2 1))
          (fun i => V c (Pipeline.arrRef spec2 2) (ix2 (i 0) (0 : Fin 1))) (fun i => V c (Pipeline.arrRef spec2 3) (ix2 (0 : Fin 1) (i 0))) :=
  (dat2 (F := Ideal) V c).arrAt_eq_of_cover 4 (G2 V c) (fun t hf => flushed2_eq V c hq hk t hf) (cover2_arr)

end Cert.KernelIdeal.Hand

end
-- ==== Proof.KI.Attn3Pieces.lean ====
/- Region 3 of @main (the masked attention kernel with an online softmax): what each of the body's three cases leaves in
   the three carried scratch buffers and (at key tile 3) in the output window's buffer, as the skeleton's payloads of
   the point's four input blocks and of what the point before left. Generic in the float instance. -/
import proofs.«108965_j35862976922239_2_alg».proof.Proof.KI.Attn3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores' offsets are all zero. -/
theorem hz3 : (![0, 0] : Fin 2 → ℕ) = fun _ => 0 := by funext a; fin_cases a <;> rfl

/-- At key tile 0 (after the reset: from −∞, 0, 0) the body leaves in the running maximum's buffer the skeleton's payload of the point's four input blocks. -/
theorem sout3_A_0_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) :
    sout3_A_0 c i arg2 harg2 arg3 harg3 arg4 harg4 arg5 harg5 arg6 harg6 arg7 harg7 arg8 harg8 arg9 harg9 hc0 hc1 x0 x1 x2 x3 = k3_pay2 (k3_pay9 x0 x1 x2 x3 (k3_pay4 (F := F))) := by
  unfold sout3_A_0
  rw [View.read_writes_eq_canon _ _ _ (scover3_A_0 c i arg2 harg2 arg3 harg3 arg4 harg4 arg5 harg5 arg6 harg6 arg7 harg7 arg8 harg8 arg9 harg9 hc0 hc1 x0 x1 x2 x3)]
  unfold kernelRun3_A; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 0 (after the reset: from −∞, 0, 0) the body leaves in the running sum's buffer the skeleton's payload of the point's four input blocks. -/
theorem sout3_A_1_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) :
    sout3_A_1 c i arg2 harg2 arg3 harg3 arg4 harg4 arg5 harg5 arg6 harg6 arg7 harg7 arg8 harg8 arg9 harg9 hc0 hc1 x0 x1 x2 x3 = k3_pay12 x0 x1 x2 x3 (k3_pay4 (F := F)) (k3_pay4 (F := F)) (k3_pay5 (F := F)) := by
  unfold sout3_A_1
  rw [View.read_writes_eq_canon _ _ _ (scover3_A_1 c i arg2 harg2 arg3 harg3 arg4 harg4 arg5 harg5 arg6 harg6 arg7 harg7 arg8 harg8 arg9 harg9 hc0 hc1 x0 x1 x2 x3)]
  unfold kernelRun3_A; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 0 (after the reset: from −∞, 0, 0) the body leaves in the running weighted sum's buffer the skeleton's payload of the point's four input blocks. -/
theorem sout3_A_2_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S2048x128 .f32) (x2 : Vec F S1024x1 .i32) (x3 : Vec F S1x2048 .i32) :
    sout3_A_2 c i arg2 harg2 arg3 harg3 arg4 harg4 arg5 harg5 arg6 harg6 arg7 harg7 arg8 harg8 arg9 harg9 hc0 hc1 x0 x1 x2 x3 = k3_pay1 (k3_pay7 x1) (k3_pay10 x0 x1 x2 x3 (k3_pay4 (F := F)) (k3_pay4 (F := F))) (k3_pay11 x0 x1 x2 x3 (k3_pay4 (F := F))) (k3_pay6 (F := F)) := by
  unfold sout3_A_2
  rw [View.read_writes_eq_canon _ _ _ (scover3_A_2 c i arg2 harg2 arg3 harg3 arg4 harg4 arg5 harg5 arg6 harg6 arg7 harg7 arg8 harg8 arg9 harg9 hc0 hc1 x0 x1 x2 x3)]
  unfold kernelRun3_A; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tiles 1 and 2 the body leaves in the running maximum's buffer the skeleton's payload of the point's four input blocks and what the point before left. -/
theorem sout3_B_0_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_B_0 c i arg2 harg2 arg3 harg3 arg4 harg4 arg5 harg5 arg6 harg6 arg7 harg7 arg8 harg8 arg9 harg9 hc0 hc1 x0 x1 x2 x3 xs0 xs1 xs2 = k3_pay2 (k3_pay9 x0 x1 x2 x3 xs0) := by
  unfold sout3_B_0
  rw [View.read_writes_eq_canon _ _ _ (scover3_B_0 c i arg2 harg2 arg3 harg3 arg4 harg4 arg5 harg5 arg6 harg6 arg7 harg7 arg8 harg8 arg9 harg9 hc0 hc1 x0 x1 x2 x3 xs0 xs1 xs2)]
  unfold kernelRun3_B; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tiles 1 and 2 the body leaves in the running sum's buffer the skeleton's payload of the point's four input blocks and what the point before left. -/
theorem sout3_B_1_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_B_1 c i arg2 harg2 arg3 harg3 arg4 harg4 arg5 harg5 arg6 harg6 arg7 harg7 arg8 harg8 arg9 harg9 hc0 hc1 x0 x1 x2 x3 xs0 xs1 xs2 = k3_pay12 x0 x1 x2 x3 xs0 xs0 xs1 := by
  unfold sout3_B_1
  rw [View.read_writes_eq_canon _ _ _ (scover3_B_1 c i arg2 harg2 arg3 harg3 arg4 harg4 arg5 harg5 arg6 harg6 arg7 harg7 arg8 harg8 arg9 harg9 hc0 hc1 x0 x1 x2 x3 xs0 xs1 xs2)]
  unfold kernelRun3_B; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tiles 1 and 2 the body leaves in the running weighted sum's buffer the skeleton's payload of the point's four input blocks and what the point before left. -/
theorem sout3_B_2_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : ¬cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_B_2 c i arg2 harg2 arg3 harg3 arg4 harg4 arg5 harg5 arg6 harg6 arg7 harg7 arg8 harg8 arg9 harg9 hc0 hc1 x0 x1 x2 x3 xs0 xs1 xs2 = k3_pay1 (k3_pay7 x1) (k3_pay10 x0 x1 x2 x3 xs0 xs0) (k3_pay11 x0 x1 x2 x3 xs0) xs2 := by
  unfold sout3_B_2
  rw [View.read_writes_eq_canon _ _ _ (scover3_B_2 c i arg2 harg2 arg3 harg3 arg4 harg4 arg5 harg5 arg6 harg6 arg7 harg7 arg8 harg8 arg9 harg9 hc0 hc1 x0 x1 x2 x3 xs0 xs1 xs2)]
  unfold kernelRun3_B; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 3 the body leaves in the running maximum's buffer the skeleton's payload of the point's four input blocks and what the point before left. -/
theorem sout3_C_0_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_C_0 c i arg2 harg2 arg3 harg3 arg4 harg4 arg5 harg5 arg6 harg6 arg7 harg7 arg8 harg8 arg9 harg9 hc0 hc1 x0 x1 x2 x3 xs0 xs1 xs2 = k3_pay2 (k3_pay9 x0 x1 x2 x3 xs0) := by
  unfold sout3_C_0
  rw [View.read_writes_eq_canon _ _ _ (scover3_C_0 c i arg2 harg2 arg3 harg3 arg4 harg4 arg5 harg5 arg6 harg6 arg7 harg7 arg8 harg8 arg9 harg9 hc0 hc1 x0 x1 x2 x3 xs0 xs1 xs2)]
  unfold kernelRun3_C; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 3 the body leaves in the running sum's buffer the skeleton's payload of the point's four input blocks and what the point before left. -/
theorem sout3_C_1_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_C_1 c i arg2 harg2 arg3 harg3 arg4 harg4 arg5 harg5 arg6 harg6 arg7 harg7 arg8 harg8 arg9 harg9 hc0 hc1 x0 x1 x2 x3 xs0 xs1 xs2 = k3_pay12 x0 x1 x2 x3 xs0 xs0 xs1 := by
  unfold sout3_C_1
  rw [View.read_writes_eq_canon _ _ _ (scover3_C_1 c i arg2 harg2 arg3 harg3 arg4 harg4 arg5 harg5 arg6 harg6 arg7 harg7 arg8 harg8 arg9 harg9 hc0 hc1 x0 x1 x2 x3 xs0 xs1 xs2)]
  unfold kernelRun3_C; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 3 the body leaves in the running weighted sum's buffer the skeleton's payload of the point's four input blocks and what the point before left. -/
theorem sout3_C_2_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    sout3_C_2 c i arg2 harg2 arg3 harg3 arg4 harg4 arg5 harg5 arg6 harg6 arg7 harg7 arg8 harg8 arg9 harg9 hc0 hc1 x0 x1 x2 x3 xs0 xs1 xs2 = k3_pay1 (k3_pay7 x1) (k3_pay10 x0 x1 x2 x3 xs0 xs0) (k3_pay11 x0 x1 x2 x3 xs0) xs2 := by
  unfold sout3_C_2
  rw [View.read_writes_eq_canon _ _ _ (scover3_C_2 c i arg2 harg2 arg3 harg3 arg4 harg4 arg5 harg5 arg6 harg6 arg7 harg7 arg8 harg8 arg9 harg9 hc0 hc1 x0 x1 x2 x3 xs0 xs1 xs2)]
  unfold kernelRun3_C; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

/-- At key tile 3 the body leaves in the output window's buffer the normalised weighted sum: the skeleton's last payload of
    the new running weighted sum and the new running sum. -/
theorem out3_C_4_eq (c : Dev nD) (i : grid3.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S2048x128 .f32) (x2 : Vec F S1024x1 .i32) (x3 : Vec F S1x2048 .i32) (xs0 : Vec F S1024x1 .f32) (xs1 : Vec F S1024x1 .f32) (xs2 : Vec F S1024x128 .f32) :
    out3_C_4 c i arg2 harg2 arg3 harg3 arg4 harg4 arg5 harg5 arg6 harg6 arg7 harg7 arg8 harg8 arg9 harg9 hc0 hc1 x0 x1 x2 x3 xs0 xs1 xs2 = k3_pay3 (k3_pay1 (k3_pay7 x1) (k3_pay10 x0 x1 x2 x3 xs0 xs0) (k3_pay11 x0 x1 x2 x3 xs0) xs2) (k3_pay12 x0 x1 x2 x3 xs0 xs0 xs1) := by
  unfold out3_C_4
  rw [View.read_writes_eq_canon _ _ _ (cover3_C_4 c i arg2 harg2 arg3 harg3 arg4 harg4 arg5 harg5 arg6 harg6 arg7 harg7 arg8 harg8 arg9 harg9 hc0 hc1 x0 x1 x2 x3 xs0 xs1 xs2)]
  unfold kernelRun3_C; dsimp only
  sl_unfold_words
  simp only [View.readAt_eq_ld, harg2.read_unread, harg3.read_unread, harg4.read_unread, harg5.read_unread, harg7.read_unread, harg8.read_unread, harg9.read_unread,
    View.ld_unit_zero (S := S1024x128) hz3, View.ld_unit_zero (S := S2048x128) hz3, View.ld_unit_zero (S := S1024x1) hz3, View.ld_unit_zero (S := S1x2048) hz3,
    View.readCov_unit_zero (S := S1024x1) arg7.view hz3, View.readCov_unit_zero (S := S1024x1) arg8.view hz3, View.readCov_unit_zero (S := S1024x128) arg9.view hz3,
    View.canon_cons_unit_zero (S := S1024x1) hz3, View.canon_cons_unit_zero (S := S1024x128) hz3, View.canon_unit_zero (S := S1024x1) hz3, View.canon_unit_zero (S := S1024x128) hz3]

end Cert.KernelIdeal.Hand

end
-- ==== Proof.KI.Attn3Pay.lean ====
/- The attention kernel's payloads at the ideal values, read at explicit coordinates of a tile: the masked scores of a
   1024-row query tile against a 2048-row key tile, the running maximum, the rescaling factor, the shifted exponentials,
   the running sum, the running weighted sum and the final quotient. -/
import proofs.«108965_j35862976922239_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

namespace Attn3

local notation "DQK" => dot_S1024x128_S2048x128_S1024x2048_1_1_0_0_n_n
local notation "DPV" => dot_S1024x2048_S2048x128_S1024x128_1_0_0_1_n_n

/-! ## Layout operations at a tile's coordinates -/

/-- A column laid along every lane of a [1024,128] tile. -/
theorem col128 {α : Type} (v : S1024x1.Idx → α) (r : Fin 1024) (d : Fin 128) :
    broadcastTo S1024x128 v broadcasts_S1024x1_S1024x128 (ix2 r d) = v (ix2 r (0 : Fin 1)) :=
  broadcastTo_apply v broadcasts_S1024x1_S1024x128 (ix2 r d) (ix2 r (0 : Fin 1)) (by
    intro a
    match a with
    | ⟨0, _⟩ => rfl
    | ⟨1, _⟩ => rfl)

/-- A column laid along every lane of a [1024,2048] tile. -/
theorem col2048 {α : Type} (v : S1024x1.Idx → α) (r : Fin 1024) (j : Fin 2048) :
    broadcastTo S1024x2048 v broadcasts_S1024x1_S1024x2048 (ix2 r j) = v (ix2 r (0 : Fin 1)) :=
  broadcastTo_apply v broadcasts_S1024x1_S1024x2048 (ix2 r j) (ix2 r (0 : Fin 1)) (by
    intro a
    match a with
    | ⟨0, _⟩ => rfl
    | ⟨1, _⟩ => rfl)

/-- A row laid along every sublane of a [1024,2048] tile. -/
theorem row2048 {α : Type} (w : S1x2048.Idx → α) (r : Fin 1024) (j : Fin 2048) :
    broadcastTo S1024x2048 w broadcasts_S1x2048_S1024x2048 (ix2 r j) = w (ix2 (0 : Fin 1) j) :=
  broadcastTo_apply w broadcasts_S1x2048_S1024x2048 (ix2 r j) (ix2 (0 : Fin 1) j) (by
    intro a
    match a with
    | ⟨0, _⟩ => rfl
    | ⟨1, _⟩ => rfl)

/-- A vector of 1024 entries reshaped to a column. -/
theorem toCol {α : Type} (v : S1024.Idx → α) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_two, Shape.rowMajor_val_one]; show r.val = r.val * 1 + 0; omega)

/-- Row `r` of the tile with the reduced lane coordinate put back. -/
theorem lift_row (r : Fin 1024) (k : Fin (S1024x2048.size 1)) :
    reduces_S1024x2048_S1024.lift (ix1 r) k = ix2 r (⟨k.val, k.isLt⟩ : Fin 2048) := by
  funext c; apply Fin.ext
  fin_cases c <;> rfl

/-! ## The two tile products -/

theorem qk_lhs0 (i : S1024x2048.Idx) (k : (DQK).contr.Idx) : ((DQK).lhsIdx i k 0).val = (i 0).val := by
  unfold DotDims.lhsIdx
  rw [dif_neg (show ¬(0 : Fin S1024x128.rank) ∈ (DQK).lhsBatch by decide), dif_pos (show (0 : Fin S1024x128.rank) ∈ (DQK).lhsNonContracting by decide)]
  rfl
theorem qk_lhs1 (i : S1024x2048.Idx) (k : (DQK).contr.Idx) : ((DQK).lhsIdx i k 1).val = (k ⟨0, by decide⟩).val :=
  (DQK).lhsIdx_val_of_single rfl i k
theorem qk_rhs0 (i : S1024x2048.Idx) (k : (DQK).contr.Idx) : ((DQK).rhsIdx i k 0).val = (i 1).val := by
  unfold DotDims.rhsIdx
  rw [dif_neg (show ¬(0 : Fin S2048x128.rank) ∈ (DQK).rhsBatch by decide), dif_pos (show (0 : Fin S2048x128.rank) ∈ (DQK).rhsNonContracting by decide)]
  rfl
theorem qk_rhs1 (i : S1024x2048.Idx) (k : (DQK).contr.Idx) : ((DQK).rhsIdx i k 1).val = (k ⟨0, by decide⟩).val :=
  (DQK).rhsIdx_val_of_single rfl i k

/-- The query-by-key tile product into the zero splat, at query row `r`, key row `j`: the contraction over the 128
    features. -/
theorem qk_apply {φ₁ φ₂ : FTy} (A : FVec Ideal S1024x128 φ₁) (B : FVec Ideal S2048x128 φ₂) (r : Fin 1024) (j : Fin 2048) :
    FloatOps.matmul (DQK) none A B (constant S1024x2048 .f32 0x00000000#32) (ix2 r j) = ∑ k : Fin 128, A (ix2 r k) * B (ix2 j k) := by
  rw [Ideal.matmul_constant_zero_apply, ← Equiv.sum_comp (contrEquiv1 (DQK) 128 rfl rfl).symm]
  refine Finset.sum_congr rfl fun k _ => ?_
  have hk := contrEquiv1_symm_val (DQK) 128 rfl rfl k
  have el : (DQK).lhsIdx (ix2 r j) ((contrEquiv1 (DQK) 128 rfl rfl).symm k) = ix2 r k := funext fun a => Fin.ext (by
    match a with
    | ⟨0, _⟩ => exact qk_lhs0 _ _
    | ⟨1, _⟩ => exact (qk_lhs1 _ _).trans hk)
  have er : (DQK).rhsIdx (ix2 r j) ((contrEquiv1 (DQK) 128 rfl rfl).symm k) = ix2 j k := funext fun a => Fin.ext (by
    match a with
    | ⟨0, _⟩ => exact qk_rhs0 _ _
    | ⟨1, _⟩ => exact (qk_rhs1 _ _).trans hk)
  rw [el, er]

theorem pv_lhs0 (i : S1024x128.Idx) (k : (DPV).contr.Idx) : ((DPV).lhsIdx i k 0).val = (i 0).val := by
  unfold DotDims.lhsIdx
  rw [dif_neg (show ¬(0 : Fin S1024x2048.rank) ∈ (DPV).lhsBatch by decide), dif_pos (show (0 : Fin S1024x2048.rank) ∈ (DPV).lhsNonContracting by decide)]
  rfl
theorem pv_lhs1 (i : S1024x128.Idx) (k : (DPV).contr.Idx) : ((DPV).lhsIdx i k 1).val = (k ⟨0, by decide⟩).val :=
  (DPV).lhsIdx_val_of_single rfl i k
theorem pv_rhs0 (i : S1024x128.Idx) (k : (DPV).contr.Idx) : ((DPV).rhsIdx i k 0).val = (k ⟨0, by decide⟩).val :=
  (DPV).rhsIdx_val_of_single rfl i k
theorem pv_rhs1 (i : S1024x128.Idx) (k : (DPV).contr.Idx) : ((DPV).rhsIdx i k 1).val = (i 1).val := by
  unfold DotDims.rhsIdx
  rw [dif_neg (show ¬(1 : Fin S2048x128.rank) ∈ (DPV).rhsBatch by decide), dif_pos (show (1 : Fin S2048x128.rank) ∈ (DPV).rhsNonContracting by decide)]
  rfl

/-- The weights-by-values tile product into the zero splat, at query row `r`, feature `d`: the contraction over the
    2048 key rows. -/
theorem pv_apply {φ₁ φ₂ : FTy} (A : FVec Ideal S1024x2048 φ₁) (B : FVec Ideal S2048x128 φ₂) (r : Fin 1024) (d : Fin 128) :
    FloatOps.matmul (DPV) none A B (constant S1024x128 .f32 0x00000000#32) (ix2 r d) = ∑ j : Fin 2048, A (ix2 r j) * B (ix2 j d) := by
  rw [Ideal.matmul_constant_zero_apply, ← Equiv.sum_comp (contrEquiv1 (DPV) 2048 rfl rfl).symm]
  refine Finset.sum_congr rfl fun k _ => ?_
  have hk := contrEquiv1_symm_val (DPV) 2048 rfl rfl k
  have el : (DPV).lhsIdx (ix2 r d) ((contrEquiv1 (DPV) 2048 rfl rfl).symm k) = ix2 r k := funext fun a => Fin.ext (by
    match a with
    | ⟨0, _⟩ => exact pv_lhs0 _ _
    | ⟨1, _⟩ => exact (pv_lhs1 _ _).trans hk)
  have er : (DPV).rhsIdx (ix2 r d) ((contrEquiv1 (DPV) 2048 rfl rfl).symm k) = ix2 k d := funext fun a => Fin.ext (by
    match a with
    | ⟨0, _⟩ => exact (pv_rhs0 _ _).trans hk
    | ⟨1, _⟩ => exact pv_rhs1 _ _)
  rw [el, er]

/-! ## The payloads -/

/-- The masked score of query row `r` of the tile against key row `j` of the tile. -/
def tscore (x0 : Vec Ideal S1024x128 .f32) (x1 : Vec Ideal S2048x128 .f32) (x2 : Vec Ideal S1024x1 .i32) (x3 : Vec Ideal S1x2048 .i32)
    (r : Fin 1024) (j : Fin 2048) : EReal :=
  Scalar.select (IntOp.cmpi .eq (x2 (ix2 r (0 : Fin 1))) (x3 (ix2 (0 : Fin 1) j))) (∑ k : Fin 128, x0 (ix2 r k) * x1 (ix2 j k))
    (Ideal.ofBits .f32 0xF149F2CA#32)

/-- The score tile. -/
theorem pay8_apply (x0 : Vec Ideal S1024x128 .f32) (x1 : Vec Ideal S2048x128 .f32) (x2 : Vec Ideal S1024x1 .i32) (x3 : Vec Ideal S1x2048 .i32)
    (r : Fin 1024) (j : Fin 2048) : k3_pay8 x0 x1 x2 x3 (ix2 r j) = tscore x0 x1 x2 x3 r j := by
  unfold k3_pay8 k3_pay7 tscore
  simp only [matmul]
  rw [select_apply, qk_apply, broadcast_apply]
  simp only [truncf_apply]
  show Scalar.select (IntOp.cmpi .eq (broadcastTo S1024x2048 (shapeCast S1024x1 x2 shapeCasts_S1024x1_S1024x1) broadcasts_S1024x1_S1024x2048 (ix2 r j))
      (broadcastTo S1024x2048 (shapeCast S1x2048 x3 shapeCasts_S1x2048_S1x2048) broadcasts_S1x2048_S1024x2048 (ix2 r j))) _ _ = _
  rw [col2048, row2048, shapeCast_self, shapeCast_self]
  rfl

/-- The new running maximum of row `r`: the old one joined with the maximum of the row's scores (folded from -∞). -/
theorem pay9_apply (x0 : Vec Ideal S1024x128 .f32) (x1 : Vec Ideal S2048x128 .f32) (x2 : Vec Ideal S1024x1 .i32) (x3 : Vec Ideal S1x2048 .i32)
    (sm : Vec Ideal S1024x1 .f32) (r : Fin 1024) :
    k3_pay9 x0 x1 x2 x3 sm (ix2 r (0 : Fin 1))
      = max (sm (ix2 r (0 : Fin 1))) (Finset.univ.fold max ⊥ (fun j : Fin 2048 => tscore x0 x1 x2 x3 r j)) := by
  unfold k3_pay9
  rw [maximumf_apply, toCol]
  refine congrArg (max (sm (ix2 r (0 : Fin 1)))) ?_
  refine (Ideal.multiReduction_maximumf_single (k3_pay8 x0 x1 x2 x3) 0xFF800000#32 reduces_S1024x2048_S1024 (.inl rfl) rfl (ix1 r)).trans ?_
  have hb : (FloatOps.ofBits (F := Ideal) .f32 0xFF800000#32 : EReal) = ⊥ := by
    show Ideal.ofBits .f32 0xFF800000#32 = ⊥
    simp [Ideal.ofBits, Ideal.ieee]
  rw [hb]
  refine congrArg (fun f => Finset.fold max (⊥ : EReal) f (Finset.univ : Finset (Fin 2048))) (funext fun j => ?_)
  show k3_pay8 x0 x1 x2 x3 (reduces_S1024x2048_S1024.lift (ix1 r) j) = _
  rw [lift_row]
  exact pay8_apply x0 x1 x2 x3 r j

/-- The rescaling factor of row `r`: the exponential of (old maximum - new maximum). -/
theorem pay10_apply (x0 : Vec Ideal S1024x128 .f32) (x1 : Vec Ideal S2048x128 .f32) (x2 : Vec Ideal S1024x1 .i32) (x3 : Vec Ideal S1x2048 .i32)
    (sm sm' : Vec Ideal S1024x1 .f32) (r : Fin 1024) :
    k3_pay10 x0 x1 x2 x3 sm sm' (ix2 r (0 : Fin 1))
      = Ideal.exp (sm' (ix2 r (0 : Fin 1)) - k3_pay9 x0 x1 x2 x3 sm (ix2 r (0 : Fin 1))) := rfl

/-- The shifted exponential of the score at (r, j). -/
theorem pay11_apply (x0 : Vec Ideal S1024x128 .f32) (x1 : Vec Ideal S2048x128 .f32) (x2 : Vec Ideal S1024x1 .i32) (x3 : Vec Ideal S1x2048 .i32)
    (sm : Vec Ideal S1024x1 .f32) (r : Fin 1024) (j : Fin 2048) :
    k3_pay11 x0 x1 x2 x3 sm (ix2 r j)
      = Ideal.exp (tscore x0 x1 x2 x3 r j - k3_pay9 x0 x1 x2 x3 sm (ix2 r (0 : Fin 1))) := by
  unfold k3_pay11
  show Ideal.exp (k3_pay8 x0 x1 x2 x3 (ix2 r j) - broadcastTo S1024x2048 (k3_pay9 x0 x1 x2 x3 sm) broadcasts_S1024x1_S1024x2048 (ix2 r j)) = _
  rw [col2048, pay8_apply]

/-- The new running sum of row `r`: the rescaled old one plus the row's sum of shifted exponentials. -/
theorem pay12_apply (x0 : Vec Ideal S1024x128 .f32) (x1 : Vec Ideal S2048x128 .f32) (x2 : Vec Ideal S1024x1 .i32) (x3 : Vec Ideal S1x2048 .i32)
    (sm sm' sl : Vec Ideal S1024x1 .f32) (r : Fin 1024) :
    k3_pay12 x0 x1 x2 x3 sm sm' sl (ix2 r (0 : Fin 1))
      = k3_pay10 x0 x1 x2 x3 sm sm' (ix2 r (0 : Fin 1)) * sl (ix2 r (0 : Fin 1))
          + ∑ j : Fin 2048, k3_pay11 x0 x1 x2 x3 sm (ix2 r j) := by
  unfold k3_pay12
  rw [shapeCast_self, addf_apply, mulf_apply, toCol]
  refine congrArg (fun z : EReal => k3_pay10 x0 x1 x2 x3 sm sm' (ix2 r (0 : Fin 1)) * sl (ix2 r (0 : Fin 1)) + z) ?_
  refine (Ideal.multiReduction_add_single (k3_pay11 x0 x1 x2 x3 sm) 0x00000000#32 reduces_S1024x2048_S1024 (.inl rfl) rfl (ix1 r)).trans ?_
  exact Finset.sum_congr rfl fun j _ => by rw [lift_row]; rfl

/-- The new running weighted sum at (r, d): the rescaled old one plus the weights contracted with the key tile's column. -/
theorem pay1_apply (x1 : Vec Ideal S2048x128 .f32) (a : FVec Ideal S1024x1 .f32) (p : FVec Ideal S1024x2048 .f32)
    (acc : Vec Ideal S1024x128 .f32) (r : Fin 1024) (d : Fin 128) :
    k3_pay1 (k3_pay7 x1) a p acc (ix2 r d)
      = a (ix2 r (0 : Fin 1)) * acc (ix2 r d) + ∑ j : Fin 2048, p (ix2 r j) * x1 (ix2 j d) := by
  unfold k3_pay1 k3_pay7
  simp only [matmul]
  rw [shapeCast_self, addf_apply, mulf_apply, col128, pv_apply]
  simp only [truncf_apply]

/-- The final quotient at (r, d). -/
theorem pay3_apply (acc : Vec Ideal S1024x128 .f32) (l : Vec Ideal S1024x1 .f32) (r : Fin 1024) (d : Fin 128) :
    k3_pay3 acc l (ix2 r d) = Ideal.div (acc (ix2 r d)) (l (ix2 r (0 : Fin 1))) := by
  unfold k3_pay3
  rw [divf_apply, col128]

theorem pay2_eq {F : FTy → Type} [FloatOps F] (v : FVec F S1024x1 .f32) : k3_pay2 v = v := by
  unfold k3_pay2
  exact shapeCast_self v _

/-- The reset values: -∞, 0, 0. -/
theorem pay4_apply (i : S1024x1.Idx) : (k3_pay4 (F := Ideal)) i = ⊥ := by
  unfold k3_pay4
  rw [shapeCast_self, broadcast_apply]
  show Ideal.ofBits .f32 0xFF800000#32 = ⊥
  simp [Ideal.ofBits, Ideal.ieee]

theorem pay5_apply (i : S1024x1.Idx) : (k3_pay5 (F := Ideal)) i = 0 := by
  unfold k3_pay5
  rw [shapeCast_self, broadcast_apply]
  exact Ideal.ofBits_zero_f32

theorem pay6_apply (i : S1024x128.Idx) : (k3_pay6 (F := Ideal)) i = 0 := by
  unfold k3_pay6
  rw [shapeCast_self, broadcast_apply]
  exact Ideal.ofBits_zero_f32

end Attn3

end Cert.KernelIdeal.Hand

end
-- ==== Proof.KI.Attn3Value.lean ====
import proofs.«108965_j35862976922239_2_alg».proof.Proof.KI.Attn3
import proofs.«108965_j35862976922239_2_alg».proof.Proof.KI.Attn3Pieces
import proofs.«108965_j35862976922239_2_alg».proof.Proof.KI.Attn3Pay
import proofs.«108965_j35862976922239_2_alg».proof.Proof.SpecAttn
import Idealize.ShloMosaic.Lib.Pipeline.Value
import Idealize.ShloMosaic.Lib.ValueIdx

/-! # The attention region: the result array after the region, as one function of the four input arrays

At the extended reals. The grid has 8 query tiles of 1024 rows by 4 key tiles of 2048 rows; point `t` has query tile
`t / 4` and key tile `t % 4`. At key tile 0 the three scratch buffers are reset to (-∞, 0, 0); every point folds its key
tile into them: the running maximum is joined with the tile's row maximum, and the running sum and the running weighted
sum are rescaled by exp (old maximum - new maximum) and increased by the tile's sums of shifted exponentials. So after
point `t`, row `r` of the scratch holds the online recurrence of row `1024 (t / 4) + r` of the masked scores after
`t % 4 + 1` blocks. At key tile 3 the quotient is stored into the output tile and written back to rows
`1024 (t / 4) …` of the result; the eight such points cover its 8192 rows. For real features the quotient after four
blocks is the unshifted softmax-weighted average, so the result array is the attention specification of the arrays the
region found. -/

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Spec Cert.OnlineSoftmax

namespace Attn3

/-! ## One key tile folded into one row of the scratch -/

section Step

variable (xq xk : S8192x128.Idx → EReal) (bq : S8192x1.Idx → BitVec 32) (bk : S1x8192.Idx → BitVec 32)

/-- The query graph's labels as a vector. -/
abbrev lq : (⟨1, ![8192]⟩ : Shape).Idx → BitVec 32 := fun i => bq (ix2 (i 0) (0 : Fin 1))
/-- The key graph's labels as a vector. -/
abbrev lk : (⟨1, ![8192]⟩ : Shape).Idx → BitVec 32 := fun i => bk (ix2 (0 : Fin 1) (i 0))

/-- Row `n` of the masked scores. -/
abbrev srow (n : Fin 8192) : Fin 8192 → EReal := fun j => mscore xq xk (lq bq) (lk bk) n j
/-- Column `d` of the key graph's features. -/
abbrev vcol (d : Fin 128) : Fin 8192 → EReal := fun j => xk (ix2 j d)

variable (x0 : Vec Ideal S1024x128 .f32) (x1 : Vec Ideal S2048x128 .f32) (x2 : Vec Ideal S1024x1 .i32) (x3 : Vec Ideal S1x2048 .i32)
  (qt kv : Nat) (hqt : qt < 8) (hkv : kv < 4)
  (h0 : ∀ (r : Fin 1024) (k : Fin 128), x0 (ix2 r k) = xq (ix2 (⟨qt * 1024 + r.val, by have := r.isLt; omega⟩ : Fin 8192) k))
  (h1 : ∀ (j : Fin 2048) (k : Fin 128), x1 (ix2 j k) = xk (ix2 (⟨kv * 2048 + j.val, by have := j.isLt; omega⟩ : Fin 8192) k))
  (h2 : ∀ r : Fin 1024, x2 (ix2 r (0 : Fin 1)) = bq (ix2 (⟨qt * 1024 + r.val, by have := r.isLt; omega⟩ : Fin 8192) (0 : Fin 1)))
  (h3 : ∀ j : Fin 2048, x3 (ix2 (0 : Fin 1) j) = bk (ix2 (0 : Fin 1) (⟨kv * 2048 + j.val, by have := j.isLt; omega⟩ : Fin 8192)))

include hqt hkv h0 h1 h2 h3

/-- The tile's score at (r, j) is entry j of block kv of row `1024 qt + r` of the masked scores. -/
theorem tscore_eq (r : Fin 1024) (j : Fin 2048) :
    tscore x0 x1 x2 x3 r j = blk (srow xq xk bq bk ⟨qt * 1024 + r.val, by have := r.isLt; omega⟩) kv j := by
  rw [blk_of_lt _ kv hkv]
  unfold tscore
  simp only [h0, h1, h2, h3]
  have e : (⟨kv * 2048 + j.val, by have := j.isLt; omega⟩ : Fin 8192) = ⟨2048 * kv + j.val, by have := j.isLt; omega⟩ :=
    Fin.ext (by show kv * 2048 + j.val = 2048 * kv + j.val; omega)
  rw [e]
  rfl

/-- The key tile's feature at (j, d) is entry j of block kv of column d. -/
theorem vblk_eq (j : Fin 2048) (d : Fin 128) : x1 (ix2 j d) = blk (vcol xk d) kv j := by
  rw [blk_of_lt _ kv hkv, h1]
  exact congrArg (fun i : Fin 8192 => xk (ix2 i d)) (Fin.ext (by show kv * 2048 + j.val = 2048 * kv + j.val; omega))

/-- THE FOLD OF ONE KEY TILE, row r: if the scratch holds the online recurrence of the row after kv blocks, the stored
    values are the recurrence after kv + 1 blocks. -/
theorem step_max (xs0 : Vec Ideal S1024x1 .f32) (r : Fin 1024)
    (e0 : xs0 (ix2 r (0 : Fin 1)) = mx (blk (srow xq xk bq bk ⟨qt * 1024 + r.val, by have := r.isLt; omega⟩)) kv) :
    k3_pay9 x0 x1 x2 x3 xs0 (ix2 r (0 : Fin 1))
      = mx (blk (srow xq xk bq bk ⟨qt * 1024 + r.val, by have := r.isLt; omega⟩)) (kv + 1) := by
  rw [pay9_apply, mx_succ, e0]
  refine congrArg (max _) ?_
  exact congrArg (fun f => Finset.fold max (⊥ : EReal) f (Finset.univ : Finset (Fin 2048)))
    (funext fun j => tscore_eq xq xk bq bk x0 x1 x2 x3 qt kv hqt hkv h0 h1 h2 h3 r j)

theorem step_den (xs0 xs1 : Vec Ideal S1024x1 .f32) (r : Fin 1024)
    (e0 : xs0 (ix2 r (0 : Fin 1)) = mx (blk (srow xq xk bq bk ⟨qt * 1024 + r.val, by have := r.isLt; omega⟩)) kv)
    (e1 : xs1 (ix2 r (0 : Fin 1)) = den (blk (srow xq xk bq bk ⟨qt * 1024 + r.val, by have := r.isLt; omega⟩)) kv) :
    k3_pay12 x0 x1 x2 x3 xs0 xs0 xs1 (ix2 r (0 : Fin 1))
      = den (blk (srow xq xk bq bk ⟨qt * 1024 + r.val, by have := r.isLt; omega⟩)) (kv + 1) := by
  rw [pay12_apply, pay10_apply, den_succ, step_max xq xk bq bk x0 x1 x2 x3 qt kv hqt hkv h0 h1 h2 h3 xs0 r e0, e0, e1]
  refine congrArg (_ * _ + ·) (Finset.sum_congr rfl fun j _ => ?_)
  rw [pay11_apply, step_max xq xk bq bk x0 x1 x2 x3 qt kv hqt hkv h0 h1 h2 h3 xs0 r e0,
    tscore_eq xq xk bq bk x0 x1 x2 x3 qt kv hqt hkv h0 h1 h2 h3 r j]

theorem step_num (xs0 : Vec Ideal S1024x1 .f32) (xs2 : Vec Ideal S1024x128 .f32) (r : Fin 1024) (d : Fin 128)
    (e0 : xs0 (ix2 r (0 : Fin 1)) = mx (blk (srow xq xk bq bk ⟨qt * 1024 + r.val, by have := r.isLt; omega⟩)) kv)
    (e2 : xs2 (ix2 r d) = num (blk (srow xq xk bq bk ⟨qt * 1024 + r.val, by have := r.isLt; omega⟩)) (blk (vcol xk d)) kv) :
    k3_pay1 (k3_pay7 x1) (k3_pay10 x0 x1 x2 x3 xs0 xs0) (k3_pay11 x0 x1 x2 x3 xs0) xs2 (ix2 r d)
      = num (blk (srow xq xk bq bk ⟨qt * 1024 + r.val, by have := r.isLt; omega⟩)) (blk (vcol xk d)) (kv + 1) := by
  rw [pay1_apply, pay10_apply, num_succ, step_max xq xk bq bk x0 x1 x2 x3 qt kv hqt hkv h0 h1 h2 h3 xs0 r e0, e0, e2]
  refine congrArg (_ * _ + ·) (Finset.sum_congr rfl fun j _ => ?_)
  rw [pay11_apply, step_max xq xk bq bk x0 x1 x2 x3 qt kv hqt hkv h0 h1 h2 h3 xs0 r e0,
    tscore_eq xq xk bq bk x0 x1 x2 x3 qt kv hqt hkv h0 h1 h2 h3 r j, vblk_eq xq xk bq bk x0 x1 x2 x3 qt kv hqt hkv h0 h1 h2 h3 j d]

end Step

end Attn3

open Attn3

variable (V : (c : Dev nD) → (b : Ref sig .tc) → Buf (Elt Ideal) ((c : Thread nD τ).loc b))

/-! ## The windows' blocks in the arrays -/

/-- The printed index maps, decided over the 32 points: the query-side windows and the output move with the query tile
    along the rows, the key-side windows with the key tile (the key labels along the lanes). -/
theorem idx_facts3 : ∀ t : Fin cfg3.N,
    win3_0.index t (0 : Fin 2) = t.val / 4
    ∧ win3_0.index t (1 : Fin 2) = 0
    ∧ win3_1.index t (0 : Fin 2) = t.val % 4
    ∧ win3_1.index t (1 : Fin 2) = 0
    ∧ win3_2.index t (0 : Fin 2) = t.val / 4
    ∧ win3_2.index t (1 : Fin 2) = 0
    ∧ win3_3.index t (0 : Fin 2) = 0
    ∧ win3_3.index t (1 : Fin 2) = t.val % 4
    ∧ win3_4.index t (0 : Fin 2) = t.val / 4
    ∧ win3_4.index t (1 : Fin 2) = 0 :=
  (by decide +kernel : ∀ t : Fin grid3.N, _)

theorem blk3_0_read (c : Dev nD) (t : Fin cfg3.N) (r : Fin 1024) (k : Fin 128) (hlt : t.val / 4 * 1024 + r.val < 8192) :
    (iblk3 V c 0 t : Vec Ideal S1024x128 .f32) (ix2 r k) = V c (Pipeline.arrRef spec3 0) (ix2 ⟨t.val / 4 * 1024 + r.val, hlt⟩ k) := by
  have e := idx_facts3 t
  show V c (Pipeline.arrRef spec3 0) (((cfg3.win 0).blk t).view.emb (ix2 r k)) = _
  refine congrArg _ (funext fun a => Fin.ext ?_)
  match a with
  | ⟨0, _⟩ => show win3_0.index t (0 : Fin 2) * 1024 + 1 * r.val = t.val / 4 * 1024 + r.val; omega
  | ⟨1, _⟩ => show win3_0.index t (1 : Fin 2) * 128 + 1 * k.val = k.val; omega

theorem blk3_1_read (c : Dev nD) (t : Fin cfg3.N) (j : Fin 2048) (k : Fin 128) (hlt : t.val % 4 * 2048 + j.val < 8192) :
    (iblk3 V c 1 t : Vec Ideal S2048x128 .f32) (ix2 j k) = V c (Pipeline.arrRef spec3 1) (ix2 ⟨t.val % 4 * 2048 + j.val, hlt⟩ k) := by
  have e := idx_facts3 t
  show V c (Pipeline.arrRef spec3 1) (((cfg3.win 1).blk t).view.emb (ix2 j k)) = _
  refine congrArg _ (funext fun a => Fin.ext ?_)
  match a with
  | ⟨0, _⟩ => show win3_1.index t (0 : Fin 2) * 2048 + 1 * j.val = t.val % 4 * 2048 + j.val; omega
  | ⟨1, _⟩ => show win3_1.index t (1 : Fin 2) * 128 + 1 * k.val = k.val; omega

theorem blk3_2_read (c : Dev nD) (t : Fin cfg3.N) (r : Fin 1024) (hlt : t.val / 4 * 1024 + r.val < 8192) :
    (iblk3 V c 2 t : Vec Ideal S1024x1 .i32) (ix2 r (0 : Fin 1)) = V c (Pipeline.arrRef spec3 2) (ix2 ⟨t.val / 4 * 1024 + r.val, hlt⟩ (0 : Fin 1)) := by
  have e := idx_facts3 t
  show V c (Pipeline.arrRef spec3 2) (((cfg3.win 2).blk t).view.emb (ix2 r (0 : Fin 1))) = _
  refine congrArg _ (funext fun a => Fin.ext ?_)
  match a with
  | ⟨0, _⟩ => show win3_2.index t (0 : Fin 2) * 1024 + 1 * r.val = t.val / 4 * 1024 + r.val; omega
  | ⟨1, _⟩ => show win3_2.index t (1 : Fin 2) * 1 + 1 * 0 = 0; omega

theorem blk3_3_read (c : Dev nD) (t : Fin cfg3.N) (j : Fin 2048) (hlt : t.val % 4 * 2048 + j.val < 8192) :
    (iblk3 V c 3 t : Vec Ideal S1x2048 .i32) (ix2 (0 : Fin 1) j) = V c (Pipeline.arrRef spec3 3) (ix2 (0 : Fin 1) ⟨t.val % 4 * 2048 + j.val, hlt⟩) := by
  have e := idx_facts3 t
  show V c (Pipeline.arrRef spec3 3) (((cfg3.win 3).blk t).view.emb (ix2 (0 : Fin 1) j)) = _
  refine congrArg _ (funext fun a => Fin.ext ?_)
  match a with
  | ⟨0, _⟩ => show win3_3.index t (0 : Fin 2) * 1 + 1 * 0 = 0; omega
  | ⟨1, _⟩ => show win3_3.index t (1 : Fin 2) * 2048 + 1 * j.val = t.val % 4 * 2048 + j.val; omega

theorem read_blk3_4 (G : S8192x128.Idx → EReal) (t : Fin cfg3.N) (r : Fin 1024) (d : Fin 128) (hlt : t.val / 4 * 1024 + r.val < 8192) :
    ((cfg3.win 4).blk t).view.read (Elt Ideal) G (ix2 r d) = G (ix2 ⟨t.val / 4 * 1024 + r.val, hlt⟩ d) := by
  have e := idx_facts3 t
  show G (((cfg3.win 4).blk t).view.emb (ix2 r d)) = _
  refine congrArg G (funext fun a => Fin.ext ?_)
  match a with
  | ⟨0, _⟩ => show win3_4.index t (0 : Fin 2) * 1024 + 1 * r.val = t.val / 4 * 1024 + r.val; omega
  | ⟨1, _⟩ => show win3_4.index t (1 : Fin 2) * 128 + 1 * d.val = d.val; omega

/-! ## The scratch after each point -/

/-- The four arrays the region reads, as it finds them. -/
abbrev aq3 (c : Dev nD) : S8192x128.Idx → EReal := V c (Pipeline.arrRef spec3 0)
abbrev ak3 (c : Dev nD) : S8192x128.Idx → EReal := V c (Pipeline.arrRef spec3 1)
abbrev abq3 (c : Dev nD) : S8192x1.Idx → BitVec 32 := V c (Pipeline.arrRef spec3 2)
abbrev abk3 (c : Dev nD) : S1x8192.Idx → BitVec 32 := V c (Pipeline.arrRef spec3 3)

/-- THE INVARIANT. After point n (query tile n / 4, key tile n % 4), row r of the three scratch buffers holds the online
    recurrence of row `1024 (n / 4) + r` of the masked scores after n % 4 + 1 blocks. -/
theorem scratch3_eq (c : Dev nD) : ∀ (n : ℕ) (hn : n < cfg3.N) (r : Fin 1024),
    (outsAt3 V c n hn).2.1 (ix2 r (0 : Fin 1))
        = mx (blk (srow (aq3 V c) (ak3 V c) (abq3 V c) (abk3 V c) ⟨n / 4 * 1024 + r.val, by have := r.isLt; have : n < 32 := lt_of_lt_of_eq hn N_3; omega⟩)) (n % 4 + 1)
    ∧ (outsAt3 V c n hn).2.2.1 (ix2 r (0 : Fin 1))
        = den (blk (srow (aq3 V c) (ak3 V c) (abq3 V c) (abk3 V c) ⟨n / 4 * 1024 + r.val, by have := r.isLt; have : n < 32 := lt_of_lt_of_eq hn N_3; omega⟩)) (n % 4 + 1)
    ∧ ∀ d : Fin 128, (outsAt3 V c n hn).2.2.2 (ix2 r d)
        = num (blk (srow (aq3 V c) (ak3 V c) (abq3 V c) (abk3 V c) ⟨n / 4 * 1024 + r.val, by have := r.isLt; have : n < 32 := lt_of_lt_of_eq hn N_3; omega⟩)) (blk (vcol (ak3 V c) d)) (n % 4 + 1) := by
  intro n
  induction n with
  | zero =>
    intro hn r
    have h32 : (0 : ℕ) < 32 := by omega
    rw [outsAt3_A V c ⟨0, hn⟩ rfl (by dsimp only; omega)]
    dsimp only
    rw [sout3_A_0_eq, sout3_A_1_eq, sout3_A_2_eq, pay2_eq]
    have H0 := fun (r : Fin 1024) (k : Fin 128) => blk3_0_read V c ⟨0, hn⟩ r k (by have := r.isLt; show 0 / 4 * 1024 + r.val < 8192; omega)
    have H1 := fun (j : Fin 2048) (k : Fin 128) => blk3_1_read V c ⟨0, hn⟩ j k (by have := j.isLt; show 0 % 4 * 2048 + j.val < 8192; omega)
    have H2 := fun (r : Fin 1024) => blk3_2_read V c ⟨0, hn⟩ r (by have := r.isLt; show 0 / 4 * 1024 + r.val < 8192; omega)
    have H3 := fun (j : Fin 2048) => blk3_3_read V c ⟨0, hn⟩ j (by have := j.isLt; show 0 % 4 * 2048 + j.val < 8192; omega)
    exact ⟨step_max (aq3 V c) (ak3 V c) (abq3 V c) (abk3 V c) _ _ _ _ (0 / 4) (0 % 4) (by omega) (by omega) H0 H1 H2 H3 _ r (pay4_apply _),
      step_den (aq3 V c) (ak3 V c) (abq3 V c) (abk3 V c) _ _ _ _ (0 / 4) (0 % 4) (by omega) (by omega) H0 H1 H2 H3 _ _ r (pay4_apply _) (pay5_apply _),
      fun d => step_num (aq3 V c) (ak3 V c) (abq3 V c) (abk3 V c) _ _ _ _ (0 / 4) (0 % 4) (by omega) (by omega) H0 H1 H2 H3 _ _ r d (pay4_apply _) (pay6_apply _)⟩
  | succ n ih =>
    intro hn r
    have h32 : n + 1 < 32 := lt_of_lt_of_eq hn N_3
    have H0 := fun (r : Fin 1024) (k : Fin 128) => blk3_0_read V c ⟨n + 1, hn⟩ r k (by have := r.isLt; show (n + 1) / 4 * 1024 + r.val < 8192; omega)
    have H1 := fun (j : Fin 2048) (k : Fin 128) => blk3_1_read V c ⟨n + 1, hn⟩ j k (by have := j.isLt; show (n + 1) % 4 * 2048 + j.val < 8192; omega)
    have H2 := fun (r : Fin 1024) => blk3_2_read V c ⟨n + 1, hn⟩ r (by have := r.isLt; show (n + 1) / 4 * 1024 + r.val < 8192; omega)
    have H3 := fun (j : Fin 2048) => blk3_3_read V c ⟨n + 1, hn⟩ j (by have := j.isLt; show (n + 1) % 4 * 2048 + j.val < 8192; omega)
    by_cases hA : (n + 1) % 4 = 0
    · rw [outsAt3_A V c ⟨n + 1, hn⟩ hA (by dsimp only; omega)]
      dsimp only
      rw [sout3_A_0_eq, sout3_A_1_eq, sout3_A_2_eq, pay2_eq]
      have hk0 : (n + 1) % 4 + 1 = 0 + 1 := by omega
      have e0 : (k3_pay4 (F := Ideal)) (ix2 r (0 : Fin 1)) = mx (blk (srow (aq3 V c) (ak3 V c) (abq3 V c) (abk3 V c) ⟨(n + 1) / 4 * 1024 + r.val, by have := r.isLt; omega⟩)) ((n + 1) % 4) := by
        rw [hA]; exact pay4_apply _
      have e1 : (k3_pay5 (F := Ideal)) (ix2 r (0 : Fin 1)) = den (blk (srow (aq3 V c) (ak3 V c) (abq3 V c) (abk3 V c) ⟨(n + 1) / 4 * 1024 + r.val, by have := r.isLt; omega⟩)) ((n + 1) % 4) := by
        rw [hA]; exact pay5_apply _
      have e2 : ∀ d : Fin 128, (k3_pay6 (F := Ideal)) (ix2 r d) = num (blk (srow (aq3 V c) (ak3 V c) (abq3 V c) (abk3 V c) ⟨(n + 1) / 4 * 1024 + r.val, by have := r.isLt; omega⟩)) (blk (vcol (ak3 V c) d)) ((n + 1) % 4) := by
        intro d; rw [hA]; exact pay6_apply _
      exact ⟨step_max (aq3 V c) (ak3 V c) (abq3 V c) (abk3 V c) _ _ _ _ ((n + 1) / 4) ((n + 1) % 4) (by omega) (by omega) H0 H1 H2 H3 _ r e0,
        step_den (aq3 V c) (ak3 V c) (abq3 V c) (abk3 V c) _ _ _ _ ((n + 1) / 4) ((n + 1) % 4) (by omega) (by omega) H0 H1 H2 H3 _ _ r e0 e1,
        fun d => step_num (aq3 V c) (ak3 V c) (abq3 V c) (abk3 V c) _ _ _ _ ((n + 1) / 4) ((n + 1) % 4) (by omega) (by omega) H0 H1 H2 H3 _ _ r d e0 (e2 d)⟩
    · have hq : n / 4 = (n + 1) / 4 := by omega
      have hk : n % 4 + 1 = (n + 1) % 4 := by omega
      have hnlt : n < cfg3.N := Nat.lt_of_succ_lt hn
      obtain ⟨i0, i1, i2⟩ := ih hnlt r
      have e0 : (outsAt3 V c n hnlt).2.1 (ix2 r (0 : Fin 1)) = mx (blk (srow (aq3 V c) (ak3 V c) (abq3 V c) (abk3 V c) ⟨(n + 1) / 4 * 1024 + r.val, by have := r.isLt; omega⟩)) ((n + 1) % 4) := by
        rw [i0]; simp only [hq, hk]
      have e1 : (outsAt3 V c n hnlt).2.2.1 (ix2 r (0 : Fin 1)) = den (blk (srow (aq3 V c) (ak3 V c) (abq3 V c) (abk3 V c) ⟨(n + 1) / 4 * 1024 + r.val, by have := r.isLt; omega⟩)) ((n + 1) % 4) := by
        rw [i1]; simp only [hq, hk]
      have e2 : ∀ d : Fin 128, (outsAt3 V c n hnlt).2.2.2 (ix2 r d) = num (blk (srow (aq3 V c) (ak3 V c) (abq3 V c) (abk3 V c) ⟨(n + 1) / 4 * 1024 + r.val, by have := r.isLt; omega⟩)) (blk (vcol (ak3 V c) d)) ((n + 1) % 4) := by
        intro d; rw [i2 d]; simp only [hq, hk]
      by_cases hC : (n + 1) % 4 = 3
      · rw [outsAt3_C V c ⟨n + 1, hn⟩ hA hC]
        dsimp only
        rw [sout3_C_0_eq, sout3_C_1_eq, sout3_C_2_eq, pay2_eq]
        exact ⟨step_max (aq3 V c) (ak3 V c) (abq3 V c) (abk3 V c) _ _ _ _ ((n + 1) / 4) ((n + 1) % 4) (by omega) (by omega) H0 H1 H2 H3 _ r e0,
          step_den (aq3 V c) (ak3 V c) (abq3 V c) (abk3 V c) _ _ _ _ ((n + 1) / 4) ((n + 1) % 4) (by omega) (by omega) H0 H1 H2 H3 _ _ r e0 e1,
          fun d => step_num (aq3 V c) (ak3 V c) (abq3 V c) (abk3 V c) _ _ _ _ ((n + 1) / 4) ((n + 1) % 4) (by omega) (by omega) H0 H1 H2 H3 _ _ r d e0 (e2 d)⟩
      · rw [outsAt3_B V c ⟨n + 1, hn⟩ hA hC]
        dsimp only
        rw [sout3_B_0_eq, sout3_B_1_eq, sout3_B_2_eq, pay2_eq]
        exact ⟨step_max (aq3 V c) (ak3 V c) (abq3 V c) (abk3 V c) _ _ _ _ ((n + 1) / 4) ((n + 1) % 4) (by omega) (by omega) H0 H1 H2 H3 _ r e0,
          step_den (aq3 V c) (ak3 V c) (abq3 V c) (abk3 V c) _ _ _ _ ((n + 1) / 4) ((n + 1) % 4) (by omega) (by omega) H0 H1 H2 H3 _ _ r e0 e1,
          fun d => step_num (aq3 V c) (ak3 V c) (abq3 V c) (abk3 V c) _ _ _ _ ((n + 1) / 4) ((n + 1) % 4) (by omega) (by omega) H0 H1 H2 H3 _ _ r d e0 (e2 d)⟩

/-! ## What each flushing point writes back -/

/-- The attention specification of the arrays the region found. -/
abbrev G3 (c : Dev nD) : S8192x128.Idx → EReal :=
  attnG (aq3 V c) (ak3 V c) (lq (abq3 V c)) (lk (abk3 V c))

/-- At key tile 3 the output tile holds, at (r, d), the attention specification at row `1024 (t / 4) + r`. -/
theorem out3_eq (c : Dev nD) (hq : ∀ i, ∃ x : ℝ, aq3 V c i = (x : EReal)) (hk : ∀ i, ∃ x : ℝ, ak3 V c i = (x : EReal))
    (t : Fin cfg3.N) (h3 : t.val % 4 = 3) (r : Fin 1024) (d : Fin 128) (hlt : t.val / 4 * 1024 + r.val < 8192) :
    (outsAt3 V c t.val t.isLt).1 (ix2 r d) = G3 V c (ix2 ⟨t.val / 4 * 1024 + r.val, hlt⟩ d) := by
  have hI := scratch3_eq V c t.val t.isLt r
  have hA : ¬t.val % 4 = 0 := by omega
  rw [outsAt3_C V c t hA h3] at hI ⊢
  dsimp only at hI ⊢
  rw [sout3_C_1_eq] at hI
  rw [sout3_C_2_eq] at hI
  rw [out3_C_4_eq, pay3_apply, hI.2.1, hI.2.2 d]
  have e4 : t.val % 4 + 1 = 4 := by omega
  rw [e4]
  exact online4 _ _ (mscore_real (aq3 V c) (ak3 V c) _ _ hq hk _) (fun j => hk _)

theorem flushed3_eq (c : Dev nD) (hq : ∀ i, ∃ x : ℝ, aq3 V c i = (x : EReal)) (hk : ∀ i, ∃ x : ℝ, ak3 V c i = (x : EReal))
    (t : Fin cfg3.N) (hf : (cfg3.win 4).flush t = true) :
    (dat3 (F := Ideal) V c).flushed 4 t = ((cfg3.win 4).blk t).view.read (Elt Ideal) (G3 V c) := by
  have h3 : t.val % 4 = 3 := (flush3_4 t).mp hf
  have ht : t.val < 32 := lt_of_lt_of_eq t.isLt N_3
  show (cfg3.win 4).cut (grid3.coords t) ((dat3 V c).after 4 t) = _
  rw [after3_4]
  funext y
  obtain ⟨r, d, rfl⟩ : ∃ (r : Fin 1024) (d : Fin 128), y = ix2 r d := ⟨y 0, y 1, eq_ix2 y⟩
  have hlt : t.val / 4 * 1024 + r.val < 8192 := by have := r.isLt; omega
  show (outsAt3 V c t.val t.isLt).1 (ix2 r d) = _
  exact (out3_eq V c hq hk t h3 r d hlt).trans (read_blk3_4 (G3 V c) t r d hlt).symm

/-! ## The eight flushed blocks cover the result -/

theorem mem_blk3_4 (t : Fin cfg3.N) (i : S8192x128.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_v53).slice (win3_4.rect t)).set ↔ _
  rw [View.set_slice_whole, Rect.mem_set_unit]
  exact Iff.rfl

/-- Row n is in the block of point `4 (n / 1024) + 3`, which writes back. -/
theorem cover3_arr (i : S8192x128.Idx) :
    ∃ t : Fin cfg3.N, (cfg3.win 4).flush t = true ∧ i ∈ ((cfg3.win 4).blk t).view.set := by
  have hi0 : (i 0).val < 8192 := (i 0).isLt
  have hi1 : (i 1).val < 128 := (i 1).isLt
  have hN := N_3
  let t : Fin cfg3.N := ⟨4 * ((i 0).val / 1024) + 3, lt_of_lt_of_eq (by omega) N_3.symm⟩
  have htv : t.val = 4 * ((i 0).val / 1024) + 3 := rfl
  have e := idx_facts3 t
  refine ⟨t, (flush3_4 t).mpr (by omega), ?_⟩
  rw [mem_blk3_4]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 128 ≤ (i 1).val ∧ (i 1).val < win3_4.index t (1 : Fin 2) * 128 + 128; omega

/-! ## The result array after the region -/

/-- The result array after the region is the attention specification of the four arrays the region found, for real
    features. -/
theorem final3 (c : Dev nD) (hq : ∀ i, ∃ x : ℝ, V c (Pipeline.arrRef spec3 0) i = (x : EReal))
    (hk : ∀ i, ∃ x : ℝ, V c (Pipeline.arrRef spec3 1) i = (x : EReal)) :
    (dat3 (F := Ideal) V c).arrAt 4 cfg3.N
      = attnG (V c (Pipeline.arrRef spec3 0)) (V c (Pipeline.arrRef spec3 1))
          (fun i => V c (Pipeline.arrRef spec3 2) (ix2 (i 0) (0 : Fin 1))) (fun i => V c (Pipeline.arrRef spec3 3) (ix2 (0 : Fin 1) (i 0))) :=
  (dat3 (F := Ideal) V c).arrAt_eq_of_cover 4 (G3 V c) (fun t hf => flushed3_eq V c hq hk t hf) (cover3_arr)

end Cert.KernelIdeal.Hand

end
-- ==== Proof.KI.Upd4Pay.lean ====
import proofs.«108965_j35862976922239_2_alg».proof.Proof.Gen.KernelIdeal.Skeleton
import Idealize.ShloMosaic.Lib.Pipeline.Value
import Idealize.ShloMosaic.Lib.ValueIdx
import Idealize.ShloMosaic.PureOps.Ideal.Laws

/-! # Region 4: the body's stored value at one element of the tile

At the extended reals, the value the body stores at row `r` and column `j` of its tile, as the node-update formula
of the nine loaded blocks: each matrix product into the zero accumulator is the sum over its contracted axis, the
changes of float format are the identity, a bias laid along the rows is read at the column, and the rectifier's zero is `0`. -/

noncomputable section

open scoped BigOperators

namespace Cert.KernelIdeal.Hand

open Cert.KernelIdeal Cert.KernelIdeal.Gen
open Idealize.ShloMosaic Idealize.ShloMosaic.ValueIdx

/-! ## The three matrix products -/

/-- In the product with record `dot_S2048x256_S256x256_S2048x256_1_0_0_1_n_n`, the left operand is read at the output's row: axis 0 of the left
    operand is not contracted. -/
theorem mm4_a_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- and the right operand at the output's column: axis 1 of the right operand is not contracted. -/
theorem mm4_a_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The product into the zero accumulator, at row `r` and column `h`: the sum over the one contracted axis. -/
theorem mm4_a_apply {φ₁ φ₂ : FTy} (A : FVec Ideal S2048x256 φ₁) (B : FVec Ideal S256x256 φ₂) (r : Fin 2048) (h : Fin 256) :
    matmul dot_S2048x256_S256x256_S2048x256_1_0_0_1_n_n none A B (constant (F := Ideal) S2048x256 .f32 0x00000000#32) (ix2 r h)
      = ∑ k : Fin 256, A (ix2 r k) * B (ix2 k h) := by
  show FloatOps.matmul dot_S2048x256_S256x256_S2048x256_1_0_0_1_n_n none A B (constant (F := Ideal) S2048x256 .f32 0x00000000#32) (ix2 r h) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r h) ((contrEquiv1 dot_S2048x256_S256x256_S2048x256_1_0_0_1_n_n 256 rfl rfl).symm k) = ix2 r k := funext fun a => Fin.ext (by
    match a with
    | ⟨0, _⟩ => exact mm4_a_lhs0 _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 r h) ((contrEquiv1 dot_S2048x256_S256x256_S2048x256_1_0_0_1_n_n 256 rfl rfl).symm k) = ix2 k h := funext fun a => Fin.ext (by
    match a with
    | ⟨0, _⟩ => exact (dot_S2048x256_S256x256_S2048x256_1_0_0_1_n_n.rhsIdx_val_of_single rfl _ _).trans hk
    | ⟨1, _⟩ => exact mm4_a_rhs1 _ _)
  rw [el, er]

/-- In the product with record `dot_S2048x128_S128x256_S2048x256_1_0_0_1_n_n`, the left operand is read at the output's row: axis 0 of the left
    operand is not contracted. -/
theorem mm4_b_lhs0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- and the right operand at the output's column: axis 1 of the right operand is not contracted. -/
theorem mm4_b_rhs1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl
/-- The product into the zero accumulator, at row `r` and column `h`: the sum over the one contracted axis. -/
theorem mm4_b_apply {φ₁ φ₂ : FTy} (A : FVec Ideal S2048x128 φ₁) (B : FVec Ideal S128x256 φ₂) (r : Fin 2048) (h : Fin 256) :
    matmul dot_S2048x128_S128x256_S2048x256_1_0_0_1_n_n none A B (constant (F := Ideal) S2048x256 .f32 0x00000000#32) (ix2 r h)
      = ∑ k : Fin 128, A (ix2 r k) * B (ix2 k h) := by
  show FloatOps.matmul dot_S2048x128_S128x256_S2048x256_1_0_0_1_n_n none A B (constant (F := Ideal) S2048x256 .f32 0x00000000#32) (ix2 r h) = _
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r h) ((contrEquiv1 dot_S2048x128_S128x256_S2048x256_1_0_0_1_n_n 128 rfl rfl).symm k) = ix2 r k := funext fun a => Fin.ext (by
    match a with
    | ⟨0, _⟩ => exact mm4_b_lhs0 _ _
    | ⟨1, _⟩ => exact (dot_S2048x128_S128x256_S2048x256_1_0_0_1_n_n.lhsIdx_val_of_single rfl _ _).trans hk)
  have er : dot_S2048x128_S128x256_S2048x256_1_0_0_1_n_n.rhsIdx (ix2 r h) ((contrEquiv1 dot_S2048x128_S128x256_S2048x256_1_0_0_1_n_n 128 rfl rfl).symm k) = ix2 k h := funext fun a => Fin.ext (by
    match a with
    | ⟨0, _⟩ => exact (dot_S2048x128_S128x256_S2048x256_1_0_0_1_n_n.rhsIdx_val_of_single rfl _ _).trans hk
    | ⟨1, _⟩ => exact mm4_b_rhs1 _ _)
  rw [el, er]

/-- In the product with record `dot_S2048x256_S256x128_S2048x128_1_0_0_1_n_n`, the left operand is read at the output's row: axis 0 of the left
    operand is not contracted. -/
theorem mm4_c_lhs0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- and the right operand at the output's column: axis 1 of the right operand is not contracted. -/
theorem mm4_c_rhs1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
/-- The product into the zero accumulator, at row `r` and column `h`: the sum over the one contracted axis. -/
theorem mm4_c_apply {φ₁ φ₂ : FTy} (A : FVec Ideal S2048x256 φ₁) (B : FVec Ideal S256x128 φ₂) (r : Fin 2048) (h : Fin 128) :
    matmul dot_S2048x256_S256x128_S2048x128_1_0_0_1_n_n none A B (constant (F := Ideal) S2048x128 .f32 0x00000000#32) (ix2 r h)
      = ∑ k : Fin 256, A (ix2 r k) * B (ix2 k h) := by
  show FloatOps.matmul dot_S2048x256_S256x128_S2048x128_1_0_0_1_n_n none A B (constant (F := Ideal) S2048x128 .f32 0x00000000#32) (ix2 r h) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r h) ((contrEquiv1 dot_S2048x256_S256x128_S2048x128_1_0_0_1_n_n 256 rfl rfl).symm k) = ix2 r k := funext fun a => Fin.ext (by
    match a with
    | ⟨0, _⟩ => exact mm4_c_lhs0 _ _
    | ⟨1, _⟩ => exact (dot_S2048x256_S256x128_S2048x128_1_0_0_1_n_n.lhsIdx_val_of_single rfl _ _).trans hk)
  have er : dot_S2048x256_S256x128_S2048x128_1_0_0_1_n_n.rhsIdx (ix2 r h) ((contrEquiv1 dot_S2048x256_S256x128_S2048x128_1_0_0_1_n_n 256 rfl rfl).symm k) = ix2 k h := funext fun a => Fin.ext (by
    match a with
    | ⟨0, _⟩ => exact (dot_S2048x256_S256x128_S2048x128_1_0_0_1_n_n.rhsIdx_val_of_single rfl _ _).trans hk
    | ⟨1, _⟩ => exact mm4_c_rhs1 _ _)
  rw [el, er]

/-! ## A bias laid along every row -/

/-- A vector of `n` entries cast to one row and laid along each of `m` rows, read at row `r` and column `j`, is
    the vector's entry `j`. -/
theorem biasRow4_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-! ## The stored value -/

/-- The value the body stores, at row `r` and column `j` of the tile, from the nine loaded blocks. -/
theorem pay4_apply (x0 : Vec Ideal S2048x256 .f32) (x1 x2 : Vec Ideal S2048x128 .f32) (x3 : Vec Ideal S256x256 .f32)
    (x4 x5 : Vec Ideal S128x256 .f32) (x6 : Vec Ideal S256 .f32) (x7 : Vec Ideal S256x128 .f32) (x8 : Vec Ideal S128 .f32)
    (r : Fin 2048) (j : Fin 128) :
    k4_pay1 (k4_pay2 x0 x1 x2 x3 x4 x5 x6 x7 x8) x2 (ix2 r j)
      = x2 (ix2 r j) + ((∑ h : Fin 256, max ((((∑ k : Fin 256, x0 (ix2 r k) * x3 (ix2 k h)) + (∑ k : Fin 128, x1 (ix2 r k) * x4 (ix2 k h)))
            + (∑ k : Fin 128, x2 (ix2 r k) * x5 (ix2 k h))) + x6 (ix1 h)) 0 * x7 (ix2 h j)) + x8 (ix1 j)) := by
  unfold k4_pay1 k4_pay2
  dsimp only
  simp only [shapeCast_self]
  rw [addf_apply, addf_apply, mm4_c_apply, biasRow4_apply]
  refine congrArg (x2 (ix2 r j) + ·) (congrArg (· + x8 (ix1 j)) (Finset.sum_congr rfl fun h _ => ?_))
  have hz : (FloatOps.ofBits (F := Ideal) .f32 0x00000000#32) = 0 := Ideal.ofBits_zero_f32
  rw [truncf_apply, truncf_apply, maximumf_apply, addf_apply, addf_apply, addf_apply, mm4_a_apply, mm4_b_apply, mm4_b_apply,
    biasRow4_apply, broadcast_apply, hz]
  simp only [truncf_apply]

end Cert.KernelIdeal.Hand

end
-- ==== Proof.KI.UpdSpec.lean ====
import Idealize.ShloMosaic.PureOps.Ideal
import Idealize.ShloMosaic.Lib.ValueIdx

/-! # The node-update layer, index by index

For node `n` and output feature `j`: the node's feature plus a two-layer perceptron of the node's message sum, its
attention sum and its features. The hidden layer is the rectified sum of three matrix products and a bias; the
bracketing of the additions is the one the kernel computes in. Stated on the extended reals over literal shapes;
no program is imported. -/

noncomputable section

open scoped BigOperators

namespace Cert.KernelIdeal.Hand

open Idealize.ShloMosaic Idealize.ShloMosaic.ValueIdx

/-- Hidden unit `h` of node `n`, before the rectifier: messages times the first weight block, plus attentions times
    the second, plus features times the third, plus the bias. -/
def UpdHidden (msg : (⟨2, ![8192, 256]⟩ : Shape).Idx → EReal) (att x : (⟨2, ![8192, 128]⟩ : Shape).Idx → EReal)
    (W1a : (⟨2, ![256, 256]⟩ : Shape).Idx → EReal) (W1b W1c : (⟨2, ![128, 256]⟩ : Shape).Idx → EReal)
    (b1 : (⟨1, ![256]⟩ : Shape).Idx → EReal) (n : Fin 8192) (h : Fin 256) : EReal :=
  (((∑ k : Fin 256, msg (ix2 n k) * W1a (ix2 k h)) + (∑ k : Fin 128, att (ix2 n k) * W1b (ix2 k h)))
      + (∑ k : Fin 128, x (ix2 n k) * W1c (ix2 k h))) + b1 (ix1 h)

/-- The updated feature `j` of node `n`: the feature plus (the rectified hidden layer times the second weights, plus
    the second bias). -/
def UpdG (msg : (⟨2, ![8192, 256]⟩ : Shape).Idx → EReal) (att x : (⟨2, ![8192, 128]⟩ : Shape).Idx → EReal)
    (W1a : (⟨2, ![256, 256]⟩ : Shape).Idx → EReal) (W1b W1c : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![8192, 128]⟩ : Shape).Idx → EReal :=
  fun i => x (ix2 (i 0) (i 1))
    + ((∑ h : Fin 256, max (UpdHidden msg att x W1a W1b W1c b1 (i 0) h) 0 * W2 (ix2 h (i 1))) + b2 (ix1 (i 1)))

/-- `UpdG` at explicit coordinates, the hidden layer written out. -/
theorem UpdG_apply (msg : (⟨2, ![8192, 256]⟩ : Shape).Idx → EReal) (att x : (⟨2, ![8192, 128]⟩ : Shape).Idx → EReal)
    (W1a : (⟨2, ![256, 256]⟩ : Shape).Idx → EReal) (W1b W1c : (⟨2, ![128, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (n : Fin 8192) (j : Fin 128) :
    UpdG msg att x W1a W1b W1c b1 W2 b2 (ix2 n j)
      = x (ix2 n j) + ((∑ h : Fin 256, max ((((∑ k : Fin 256, msg (ix2 n k) * W1a (ix2 k h)) + (∑ k : Fin 128, att (ix2 n k) * W1b (ix2 k h)))
            + (∑ k : Fin 128, x (ix2 n k) * W1c (ix2 k h))) + b1 (ix1 h)) 0 * W2 (ix2 h j)) + b2 (ix1 j)) := rfl

end Cert.KernelIdeal.Hand

end
-- ==== Proof.KI.Upd4Value.lean ====
import proofs.«108965_j35862976922239_2_alg».proof.Proof.KI.Upd4
import proofs.«108965_j35862976922239_2_alg».proof.Proof.KI.Upd4Pay
import proofs.«108965_j35862976922239_2_alg».proof.Proof.KI.UpdSpec
import Idealize.ShloMosaic.Lib.Pipeline.Value
import Idealize.ShloMosaic.Lib.ValueIdx

/-! # Region 4: the result array after the region, as one function of the nine input arrays

At the extended reals. Point `t` of the grid reads rows `2048 t … 2048 t + 2047` of the three node arrays and the
whole of the six parameter arrays, and writes back the same rows of the result; the four points' blocks cover the
result's 8192 rows. So the result array after the region is the node-update formula of the arrays the region found,
index by index. -/

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a <;> rfl

/-! ## The stored tile is the formula's rows -/

/-- If the three node blocks are rows `2048 q + r` of the node arrays and the six parameter blocks are the parameter
    arrays, the value stored at row `r`, column `j` of the tile is the formula at row `2048 q + r`, column `j`. -/
theorem tile4_eq (msg : S8192x256.Idx → EReal) (att x : S8192x128.Idx → EReal) (W1a : S256x256.Idx → EReal)
    (W1b W1c : S128x256.Idx → EReal) (b1 : S256.Idx → EReal) (W2 : S256x128.Idx → EReal) (b2 : S128.Idx → EReal)
    (x0 : Vec Ideal S2048x256 .f32) (x1 x2 : Vec Ideal S2048x128 .f32) (x3 : Vec Ideal S256x256 .f32)
    (x4 x5 : Vec Ideal S128x256 .f32) (x6 : Vec Ideal S256 .f32) (x7 : Vec Ideal S256x128 .f32) (x8 : Vec Ideal S128 .f32)
    (q : Nat) (hq : q < 4)
    (h0 : ∀ (r : Fin 2048) (k : Fin 256), x0 (ix2 r k) = msg (ix2 ⟨q * 2048 + r.val, by have := r.isLt; omega⟩ k))
    (h1 : ∀ (r : Fin 2048) (k : Fin 128), x1 (ix2 r k) = att (ix2 ⟨q * 2048 + r.val, by have := r.isLt; omega⟩ k))
    (h2 : ∀ (r : Fin 2048) (k : Fin 128), x2 (ix2 r k) = x (ix2 ⟨q * 2048 + r.val, by have := r.isLt; omega⟩ k))
    (h3 : x3 = W1a) (h4 : x4 = W1b) (h5 : x5 = W1c) (h6 : x6 = b1) (h7 : x7 = W2) (h8 : x8 = b2)
    (r : Fin 2048) (j : Fin 128) :
    k4_pay1 (k4_pay2 x0 x1 x2 x3 x4 x5 x6 x7 x8) x2 (ix2 r j)
      = UpdG msg att x W1a W1b W1c b1 W2 b2 (ix2 ⟨q * 2048 + r.val, by have := r.isLt; omega⟩ j) := by
  subst h3 h4 h5 h6 h7 h8
  rw [pay4_apply, UpdG_apply]
  simp only [h0, h1, h2]

/-! ## The windows' blocks in the arrays -/

/-- The printed index maps, decided over the four points: the three node windows and the result move with the point
    along the rows; the six parameter windows stay at block zero. -/
theorem idx_facts4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_9.index t (0 : Fin 2) = t.val
    ∧ win4_9.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_7.index t (0 : Fin 2) = 0
    ∧ win4_7.index t (1 : Fin 2) = 0
    ∧ win4_6.index t (0 : Fin 1) = 0
    ∧ win4_8.index t (0 : Fin 1) = 0 :=
  (by decide +kernel : ∀ t : Fin grid4.N, _)

/-- Window 0's block at point `t` is rows `2048 t … 2048 t + 2047` of its array, all columns. -/
theorem blk4_0_read (c : Dev nD) (t : Fin cfg4.N) (r : Fin 2048) (k : Fin 256) (hlt : t.val * 2048 + r.val < 8192) :
    (iblk4 V c 0 t : Vec Ideal S2048x256 .f32) (ix2 r k) = V c (Pipeline.arrRef spec4 0) (ix2 ⟨t.val * 2048 + r.val, hlt⟩ k) := by
  have e := idx_facts4 t
  show V c (Pipeline.arrRef spec4 0) (((cfg4.win 0).blk t).view.emb (ix2 r k)) = _
  refine congrArg _ (funext fun a => Fin.ext ?_)
  match a with
  | ⟨0, _⟩ => show win4_0.index t (0 : Fin 2) * 2048 + 1 * r.val = t.val * 2048 + r.val; omega
  | ⟨1, _⟩ => show win4_0.index t (1 : Fin 2) * 256 + 1 * k.val = k.val; omega

/-- Window 1's block at point `t` is rows `2048 t … 2048 t + 2047` of its array, all columns. -/
theorem blk4_1_read (c : Dev nD) (t : Fin cfg4.N) (r : Fin 2048) (k : Fin 128) (hlt : t.val * 2048 + r.val < 8192) :
    (iblk4 V c 1 t : Vec Ideal S2048x128 .f32) (ix2 r k) = V c (Pipeline.arrRef spec4 1) (ix2 ⟨t.val * 2048 + r.val, hlt⟩ k) := by
  have e := idx_facts4 t
  show V c (Pipeline.arrRef spec4 1) (((cfg4.win 1).blk t).view.emb (ix2 r k)) = _
  refine congrArg _ (funext fun a => Fin.ext ?_)
  match a with
  | ⟨0, _⟩ => show win4_1.index t (0 : Fin 2) * 2048 + 1 * r.val = t.val * 2048 + r.val; omega
  | ⟨1, _⟩ => show win4_1.index t (1 : Fin 2) * 128 + 1 * k.val = k.val; omega

/-- Window 2's block at point `t` is rows `2048 t … 2048 t + 2047` of its array, all columns. -/
theorem blk4_2_read (c : Dev nD) (t : Fin cfg4.N) (r : Fin 2048) (k : Fin 128) (hlt : t.val * 2048 + r.val < 8192) :
    (iblk4 V c 2 t : Vec Ideal S2048x128 .f32) (ix2 r k) = V c (Pipeline.arrRef spec4 2) (ix2 ⟨t.val * 2048 + r.val, hlt⟩ k) := by
  have e := idx_facts4 t
  show V c (Pipeline.arrRef spec4 2) (((cfg4.win 2).blk t).view.emb (ix2 r k)) = _
  refine congrArg _ (funext fun a => Fin.ext ?_)
  match a with
  | ⟨0, _⟩ => show win4_2.index t (0 : Fin 2) * 2048 + 1 * r.val = t.val * 2048 + r.val; omega
  | ⟨1, _⟩ => show win4_2.index t (1 : Fin 2) * 128 + 1 * k.val = k.val; omega

/-- Window 3's block is its whole array at every point: its block index is constantly zero. -/
theorem blk4_3_read (c : Dev nD) (t : Fin cfg4.N) :
    (iblk4 V c 3 t : Vec Ideal S256x256 .f32) = V c (Pipeline.arrRef spec4 3) := by
  have e := idx_facts4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 256 + 1 * (y 0).val = (y 0).val; omega
  | ⟨1, _⟩ => show win4_3.index t (1 : Fin 2) * 256 + 1 * (y 1).val = (y 1).val; omega

/-- Window 4's block is its whole array at every point: its block index is constantly zero. -/
theorem blk4_4_read (c : Dev nD) (t : Fin cfg4.N) :
    (iblk4 V c 4 t : Vec Ideal S128x256 .f32) = V c (Pipeline.arrRef spec4 4) := by
  have e := idx_facts4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 256 + 1 * (y 1).val = (y 1).val; omega

/-- Window 5's block is its whole array at every point: its block index is constantly zero. -/
theorem blk4_5_read (c : Dev nD) (t : Fin cfg4.N) :
    (iblk4 V c 5 t : Vec Ideal S128x256 .f32) = V c (Pipeline.arrRef spec4 5) := by
  have e := idx_facts4 t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 256 + 1 * (y 1).val = (y 1).val; omega

/-- Window 6's block is its whole array at every point: its block index is constantly zero. -/
theorem blk4_6_read (c : Dev nD) (t : Fin cfg4.N) :
    (iblk4 V c 6 t : Vec Ideal S256 .f32) = V c (Pipeline.arrRef spec4 6) := by
  have e := idx_facts4 t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 1) * 256 + 1 * (y 0).val = (y 0).val; omega

/-- Window 7's block is its whole array at every point: its block index is constantly zero. -/
theorem blk4_7_read (c : Dev nD) (t : Fin cfg4.N) :
    (iblk4 V c 7 t : Vec Ideal S256x128 .f32) = V c (Pipeline.arrRef spec4 7) := by
  have e := idx_facts4 t
  funext y
  show V c (Pipeline.arrRef spec4 7) (((cfg4.win 7).blk t).view.emb y) = V c (Pipeline.arrRef spec4 7) y
  refine congrArg _ (funext fun a => Fin.ext ?_)
  match a with
  | ⟨0, _⟩ => show win4_7.index t (0 : Fin 2) * 256 + 1 * (y 0).val = (y 0).val; omega
  | ⟨1, _⟩ => show win4_7.index t (1 : Fin 2) * 128 + 1 * (y 1).val = (y 1).val; omega

/-- Window 8's block is its whole array at every point: its block index is constantly zero. -/
theorem blk4_8_read (c : Dev nD) (t : Fin cfg4.N) :
    (iblk4 V c 8 t : Vec Ideal S128 .f32) = V c (Pipeline.arrRef spec4 8) := by
  have e := idx_facts4 t
  funext y
  show V c (Pipeline.arrRef spec4 8) (((cfg4.win 8).blk t).view.emb y) = V c (Pipeline.arrRef spec4 8) y
  refine congrArg _ (funext fun a => Fin.ext ?_)
  match a with
  | ⟨0, _⟩ => show win4_8.index t (0 : Fin 1) * 128 + 1 * (y 0).val = (y 0).val; omega

/-- Any function on the result array, read through point `t`'s block at row `r` and column `j` of the block, is the
    function at row `2048 t + r`, column `j`. -/
theorem read_blk4_9 (G : S8192x128.Idx → EReal) (t : Fin cfg4.N) (r : Fin 2048) (j : Fin 128) (hlt : t.val * 2048 + r.val < 8192) :
    ((cfg4.win 9).blk t).view.read (Elt Ideal) G (ix2 r j) = G (ix2 ⟨t.val * 2048 + r.val, hlt⟩ j) := by
  have e := idx_facts4 t
  show G (((cfg4.win 9).blk t).view.emb (ix2 r j)) = _
  refine congrArg G (funext fun a => Fin.ext ?_)
  match a with
  | ⟨0, _⟩ => show win4_9.index t (0 : Fin 2) * 2048 + 1 * r.val = t.val * 2048 + r.val; omega
  | ⟨1, _⟩ => show win4_9.index t (1 : Fin 2) * 128 + 1 * j.val = j.val; omega

/-! ## What each point writes back -/

/-- Point `t` writes back block `t` of the formula of the arrays the region found. -/
theorem flushed4_eq (c : Dev nD) (t : Fin cfg4.N) :
    (dat4 (F := Ideal) V c).flushed 9 t
      = ((cfg4.win 9).blk t).view.read (Elt Ideal) (UpdG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) := by
  show (cfg4.win 9).cut (grid4.coords t) ((dat4 V c).after 9 t) = _
  rw [after4_9]
  unfold out4_9
  rw [View.canon_unit_zero hz4_2]
  simp only [View.ld_unit_zero (S := S2048x256) hz4_2, View.ld_unit_zero (S := S2048x128) hz4_2, View.ld_unit_zero (S := S256x256) hz4_2,
    View.ld_unit_zero (S := S128x256) hz4_2, View.ld_unit_zero (S := S256) hz4_1, View.ld_unit_zero (S := S256x128) hz4_2,
    View.ld_unit_zero (S := S128) hz4_1]
  have ht : t.val < 4 := lt_of_lt_of_eq t.isLt N_4
  have e := idx_facts4 t
  funext y
  obtain ⟨r, j, rfl⟩ : ∃ (r : Fin 2048) (j : Fin 128), y = ix2 r j := ⟨y 0, y 1, eq_ix2 y⟩
  have hr := r.isLt
  show k4_pay1 (k4_pay2 (iblk4 V c 0 t) (iblk4 V c 1 t) (iblk4 V c 2 t) (iblk4 V c 3 t) (iblk4 V c 4 t) (iblk4 V c 5 t) (iblk4 V c 6 t) (iblk4 V c 7 t) (iblk4 V c 8 t)) (iblk4 V c 2 t) (ix2 r j) = _
  refine (tile4_eq (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))
    (iblk4 V c 0 t) (iblk4 V c 1 t) (iblk4 V c 2 t) (iblk4 V c 3 t) (iblk4 V c 4 t) (iblk4 V c 5 t) (iblk4 V c 6 t) (iblk4 V c 7 t) (iblk4 V c 8 t) t.val ht
    (fun r k => blk4_0_read V c t r k _) (fun r k => blk4_1_read V c t r k _) (fun r k => blk4_2_read V c t r k _)
    (blk4_3_read V c t) (blk4_4_read V c t) (blk4_5_read V c t) (blk4_6_read V c t) (blk4_7_read V c t) (blk4_8_read V c t) r j).trans ?_
  exact (read_blk4_9 _ t r j (by omega)).symm

/-! ## The four blocks cover the result -/

/-- An index of the result array is in point `t`'s block iff each coordinate is in the block's range on its axis. -/
theorem mem_blk4_9 (t : Fin cfg4.N) (i : S8192x128.Idx) :
    i ∈ ((cfg4.win 9).blk t).view.set ↔ ∀ a : Fin 2, win4_9.index t a * S2048x128.size a ≤ (i a).val ∧ (i a).val < win4_9.index t a * S2048x128.size a + S2048x128.size a := by
  show i ∈ ((View.whole main_v59).slice (win4_9.rect t)).set ↔ _
  rw [View.set_slice_whole, Rect.mem_set_unit]
  exact Iff.rfl

/-- Row `n` is in the block of point `n / 2048`, which writes back. -/
theorem cover4_arr (i : S8192x128.Idx) :
    ∃ t : Fin cfg4.N, (cfg4.win 9).flush t = true ∧ i ∈ ((cfg4.win 9).blk t).view.set := by
  have hi0 : (i 0).val < 8192 := (i 0).isLt
  have hi1 : (i 1).val < 128 := (i 1).isLt
  have hN := N_4
  let t : Fin cfg4.N := ⟨(i 0).val / 2048, lt_of_lt_of_eq (by omega) N_4.symm⟩
  have htv : t.val = (i 0).val / 2048 := rfl
  have e := idx_facts4 t
  refine ⟨t, flush4_9 t, ?_⟩
  rw [mem_blk4_9]
  intro a
  match a with
  | ⟨0, _⟩ => show win4_9.index t (0 : Fin 2) * 2048 ≤ (i 0).val ∧ (i 0).val < win4_9.index t (0 : Fin 2) * 2048 + 2048; omega
  | ⟨1, _⟩ => show win4_9.index t (1 : Fin 2) * 128 ≤ (i 1).val ∧ (i 1).val < win4_9.index t (1 : Fin 2) * 128 + 128; omega

/-! ## The result array after the region -/

/-- The result array after the region is the node-update formula of the nine arrays the region found. -/
theorem final4 (c : Dev nD) :
    (dat4 (F := Ideal) V c).arrAt 9 cfg4.N = UpdG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) :=
  (dat4 (F := Ideal) V c).arrAt_eq_of_cover 9 (UpdG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)))
    (fun t _ => flushed4_eq V c t) (cover4_arr)

end Cert.KernelIdeal.Hand

end
-- ==== Proof.KI.Upd5Pay.lean ====
import proofs.«108965_j35862976922239_2_alg».proof.Proof.Gen.KernelIdeal.Skeleton
import Idealize.ShloMosaic.Lib.Pipeline.Value
import Idealize.ShloMosaic.Lib.ValueIdx
import Idealize.ShloMosaic.PureOps.Ideal.Laws

/-! # Region 5: the body's stored value at one element of the tile

At the extended reals, the value the body stores at row `r` and column `j` of its tile, as the node-update formula
of the nine loaded blocks: each matrix product into the zero accumulator is the sum over its contracted axis, the
changes of float format are the identity, a bias laid along the rows is read at the column, and the rectifier's zero is `0`. -/

noncomputable section

open scoped BigOperators

namespace Cert.KernelIdeal.Hand

open Cert.KernelIdeal Cert.KernelIdeal.Gen
open Idealize.ShloMosaic Idealize.ShloMosaic.ValueIdx

/-! ## The three matrix products -/

/-- In the product with record `dot_S2048x256_S256x256_S2048x256_1_0_0_1_n_n`, the left operand is read at the output's row: axis 0 of the left
    operand is not contracted. -/
theorem mm5_a_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- and the right operand at the output's column: axis 1 of the right operand is not contracted. -/
theorem mm5_a_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The product into the zero accumulator, at row `r` and column `h`: the sum over the one contracted axis. -/
theorem mm5_a_apply {φ₁ φ₂ : FTy} (A : FVec Ideal S2048x256 φ₁) (B : FVec Ideal S256x256 φ₂) (r : Fin 2048) (h : Fin 256) :
    matmul dot_S2048x256_S256x256_S2048x256_1_0_0_1_n_n none A B (constant (F := Ideal) S2048x256 .f32 0x00000000#32) (ix2 r h)
      = ∑ k : Fin 256, A (ix2 r k) * B (ix2 k h) := by
  show FloatOps.matmul dot_S2048x256_S256x256_S2048x256_1_0_0_1_n_n none A B (constant (F := Ideal) S2048x256 .f32 0x00000000#32) (ix2 r h) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r h) ((contrEquiv1 dot_S2048x256_S256x256_S2048x256_1_0_0_1_n_n 256 rfl rfl).symm k) = ix2 r k := funext fun a => Fin.ext (by
    match a with
    | ⟨0, _⟩ => exact mm5_a_lhs0 _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 r h) ((contrEquiv1 dot_S2048x256_S256x256_S2048x256_1_0_0_1_n_n 256 rfl rfl).symm k) = ix2 k h := funext fun a => Fin.ext (by
    match a with
    | ⟨0, _⟩ => exact (dot_S2048x256_S256x256_S2048x256_1_0_0_1_n_n.rhsIdx_val_of_single rfl _ _).trans hk
    | ⟨1, _⟩ => exact mm5_a_rhs1 _ _)
  rw [el, er]

/-- In the product with record `dot_S2048x128_S128x256_S2048x256_1_0_0_1_n_n`, the left operand is read at the output's row: axis 0 of the left
    operand is not contracted. -/
theorem mm5_b_lhs0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
/-- and the right operand at the output's column: axis 1 of the right operand is not contracted. -/
theorem mm5_b_rhs1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl
/-- The product into the zero accumulator, at row `r` and column `h`: the sum over the one contracted axis. -/
theorem mm5_b_apply {φ₁ φ₂ : FTy} (A : FVec Ideal S2048x128 φ₁) (B : FVec Ideal S128x256 φ₂) (r : Fin 2048) (h : Fin 256) :
    matmul dot_S2048x128_S128x256_S2048x256_1_0_0_1_n_n none A B (constant (F := Ideal) S2048x256 .f32 0x00000000#32) (ix2 r h)
      = ∑ k : Fin 128, A (ix2 r k) * B (ix2 k h) := by
  show FloatOps.matmul dot_S2048x128_S128x256_S2048x256_1_0_0_1_n_n none A B (constant (F := Ideal) S2048x256 .f32 0x00000000#32) (ix2 r h) = _
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r h) ((contrEquiv1 dot_S2048x128_S128x256_S2048x256_1_0_0_1_n_n 128 rfl rfl).symm k) = ix2 r k := funext fun a => Fin.ext (by
    match a with
    | ⟨0, _⟩ => exact mm5_b_lhs0 _ _
    | ⟨1, _⟩ => exact (dot_S2048x128_S128x256_S2048x256_1_0_0_1_n_n.lhsIdx_val_of_single rfl _ _).trans hk)
  have er : dot_S2048x128_S128x256_S2048x256_1_0_0_1_n_n.rhsIdx (ix2 r h) ((contrEquiv1 dot_S2048x128_S128x256_S2048x256_1_0_0_1_n_n 128 rfl rfl).symm k) = ix2 k h := funext fun a => Fin.ext (by
    match a with
    | ⟨0, _⟩ => exact (dot_S2048x128_S128x256_S2048x256_1_0_0_1_n_n.rhsIdx_val_of_single rfl _ _).trans hk
    | ⟨1, _⟩ => exact mm5_b_rhs1 _ _)
  rw [el, er]

/-- In the product with record `dot_S2048x256_S256x128_S2048x128_1_0_0_1_n_n`, the left operand is read at the output's row: axis 0 of the left
    operand is not contracted. -/
theorem mm5_c_lhs0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- and the right operand at the output's column: axis 1 of the right operand is not contracted. -/
theorem mm5_c_rhs1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
/-- The product into the zero accumulator, at row `r` and column `h`: the sum over the one contracted axis. -/
theorem mm5_c_apply {φ₁ φ₂ : FTy} (A : FVec Ideal S2048x256 φ₁) (B : FVec Ideal S256x128 φ₂) (r : Fin 2048) (h : Fin 128) :
    matmul dot_S2048x256_S256x128_S2048x128_1_0_0_1_n_n none A B (constant (F := Ideal) S2048x128 .f32 0x00000000#32) (ix2 r h)
      = ∑ k : Fin 256, A (ix2 r k) * B (ix2 k h) := by
  show FloatOps.matmul dot_S2048x256_S256x128_S2048x128_1_0_0_1_n_n none A B (constant (F := Ideal) S2048x128 .f32 0x00000000#32) (ix2 r h) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r h) ((contrEquiv1 dot_S2048x256_S256x128_S2048x128_1_0_0_1_n_n 256 rfl rfl).symm k) = ix2 r k := funext fun a => Fin.ext (by
    match a with
    | ⟨0, _⟩ => exact mm5_c_lhs0 _ _
    | ⟨1, _⟩ => exact (dot_S2048x256_S256x128_S2048x128_1_0_0_1_n_n.lhsIdx_val_of_single rfl _ _).trans hk)
  have er : dot_S2048x256_S256x128_S2048x128_1_0_0_1_n_n.rhsIdx (ix2 r h) ((contrEquiv1 dot_S2048x256_S256x128_S2048x128_1_0_0_1_n_n 256 rfl rfl).symm k) = ix2 k h := funext fun a => Fin.ext (by
    match a with
    | ⟨0, _⟩ => exact (dot_S2048x256_S256x128_S2048x128_1_0_0_1_n_n.rhsIdx_val_of_single rfl _ _).trans hk
    | ⟨1, _⟩ => exact mm5_c_rhs1 _ _)
  rw [el, er]

/-! ## A bias laid along every row -/

/-- A vector of `n` entries cast to one row and laid along each of `m` rows, read at row `r` and column `j`, is
    the vector's entry `j`. -/
theorem biasRow5_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-! ## The stored value -/

/-- The value the body stores, at row `r` and column `j` of the tile, from the nine loaded blocks. -/
theorem pay5_apply (x0 : Vec Ideal S2048x256 .f32) (x1 x2 : Vec Ideal S2048x128 .f32) (x3 : Vec Ideal S256x256 .f32)
    (x4 x5 : Vec Ideal S128x256 .f32) (x6 : Vec Ideal S256 .f32) (x7 : Vec Ideal S256x128 .f32) (x8 : Vec Ideal S128 .f32)
    (r : Fin 2048) (j : Fin 128) :
    k5_pay1 (k5_pay2 x0 x1 x2 x3 x4 x5 x6 x7 x8) x2 (ix2 r j)
      = x2 (ix2 r j) + ((∑ h : Fin 256, max ((((∑ k : Fin 256, x0 (ix2 r k) * x3 (ix2 k h)) + (∑ k : Fin 128, x1 (ix2 r k) * x4 (ix2 k h)))
            + (∑ k : Fin 128, x2 (ix2 r k) * x5 (ix2 k h))) + x6 (ix1 h)) 0 * x7 (ix2 h j)) + x8 (ix1 j)) := by
  unfold k5_pay1 k5_pay2
  dsimp only
  simp only [shapeCast_self]
  rw [addf_apply, addf_apply, mm5_c_apply, biasRow5_apply]
  refine congrArg (x2 (ix2 r j) + ·) (congrArg (· + x8 (ix1 j)) (Finset.sum_congr rfl fun h _ => ?_))
  have hz : (FloatOps.ofBits (F := Ideal) .f32 0x00000000#32) = 0 := Ideal.ofBits_zero_f32
  rw [truncf_apply, truncf_apply, maximumf_apply, addf_apply, addf_apply, addf_apply, mm5_a_apply, mm5_b_apply, mm5_b_apply,
    biasRow5_apply, broadcast_apply, hz]
  simp only [truncf_apply]

end Cert.KernelIdeal.Hand

end
-- ==== Proof.KI.Upd5Value.lean ====
import proofs.«108965_j35862976922239_2_alg».proof.Proof.KI.Upd5
import proofs.«108965_j35862976922239_2_alg».proof.Proof.KI.Upd5Pay
import proofs.«108965_j35862976922239_2_alg».proof.Proof.KI.UpdSpec
import Idealize.ShloMosaic.Lib.Pipeline.Value
import Idealize.ShloMosaic.Lib.ValueIdx

/-! # Region 5: the result array after the region, as one function of the nine input arrays

At the extended reals. Point `t` of the grid reads rows `2048 t … 2048 t + 2047` of the three node arrays and the
whole of the six parameter arrays, and writes back the same rows of the result; the four points' blocks cover the
result's 8192 rows. So the result array after the region is the node-update formula of the arrays the region found,
index by index. -/

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz5_2 : (![0, 0] : Fin 2 → Nat) = fun _ => 0 := funext fun a => by fin_cases a <;> rfl
theorem hz5_1 : (![0] : Fin 1 → Nat) = fun _ => 0 := funext fun a => by fin_cases a <;> rfl

/-! ## The stored tile is the formula's rows -/

/-- If the three node blocks are rows `2048 q + r` of the node arrays and the six parameter blocks are the parameter
    arrays, the value stored at row `r`, column `j` of the tile is the formula at row `2048 q + r`, column `j`. -/
theorem tile5_eq (msg : S8192x256.Idx → EReal) (att x : S8192x128.Idx → EReal) (W1a : S256x256.Idx → EReal)
    (W1b W1c : S128x256.Idx → EReal) (b1 : S256.Idx → EReal) (W2 : S256x128.Idx → EReal) (b2 : S128.Idx → EReal)
    (x0 : Vec Ideal S2048x256 .f32) (x1 x2 : Vec Ideal S2048x128 .f32) (x3 : Vec Ideal S256x256 .f32)
    (x4 x5 : Vec Ideal S128x256 .f32) (x6 : Vec Ideal S256 .f32) (x7 : Vec Ideal S256x128 .f32) (x8 : Vec Ideal S128 .f32)
    (q : Nat) (hq : q < 4)
    (h0 : ∀ (r : Fin 2048) (k : Fin 256), x0 (ix2 r k) = msg (ix2 ⟨q * 2048 + r.val, by have := r.isLt; omega⟩ k))
    (h1 : ∀ (r : Fin 2048) (k : Fin 128), x1 (ix2 r k) = att (ix2 ⟨q * 2048 + r.val, by have := r.isLt; omega⟩ k))
    (h2 : ∀ (r : Fin 2048) (k : Fin 128), x2 (ix2 r k) = x (ix2 ⟨q * 2048 + r.val, by have := r.isLt; omega⟩ k))
    (h3 : x3 = W1a) (h4 : x4 = W1b) (h5 : x5 = W1c) (h6 : x6 = b1) (h7 : x7 = W2) (h8 : x8 = b2)
    (r : Fin 2048) (j : Fin 128) :
    k5_pay1 (k5_pay2 x0 x1 x2 x3 x4 x5 x6 x7 x8) x2 (ix2 r j)
      = UpdG msg att x W1a W1b W1c b1 W2 b2 (ix2 ⟨q * 2048 + r.val, by have := r.isLt; omega⟩ j) := by
  subst h3 h4 h5 h6 h7 h8
  rw [pay5_apply, UpdG_apply]
  simp only [h0, h1, h2]

/-! ## The windows' blocks in the arrays -/

/-- The printed index maps, decided over the four points: the three node windows and the result move with the point
    along the rows; the six parameter windows stay at block zero. -/
theorem idx_facts5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_9.index t (0 : Fin 2) = t.val
    ∧ win5_9.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_7.index t (0 : Fin 2) = 0
    ∧ win5_7.index t (1 : Fin 2) = 0
    ∧ win5_6.index t (0 : Fin 1) = 0
    ∧ win5_8.index t (0 : Fin 1) = 0 :=
  (by decide +kernel : ∀ t : Fin grid5.N, _)

/-- Window 0's block at point `t` is rows `2048 t … 2048 t + 2047` of its array, all columns. -/
theorem blk5_0_read (c : Dev nD) (t : Fin cfg5.N) (r : Fin 2048) (k : Fin 256) (hlt : t.val * 2048 + r.val < 8192) :
    (iblk5 V c 0 t : Vec Ideal S2048x256 .f32) (ix2 r k) = V c (Pipeline.arrRef spec5 0) (ix2 ⟨t.val * 2048 + r.val, hlt⟩ k) := by
  have e := idx_facts5 t
  show V c (Pipeline.arrRef spec5 0) (((cfg5.win 0).blk t).view.emb (ix2 r k)) = _
  refine congrArg _ (funext fun a => Fin.ext ?_)
  match a with
  | ⟨0, _⟩ => show win5_0.index t (0 : Fin 2) * 2048 + 1 * r.val = t.val * 2048 + r.val; omega
  | ⟨1, _⟩ => show win5_0.index t (1 : Fin 2) * 256 + 1 * k.val = k.val; omega

/-- Window 1's block at point `t` is rows `2048 t … 2048 t + 2047` of its array, all columns. -/
theorem blk5_1_read (c : Dev nD) (t : Fin cfg5.N) (r : Fin 2048) (k : Fin 128) (hlt : t.val * 2048 + r.val < 8192) :
    (iblk5 V c 1 t : Vec Ideal S2048x128 .f32) (ix2 r k) = V c (Pipeline.arrRef spec5 1) (ix2 ⟨t.val * 2048 + r.val, hlt⟩ k) := by
  have e := idx_facts5 t
  show V c (Pipeline.arrRef spec5 1) (((cfg5.win 1).blk t).view.emb (ix2 r k)) = _
  refine congrArg _ (funext fun a => Fin.ext ?_)
  match a with
  | ⟨0, _⟩ => show win5_1.index t (0 : Fin 2) * 2048 + 1 * r.val = t.val * 2048 + r.val; omega
  | ⟨1, _⟩ => show win5_1.index t (1 : Fin 2) * 128 + 1 * k.val = k.val; omega

/-- Window 2's block at point `t` is rows `2048 t … 2048 t + 2047` of its array, all columns. -/
theorem blk5_2_read (c : Dev nD) (t : Fin cfg5.N) (r : Fin 2048) (k : Fin 128) (hlt : t.val * 2048 + r.val < 8192) :
    (iblk5 V c 2 t : Vec Ideal S2048x128 .f32) (ix2 r k) = V c (Pipeline.arrRef spec5 2) (ix2 ⟨t.val * 2048 + r.val, hlt⟩ k) := by
  have e := idx_facts5 t
  show V c (Pipeline.arrRef spec5 2) (((cfg5.win 2).blk t).view.emb (ix2 r k)) = _
  refine congrArg _ (funext fun a => Fin.ext ?_)
  match a with
  | ⟨0, _⟩ => show win5_2.index t (0 : Fin 2) * 2048 + 1 * r.val = t.val * 2048 + r.val; omega
  | ⟨1, _⟩ => show win5_2.index t (1 : Fin 2) * 128 + 1 * k.val = k.val; omega

/-- Window 3's block is its whole array at every point: its block index is constantly zero. -/
theorem blk5_3_read (c : Dev nD) (t : Fin cfg5.N) :
    (iblk5 V c 3 t : Vec Ideal S256x256 .f32) = V c (Pipeline.arrRef spec5 3) := by
  have e := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 256 + 1 * (y 0).val = (y 0).val; omega
  | ⟨1, _⟩ => show win5_3.index t (1 : Fin 2) * 256 + 1 * (y 1).val = (y 1).val; omega

/-- Window 4's block is its whole array at every point: its block index is constantly zero. -/
theorem blk5_4_read (c : Dev nD) (t : Fin cfg5.N) :
    (iblk5 V c 4 t : Vec Ideal S128x256 .f32) = V c (Pipeline.arrRef spec5 4) := by
  have e := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 256 + 1 * (y 1).val = (y 1).val; omega

/-- Window 5's block is its whole array at every point: its block index is constantly zero. -/
theorem blk5_5_read (c : Dev nD) (t : Fin cfg5.N) :
    (iblk5 V c 5 t : Vec Ideal S128x256 .f32) = V c (Pipeline.arrRef spec5 5) := by
  have e := idx_facts5 t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 128 + 1 * (y 0).val = (y 0).val; omega
  | ⟨1, _⟩ => show win5_5.index t (1 : Fin 2) * 256 + 1 * (y 1).val = (y 1).val; omega

/-- Window 6's block is its whole array at every point: its block index is constantly zero. -/
theorem blk5_6_read (c : Dev nD) (t : Fin cfg5.N) :
    (iblk5 V c 6 t : Vec Ideal S256 .f32) = V c (Pipeline.arrRef spec5 6) := by
  have e := idx_facts5 t
  funext y
  show V c (Pipeline.arrRef spec5 6) (((cfg5.win 6).blk t).view.emb y) = V c (Pipeline.arrRef spec5 6) y
  refine congrArg _ (funext fun a => Fin.ext ?_)
  match a with
  | ⟨0, _⟩ => show win5_6.index t (0 : Fin 1) * 256 + 1 * (y 0).val = (y 0).val; omega

/-- Window 7's block is its whole array at every point: its block index is constantly zero. -/
theorem blk5_7_read (c : Dev nD) (t : Fin cfg5.N) :
    (iblk5 V c 7 t : Vec Ideal S256x128 .f32) = V c (Pipeline.arrRef spec5 7) := by
  have e := idx_facts5 t
  funext y
  show V c (Pipeline.arrRef spec5 7) (((cfg5.win 7).blk t).view.emb y) = V c (Pipeline.arrRef spec5 7) y
  refine congrArg _ (funext fun a => Fin.ext ?_)
  match a with
  | ⟨0, _⟩ => show win5_7.index t (0 : Fin 2) * 256 + 1 * (y 0).val = (y 0).val; omega
  | ⟨1, _⟩ => show win5_7.index t (1 : Fin 2) * 128 + 1 * (y 1).val = (y 1).val; omega

/-- Window 8's block is its whole array at every point: its block index is constantly zero. -/
theorem blk5_8_read (c : Dev nD) (t : Fin cfg5.N) :
    (iblk5 V c 8 t : Vec Ideal S128 .f32) = V c (Pipeline.arrRef spec5 8) := by
  have e := idx_facts5 t
  funext y
  show V c (Pipeline.arrRef spec5 8) (((cfg5.win 8).blk t).view.emb y) = V c (Pipeline.arrRef spec5 8) y
  refine congrArg _ (funext fun a => Fin.ext ?_)
  match a with
  | ⟨0, _⟩ => show win5_8.index t (0 : Fin 1) * 128 + 1 * (y 0).val = (y 0).val; omega

/-- Any function on the result array, read through point `t`'s block at row `r` and column `j` of the block, is the
    function at row `2048 t + r`, column `j`. -/
theorem read_blk5_9 (G : S8192x128.Idx → EReal) (t : Fin cfg5.N) (r : Fin 2048) (j : Fin 128) (hlt : t.val * 2048 + r.val < 8192) :
    ((cfg5.win 9).blk t).view.read (Elt Ideal) G (ix2 r j) = G (ix2 ⟨t.val * 2048 + r.val, hlt⟩ j) := by
  have e := idx_facts5 t
  show G (((cfg5.win 9).blk t).view.emb (ix2 r j)) = _
  refine congrArg G (funext fun a => Fin.ext ?_)
  match a with
  | ⟨0, _⟩ => show win5_9.index t (0 : Fin 2) * 2048 + 1 * r.val = t.val * 2048 + r.val; omega
  | ⟨1, _⟩ => show win5_9.index t (1 : Fin 2) * 128 + 1 * j.val = j.val; omega

/-! ## What each point writes back -/

/-- Point `t` writes back block `t` of the formula of the arrays the region found. -/
theorem flushed5_eq (c : Dev nD) (t : Fin cfg5.N) :
    (dat5 (F := Ideal) V c).flushed 9 t
      = ((cfg5.win 9).blk t).view.read (Elt Ideal) (UpdG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))) := by
  show (cfg5.win 9).cut (grid5.coords t) ((dat5 V c).after 9 t) = _
  rw [after5_9]
  unfold out5_9
  rw [View.canon_unit_zero hz5_2]
  simp only [View.ld_unit_zero (S := S2048x256) hz5_2, View.ld_unit_zero (S := S2048x128) hz5_2, View.ld_unit_zero (S := S256x256) hz5_2,
    View.ld_unit_zero (S := S128x256) hz5_2, View.ld_unit_zero (S := S256) hz5_1, View.ld_unit_zero (S := S256x128) hz5_2,
    View.ld_unit_zero (S := S128) hz5_1]
  have ht : t.val < 4 := lt_of_lt_of_eq t.isLt N_5
  have e := idx_facts5 t
  funext y
  obtain ⟨r, j, rfl⟩ : ∃ (r : Fin 2048) (j : Fin 128), y = ix2 r j := ⟨y 0, y 1, eq_ix2 y⟩
  have hr := r.isLt
  show k5_pay1 (k5_pay2 (iblk5 V c 0 t) (iblk5 V c 1 t) (iblk5 V c 2 t) (iblk5 V c 3 t) (iblk5 V c 4 t) (iblk5 V c 5 t) (iblk5 V c 6 t) (iblk5 V c 7 t) (iblk5 V c 8 t)) (iblk5 V c 2 t) (ix2 r j) = _
  refine (tile5_eq (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))
    (iblk5 V c 0 t) (iblk5 V c 1 t) (iblk5 V c 2 t) (iblk5 V c 3 t) (iblk5 V c 4 t) (iblk5 V c 5 t) (iblk5 V c 6 t) (iblk5 V c 7 t) (iblk5 V c 8 t) t.val ht
    (fun r k => blk5_0_read V c t r k _) (fun r k => blk5_1_read V c t r k _) (fun r k => blk5_2_read V c t r k _)
    (blk5_3_read V c t) (blk5_4_read V c t) (blk5_5_read V c t) (blk5_6_read V c t) (blk5_7_read V c t) (blk5_8_read V c t) r j).trans ?_
  exact (read_blk5_9 _ t r j (by omega)).symm

/-! ## The four blocks cover the result -/

/-- An index of the result array is in point `t`'s block iff each coordinate is in the block's range on its axis. -/
theorem mem_blk5_9 (t : Fin cfg5.N) (i : S8192x128.Idx) :
    i ∈ ((cfg5.win 9).blk t).view.set ↔ ∀ a : Fin 2, win5_9.index t a * S2048x128.size a ≤ (i a).val ∧ (i a).val < win5_9.index t a * S2048x128.size a + S2048x128.size a := by
  show i ∈ ((View.whole main_v60).slice (win5_9.rect t)).set ↔ _
  rw [View.set_slice_whole, Rect.mem_set_unit]
  exact Iff.rfl

/-- Row `n` is in the block of point `n / 2048`, which writes back. -/
theorem cover5_arr (i : S8192x128.Idx) :
    ∃ t : Fin cfg5.N, (cfg5.win 9).flush t = true ∧ i ∈ ((cfg5.win 9).blk t).view.set := by
  have hi0 : (i 0).val < 8192 := (i 0).isLt
  have hi1 : (i 1).val < 128 := (i 1).isLt
  have hN := N_5
  let t : Fin cfg5.N := ⟨(i 0).val / 2048, lt_of_lt_of_eq (by omega) N_5.symm⟩
  have htv : t.val = (i 0).val / 2048 := rfl
  have e := idx_facts5 t
  refine ⟨t, flush5_9 t, ?_⟩
  rw [mem_blk5_9]
  intro a
  match a with
  | ⟨0, _⟩ => show win5_9.index t (0 : Fin 2) * 2048 ≤ (i 0).val ∧ (i 0).val < win5_9.index t (0 : Fin 2) * 2048 + 2048; omega
  | ⟨1, _⟩ => show win5_9.index t (1 : Fin 2) * 128 ≤ (i 1).val ∧ (i 1).val < win5_9.index t (1 : Fin 2) * 128 + 128; omega

/-! ## The result array after the region -/

/-- The result array after the region is the node-update formula of the nine arrays the region found. -/
theorem final5 (c : Dev nD) :
    (dat5 (F := Ideal) V c).arrAt 9 cfg5.N = UpdG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 (F := Ideal) V c).arrAt_eq_of_cover 9 (UpdG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)))
    (fun t _ => flushed5_eq V c t) (cover5_arr)

end Cert.KernelIdeal.Hand

end
-- ==== Proof.KI.BatchReads.lean ====
/- The batch numbers laid out as a column and as a row, read back at an index; and a change of float format read
   at the ideal values, where it is the identity. -/
import proofs.«108965_j35862976922239_2_alg».proof.Proof.Gen.KernelIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- A vector of 8192 entries cast to a column, at row `n`: the vector at `n`. -/
theorem batch_col_apply {α : Type} (b : S8192.Idx → α) (hc : S8192.ShapeCasts S8192x1) (n : Fin 8192) :
    shapeCast S8192x1 b hc (ix2 n (0 : Fin 1)) = b (ix1 n) :=
  shapeCast_apply b hc (ix2 n (0 : Fin 1)) (ix1 n) (by
    rw [Shape.rowMajor_val_two, Shape.rowMajor_val_one]; show n.val = n.val * 1 + 0; omega)

/-- The same vector cast to a row, at column `j`: the vector at `j`. -/
theorem batch_row_apply {α : Type} (b : S8192.Idx → α) (hc : S8192.ShapeCasts S1x8192) (j : Fin 8192) :
    shapeCast S1x8192 b hc (ix2 (0 : Fin 1) j) = b (ix1 j) :=
  shapeCast_apply b hc (ix2 (0 : Fin 1) j) (ix1 j) (by
    rw [Shape.rowMajor_val_two, Shape.rowMajor_val_one]; show j.val = 0 * 8192 + j.val; omega)

/-- At the ideal values a narrowing of the float format is the identity: an array narrowed is the array. -/
theorem truncf_ideal_eq {s : Shape} {φ ψ : FTy} (x : FVec Ideal s φ) (h : ψ.bits < φ.bits) :
    (truncf ψ x h : FVec Ideal s ψ) = x := rfl

/-- and so is a widening. -/
theorem extf_ideal_eq {s : Shape} {φ ψ : FTy} (x : FVec Ideal s φ) (h : φ.bits < ψ.bits) :
    (extf ψ x h : FVec Ideal s ψ) = x := rfl

/-- The message features narrowed to bf16, as the message kernels read them. -/
theorem truncf_msg_eq (x : (⟨S131072x256, .f32⟩ : BufTy).Contents (Elt Ideal)) :
    (truncf .bf16 x bitsLt_bf16_f32 : FVec Ideal S131072x256 .bf16) = x := rfl

end Cert.KernelIdeal.Hand

end
-- ==== Proof.KI.KernelValue.lean ====
/-
  The two results of the program as functions of its arguments, at the exact extended reals.

  The last valuation is rolled back item by item.  An array no item writes is the launch contents; an array a host
  stretch writes is the stretch's function of the valuation before it; the array a region writes is the region's value:
  the edge MLP of its input rows (regions 0 and 1), the masked softmax-weighted average of the other graph's features
  (regions 2 and 3, which needs the features to be real numbers), the update MLP with the residual (regions 4 and 5).
  Composed, each result is the update MLP of (the per-target sums of the edge messages, the features minus the attention
  average, the features, the three row blocks of the update weights, the remaining weights).
-/
import proofs.«108965_j35862976922239_2_alg».proof.Proof.KI.Regs
import proofs.«108965_j35862976922239_2_alg».proof.Proof.KI.HostReads
import proofs.«108965_j35862976922239_2_alg».proof.Proof.KI.Msg0Value
import proofs.«108965_j35862976922239_2_alg».proof.Proof.KI.Msg1Value
import proofs.«108965_j35862976922239_2_alg».proof.Proof.KI.Attn2Value
import proofs.«108965_j35862976922239_2_alg».proof.Proof.KI.Attn3Value
import proofs.«108965_j35862976922239_2_alg».proof.Proof.KI.Upd4Value
import proofs.«108965_j35862976922239_2_alg».proof.Proof.KI.Upd5Value
import proofs.«108965_j35862976922239_2_alg».proof.Proof.KI.BatchReads

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-! ## An item leaves alone what it does not write -/

theorem keep1 (r : Ref sig .tc) (h : r ∉ hostOps0_W) : U1 m c r = m ((c : Thread nD τ).loc r) := V1_of m c r h
theorem keep2 (r : Ref sig .tc) (h : r ∉ ([main_v20] : List (Ref sig .tc))) : U2 m c r = U1 m c r := V2_of m (outsOf m) c r h
theorem keep3 (r : Ref sig .tc) (h : r ∉ hostOps1_W) : U3 m c r = U2 m c r := V3_of m (outsOf m) c r h
theorem keep4 (r : Ref sig .tc) (h : r ∉ ([main_v44] : List (Ref sig .tc))) : U4 m c r = U3 m c r := V4_of m (outsOf m) c r h
theorem keep5 (r : Ref sig .tc) (h : r ∉ hostOps2_W) : U5 m c r = U4 m c r := V5_of m (outsOf m) c r h
theorem keep6 (r : Ref sig .tc) (h : r ∉ ([main_v50] : List (Ref sig .tc))) : U6 m c r = U5 m c r := V6_of m (outsOf m) c r h
theorem keep7 (r : Ref sig .tc) (h : r ∉ hostOps3_W) : U7 m c r = U6 m c r := V7_of m (outsOf m) c r h
theorem keep8 (r : Ref sig .tc) (h : r ∉ ([main_v53] : List (Ref sig .tc))) : U8 m c r = U7 m c r := V8_of m (outsOf m) c r h
theorem keep9 (r : Ref sig .tc) (h : r ∉ hostOps4_W) : U9 m c r = U8 m c r := V9_of m (outsOf m) c r h
theorem keep10 (r : Ref sig .tc) (h : r ∉ ([main_v59] : List (Ref sig .tc))) : U10 m c r = U9 m c r := V10_of m (outsOf m) c r h
theorem keep11 (r : Ref sig .tc) (h : r ∉ ([main_v60] : List (Ref sig .tc))) : U11 m c r = U10 m c r := V11_of m (outsOf m) c r h

/-! ## Stage by stage

  `V0 m c r` is the launch contents of buffer `r` on core `c`. -/

theorem u1_v19 : U1 m c main_v19 = miOf (V0 m c main_arg0) (V0 m c main_arg1) := host0_v19 (V0 m c)
theorem u1_v1 : U1 m c main_v1 = tgtOf (V0 m c main_arg1) := host0_v1 (V0 m c)

/-- Region 0 leaves the edge MLP of graph 1's endpoint features. -/
theorem u2_v20 : U2 m c main_v20 = Cert.MsgSpec.MsgG (miOf (V0 m c main_arg0) (V0 m c main_arg1)) (V0 m c main_arg6) (V0 m c main_arg7) (V0 m c main_arg8) (V0 m c main_arg9) := by
  have h := (exit0_arr m c 5).symm.trans (final0 (atRefs (U1 m)) c)
  rw [show atRefs (U1 m) c (Pipeline.arrRef spec0 0) = U1 m c main_v19 from rfl, u1_v19,
    show atRefs (U1 m) c (Pipeline.arrRef spec0 1) = U1 m c main_arg6 from rfl, (keep1 m c main_arg6 (by decide)),
    show atRefs (U1 m) c (Pipeline.arrRef spec0 2) = U1 m c main_arg7 from rfl, (keep1 m c main_arg7 (by decide)),
    show atRefs (U1 m) c (Pipeline.arrRef spec0 3) = U1 m c main_arg8 from rfl, (keep1 m c main_arg8 (by decide)),
    show atRefs (U1 m) c (Pipeline.arrRef spec0 4) = U1 m c main_arg9 from rfl, (keep1 m c main_arg9 (by decide))] at h
  exact h

/-- The messages of graph 1, added up per target node. -/
theorem u3_v23 : U3 m c main_v23 = segSum (tgtOf (V0 m c main_arg1)) (Cert.MsgSpec.MsgG (miOf (V0 m c main_arg0) (V0 m c main_arg1)) (V0 m c main_arg6) (V0 m c main_arg7) (V0 m c main_arg8) (V0 m c main_arg9)) := by
  rw [show U3 m c main_v23 = segSum (U2 m c main_v1) (U2 m c main_v20) from host1_v23 (U2 m c), u2_v20,
    (keep2 m c main_v1 (by decide)), u1_v1]
theorem u3_v25 : U3 m c main_v25 = tgtOf (V0 m c main_arg4) := by
  rw [show U3 m c main_v25 = tgtOf (U2 m c main_arg4) from host1_v25 (U2 m c), ((keep2 m c main_arg4 (by decide)).trans (keep1 m c main_arg4 (by decide)))]
theorem u3_v43 : U3 m c main_v43 = miOf (V0 m c main_arg3) (V0 m c main_arg4) := by
  rw [show U3 m c main_v43 = miOf (U2 m c main_arg3) (U2 m c main_arg4) from host1_v43 (U2 m c), ((keep2 m c main_arg3 (by decide)).trans (keep1 m c main_arg3 (by decide))), ((keep2 m c main_arg4 (by decide)).trans (keep1 m c main_arg4 (by decide)))]

/-- Region 1 leaves the edge MLP of graph 2's endpoint features. -/
theorem u4_v44 : U4 m c main_v44 = Cert.MsgSpec.MsgG (miOf (V0 m c main_arg3) (V0 m c main_arg4)) (V0 m c main_arg6) (V0 m c main_arg7) (V0 m c main_arg8) (V0 m c main_arg9) := by
  have h := (exit1_arr m c 5).symm.trans (final1 (atRefs (U3 m)) c)
  rw [show atRefs (U3 m) c (Pipeline.arrRef spec1 0) = U3 m c main_v43 from rfl, u3_v43,
    show atRefs (U3 m) c (Pipeline.arrRef spec1 1) = U3 m c main_arg6 from rfl, ((keep3 m c main_arg6 (by decide)).trans ((keep2 m c main_arg6 (by decide)).trans (keep1 m c main_arg6 (by decide)))),
    show atRefs (U3 m) c (Pipeline.arrRef spec1 2) = U3 m c main_arg7 from rfl, ((keep3 m c main_arg7 (by decide)).trans ((keep2 m c main_arg7 (by decide)).trans (keep1 m c main_arg7 (by decide)))),
    show atRefs (U3 m) c (Pipeline.arrRef spec1 3) = U3 m c main_arg8 from rfl, ((keep3 m c main_arg8 (by decide)).trans ((keep2 m c main_arg8 (by decide)).trans (keep1 m c main_arg8 (by decide)))),
    show atRefs (U3 m) c (Pipeline.arrRef spec1 4) = U3 m c main_arg9 from rfl, ((keep3 m c main_arg9 (by decide)).trans ((keep2 m c main_arg9 (by decide)).trans (keep1 m c main_arg9 (by decide))))] at h
  exact h

/-- The messages of graph 2, added up per target node. -/
theorem u5_v47 : U5 m c main_v47 = segSum (tgtOf (V0 m c main_arg4)) (Cert.MsgSpec.MsgG (miOf (V0 m c main_arg3) (V0 m c main_arg4)) (V0 m c main_arg6) (V0 m c main_arg7) (V0 m c main_arg8) (V0 m c main_arg9)) := by
  rw [show U5 m c main_v47 = segSum (U4 m c main_v25) (U4 m c main_v44) from host2_v47 (U4 m c), u4_v44,
    (keep4 m c main_v25 (by decide)), u3_v25]
theorem u5_v48 : U5 m c main_v48 = shapeCast S8192x1 (V0 m c main_arg2) shapeCasts_S8192_S8192x1 := by
  rw [show U5 m c main_v48 = shapeCast S8192x1 (U4 m c main_arg2) shapeCasts_S8192_S8192x1 from host2_v48 (U4 m c), ((keep4 m c main_arg2 (by decide)).trans ((keep3 m c main_arg2 (by decide)).trans ((keep2 m c main_arg2 (by decide)).trans (keep1 m c main_arg2 (by decide)))))]
theorem u5_v49 : U5 m c main_v49 = shapeCast S1x8192 (V0 m c main_arg5) shapeCasts_S8192_S1x8192 := by
  rw [show U5 m c main_v49 = shapeCast S1x8192 (U4 m c main_arg5) shapeCasts_S8192_S1x8192 from host2_v49 (U4 m c), ((keep4 m c main_arg5 (by decide)).trans ((keep3 m c main_arg5 (by decide)).trans ((keep2 m c main_arg5 (by decide)).trans (keep1 m c main_arg5 (by decide)))))]

/-! ## The attention averages (the features are real numbers) -/
/-- Region 2 leaves, per node of graph 1, the masked softmax average of graph 2's features. -/
theorem u6_v50 (h0 : ∀ i, ∃ x : ℝ, V0 m c main_arg0 i = (x : EReal)) (h3 : ∀ i, ∃ x : ℝ, V0 m c main_arg3 i = (x : EReal)) :
    U6 m c main_v50 = Cert.Spec.attnG (V0 m c main_arg0) (V0 m c main_arg3) (V0 m c main_arg2) (V0 m c main_arg5) := by
  have e0 : atRefs (U5 m) c (Pipeline.arrRef spec2 0) = V0 m c main_arg0 := ((keep5 m c main_arg0 (by decide)).trans ((keep4 m c main_arg0 (by decide)).trans ((keep3 m c main_arg0 (by decide)).trans ((keep2 m c main_arg0 (by decide)).trans (keep1 m c main_arg0 (by decide))))))
  have e1 : atRefs (U5 m) c (Pipeline.arrRef spec2 1) = V0 m c main_arg3 := ((keep5 m c main_arg3 (by decide)).trans ((keep4 m c main_arg3 (by decide)).trans ((keep3 m c main_arg3 (by decide)).trans ((keep2 m c main_arg3 (by decide)).trans (keep1 m c main_arg3 (by decide))))))
  have h := (exit2_arr m c 4).symm.trans (final2 (atRefs (U5 m)) c (by rw [e0]; exact h0) (by rw [e1]; exact h3))
  rw [e0, e1, show atRefs (U5 m) c (Pipeline.arrRef spec2 2) = U5 m c main_v48 from rfl, u5_v48,
    show atRefs (U5 m) c (Pipeline.arrRef spec2 3) = U5 m c main_v49 from rfl, u5_v49] at h
  have hcol : (fun i : S8192.Idx => shapeCast S8192x1 (V0 m c main_arg2) shapeCasts_S8192_S8192x1 (ix2 (i 0) (0 : Fin 1))) = V0 m c main_arg2 :=
    funext fun i => (batch_col_apply _ _ (i 0)).trans (congrArg _ (eq_ix1 i).symm)
  have hrow : (fun i : S8192.Idx => shapeCast S1x8192 (V0 m c main_arg5) shapeCasts_S8192_S1x8192 (ix2 (0 : Fin 1) (i 0))) = V0 m c main_arg5 :=
    funext fun i => (batch_row_apply _ _ (i 0)).trans (congrArg _ (eq_ix1 i).symm)
  rw [hcol, hrow] at h
  exact h

theorem u7_v51 : U7 m c main_v51 = shapeCast S8192x1 (V0 m c main_arg5) shapeCasts_S8192_S8192x1 := by
  rw [show U7 m c main_v51 = shapeCast S8192x1 (U6 m c main_arg5) shapeCasts_S8192_S8192x1 from host3_v51 (U6 m c), ((keep6 m c main_arg5 (by decide)).trans ((keep5 m c main_arg5 (by decide)).trans ((keep4 m c main_arg5 (by decide)).trans ((keep3 m c main_arg5 (by decide)).trans ((keep2 m c main_arg5 (by decide)).trans (keep1 m c main_arg5 (by decide)))))))]
theorem u7_v52 : U7 m c main_v52 = shapeCast S1x8192 (V0 m c main_arg2) shapeCasts_S8192_S1x8192 := by
  rw [show U7 m c main_v52 = shapeCast S1x8192 (U6 m c main_arg2) shapeCasts_S8192_S1x8192 from host3_v52 (U6 m c), ((keep6 m c main_arg2 (by decide)).trans ((keep5 m c main_arg2 (by decide)).trans ((keep4 m c main_arg2 (by decide)).trans ((keep3 m c main_arg2 (by decide)).trans ((keep2 m c main_arg2 (by decide)).trans (keep1 m c main_arg2 (by decide)))))))]

/-- Region 3 leaves the same for graph 2 against graph 1. -/
theorem u8_v53 (h3 : ∀ i, ∃ x : ℝ, V0 m c main_arg3 i = (x : EReal)) (h0 : ∀ i, ∃ x : ℝ, V0 m c main_arg0 i = (x : EReal)) :
    U8 m c main_v53 = Cert.Spec.attnG (V0 m c main_arg3) (V0 m c main_arg0) (V0 m c main_arg5) (V0 m c main_arg2) := by
  have e0 : atRefs (U7 m) c (Pipeline.arrRef spec3 0) = V0 m c main_arg3 := ((keep7 m c main_arg3 (by decide)).trans ((keep6 m c main_arg3 (by decide)).trans ((keep5 m c main_arg3 (by decide)).trans ((keep4 m c main_arg3 (by decide)).trans ((keep3 m c main_arg3 (by decide)).trans ((keep2 m c main_arg3 (by decide)).trans (keep1 m c main_arg3 (by decide))))))))
  have e1 : atRefs (U7 m) c (Pipeline.arrRef spec3 1) = V0 m c main_arg0 := ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans (keep1 m c main_arg0 (by decide))))))))
  have h := (exit3_arr m c 4).symm.trans (final3 (atRefs (U7 m)) c (by rw [e0]; exact h3) (by rw [e1]; exact h0))
  rw [e0, e1, show atRefs (U7 m) c (Pipeline.arrRef spec3 2) = U7 m c main_v51 from rfl, u7_v51,
    show atRefs (U7 m) c (Pipeline.arrRef spec3 3) = U7 m c main_v52 from rfl, u7_v52] at h
  have hcol : (fun i : S8192.Idx => shapeCast S8192x1 (V0 m c main_arg5) shapeCasts_S8192_S8192x1 (ix2 (i 0) (0 : Fin 1))) = V0 m c main_arg5 :=
    funext fun i => (batch_col_apply _ _ (i 0)).trans (congrArg _ (eq_ix1 i).symm)
  have hrow : (fun i : S8192.Idx => shapeCast S1x8192 (V0 m c main_arg2) shapeCasts_S8192_S1x8192 (ix2 (0 : Fin 1) (i 0))) = V0 m c main_arg2 :=
    funext fun i => (batch_row_apply _ _ (i 0)).trans (congrArg _ (eq_ix1 i).symm)
  rw [hcol, hrow] at h
  exact h

/-! ## The features minus the attention average, and the three row blocks of the update weights -/

theorem u9_v54 : U9 m c main_v54 = subf (F := Ideal) (φ := .f32) (V0 m c main_arg0) (U6 m c main_v50) :=
  (host4_v54 (U8 m c)).trans (congrArg₂ (subf (F := Ideal) (φ := .f32)) ((keep8 m c main_arg0 (by decide)).trans ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans (keep1 m c main_arg0 (by decide))))))))) ((keep8 m c main_v50 (by decide)).trans (keep7 m c main_v50 (by decide))))
theorem u9_v55 : U9 m c main_v55 = subf (F := Ideal) (φ := .f32) (V0 m c main_arg3) (U8 m c main_v53) :=
  (host4_v55 (U8 m c)).trans (congrArg₂ (subf (F := Ideal) (φ := .f32)) ((keep8 m c main_arg3 (by decide)).trans ((keep7 m c main_arg3 (by decide)).trans ((keep6 m c main_arg3 (by decide)).trans ((keep5 m c main_arg3 (by decide)).trans ((keep4 m c main_arg3 (by decide)).trans ((keep3 m c main_arg3 (by decide)).trans ((keep2 m c main_arg3 (by decide)).trans (keep1 m c main_arg3 (by decide))))))))) rfl)
theorem u9_v56 : U9 m c main_v56 = extractStridedSlice S256x256 ![0, 0] (V0 m c main_arg10) slices_S512x256_S256x256_0_0 := by
  rw [show U9 m c main_v56 = extractStridedSlice S256x256 ![0, 0] (U8 m c main_arg10) slices_S512x256_S256x256_0_0 from host4_v56 (U8 m c),
    ((keep8 m c main_arg10 (by decide)).trans ((keep7 m c main_arg10 (by decide)).trans ((keep6 m c main_arg10 (by decide)).trans ((keep5 m c main_arg10 (by decide)).trans ((keep4 m c main_arg10 (by decide)).trans ((keep3 m c main_arg10 (by decide)).trans ((keep2 m c main_arg10 (by decide)).trans (keep1 m c main_arg10 (by decide)))))))))]
theorem u9_v57 : U9 m c main_v57 = extractStridedSlice S128x256 ![256, 0] (V0 m c main_arg10) slices_S512x256_S128x256_256_0 := by
  rw [show U9 m c main_v57 = extractStridedSlice S128x256 ![256, 0] (U8 m c main_arg10) slices_S512x256_S128x256_256_0 from host4_v57 (U8 m c),
    ((keep8 m c main_arg10 (by decide)).trans ((keep7 m c main_arg10 (by decide)).trans ((keep6 m c main_arg10 (by decide)).trans ((keep5 m c main_arg10 (by decide)).trans ((keep4 m c main_arg10 (by decide)).trans ((keep3 m c main_arg10 (by decide)).trans ((keep2 m c main_arg10 (by decide)).trans (keep1 m c main_arg10 (by decide)))))))))]
theorem u9_v58 : U9 m c main_v58 = extractStridedSlice S128x256 ![384, 0] (V0 m c main_arg10) slices_S512x256_S128x256_384_0 := by
  rw [show U9 m c main_v58 = extractStridedSlice S128x256 ![384, 0] (U8 m c main_arg10) slices_S512x256_S128x256_384_0 from host4_v58 (U8 m c),
    ((keep8 m c main_arg10 (by decide)).trans ((keep7 m c main_arg10 (by decide)).trans ((keep6 m c main_arg10 (by decide)).trans ((keep5 m c main_arg10 (by decide)).trans ((keep4 m c main_arg10 (by decide)).trans ((keep3 m c main_arg10 (by decide)).trans ((keep2 m c main_arg10 (by decide)).trans (keep1 m c main_arg10 (by decide)))))))))]

/-! ## The two results -/

/-- The update formula at equal arguments. -/
theorem UpdG_congr (a0 a0' : S8192x256.Idx → EReal) (a1 a1' a2 a2' : S8192x128.Idx → EReal) (a3 a3' : S256x256.Idx → EReal) (a4 a4' a5 a5' : S128x256.Idx → EReal) (a6 a6' : S256.Idx → EReal) (a7 a7' : S256x128.Idx → EReal) (a8 a8' : S128.Idx → EReal)
    (h0 : a0 = a0') (h1 : a1 = a1') (h2 : a2 = a2') (h3 : a3 = a3') (h4 : a4 = a4') (h5 : a5 = a5') (h6 : a6 = a6') (h7 : a7 = a7') (h8 : a8 = a8') :
    UpdG a0 a1 a2 a3 a4 a5 a6 a7 a8 = UpdG a0' a1' a2' a3' a4' a5' a6' a7' a8' := by
  subst h0 h1 h2 h3 h4 h5 h6 h7 h8; rfl

/-- Region 4 leaves the update MLP, with the residual, of graph 1. -/
theorem u10_v59 : U10 m c main_v59 = UpdG (U3 m c main_v23) (U9 m c main_v54) (V0 m c main_arg0) (U9 m c main_v56) (U9 m c main_v57) (U9 m c main_v58) (V0 m c main_arg11) (V0 m c main_arg12) (V0 m c main_arg13) := by
  have h : U10 m c main_v59 = UpdG (U9 m c main_v23) (U9 m c main_v54) (U9 m c main_arg0) (U9 m c main_v56) (U9 m c main_v57) (U9 m c main_v58) (U9 m c main_arg11) (U9 m c main_arg12) (U9 m c main_arg13) :=
    (exit4_arr m c 9).symm.trans (final4 (atRefs (U9 m)) c)
  exact h.trans (UpdG_congr _ _ _ _ _ _ _ _ _ _ _ _ _ _ _ _ _ _
    ((keep9 m c main_v23 (by decide)).trans ((keep8 m c main_v23 (by decide)).trans ((keep7 m c main_v23 (by decide)).trans ((keep6 m c main_v23 (by decide)).trans ((keep5 m c main_v23 (by decide)).trans (keep4 m c main_v23 (by decide))))))) rfl
    ((keep9 m c main_arg0 (by decide)).trans ((keep8 m c main_arg0 (by decide)).trans ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans (keep1 m c main_arg0 (by decide)))))))))) rfl rfl rfl
    ((keep9 m c main_arg11 (by decide)).trans ((keep8 m c main_arg11 (by decide)).trans ((keep7 m c main_arg11 (by decide)).trans ((keep6 m c main_arg11 (by decide)).trans ((keep5 m c main_arg11 (by decide)).trans ((keep4 m c main_arg11 (by decide)).trans ((keep3 m c main_arg11 (by decide)).trans ((keep2 m c main_arg11 (by decide)).trans (keep1 m c main_arg11 (by decide))))))))))
    ((keep9 m c main_arg12 (by decide)).trans ((keep8 m c main_arg12 (by decide)).trans ((keep7 m c main_arg12 (by decide)).trans ((keep6 m c main_arg12 (by decide)).trans ((keep5 m c main_arg12 (by decide)).trans ((keep4 m c main_arg12 (by decide)).trans ((keep3 m c main_arg12 (by decide)).trans ((keep2 m c main_arg12 (by decide)).trans (keep1 m c main_arg12 (by decide))))))))))
    ((keep9 m c main_arg13 (by decide)).trans ((keep8 m c main_arg13 (by decide)).trans ((keep7 m c main_arg13 (by decide)).trans ((keep6 m c main_arg13 (by decide)).trans ((keep5 m c main_arg13 (by decide)).trans ((keep4 m c main_arg13 (by decide)).trans ((keep3 m c main_arg13 (by decide)).trans ((keep2 m c main_arg13 (by decide)).trans (keep1 m c main_arg13 (by decide)))))))))))

/-- Region 5 leaves the update MLP, with the residual, of graph 2. -/
theorem u11_v60 : U11 m c main_v60 = UpdG (U5 m c main_v47) (U9 m c main_v55) (V0 m c main_arg3) (U9 m c main_v56) (U9 m c main_v57) (U9 m c main_v58) (V0 m c main_arg11) (V0 m c main_arg12) (V0 m c main_arg13) := by
  have h : U11 m c main_v60 = UpdG (U10 m c main_v47) (U10 m c main_v55) (U10 m c main_arg3) (U10 m c main_v56) (U10 m c main_v57) (U10 m c main_v58) (U10 m c main_arg11) (U10 m c main_arg12) (U10 m c main_arg13) :=
    (exit5_arr m c 9).symm.trans (final5 (atRefs (U10 m)) c)
  exact h.trans (UpdG_congr _ _ _ _ _ _ _ _ _ _ _ _ _ _ _ _ _ _
    ((keep10 m c main_v47 (by decide)).trans ((keep9 m c main_v47 (by decide)).trans ((keep8 m c main_v47 (by decide)).trans ((keep7 m c main_v47 (by decide)).trans (keep6 m c main_v47 (by decide)))))) (keep10 m c main_v55 (by decide))
    ((keep10 m c main_arg3 (by decide)).trans ((keep9 m c main_arg3 (by decide)).trans ((keep8 m c main_arg3 (by decide)).trans ((keep7 m c main_arg3 (by decide)).trans ((keep6 m c main_arg3 (by decide)).trans ((keep5 m c main_arg3 (by decide)).trans ((keep4 m c main_arg3 (by decide)).trans ((keep3 m c main_arg3 (by decide)).trans ((keep2 m c main_arg3 (by decide)).trans (keep1 m c main_arg3 (by decide))))))))))) (keep10 m c main_v56 (by decide)) (keep10 m c main_v57 (by decide)) (keep10 m c main_v58 (by decide))
    ((keep10 m c main_arg11 (by decide)).trans ((keep9 m c main_arg11 (by decide)).trans ((keep8 m c main_arg11 (by decide)).trans ((keep7 m c main_arg11 (by decide)).trans ((keep6 m c main_arg11 (by decide)).trans ((keep5 m c main_arg11 (by decide)).trans ((keep4 m c main_arg11 (by decide)).trans ((keep3 m c main_arg11 (by decide)).trans ((keep2 m c main_arg11 (by decide)).trans (keep1 m c main_arg11 (by decide)))))))))))
    ((keep10 m c main_arg12 (by decide)).trans ((keep9 m c main_arg12 (by decide)).trans ((keep8 m c main_arg12 (by decide)).trans ((keep7 m c main_arg12 (by decide)).trans ((keep6 m c main_arg12 (by decide)).trans ((keep5 m c main_arg12 (by decide)).trans ((keep4 m c main_arg12 (by decide)).trans ((keep3 m c main_arg12 (by decide)).trans ((keep2 m c main_arg12 (by decide)).trans (keep1 m c main_arg12 (by decide)))))))))))
    ((keep10 m c main_arg13 (by decide)).trans ((keep9 m c main_arg13 (by decide)).trans ((keep8 m c main_arg13 (by decide)).trans ((keep7 m c main_arg13 (by decide)).trans ((keep6 m c main_arg13 (by decide)).trans ((keep5 m c main_arg13 (by decide)).trans ((keep4 m c main_arg13 (by decide)).trans ((keep3 m c main_arg13 (by decide)).trans ((keep2 m c main_arg13 (by decide)).trans (keep1 m c main_arg13 (by decide))))))))))))

/-- The first result is not touched by the last region. -/
theorem u11_v59 : U11 m c main_v59 = U10 m c main_v59 := (keep11 m c main_v59 (by decide))

end Cert.KernelIdeal.Hand

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.KI.PreReal.lean ====
/- FINITENESS decoded at the ideal values: the precondition "every float input is finite" — the printed test, a
   conjunction over the float arguments of "every entry's absolute value is below +∞", equal to 1 on every core —
   makes every entry of every float argument array a real number. -/
import proofs.«108965_j35862976922239_2_alg».proof.Defs
import proofs.«108965_j35862976922239_2_alg».proof.Proof.LibFinite
import Idealize.ShloMosaic.Lib.ValueIdx

noncomputable section

namespace Cert.KernelIdeal.Hand

open Cert.KernelIdeal
open Idealize.ShloMosaic Idealize.ShloMosaic.TcCoe

/-- Under the precondition, on every core, every entry of each of the ten float argument arrays (the two node-feature
    arrays and the eight weights and biases) is a real number. -/
theorem pre_real [hP : Cert.Pre_finite_inputs.Facts] (m : (ℓ : Loc nD τ sig) → Buf (Elt Ideal) ℓ)
    (h : Cert.Pre_KernelIdeal m) (c : Dev nD) :
    (∀ i, ∃ r : ℝ, (m ((c.tc : Thread nD τ).loc main_arg0) : S8192x128.Idx → EReal) i = (r : EReal))
    ∧ (∀ i, ∃ r : ℝ, (m ((c.tc : Thread nD τ).loc main_arg3) : S8192x128.Idx → EReal) i = (r : EReal))
    ∧ (∀ i, ∃ r : ℝ, (m ((c.tc : Thread nD τ).loc main_arg6) : S256x256.Idx → EReal) i = (r : EReal))
    ∧ (∀ i, ∃ r : ℝ, (m ((c.tc : Thread nD τ).loc main_arg7) : S256.Idx → EReal) i = (r : EReal))
    ∧ (∀ i, ∃ r : ℝ, (m ((c.tc : Thread nD τ).loc main_arg8) : S256x256.Idx → EReal) i = (r : EReal))
    ∧ (∀ i, ∃ r : ℝ, (m ((c.tc : Thread nD τ).loc main_arg9) : S256.Idx → EReal) i = (r : EReal))
    ∧ (∀ i, ∃ r : ℝ, (m ((c.tc : Thread nD τ).loc main_arg10) : S512x256.Idx → EReal) i = (r : EReal))
    ∧ (∀ i, ∃ r : ℝ, (m ((c.tc : Thread nD τ).loc main_arg11) : S256.Idx → EReal) i = (r : EReal))
    ∧ (∀ i, ∃ r : ℝ, (m ((c.tc : Thread nD τ).loc main_arg12) : S256x128.Idx → EReal) i = (r : EReal))
    ∧ (∀ i, ∃ r : ℝ, (m ((c.tc : Thread nD τ).loc main_arg13) : S128.Idx → EReal) i = (r : EReal)) := by
  have h0 := congrFun (h c) ValueIdx.ix0
  dsimp only [Cert.Pre_finite_inputs.fn, Cert.Pre_finite_inputs.fn_part1, Cert.Pre_finite_inputs.fn_part2] at h0
  obtain ⟨h0, e13⟩ := IntOp.andi_eq_one.mp h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨e0, e3⟩ := IntOp.andi_eq_one.mp h0
  exact ⟨Cert.Finite.real_of_all _ _ (fun _ => rfl) _ _ _ _ e0,
    Cert.Finite.real_of_all _ _ (fun _ => rfl) _ _ _ _ e3,
    Cert.Finite.real_of_all _ _ (fun _ => rfl) _ _ _ _ e6,
    Cert.Finite.real_of_all _ _ (fun _ => rfl) _ _ _ _ e7,
    Cert.Finite.real_of_all _ _ (fun _ => rfl) _ _ _ _ e8,
    Cert.Finite.real_of_all _ _ (fun _ => rfl) _ _ _ _ e9,
    Cert.Finite.real_of_all _ _ (fun _ => rfl) _ _ _ _ e10,
    Cert.Finite.real_of_all _ _ (fun _ => rfl) _ _ _ _ e11,
    Cert.Finite.real_of_all _ _ (fun _ => rfl) _ _ _ _ e12,
    Cert.Finite.real_of_all _ _ (fun _ => rfl) _ _ _ _ e13⟩

end Cert.KernelIdeal.Hand

end
-- ==== Proof.KI.SliceReads.lean ====
/- The three row blocks of the update weights (rows 0-255, 256-383, 384-511 of the [512,256] matrix), read at an
   index: a unit-stride slice read at (k, h) is the matrix at the row shifted by the block's offset. For any element
   type and any witness of the slicing relation. -/
import proofs.«108965_j35862976922239_2_alg».proof.Proof.Gen.KernelIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

theorem upd_slice_rows0 {α : Type} (x10 : S512x256.Idx → α) (hs : S512x256.Slices ![0, 0] S256x256) (k : Fin 256) (h : Fin 256) :
    extractStridedSlice S256x256 ![0, 0] x10 hs (ix2 k h) = x10 (ix2 (⟨k.val, by have := k.isLt; omega⟩ : Fin 512) h) :=
  extractStridedSlice_apply ![0, 0] x10 hs (ix2 k h) (ix2 (⟨k.val, by have := k.isLt; omega⟩ : Fin 512) h) (by
    intro a
    match a with
    | ⟨0, _⟩ => show k.val = 0 + k.val; omega
    | ⟨1, _⟩ => show h.val = 0 + h.val; omega)

theorem upd_slice_rows256 {α : Type} (x10 : S512x256.Idx → α) (hs : S512x256.Slices ![256, 0] S128x256) (k : Fin 128) (h : Fin 256) :
    extractStridedSlice S128x256 ![256, 0] x10 hs (ix2 k h) = x10 (ix2 (⟨256 + k.val, by have := k.isLt; omega⟩ : Fin 512) h) :=
  extractStridedSlice_apply ![256, 0] x10 hs (ix2 k h) (ix2 (⟨256 + k.val, by have := k.isLt; omega⟩ : Fin 512) h) (by
    intro a
    match a with
    | ⟨0, _⟩ => show 256 + k.val = 256 + k.val; rfl
    | ⟨1, _⟩ => show h.val = 0 + h.val; omega)

theorem upd_slice_rows384 {α : Type} (x10 : S512x256.Idx → α) (hs : S512x256.Slices ![384, 0] S128x256) (k : Fin 128) (h : Fin 256) :
    extractStridedSlice S128x256 ![384, 0] x10 hs (ix2 k h) = x10 (ix2 (⟨384 + k.val, by have := k.isLt; omega⟩ : Fin 512) h) :=
  extractStridedSlice_apply ![384, 0] x10 hs (ix2 k h) (ix2 (⟨384 + k.val, by have := k.isLt; omega⟩ : Fin 512) h) (by
    intro a
    match a with
    | ⟨0, _⟩ => show 384 + k.val = 384 + k.val; rfl
    | ⟨1, _⟩ => show h.val = 0 + h.val; omega)

end Cert.KernelIdeal.Hand

end
-- ==== Proof.CrossHost.lean ====
import proofs.«108965_j35862976922239_2_alg».proof.Proof.KI.HostReads
import proofs.«108965_j35862976922239_2_alg».proof.Proof.RefRead

/-! # The kernel program's host chains are the reference's stages

Both programs prepare the edge network's input and aggregate its output with the same host operations: cut the two
rows out of the edge list, wrap negative node numbers, gather the node-feature rows at an edge's source and target and
lay them side by side; and add the edge messages up per target node into an array of zeros. At the extended reals the
kernel side's change to the narrow float format is the identity, so the two sides are the same functions of the node
features and the edge list. The operations' dimension records are declared once per program, with equal fields. -/

noncomputable section

namespace Cert.Bridge

open Idealize.ShloMosaic

/-- Graph 1: the edge network's input is the reference's joined endpoint rows (source's features, then target's). -/
theorem mi_eq1 (x : (⟨Cert.KernelIdeal.S8192x128, .f32⟩ : BufTy).Contents (Elt Ideal)) (e : (⟨Cert.KernelIdeal.S2x131072, .i32⟩ : BufTy).Contents (Elt Ideal)) :
    (Cert.KernelIdeal.Hand.miOf x e : Cert.KernelIdeal.S131072x256.Idx → EReal) = Cert.ReferenceIdeal.ReadP.val_main_v18 (F := Ideal) x e := by
  unfold Cert.KernelIdeal.Hand.miOf Cert.KernelIdeal.Hand.gatherRows Cert.KernelIdeal.Hand.wrapIdx Cert.KernelIdeal.Hand.srcOf Cert.KernelIdeal.Hand.tgtOf
  unfold Cert.ReferenceIdeal.ReadP.val_main_v18 Cert.ReferenceIdeal.ReadP.val_main_v10 Cert.ReferenceIdeal.ReadP.val_main_v17 Cert.ReferenceIdeal.ReadP.val_main_v9 Cert.ReferenceIdeal.ReadP.val_main_v16 Cert.ReferenceIdeal.ReadP.val_main_v8 Cert.ReferenceIdeal.ReadP.val_main_v15 Cert.ReferenceIdeal.ReadP.val_main_v5 Cert.ReferenceIdeal.ReadP.val_main_v7 Cert.ReferenceIdeal.ReadP.val_main_v12 Cert.ReferenceIdeal.ReadP.val_main_v14 Cert.ReferenceIdeal.ReadP.val_main_v4 Cert.ReferenceIdeal.ReadP.val_main_v6 Cert.ReferenceIdeal.ReadP.val_main_v11 Cert.ReferenceIdeal.ReadP.val_main_v13 Cert.ReferenceIdeal.ReadP.val_main_v3 Cert.ReferenceIdeal.ReadP.val_main_v1 Cert.ReferenceIdeal.ReadP.val_main_v2 Cert.ReferenceIdeal.ReadP.val_main_v0 Cert.ReferenceIdeal.ReadP.val_main_c Cert.ReferenceIdeal.ReadP.val_main_c_0 Cert.ReferenceIdeal.ReadP.val_main_c_1 Cert.ReferenceIdeal.ReadP.val_main_c_2
  rfl

/-- Graph 2: likewise. -/
theorem mi_eq2 (x : (⟨Cert.KernelIdeal.S8192x128, .f32⟩ : BufTy).Contents (Elt Ideal)) (e : (⟨Cert.KernelIdeal.S2x131072, .i32⟩ : BufTy).Contents (Elt Ideal)) :
    (Cert.KernelIdeal.Hand.miOf x e : Cert.KernelIdeal.S131072x256.Idx → EReal) = Cert.ReferenceIdeal.ReadP.val_main_v49 (F := Ideal) x e := by
  unfold Cert.KernelIdeal.Hand.miOf Cert.KernelIdeal.Hand.gatherRows Cert.KernelIdeal.Hand.wrapIdx Cert.KernelIdeal.Hand.srcOf Cert.KernelIdeal.Hand.tgtOf
  unfold Cert.ReferenceIdeal.ReadP.val_main_v49 Cert.ReferenceIdeal.ReadP.val_main_v41 Cert.ReferenceIdeal.ReadP.val_main_v48 Cert.ReferenceIdeal.ReadP.val_main_v40 Cert.ReferenceIdeal.ReadP.val_main_v47 Cert.ReferenceIdeal.ReadP.val_main_v39 Cert.ReferenceIdeal.ReadP.val_main_v46 Cert.ReferenceIdeal.ReadP.val_main_v36 Cert.ReferenceIdeal.ReadP.val_main_v38 Cert.ReferenceIdeal.ReadP.val_main_v43 Cert.ReferenceIdeal.ReadP.val_main_v45 Cert.ReferenceIdeal.ReadP.val_main_v35 Cert.ReferenceIdeal.ReadP.val_main_v37 Cert.ReferenceIdeal.ReadP.val_main_v42 Cert.ReferenceIdeal.ReadP.val_main_v44 Cert.ReferenceIdeal.ReadP.val_main_v34 Cert.ReferenceIdeal.ReadP.val_main_v32 Cert.ReferenceIdeal.ReadP.val_main_v33 Cert.ReferenceIdeal.ReadP.val_main_v31 Cert.ReferenceIdeal.ReadP.val_main_c_3 Cert.ReferenceIdeal.ReadP.val_main_c_4 Cert.ReferenceIdeal.ReadP.val_main_c_5 Cert.ReferenceIdeal.ReadP.val_main_c_6
  rfl

/-- Graph 1: the kernel program's per-target sum of edge messages is the reference's scatter-add into zeros at the target column. -/
theorem segsum_eq1 (e : (⟨Cert.KernelIdeal.S2x131072, .i32⟩ : BufTy).Contents (Elt Ideal)) (u : (⟨Cert.KernelIdeal.S131072x256, .f32⟩ : BufTy).Contents (Elt Ideal)) :
    Cert.KernelIdeal.Hand.segSum (Cert.KernelIdeal.Hand.tgtOf e) u
      = Host.scatterAdd (F := Ideal) (φ := .f32) Cert.ReferenceIdeal.scatter_S8192x256_S131072x1_S131072x256_1_0_0_1 (Cert.ReferenceIdeal.ReadP.val_main_v28 (F := Ideal)) (Cert.ReferenceIdeal.ReadP.val_main_v29 (F := Ideal) e) u := by
  unfold Cert.KernelIdeal.Hand.segSum Cert.KernelIdeal.Hand.tgtOf
  unfold Cert.ReferenceIdeal.ReadP.val_main_v28 Cert.ReferenceIdeal.ReadP.val_main_v29 Cert.ReferenceIdeal.ReadP.val_main_v1 Cert.ReferenceIdeal.ReadP.val_main_v0 Cert.ReferenceIdeal.ReadP.val_main_cst
  rfl

/-- Graph 2: likewise. -/
theorem segsum_eq2 (e : (⟨Cert.KernelIdeal.S2x131072, .i32⟩ : BufTy).Contents (Elt Ideal)) (u : (⟨Cert.KernelIdeal.S131072x256, .f32⟩ : BufTy).Contents (Elt Ideal)) :
    Cert.KernelIdeal.Hand.segSum (Cert.KernelIdeal.Hand.tgtOf e) u
      = Host.scatterAdd (F := Ideal) (φ := .f32) Cert.ReferenceIdeal.scatter_S8192x256_S131072x1_S131072x256_1_0_0_1 (Cert.ReferenceIdeal.ReadP.val_main_v59 (F := Ideal)) (Cert.ReferenceIdeal.ReadP.val_main_v60 (F := Ideal) e) u := by
  unfold Cert.KernelIdeal.Hand.segSum Cert.KernelIdeal.Hand.tgtOf
  unfold Cert.ReferenceIdeal.ReadP.val_main_v59 Cert.ReferenceIdeal.ReadP.val_main_v60 Cert.ReferenceIdeal.ReadP.val_main_v32 Cert.ReferenceIdeal.ReadP.val_main_v31 Cert.ReferenceIdeal.ReadP.val_main_cst_7
  rfl

end Cert.Bridge

end
-- ==== Proof.RefMsg.lean ====
/-
  The reference's two edge-message stages.

  For each graph the reference gathers the two endpoint feature rows of every edge, joins them into one row of 256
  features, and applies the edge network: a first affine layer (a contraction over the 256 joined features, then the
  bias), the rectifier max(·, 0), and a second affine layer (a contraction over the 256 hidden features, then the bias).
  Read index by index — each contraction as a sum over k < 256, each bias through its two broadcasts, the rectifier's
  zero as the zero word — this is the edge-message specification `MsgG` applied to the joined rows and the four weight
  arguments. The joined rows (the gathers and the concatenation) and the scatter-add that follows are not opened: they
  are carried as the stages' own terms.
-/
import proofs.«108965_j35862976922239_2_alg».proof.Proof.RefRead
import proofs.«108965_j35862976922239_2_alg».proof.Proof.MsgSpec

noncomputable section

namespace Cert.ReferenceIdeal.RefValue

open Cert.ReferenceIdeal Cert.ReferenceIdeal.Gen Cert.ReferenceIdeal.ReadP Idealize.ShloMosaic Idealize.ShloMosaic.ValueIdx Cert.MsgSpec

/-! ### Index equations: the stages' composed index functions at `ix2 e j` -/

/-- Graph 1, the hidden layer at edge `e`, hidden coordinate `h`. -/
theorem hidden1 (x0 : (⟨S8192x128, .f32⟩ : BufTy).Contents (Elt Ideal)) (x1 : (⟨S2x131072, .i32⟩ : BufTy).Contents (Elt Ideal))
    (x6 : (⟨S256x256, .f32⟩ : BufTy).Contents (Elt Ideal)) (x7 : (⟨S256, .f32⟩ : BufTy).Contents (Elt Ideal))
    (e : Fin 131072) (h : Fin 256) :
    val_main_v23 (F := Ideal) x0 x1 x6 x7 (ix2 e h)
      = max ((∑ k : Fin 256, val_main_v18 (F := Ideal) x0 x1 (ix2 e k) * x6 (ix2 k h)) + x7 (ix1 h)) 0 := by
  rw [val_main_v23_apply, val_main_v22_apply, val_main_v19_apply, val_main_v21_apply, val_main_v20_apply,
    val_main_call0_v0_apply, val_main_call0_cst_apply]
  have el : ∀ k : Fin 256, lidx_main_v19 (ix2 e h) k = ix2 e k := fun k =>
    funext fun a => Fin.ext (by match a with | ⟨0, _⟩ => rfl | ⟨1, _⟩ => rfl)
  have er : ∀ k : Fin 256, ridx_main_v19 (ix2 e h) k = ix2 k h := fun k =>
    funext fun a => Fin.ext (by match a with | ⟨0, _⟩ => rfl | ⟨1, _⟩ => rfl)
  have eb : idx_main_v20 (idx_main_v21 (ix2 e h)) = ix1 h :=
    funext fun a => Fin.ext (by match a with | ⟨0, _⟩ => rfl)
  simp only [el, er, eb, Ideal.addf_def, Ideal.maximumf_def, Ideal.ofBits_def, Ideal.ofBits_zero_f32]

/-- Graph 1: the edge messages before aggregation are the edge-message specification of the joined endpoint rows. -/
theorem ref_msgs1 (x0 : (⟨S8192x128, .f32⟩ : BufTy).Contents (Elt Ideal)) (x1 : (⟨S2x131072, .i32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v27 (F := Ideal) x0 x1 x6 x7 x8 x9 = MsgG (val_main_v18 (F := Ideal) x0 x1) x6 x7 x8 x9 := by
  funext i
  obtain ⟨e, j, rfl⟩ : ∃ (e : Fin 131072) (j : Fin 256), i = ix2 e j := ⟨i 0, i 1, eq_ix2 i⟩
  rw [MsgG_ix2, val_main_v27_apply, val_main_v24_apply, val_main_v26_apply, val_main_v25_apply]
  have el : ∀ h : Fin 256, lidx_main_v24 (ix2 e j) h = ix2 e h := fun h =>
    funext fun a => Fin.ext (by match a with | ⟨0, _⟩ => rfl | ⟨1, _⟩ => rfl)
  have er : ∀ h : Fin 256, ridx_main_v24 (ix2 e j) h = ix2 h j := fun h =>
    funext fun a => Fin.ext (by match a with | ⟨0, _⟩ => rfl | ⟨1, _⟩ => rfl)
  have eb : idx_main_v25 (idx_main_v26 (ix2 e j)) = ix1 j :=
    funext fun a => Fin.ext (by match a with | ⟨0, _⟩ => rfl)
  simp only [el, er, eb, hidden1, Ideal.addf_def]

/-- Graph 2, the hidden layer at edge `e`, hidden coordinate `h`. -/
theorem hidden2 (x3 : (⟨S8192x128, .f32⟩ : BufTy).Contents (Elt Ideal)) (x4 : (⟨S2x131072, .i32⟩ : BufTy).Contents (Elt Ideal))
    (x6 : (⟨S256x256, .f32⟩ : BufTy).Contents (Elt Ideal)) (x7 : (⟨S256, .f32⟩ : BufTy).Contents (Elt Ideal))
    (e : Fin 131072) (h : Fin 256) :
    val_main_v54 (F := Ideal) x3 x4 x6 x7 (ix2 e h)
      = max ((∑ k : Fin 256, val_main_v49 (F := Ideal) x3 x4 (ix2 e k) * x6 (ix2 k h)) + x7 (ix1 h)) 0 := by
  rw [val_main_v54_apply, val_main_v53_apply, val_main_v50_apply, val_main_v52_apply, val_main_v51_apply,
    val_main_call1_v0_apply, val_main_call1_cst_apply]
  have el : ∀ k : Fin 256, lidx_main_v50 (ix2 e h) k = ix2 e k := fun k =>
    funext fun a => Fin.ext (by match a with | ⟨0, _⟩ => rfl | ⟨1, _⟩ => rfl)
  have er : ∀ k : Fin 256, ridx_main_v50 (ix2 e h) k = ix2 k h := fun k =>
    funext fun a => Fin.ext (by match a with | ⟨0, _⟩ => rfl | ⟨1, _⟩ => rfl)
  have eb : idx_main_v51 (idx_main_v52 (ix2 e h)) = ix1 h :=
    funext fun a => Fin.ext (by match a with | ⟨0, _⟩ => rfl)
  simp only [el, er, eb, Ideal.addf_def, Ideal.maximumf_def, Ideal.ofBits_def, Ideal.ofBits_zero_f32]

/-- Graph 2: the edge messages before aggregation are the edge-message specification of the joined endpoint rows. -/
theorem ref_msgs2 (x3 : (⟨S8192x128, .f32⟩ : BufTy).Contents (Elt Ideal)) (x4 : (⟨S2x131072, .i32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v58 (F := Ideal) x3 x4 x6 x7 x8 x9 = MsgG (val_main_v49 (F := Ideal) x3 x4) x6 x7 x8 x9 := by
  funext i
  obtain ⟨e, j, rfl⟩ : ∃ (e : Fin 131072) (j : Fin 256), i = ix2 e j := ⟨i 0, i 1, eq_ix2 i⟩
  rw [MsgG_ix2, val_main_v58_apply, val_main_v55_apply, val_main_v57_apply, val_main_v56_apply]
  have el : ∀ h : Fin 256, lidx_main_v55 (ix2 e j) h = ix2 e h := fun h =>
    funext fun a => Fin.ext (by match a with | ⟨0, _⟩ => rfl | ⟨1, _⟩ => rfl)
  have er : ∀ h : Fin 256, ridx_main_v55 (ix2 e j) h = ix2 h j := fun h =>
    funext fun a => Fin.ext (by match a with | ⟨0, _⟩ => rfl | ⟨1, _⟩ => rfl)
  have eb : idx_main_v56 (idx_main_v57 (ix2 e j)) = ix1 j :=
    funext fun a => Fin.ext (by match a with | ⟨0, _⟩ => rfl)
  simp only [el, er, eb, hidden2, Ideal.addf_def]

/-- Graph 1: the aggregated messages are the scatter-add (into zeros, at the edges' target nodes) of the edge-message
    specification of the joined endpoint rows. -/
theorem ref_messages1 (x0 : (⟨S8192x128, .f32⟩ : BufTy).Contents (Elt Ideal)) (x1 : (⟨S2x131072, .i32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v30 (F := Ideal) x0 x1 x6 x7 x8 x9
      = Host.scatterAdd (F := Ideal) (φ := .f32) scatter_S8192x256_S131072x1_S131072x256_1_0_0_1 (val_main_v28 (F := Ideal)) (val_main_v29 (F := Ideal) x1)
          (MsgG (val_main_v18 (F := Ideal) x0 x1) x6 x7 x8 x9) := by
  unfold val_main_v30
  rw [ref_msgs1]

/-- Graph 2: likewise. -/
theorem ref_messages2 (x3 : (⟨S8192x128, .f32⟩ : BufTy).Contents (Elt Ideal)) (x4 : (⟨S2x131072, .i32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v61 (F := Ideal) x3 x4 x6 x7 x8 x9
      = Host.scatterAdd (F := Ideal) (φ := .f32) scatter_S8192x256_S131072x1_S131072x256_1_0_0_1 (val_main_v59 (F := Ideal)) (val_main_v60 (F := Ideal) x4)
          (MsgG (val_main_v49 (F := Ideal) x3 x4) x6 x7 x8 x9) := by
  unfold val_main_v61
  rw [ref_msgs2]

end Cert.ReferenceIdeal.RefValue

end
-- ==== Proof.RefAttn.lean ====
/-
  The reference's two attention stages.

  The reference forms the whole 8192 × 8192 matrix of masked scores S (n, j) — the contraction of node n of graph 1 with
  node j of graph 2 where their graph labels agree, the literal -1e30 elsewhere —, and then, for the first direction,
  normalises each ROW: it subtracts the row's maximum M₁ n, exponentiates, divides by the row's sum (started from zero),
  and contracts the weights with graph 2's features; for the second direction it does the same along each COLUMN (maximum
  M₂ j, column sums), transposes the weights and contracts them with graph 1's features. Read index by index, entry
  (n, d) of the first result is ∑ j, (exp (S (n, j) - M₁ n) / (0 + ∑ j', exp (S (n, j') - M₁ n))) · x₂ (j, d), and entry
  (j, d) of the second is the same over the rows n of column j with x₁ (n, d).

  For real features the scores are real, so each maximum (a fold of max from -∞ over 8192 real numbers) is real, and the
  normalised-weights arrangement is the unshifted softmax-weighted average: the first result is the attention
  specification of (x₁, x₂), the second — by the symmetry of the scores — that of (x₂, x₁) with the labels swapped.
  The two subtractions that follow are kept as the stages' own subtractions.
-/
import proofs.«108965_j35862976922239_2_alg».proof.Proof.RefRead
import proofs.«108965_j35862976922239_2_alg».proof.Proof.SpecAttn

noncomputable section

namespace Cert.ReferenceIdeal.RefValue

open Cert.ReferenceIdeal Cert.ReferenceIdeal.Gen Cert.ReferenceIdeal.ReadP Idealize.ShloMosaic Idealize.ShloMosaic.ValueIdx Cert.Spec

/-- The float pattern of -∞ is the bottom of the extended reals. -/
theorem ofBits_negInf : Ideal.ofBits .f32 0xFF800000#32 = (⊥ : EReal) := by simp [Ideal.ofBits, Ideal.ieee]

/-! ### The masked scores -/

/-- The masked-score stage at (n, j) is the masked score of the specification. -/
theorem ref_score (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (n j : Fin 8192) :
    val_main_v69 (F := Ideal) x0 x2 x3 x5 (ix2 n j) = mscore x0 x3 x2 x5 n j := by
  rw [val_main_v69_apply, val_main_v68_apply, val_main_v63_apply, val_main_v66_apply, val_main_v64_apply,
    val_main_v67_apply, val_main_v65_apply, val_main_call2_v1_apply, val_main_call2_v0_apply, val_main_cst_8_apply]
  have el : ∀ k : Fin 128, lidx_main_v63 (ix2 n j) k = ix2 n k := fun k => funext fun a => Fin.ext (by match a with | ⟨0, _⟩ => rfl | ⟨1, _⟩ => rfl)
  have er : ∀ k : Fin 128, idx_main_v62 (ridx_main_v63 (ix2 n j) k) = ix2 j k := fun k => funext fun a => Fin.ext (by match a with | ⟨0, _⟩ => rfl | ⟨1, _⟩ => rfl)
  have e2 : idx_main_v64 (idx_main_v66 (ix2 n j)) = ix1 n := funext fun a => Fin.ext (by match a with | ⟨0, _⟩ => rfl)
  have e5 : idx_main_v65 (idx_main_v67 (ix2 n j)) = ix1 j := funext fun a => Fin.ext (by match a with | ⟨0, _⟩ => rfl)
  simp only [val_main_v62_apply, el, er, e2, e5, Ideal.ofBits_def]
  rfl

/-- Every masked score of real features is real. -/
theorem ref_score_real (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) (i : S8192x8192.Idx) :
    ∃ r : ℝ, val_main_v69 (F := Ideal) x0 x2 x3 x5 i = (r : EReal) := by
  obtain ⟨n, j, rfl⟩ : ∃ (n j : Fin 8192), i = ix2 n j := ⟨i 0, i 1, eq_ix2 i⟩
  rw [ref_score]
  exact mscore_real x0 x3 x2 x5 h0 h3 n j

/-! ### The maxima are real numbers -/

/-- The maximum of row n of the masked scores (folded from -∞, then joined with -∞ once more) is a real number. -/
theorem ref_rowmax_real (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) (n : Fin 8192) :
    ∃ r : ℝ, val_main_v72 (F := Ideal) x0 x2 x3 x5 (ix1 n) = (r : EReal) := by
  rw [val_main_v72_apply, val_main_v71_apply, val_main_cst_10_apply]
  simp only [Ideal.maximumf_def, Ideal.ofBits_def, ofBits_negInf]
  refine max_bot_real ?_
  unfold val_main_v70
  rw [Host.reduce_eq_fold_single FloatOps.maximumf _ _ reducesTo_S8192x8192_S8192_d1 (by decide) h_S_ (ix1 n)]
  have hinit : val_main_cst_9 (F := Ideal) (Shape.Idx.first h_S_) = (⊥ : EReal) := by
    rw [val_main_cst_9_apply]; exact ofBits_negInf
  rw [hinit]
  exact Cert.SoftmaxLaw.fold_max_real (FloatOps.maximumf (F := Ideal) (φ := .f32)) (fun _ _ => rfl) Finset.univ
    ⟨⟨0, by decide⟩, Finset.mem_univ _⟩ _ (fun k => ref_score_real x0 x2 x3 x5 h0 h3 _)

/-- The maximum of column j of the masked scores is a real number. -/
theorem ref_colmax_real (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) (j : Fin 8192) :
    ∃ r : ℝ, val_main_v83 (F := Ideal) x0 x2 x3 x5 (ix1 j) = (r : EReal) := by
  rw [val_main_v83_apply, val_main_v82_apply, val_main_cst_13_apply]
  simp only [Ideal.maximumf_def, Ideal.ofBits_def, ofBits_negInf]
  refine max_bot_real ?_
  unfold val_main_v81
  rw [Host.reduce_eq_fold_single FloatOps.maximumf _ _ reducesTo_S8192x8192_S8192_d0 (by decide) h_S_ (ix1 j)]
  have hinit : val_main_cst_12 (F := Ideal) (Shape.Idx.first h_S_) = (⊥ : EReal) := by
    rw [val_main_cst_12_apply]; exact ofBits_negInf
  rw [hinit]
  exact Cert.SoftmaxLaw.fold_max_real (FloatOps.maximumf (F := Ideal) (φ := .f32)) (fun _ _ => rfl) Finset.univ
    ⟨⟨0, by decide⟩, Finset.mem_univ _⟩ _ (fun k => ref_score_real x0 x2 x3 x5 h0 h3 _)

/-! ### The first direction: rows -/

/-- The shifted exponential at (n, k). -/
theorem ref_exp1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (n k : Fin 8192) :
    val_main_v76 (F := Ideal) x0 x2 x3 x5 (ix2 n k)
      = Ideal.exp (val_main_v69 (F := Ideal) x0 x2 x3 x5 (ix2 n k) - val_main_v72 (F := Ideal) x0 x2 x3 x5 (ix1 n)) := by
  rw [val_main_v76_apply, val_main_v75_apply, val_main_v74_apply, val_main_v73_apply]
  have e : idx_main_v73 (idx_main_v74 (ix2 n k)) = ix1 n := funext fun a => Fin.ext (by match a with | ⟨0, _⟩ => rfl)
  simp only [e, Ideal.hostUnary_exp_def, Ideal.subf_def]

/-- The row sum at n: zero plus the sum of the row's shifted exponentials. -/
theorem ref_den1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (n : Fin 8192) :
    val_main_v77 (F := Ideal) x0 x2 x3 x5 (ix1 n)
      = 0 + ∑ k : Fin 8192, Ideal.exp (val_main_v69 (F := Ideal) x0 x2 x3 x5 (ix2 n k) - val_main_v72 (F := Ideal) x0 x2 x3 x5 (ix1 n)) := by
  rw [val_main_v77_apply, val_main_cst_11_apply]
  have e : ∀ k : Fin 8192, idx_main_v77 (ix1 n) k = ix2 n k := fun k => funext fun a => Fin.ext (by match a with | ⟨0, _⟩ => rfl | ⟨1, _⟩ => rfl)
  simp only [e, ref_exp1, Ideal.ofBits_def, Ideal.ofBits_zero_f32]

/-- The weight at (n, k). -/
theorem ref_w1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (n k : Fin 8192) :
    val_main_v80 (F := Ideal) x0 x2 x3 x5 (ix2 n k)
      = Ideal.div (Ideal.exp (val_main_v69 (F := Ideal) x0 x2 x3 x5 (ix2 n k) - val_main_v72 (F := Ideal) x0 x2 x3 x5 (ix1 n)))
          (0 + ∑ k' : Fin 8192, Ideal.exp (val_main_v69 (F := Ideal) x0 x2 x3 x5 (ix2 n k') - val_main_v72 (F := Ideal) x0 x2 x3 x5 (ix1 n))) := by
  rw [val_main_v80_apply, val_main_v79_apply, val_main_v78_apply]
  have e : idx_main_v78 (idx_main_v79 (ix2 n k)) = ix1 n := funext fun a => Fin.ext (by match a with | ⟨0, _⟩ => rfl)
  rw [e, ref_exp1, ref_den1, Ideal.hostDivf_def]

/-- THE FIRST ATTENTION OUTPUT of the reference at (n, d), for real features: the attention specification of (x₁, x₂). -/
theorem ref_attn1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) (n : Fin 8192) (d : Fin 128) :
    val_main_v93 (F := Ideal) x0 x2 x3 x5 (ix2 n d) = attnG x0 x3 x2 x5 (ix2 n d) := by
  rw [val_main_v93_apply, attnG_ix2]
  have el : ∀ k : Fin 8192, lidx_main_v93 (ix2 n d) k = ix2 n k := fun k => funext fun a => Fin.ext (by match a with | ⟨0, _⟩ => rfl | ⟨1, _⟩ => rfl)
  have er : ∀ k : Fin 8192, ridx_main_v93 (ix2 n d) k = ix2 k d := fun k => funext fun a => Fin.ext (by match a with | ⟨0, _⟩ => rfl | ⟨1, _⟩ => rfl)
  simp only [el, er, ref_w1, ref_score]
  exact weights_eq (by norm_num) (fun j => mscore x0 x3 x2 x5 n j) (fun j => x3 (ix2 j d))
    (val_main_v72 (F := Ideal) x0 x2 x3 x5 (ix1 n)) (mscore_real x0 x3 x2 x5 h0 h3 n) (fun j => h3 _)
    (ref_rowmax_real x0 x2 x3 x5 h0 h3 n)

/-- The first attention residual, as an array: graph 1's features minus the attention specification. -/
theorem ref_attentions1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) :
    val_main_v94 (F := Ideal) x0 x2 x3 x5 = subf (F := Ideal) (φ := .f32) x0 (attnG x0 x3 x2 x5) := by
  unfold val_main_v94
  refine congrArg (subf (F := Ideal) (φ := .f32) x0) (funext fun i => ?_)
  obtain ⟨n, d, rfl⟩ : ∃ (n : Fin 8192) (d : Fin 128), i = ix2 n d := ⟨i 0, i 1, eq_ix2 i⟩
  exact ref_attn1 x0 x2 x3 x5 h0 h3 n d

/-! ### The second direction: columns -/

/-- The shifted exponential at (n, j), shifted by column j's maximum. -/
theorem ref_exp2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (n j : Fin 8192) :
    val_main_v87 (F := Ideal) x0 x2 x3 x5 (ix2 n j)
      = Ideal.exp (val_main_v69 (F := Ideal) x0 x2 x3 x5 (ix2 n j) - val_main_v83 (F := Ideal) x0 x2 x3 x5 (ix1 j)) := by
  rw [val_main_v87_apply, val_main_v86_apply, val_main_v85_apply, val_main_v84_apply]
  have e : idx_main_v84 (idx_main_v85 (ix2 n j)) = ix1 j := funext fun a => Fin.ext (by match a with | ⟨0, _⟩ => rfl)
  simp only [e, Ideal.hostUnary_exp_def, Ideal.subf_def]

/-- The column sum at j. -/
theorem ref_den2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (j : Fin 8192) :
    val_main_v88 (F := Ideal) x0 x2 x3 x5 (ix1 j)
      = 0 + ∑ n : Fin 8192, Ideal.exp (val_main_v69 (F := Ideal) x0 x2 x3 x5 (ix2 n j) - val_main_v83 (F := Ideal) x0 x2 x3 x5 (ix1 j)) := by
  rw [val_main_v88_apply, val_main_cst_14_apply]
  have e : ∀ n : Fin 8192, idx_main_v88 (ix1 j) n = ix2 n j := fun n => funext fun a => Fin.ext (by match a with | ⟨0, _⟩ => rfl | ⟨1, _⟩ => rfl)
  simp only [e, ref_exp2, Ideal.ofBits_def, Ideal.ofBits_zero_f32]

/-- The transposed weight at (j, n). -/
theorem ref_w2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal)) (j n : Fin 8192) :
    val_main_v92 (F := Ideal) x0 x2 x3 x5 (ix2 j n)
      = Ideal.div (Ideal.exp (val_main_v69 (F := Ideal) x0 x2 x3 x5 (ix2 n j) - val_main_v83 (F := Ideal) x0 x2 x3 x5 (ix1 j)))
          (0 + ∑ n' : Fin 8192, Ideal.exp (val_main_v69 (F := Ideal) x0 x2 x3 x5 (ix2 n' j) - val_main_v83 (F := Ideal) x0 x2 x3 x5 (ix1 j))) := by
  rw [val_main_v92_apply]
  have et : idx_main_v92 (ix2 j n) = ix2 n j := funext fun a => Fin.ext (by match a with | ⟨0, _⟩ => rfl | ⟨1, _⟩ => rfl)
  rw [et, val_main_v91_apply, val_main_v90_apply, val_main_v89_apply]
  have e : idx_main_v89 (idx_main_v90 (ix2 n j)) = ix1 j := funext fun a => Fin.ext (by match a with | ⟨0, _⟩ => rfl)
  rw [e, ref_exp2, ref_den2, Ideal.hostDivf_def]

/-- THE SECOND ATTENTION OUTPUT of the reference at (j, d), for real features: the attention specification of (x₂, x₁)
    with the labels swapped. -/
theorem ref_attn2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) (j : Fin 8192) (d : Fin 128) :
    val_main_v95 (F := Ideal) x0 x2 x3 x5 (ix2 j d) = attnG x3 x0 x5 x2 (ix2 j d) := by
  rw [val_main_v95_apply, ← attnG_swap_ix2]
  have el : ∀ n : Fin 8192, lidx_main_v95 (ix2 j d) n = ix2 j n := fun n => funext fun a => Fin.ext (by match a with | ⟨0, _⟩ => rfl | ⟨1, _⟩ => rfl)
  have er : ∀ n : Fin 8192, ridx_main_v95 (ix2 j d) n = ix2 n d := fun n => funext fun a => Fin.ext (by match a with | ⟨0, _⟩ => rfl | ⟨1, _⟩ => rfl)
  simp only [el, er, ref_w2, ref_score]
  exact weights_eq (by norm_num) (fun n => mscore x0 x3 x2 x5 n j) (fun n => x0 (ix2 n d))
    (val_main_v83 (F := Ideal) x0 x2 x3 x5 (ix1 j)) (fun n => mscore_real x0 x3 x2 x5 h0 h3 n j) (fun n => h0 _)
    (ref_colmax_real x0 x2 x3 x5 h0 h3 j)

/-- The second attention residual, as an array. -/
theorem ref_attentions2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x5 : (⟨S8192, .i32⟩ : BufTy).Contents (Elt Ideal))
    (h0 : ∀ i, ∃ r : ℝ, x0 i = (r : EReal)) (h3 : ∀ i, ∃ r : ℝ, x3 i = (r : EReal)) :
    val_main_v96 (F := Ideal) x0 x2 x3 x5 = subf (F := Ideal) (φ := .f32) x3 (attnG x3 x0 x5 x2) := by
  unfold val_main_v96
  refine congrArg (subf (F := Ideal) (φ := .f32) x3) (funext fun i => ?_)
  obtain ⟨j, d, rfl⟩ : ∃ (j : Fin 8192) (d : Fin 128), i = ix2 j d := ⟨i 0, i 1, eq_ix2 i⟩
  exact ref_attn2 x0 x2 x3 x5 h0 h3 j d

end Cert.ReferenceIdeal.RefValue

end
-- ==== Proof.SpecSplit.lean ====
/-
  A sum over 512 terms in three consecutive pieces.

  The node-update layer contracts a row of 512 features — 256 aggregated-message features, then 128 attention
  features, then 128 node features — against a 512-row weight matrix. Read as one sum over k < 512 it is the sum of the
  three partial contractions over k < 256, 256 ≤ k < 384 and 384 ≤ k < 512, bracketed ((A + B) + C). Sums are finite
  sums in a commutative additive monoid, so nothing is assumed of the terms (no finiteness).
-/
import Idealize.ShloMosaic.PureOps.Ideal

namespace Cert.Spec

/-- A sum over `Fin 512` is the sum over the first 256 indices, plus the sum over the next 128, plus the sum over the
    last 128, in the bracketing ((A + B) + C). -/
theorem sum_split_512 {α : Type*} [AddCommMonoid α] (f : Fin 512 → α) :
    ∑ k : Fin 512, f k
      = ((∑ k : Fin 256, f ⟨k.val, by have := k.isLt; omega⟩)
          + (∑ k : Fin 128, f ⟨256 + k.val, by have := k.isLt; omega⟩))
          + (∑ k : Fin 128, f ⟨384 + k.val, by have := k.isLt; omega⟩) := by
  have h1 : ∑ k : Fin 512, f k
      = (∑ k : Fin 384, f ⟨k.val, by have := k.isLt; omega⟩) + ∑ k : Fin 128, f ⟨384 + k.val, by have := k.isLt; omega⟩ :=
    Fin.sum_univ_add (a := 384) (b := 128) f
  have h2 : ∑ k : Fin 384, f ⟨k.val, by have := k.isLt; omega⟩
      = (∑ k : Fin 256, f ⟨k.val, by have := k.isLt; omega⟩) + ∑ k : Fin 128, f ⟨256 + k.val, by have := k.isLt; omega⟩ :=
    Fin.sum_univ_add (a := 256) (b := 128) (fun k : Fin 384 => f ⟨k.val, by have := k.isLt; omega⟩)
  rw [h1, h2]

/-- The same for a contraction: the terms are products `u k * w k`, and each piece is the contraction of the matching
    piece of `u` with the matching rows of `w`. -/
theorem dot_split_512 {α : Type*} [AddCommMonoid α] [Mul α] (u w : Fin 512 → α)
    (u₁ w₁ : Fin 256 → α) (u₂ w₂ u₃ w₃ : Fin 128 → α)
    (hu₁ : ∀ k : Fin 256, u ⟨k.val, by have := k.isLt; omega⟩ = u₁ k)
    (hu₂ : ∀ k : Fin 128, u ⟨256 + k.val, by have := k.isLt; omega⟩ = u₂ k)
    (hu₃ : ∀ k : Fin 128, u ⟨384 + k.val, by have := k.isLt; omega⟩ = u₃ k)
    (hw₁ : ∀ k : Fin 256, w ⟨k.val, by have := k.isLt; omega⟩ = w₁ k)
    (hw₂ : ∀ k : Fin 128, w ⟨256 + k.val, by have := k.isLt; omega⟩ = w₂ k)
    (hw₃ : ∀ k : Fin 128, w ⟨384 + k.val, by have := k.isLt; omega⟩ = w₃ k) :
    ∑ k : Fin 512, u k * w k
      = ((∑ k : Fin 256, u₁ k * w₁ k) + (∑ k : Fin 128, u₂ k * w₂ k)) + (∑ k : Fin 128, u₃ k * w₃ k) := by
  rw [sum_split_512 (fun k => u k * w k)]
  simp only [hu₁, hu₂, hu₃, hw₁, hw₂, hw₃]

end Cert.Spec
-- ==== Proof.RefUpd.lean ====
/-
  The reference's two node-update stages.

  For each graph the reference joins, per node, the 256 aggregated-message features, the 128 attention features and the
  128 node features into one row of 512, contracts it with the 512-row first weight matrix, adds the bias, rectifies,
  contracts with the second weight matrix, adds the second bias and adds the node's features. The joined row read at
  column k is the messages' column k for k < 256, the attentions' column k - 256 for 256 ≤ k < 384, and the features'
  column k - 384 from there on; so the one sum over 512 is the sum of three partial contractions against the three row
  blocks of the weight matrix, in the bracketing ((A + B) + C) — sums in a commutative monoid, nothing assumed of the
  terms. This is the node-update specification `UpdG` of (messages, attentions, features, the three row blocks, the
  biases and the second weights). The three row blocks enter as arrays known entry by entry.
-/
import proofs.«108965_j35862976922239_2_alg».proof.Proof.RefRead
import proofs.«108965_j35862976922239_2_alg».proof.Proof.KI.UpdSpec
import proofs.«108965_j35862976922239_2_alg».proof.Proof.SpecSplit

noncomputable section

namespace Cert.ReferenceIdeal.RefValue

open Cert.ReferenceIdeal Cert.ReferenceIdeal.Gen Cert.ReferenceIdeal.ReadP Idealize.ShloMosaic Idealize.ShloMosaic.ValueIdx Cert.Spec
open Cert.KernelIdeal.Hand (UpdG UpdG_apply UpdHidden)

/-! ### The joined row at a column -/

/-- Columns below 256 of the joined row are the first piece's. -/
theorem join_fst (A : S8192x256.Idx → EReal) (B C : S8192x128.Idx → EReal) (n : Fin 8192) (k : Fin 256) :
    concatenate S8192x512 1 [⟨S8192x256, A⟩, ⟨S8192x128, B⟩, ⟨S8192x128, C⟩] concatenates_S8192x256_S8192x128_S8192x128_S8192x512_d1
        (ix2 n (⟨k.val, by have := k.isLt; omega⟩ : Fin 512)) = A (ix2 n k) :=
  concatenate_apply_piece (α := EReal) 1 [⟨S8192x256, A⟩, ⟨S8192x128, B⟩, ⟨S8192x128, C⟩]
    concatenates_S8192x256_S8192x128_S8192x128_S8192x512_d1 (ix2 n (⟨k.val, by have := k.isLt; omega⟩ : Fin 512)) 0 (by simp)
    S8192x256 A rfl rfl 0 rfl (ix2 n k) (fun b hb => by match b with | ⟨0, _⟩ => rfl | ⟨1, _⟩ => exact absurd rfl hb) (Nat.zero_add _)

/-- Columns 256 … 383 of the joined row are the second piece's. -/
theorem join_snd (A : S8192x256.Idx → EReal) (B C : S8192x128.Idx → EReal) (n : Fin 8192) (k : Fin 128) :
    concatenate S8192x512 1 [⟨S8192x256, A⟩, ⟨S8192x128, B⟩, ⟨S8192x128, C⟩] concatenates_S8192x256_S8192x128_S8192x128_S8192x512_d1
        (ix2 n (⟨256 + k.val, by have := k.isLt; omega⟩ : Fin 512)) = B (ix2 n k) :=
  concatenate_apply_piece (α := EReal) 1 [⟨S8192x256, A⟩, ⟨S8192x128, B⟩, ⟨S8192x128, C⟩]
    concatenates_S8192x256_S8192x128_S8192x128_S8192x512_d1 (ix2 n (⟨256 + k.val, by have := k.isLt; omega⟩ : Fin 512)) 1 (by simp)
    S8192x128 B rfl rfl 256 rfl (ix2 n k) (fun b hb => by match b with | ⟨0, _⟩ => rfl | ⟨1, _⟩ => exact absurd rfl hb) rfl

/-- Columns 384 … 511 of the joined row are the third piece's. -/
theorem join_thd (A : S8192x256.Idx → EReal) (B C : S8192x128.Idx → EReal) (n : Fin 8192) (k : Fin 128) :
    concatenate S8192x512 1 [⟨S8192x256, A⟩, ⟨S8192x128, B⟩, ⟨S8192x128, C⟩] concatenates_S8192x256_S8192x128_S8192x128_S8192x512_d1
        (ix2 n (⟨384 + k.val, by have := k.isLt; omega⟩ : Fin 512)) = C (ix2 n k) :=
  concatenate_apply_piece (α := EReal) 1 [⟨S8192x256, A⟩, ⟨S8192x128, B⟩, ⟨S8192x128, C⟩]
    concatenates_S8192x256_S8192x128_S8192x128_S8192x512_d1 (ix2 n (⟨384 + k.val, by have := k.isLt; omega⟩ : Fin 512)) 2 (by simp)
    S8192x128 C rfl rfl 384 rfl (ix2 n k) (fun b hb => by match b with | ⟨0, _⟩ => rfl | ⟨1, _⟩ => exact absurd rfl hb) rfl

/-- The contraction of a joined row with the 512-row weight matrix is the sum of the three partial contractions. -/
theorem join_dot (A : S8192x256.Idx → EReal) (B C : S8192x128.Idx → EReal) (W : S512x256.Idx → EReal)
    (W1a : (⟨2, ![256, 256]⟩ : Shape).Idx → EReal) (W1b W1c : (⟨2, ![128, 256]⟩ : Shape).Idx → EReal)
    (hWa : ∀ (k : Fin 256) (h : Fin 256), W1a (ix2 k h) = W (ix2 (⟨k.val, by have := k.isLt; omega⟩ : Fin 512) h))
    (hWb : ∀ (k : Fin 128) (h : Fin 256), W1b (ix2 k h) = W (ix2 (⟨256 + k.val, by have := k.isLt; omega⟩ : Fin 512) h))
    (hWc : ∀ (k : Fin 128) (h : Fin 256), W1c (ix2 k h) = W (ix2 (⟨384 + k.val, by have := k.isLt; omega⟩ : Fin 512) h))
    (n : Fin 8192) (h : Fin 256) :
    ∑ k : Fin 512, concatenate S8192x512 1 [⟨S8192x256, A⟩, ⟨S8192x128, B⟩, ⟨S8192x128, C⟩]
        concatenates_S8192x256_S8192x128_S8192x128_S8192x512_d1 (ix2 n k) * W (ix2 k h)
      = ((∑ k : Fin 256, A (ix2 n k) * W1a (ix2 k h)) + (∑ k : Fin 128, B (ix2 n k) * W1b (ix2 k h)))
          + (∑ k : Fin 128, C (ix2 n k) * W1c (ix2 k h)) :=
  dot_split_512 _ (fun k => W (ix2 k h)) (fun k => A (ix2 n k)) (fun k => W1a (ix2 k h)) (fun k => B (ix2 n k))
    (fun k => W1b (ix2 k h)) (fun k => C (ix2 n k)) (fun k => W1c (ix2 k h))
    (fun k => join_fst A B C n k) (fun k => join_snd A B C n k) (fun k => join_thd A B C n k)
    (fun k => (hWa k h).symm) (fun k => (hWb k h).symm) (fun k => (hWc k h).symm)

/-! ### Graph 1 -/

/-- The hidden layer of graph 1 at node n, hidden unit h, after the rectifier. -/
theorem ref_updhidden1 (x0 : (⟨S8192x128, .f32⟩ : BufTy).Contents (Elt Ideal)) (x1 : (⟨S2x131072, .i32⟩ : BufTy).Contents (Elt Ideal))
    (x2 : (⟨S8192, .i32⟩ : BufTy).Contents (Elt Ideal)) (x3 : (⟨S8192x128, .f32⟩ : BufTy).Contents (Elt Ideal))
    (x5 : (⟨S8192, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S512x256, .f32⟩ : BufTy).Contents (Elt Ideal))
    (x11 : (⟨S256, .f32⟩ : BufTy).Contents (Elt Ideal))
    (W1a : (⟨2, ![256, 256]⟩ : Shape).Idx → EReal) (W1b W1c : (⟨2, ![128, 256]⟩ : Shape).Idx → EReal)
    (hWa : ∀ (k : Fin 256) (h : Fin 256), W1a (ix2 k h) = x10 (ix2 (⟨k.val, by have := k.isLt; omega⟩ : Fin 512) h))
    (hWb : ∀ (k : Fin 128) (h : Fin 256), W1b (ix2 k h) = x10 (ix2 (⟨256 + k.val, by have := k.isLt; omega⟩ : Fin 512) h))
    (hWc : ∀ (k : Fin 128) (h : Fin 256), W1c (ix2 k h) = x10 (ix2 (⟨384 + k.val, by have := k.isLt; omega⟩ : Fin 512) h)) (n : Fin 8192) (h : Fin 256) :
    val_main_v102 (F := Ideal) x0 x1 x2 x3 x5 x6 x7 x8 x9 x10 x11 (ix2 n h)
      = max (UpdHidden (val_main_v30 (F := Ideal) x0 x1 x6 x7 x8 x9) (val_main_v94 (F := Ideal) x0 x2 x3 x5) x0 W1a W1b W1c x11 n h) 0 := by
  rw [val_main_v102_apply, val_main_v101_apply, val_main_v98_apply, val_main_v100_apply, val_main_v99_apply,
    val_main_call3_v0_apply, val_main_call3_cst_apply]
  have el : ∀ k : Fin 512, lidx_main_v98 (ix2 n h) k = ix2 n k := fun k => funext fun a => Fin.ext (by match a with | ⟨0, _⟩ => rfl | ⟨1, _⟩ => rfl)
  have er : ∀ k : Fin 512, ridx_main_v98 (ix2 n h) k = ix2 k h := fun k => funext fun a => Fin.ext (by match a with | ⟨0, _⟩ => rfl | ⟨1, _⟩ => rfl)
  have eb : idx_main_v99 (idx_main_v100 (ix2 n h)) = ix1 h := funext fun a => Fin.ext (by match a with | ⟨0, _⟩ => rfl)
  simp only [el, er, eb, Ideal.addf_def, Ideal.maximumf_def, Ideal.ofBits_def, Ideal.ofBits_zero_f32]
  unfold val_main_v97 UpdHidden
  rw [join_dot _ _ _ x10 W1a W1b W1c hWa hWb hWc n h]

/-- THE FIRST RESULT of the reference: the node-update specification of graph 1's aggregated messages, attention
    residual and features. -/
theorem ref_out0 (x0 : (⟨S8192x128, .f32⟩ : BufTy).Contents (Elt Ideal)) (x1 : (⟨S2x131072, .i32⟩ : BufTy).Contents (Elt Ideal))
    (x2 : (⟨S8192, .i32⟩ : BufTy).Contents (Elt Ideal)) (x3 : (⟨S8192x128, .f32⟩ : BufTy).Contents (Elt Ideal))
    (x5 : (⟨S8192, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S512x256, .f32⟩ : BufTy).Contents (Elt Ideal))
    (x11 : (⟨S256, .f32⟩ : BufTy).Contents (Elt Ideal)) (x12 : (⟨S256x128, .f32⟩ : BufTy).Contents (Elt Ideal))
    (x13 : (⟨S128, .f32⟩ : BufTy).Contents (Elt Ideal))
    (W1a : (⟨2, ![256, 256]⟩ : Shape).Idx → EReal) (W1b W1c : (⟨2, ![128, 256]⟩ : Shape).Idx → EReal)
    (hWa : ∀ (k : Fin 256) (h : Fin 256), W1a (ix2 k h) = x10 (ix2 (⟨k.val, by have := k.isLt; omega⟩ : Fin 512) h))
    (hWb : ∀ (k : Fin 128) (h : Fin 256), W1b (ix2 k h) = x10 (ix2 (⟨256 + k.val, by have := k.isLt; omega⟩ : Fin 512) h))
    (hWc : ∀ (k : Fin 128) (h : Fin 256), W1c (ix2 k h) = x10 (ix2 (⟨384 + k.val, by have := k.isLt; omega⟩ : Fin 512) h)) :
    val_main_v107 (F := Ideal) x0 x1 x2 x3 x5 x6 x7 x8 x9 x10 x11 x12 x13
      = UpdG (val_main_v30 (F := Ideal) x0 x1 x6 x7 x8 x9) (val_main_v94 (F := Ideal) x0 x2 x3 x5) x0 W1a W1b W1c x11 x12 x13 := by
  funext i
  obtain ⟨n, d, rfl⟩ : ∃ (n : Fin 8192) (d : Fin 128), i = ix2 n d := ⟨i 0, i 1, eq_ix2 i⟩
  rw [val_main_v107_apply, val_main_v106_apply, val_main_v103_apply, val_main_v105_apply, val_main_v104_apply]
  have el : ∀ h : Fin 256, lidx_main_v103 (ix2 n d) h = ix2 n h := fun h => funext fun a => Fin.ext (by match a with | ⟨0, _⟩ => rfl | ⟨1, _⟩ => rfl)
  have er : ∀ h : Fin 256, ridx_main_v103 (ix2 n d) h = ix2 h d := fun h => funext fun a => Fin.ext (by match a with | ⟨0, _⟩ => rfl | ⟨1, _⟩ => rfl)
  have eb : idx_main_v104 (idx_main_v105 (ix2 n d)) = ix1 d := funext fun a => Fin.ext (by match a with | ⟨0, _⟩ => rfl)
  simp only [el, er, eb, ref_updhidden1 x0 x1 x2 x3 x5 x6 x7 x8 x9 x10 x11 W1a W1b W1c hWa hWb hWc, Ideal.addf_def]
  rfl

/-! ### Graph 2 -/

/-- The hidden layer of graph 2 at node n, hidden unit h, after the rectifier. -/
theorem ref_updhidden2 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x4 : (⟨S2x131072, .i32⟩ : BufTy).Contents (Elt Ideal))
    (x5 : (⟨S8192, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S512x256, .f32⟩ : BufTy).Contents (Elt Ideal))
    (x11 : (⟨S256, .f32⟩ : BufTy).Contents (Elt Ideal))
    (W1a : (⟨2, ![256, 256]⟩ : Shape).Idx → EReal) (W1b W1c : (⟨2, ![128, 256]⟩ : Shape).Idx → EReal)
    (hWa : ∀ (k : Fin 256) (h : Fin 256), W1a (ix2 k h) = x10 (ix2 (⟨k.val, by have := k.isLt; omega⟩ : Fin 512) h))
    (hWb : ∀ (k : Fin 128) (h : Fin 256), W1b (ix2 k h) = x10 (ix2 (⟨256 + k.val, by have := k.isLt; omega⟩ : Fin 512) h))
    (hWc : ∀ (k : Fin 128) (h : Fin 256), W1c (ix2 k h) = x10 (ix2 (⟨384 + k.val, by have := k.isLt; omega⟩ : Fin 512) h)) (n : Fin 8192) (h : Fin 256) :
    val_main_v113 (F := Ideal) x0 x2 x3 x4 x5 x6 x7 x8 x9 x10 x11 (ix2 n h)
      = max (UpdHidden (val_main_v61 (F := Ideal) x3 x4 x6 x7 x8 x9) (val_main_v96 (F := Ideal) x0 x2 x3 x5) x3 W1a W1b W1c x11 n h) 0 := by
  rw [val_main_v113_apply, val_main_v112_apply, val_main_v109_apply, val_main_v111_apply, val_main_v110_apply,
    val_main_call4_v0_apply, val_main_call4_cst_apply]
  have el : ∀ k : Fin 512, lidx_main_v109 (ix2 n h) k = ix2 n k := fun k => funext fun a => Fin.ext (by match a with | ⟨0, _⟩ => rfl | ⟨1, _⟩ => rfl)
  have er : ∀ k : Fin 512, ridx_main_v109 (ix2 n h) k = ix2 k h := fun k => funext fun a => Fin.ext (by match a with | ⟨0, _⟩ => rfl | ⟨1, _⟩ => rfl)
  have eb : idx_main_v110 (idx_main_v111 (ix2 n h)) = ix1 h := funext fun a => Fin.ext (by match a with | ⟨0, _⟩ => rfl)
  simp only [el, er, eb, Ideal.addf_def, Ideal.maximumf_def, Ideal.ofBits_def, Ideal.ofBits_zero_f32]
  unfold val_main_v108 UpdHidden
  rw [join_dot _ _ _ x10 W1a W1b W1c hWa hWb hWc n h]

/-- THE SECOND RESULT of the reference: the node-update specification of graph 2's aggregated messages, attention
    residual and features. -/
theorem ref_out1 (x0 : (⟨S8192x128, .f32⟩ : BufTy).Contents (Elt Ideal)) (x2 : (⟨S8192, .i32⟩ : BufTy).Contents (Elt Ideal))
    (x3 : (⟨S8192x128, .f32⟩ : BufTy).Contents (Elt Ideal)) (x4 : (⟨S2x131072, .i32⟩ : BufTy).Contents (Elt Ideal))
    (x5 : (⟨S8192, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S512x256, .f32⟩ : BufTy).Contents (Elt Ideal))
    (x11 : (⟨S256, .f32⟩ : BufTy).Contents (Elt Ideal)) (x12 : (⟨S256x128, .f32⟩ : BufTy).Contents (Elt Ideal))
    (x13 : (⟨S128, .f32⟩ : BufTy).Contents (Elt Ideal))
    (W1a : (⟨2, ![256, 256]⟩ : Shape).Idx → EReal) (W1b W1c : (⟨2, ![128, 256]⟩ : Shape).Idx → EReal)
    (hWa : ∀ (k : Fin 256) (h : Fin 256), W1a (ix2 k h) = x10 (ix2 (⟨k.val, by have := k.isLt; omega⟩ : Fin 512) h))
    (hWb : ∀ (k : Fin 128) (h : Fin 256), W1b (ix2 k h) = x10 (ix2 (⟨256 + k.val, by have := k.isLt; omega⟩ : Fin 512) h))
    (hWc : ∀ (k : Fin 128) (h : Fin 256), W1c (ix2 k h) = x10 (ix2 (⟨384 + k.val, by have := k.isLt; omega⟩ : Fin 512) h)) :
    val_main_v118 (F := Ideal) x0 x2 x3 x4 x5 x6 x7 x8 x9 x10 x11 x12 x13
      = UpdG (val_main_v61 (F := Ideal) x3 x4 x6 x7 x8 x9) (val_main_v96 (F := Ideal) x0 x2 x3 x5) x3 W1a W1b W1c x11 x12 x13 := by
  funext i
  obtain ⟨n, d, rfl⟩ : ∃ (n : Fin 8192) (d : Fin 128), i = ix2 n d := ⟨i 0, i 1, eq_ix2 i⟩
  rw [val_main_v118_apply, val_main_v117_apply, val_main_v114_apply, val_main_v116_apply, val_main_v115_apply]
  have el : ∀ h : Fin 256, lidx_main_v114 (ix2 n d) h = ix2 n h := fun h => funext fun a => Fin.ext (by match a with | ⟨0, _⟩ => rfl | ⟨1, _⟩ => rfl)
  have er : ∀ h : Fin 256, ridx_main_v114 (ix2 n d) h = ix2 h d := fun h => funext fun a => Fin.ext (by match a with | ⟨0, _⟩ => rfl | ⟨1, _⟩ => rfl)
  have eb : idx_main_v115 (idx_main_v116 (ix2 n d)) = ix1 d := funext fun a => Fin.ext (by match a with | ⟨0, _⟩ => rfl)
  simp only [el, er, eb, ref_updhidden2 x0 x2 x3 x4 x5 x6 x7 x8 x9 x10 x11 W1a W1b W1c hWa hWb hWc, Ideal.addf_def]
  rfl

end Cert.ReferenceIdeal.RefValue

end
-- ==== Proof.BridgeValue.lean ====
/-
  The two idealized programs compute the same two arrays.

  Run from memories that agree on the fourteen arguments, the kernel program's last valuation holds, in its two result
  arrays, the update MLP with the residual of (the edge messages added up per target node, the features minus the masked
  softmax average of the other graph's features, the features, the three row blocks of the update weights, the remaining
  weights); the reference's two results are the same function of the same arguments: its edge MLP and update MLP are the
  same sums (the update's one sum over the joined 512 columns splits into the three blocks' sums), its host gathers,
  concatenates and scatter-adds are the very operations the kernel program applies, and its softmax, normalised weight by
  weight, is the quotient of the two sums that the kernel's running maximum, sum and weighted sum arrive at — an identity of
  real numbers, which is where the finiteness of the features is used.
-/
import proofs.«108965_j35862976922239_2_alg».proof.Proof.KI.KernelValue
import proofs.«108965_j35862976922239_2_alg».proof.Proof.KI.PreReal
import proofs.«108965_j35862976922239_2_alg».proof.Proof.KI.SliceReads
import proofs.«108965_j35862976922239_2_alg».proof.Proof.CrossHost
import proofs.«108965_j35862976922239_2_alg».proof.Proof.RefReadEq
import proofs.«108965_j35862976922239_2_alg».proof.Proof.RefMsg
import proofs.«108965_j35862976922239_2_alg».proof.Proof.RefAttn
import proofs.«108965_j35862976922239_2_alg».proof.Proof.RefUpd

noncomputable section

namespace Cert.Bridge

open Idealize.ShloMosaic Idealize.ShloMosaic.TcCoe Idealize.SL.Sem Idealize.ShloMosaic.ValueIdx
open Cert.KernelIdeal.Hand
open Cert.KernelIdeal.Gen (V0)
open Cert.ReferenceIdeal.RefValue

variable (m : (ℓ : Loc Cert.KernelIdeal.nD Cert.KernelIdeal.τ Cert.KernelIdeal.sig) → Buf (Elt Ideal) ℓ) (c : Dev Cert.KernelIdeal.nD)

/-! ## The first two arguments of the update MLP, on the two sides -/

/-- The reference's per-target sums of graph 1's edge messages are the kernel program's. -/
theorem messages1_eq :
    Cert.ReferenceIdeal.ReadP.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = U3 m c Cert.KernelIdeal.main_v23 := by
  rw [ref_messages1]
  refine Eq.trans ?_ (u3_v23 m c).symm
  rw [← mi_eq1, ← segsum_eq1]

/-- and graph 2's. -/
theorem messages2_eq :
    Cert.ReferenceIdeal.ReadP.val_main_v61 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = U5 m c Cert.KernelIdeal.main_v47 := by
  rw [ref_messages2]
  refine Eq.trans ?_ (u5_v47 m c).symm
  rw [← mi_eq2, ← segsum_eq2]

variable (h0 : ∀ i, ∃ x : ℝ, V0 m c Cert.KernelIdeal.main_arg0 i = (x : EReal)) (h3 : ∀ i, ∃ x : ℝ, V0 m c Cert.KernelIdeal.main_arg3 i = (x : EReal))

include h0 h3 in
/-- The reference's features minus its softmax-weighted average are the kernel program's features minus the running
    quotient (real features). -/
theorem attentions1_eq :
    Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) = U9 m c Cert.KernelIdeal.main_v54 := by
  rw [ref_attentions1 _ _ _ _ h0 h3]
  refine Eq.trans ?_ (u9_v54 m c).symm
  rw [u6_v50 m c h0 h3]

include h0 h3 in
theorem attentions2_eq :
    Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) = U9 m c Cert.KernelIdeal.main_v55 := by
  rw [ref_attentions2 _ _ _ _ h0 h3]
  refine Eq.trans ?_ (u9_v55 m c).symm
  rw [u8_v53 m c h3 h0]

/-! ## The three row blocks of the update weights -/

theorem blockA (k : Fin 256) (h : Fin 256) :
    U9 m c Cert.KernelIdeal.main_v56 (ix2 k h) = (m ((c.tc : Thread Cert.KernelIdeal.nD Cert.KernelIdeal.τ).loc Cert.KernelIdeal.main_arg10)) (ix2 (⟨k.val, by have := k.isLt; omega⟩ : Fin 512) h) := by
  rw [u9_v56]; exact upd_slice_rows0 _ _ k h
theorem blockB (k : Fin 128) (h : Fin 256) :
    U9 m c Cert.KernelIdeal.main_v57 (ix2 k h) = (m ((c.tc : Thread Cert.KernelIdeal.nD Cert.KernelIdeal.τ).loc Cert.KernelIdeal.main_arg10)) (ix2 (⟨256 + k.val, by have := k.isLt; omega⟩ : Fin 512) h) := by
  rw [u9_v57]; exact upd_slice_rows256 _ _ k h
theorem blockC (k : Fin 128) (h : Fin 256) :
    U9 m c Cert.KernelIdeal.main_v58 (ix2 k h) = (m ((c.tc : Thread Cert.KernelIdeal.nD Cert.KernelIdeal.τ).loc Cert.KernelIdeal.main_arg10)) (ix2 (⟨384 + k.val, by have := k.isLt; omega⟩ : Fin 512) h) := by
  rw [u9_v58]; exact upd_slice_rows384 _ _ k h

/-! ## The two results -/

include h0 h3 in
/-- The reference's first result, at the kernel program's arguments, is the kernel program's. -/
theorem out0_eq :
    Cert.ReferenceIdeal.ReadP.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = U11 m c Cert.KernelIdeal.main_v59 := by
  rw [ref_out0 _ _ _ _ _ _ _ _ _ _ _ _ _ (U9 m c Cert.KernelIdeal.main_v56) (U9 m c Cert.KernelIdeal.main_v57) (U9 m c Cert.KernelIdeal.main_v58) (blockA m c) (blockB m c) (blockC m c),
    messages1_eq m c, attentions1_eq m c h0 h3]
  exact ((u11_v59 m c).trans (u10_v59 m c)).symm

include h0 h3 in
/-- and the second. -/
theorem out1_eq :
    Cert.ReferenceIdeal.ReadP.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = U11 m c Cert.KernelIdeal.main_v60 := by
  rw [ref_out1 _ _ _ _ _ _ _ _ _ _ _ _ _ (U9 m c Cert.KernelIdeal.main_v56) (U9 m c Cert.KernelIdeal.main_v57) (U9 m c Cert.KernelIdeal.main_v58) (blockA m c) (blockB m c) (blockC m c),
    messages2_eq m c, attentions2_eq m c h0 h3]
  exact (u11_v60 m c).symm

end Cert.Bridge

end
-- ==== Proof.Bridge.lean ====
/-
  The algebraic claim: both idealized programs run to the end, leave their arguments unchanged, and end with equal results.

  The kernel program's run gives every unscoped buffer of every final memory at the last valuation, whose two result arrays
  are the witnesses; the reference's run gives its two results at the operations' composed terms, which are the stages, and
  the stages at the agreed arguments are those two arrays.
-/
import proofs.«108965_j35862976922239_2_alg».proof.Proof.BridgeValue
import proofs.«108965_j35862976922239_2_alg».proof.Proof.RefRunProof
import proofs.«108965_j35862976922239_2_alg».proof.Proof.Gen.Pre_finite_inputs

noncomputable section

namespace Cert.Bridge

open Idealize.ShloMosaic Idealize.ShloMosaic.TcCoe Idealize.SL.Sem Idealize.ShloMosaic.ValueIdx
open Cert.KernelIdeal.Hand
open Cert.ReferenceIdeal.RefValue

/-! ## The claim -/

/-- The idealized kernel program and the idealized reference, run from memories that agree on the arguments, both
    terminate without a fault, leave the arguments unchanged, and end with equal results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hag
  refine ⟨fun c => U11 m c Cert.KernelIdeal.main_v59, fun c => U11 m c Cert.KernelIdeal.main_v60, ?_, ?_⟩
  · -- the kernel program: every unscoped buffer of every final memory is at the last valuation
    refine (θ_run (Cert.KernelIdeal.defs (F := Ideal)) _ _).mono (fun r h c => ?_) (Cert.KernelIdeal.Hand.run m g)
    exact ⟨h c (Proc.devRef .tc Cert.KernelIdeal.main_v59) (Finset.mem_filter.mpr ⟨StableHlo.devRef_mem_tcRefs Cert.KernelIdeal.main_v59, by decide⟩), h c (Proc.devRef .tc Cert.KernelIdeal.main_v60) (Finset.mem_filter.mpr ⟨StableHlo.devRef_mem_tcRefs Cert.KernelIdeal.main_v60, by decide⟩),
      (h c (Proc.devRef .tc Cert.KernelIdeal.main_arg0) (Finset.mem_filter.mpr ⟨StableHlo.devRef_mem_tcRefs Cert.KernelIdeal.main_arg0, by decide⟩)).trans (Cert.KernelIdeal.Gen.V11_main_arg0 m (outsOf m) c),
      (h c (Proc.devRef .tc Cert.KernelIdeal.main_arg1) (Finset.mem_filter.mpr ⟨StableHlo.devRef_mem_tcRefs Cert.KernelIdeal.main_arg1, by decide⟩)).trans (Cert.KernelIdeal.Gen.V11_main_arg1 m (outsOf m) c),
      (h c (Proc.devRef .tc Cert.KernelIdeal.main_arg2) (Finset.mem_filter.mpr ⟨StableHlo.devRef_mem_tcRefs Cert.KernelIdeal.main_arg2, by decide⟩)).trans (Cert.KernelIdeal.Gen.V11_main_arg2 m (outsOf m) c),
      (h c (Proc.devRef .tc Cert.KernelIdeal.main_arg3) (Finset.mem_filter.mpr ⟨StableHlo.devRef_mem_tcRefs Cert.KernelIdeal.main_arg3, by decide⟩)).trans (Cert.KernelIdeal.Gen.V11_main_arg3 m (outsOf m) c),
      (h c (Proc.devRef .tc Cert.KernelIdeal.main_arg4) (Finset.mem_filter.mpr ⟨StableHlo.devRef_mem_tcRefs Cert.KernelIdeal.main_arg4, by decide⟩)).trans (Cert.KernelIdeal.Gen.V11_main_arg4 m (outsOf m) c),
      (h c (Proc.devRef .tc Cert.KernelIdeal.main_arg5) (Finset.mem_filter.mpr ⟨StableHlo.devRef_mem_tcRefs Cert.KernelIdeal.main_arg5, by decide⟩)).trans (Cert.KernelIdeal.Gen.V11_main_arg5 m (outsOf m) c),
      (h c (Proc.devRef .tc Cert.KernelIdeal.main_arg6) (Finset.mem_filter.mpr ⟨StableHlo.devRef_mem_tcRefs Cert.KernelIdeal.main_arg6, by decide⟩)).trans (Cert.KernelIdeal.Gen.V11_main_arg6 m (outsOf m) c),
      (h c (Proc.devRef .tc Cert.KernelIdeal.main_arg7) (Finset.mem_filter.mpr ⟨StableHlo.devRef_mem_tcRefs Cert.KernelIdeal.main_arg7, by decide⟩)).trans (Cert.KernelIdeal.Gen.V11_main_arg7 m (outsOf m) c),
      (h c (Proc.devRef .tc Cert.KernelIdeal.main_arg8) (Finset.mem_filter.mpr ⟨StableHlo.devRef_mem_tcRefs Cert.KernelIdeal.main_arg8, by decide⟩)).trans (Cert.KernelIdeal.Gen.V11_main_arg8 m (outsOf m) c),
      (h c (Proc.devRef .tc Cert.KernelIdeal.main_arg9) (Finset.mem_filter.mpr ⟨StableHlo.devRef_mem_tcRefs Cert.KernelIdeal.main_arg9, by decide⟩)).trans (Cert.KernelIdeal.Gen.V11_main_arg9 m (outsOf m) c),
      (h c (Proc.devRef .tc Cert.KernelIdeal.main_arg10) (Finset.mem_filter.mpr ⟨StableHlo.devRef_mem_tcRefs Cert.KernelIdeal.main_arg10, by decide⟩)).trans (Cert.KernelIdeal.Gen.V11_main_arg10 m (outsOf m) c),
      (h c (Proc.devRef .tc Cert.KernelIdeal.main_arg11) (Finset.mem_filter.mpr ⟨StableHlo.devRef_mem_tcRefs Cert.KernelIdeal.main_arg11, by decide⟩)).trans (Cert.KernelIdeal.Gen.V11_main_arg11 m (outsOf m) c),
      (h c (Proc.devRef .tc Cert.KernelIdeal.main_arg12) (Finset.mem_filter.mpr ⟨StableHlo.devRef_mem_tcRefs Cert.KernelIdeal.main_arg12, by decide⟩)).trans (Cert.KernelIdeal.Gen.V11_main_arg12 m (outsOf m) c),
      (h c (Proc.devRef .tc Cert.KernelIdeal.main_arg13) (Finset.mem_filter.mpr ⟨StableHlo.devRef_mem_tcRefs Cert.KernelIdeal.main_arg13, by decide⟩)).trans (Cert.KernelIdeal.Gen.V11_main_arg13 m (outsOf m) c)⟩
  · -- the reference: its two result terms are the stages, and the stages at the agreed arguments are the kernel program's
    refine (θ_run (Cert.ReferenceIdeal.defs (F := Ideal)) _ _).mono (fun r h c => ?_) (Cert.ReferenceIdeal.ValueP.run (F := Ideal) m' g')
    obtain ⟨a0, a1, a2, a3, a4, a5, a6, a7, a8, a9, a10, a11, a12, a13⟩ := hag c
    obtain ⟨h0, h3, -⟩ := Cert.KernelIdeal.Hand.pre_real m hpre c
    refine ⟨(h c).1.trans ?_, (h c).2.1.trans ?_, (h c).2.2⟩
    · rw [Cert.ReferenceIdeal.ReadP.val_main_v107_eq m' c, a0, a1, a2, a3, a5, a6, a7, a8, a9, a10, a11, a12, a13]
      exact out0_eq m c h0 h3
    · rw [Cert.ReferenceIdeal.ReadP.val_main_v118_eq m' c, a0, a2, a3, a4, a5, a6, a7, a8, a9, a10, a11, a12, a13]
      exact out1_eq m c h0 h3

end Cert.Bridge

end
-- ==== Proof.lean ====
/-
  The certificate of the graph-matching message-passing layer: the Pallas program against its plain reference.

  Both programs compute, for each of two graphs, a node's new features as its old features plus a two-layer MLP of
  (the sum over incoming edges of a two-layer MLP of the edge's endpoint features, the node's features minus a softmax
  average of the other graph's features over the nodes of the same batch, the node's features).  The Pallas program does
  the two edge MLPs, the two attention averages (by an online softmax over key tiles with a running maximum, sum and
  weighted sum) and the two node MLPs (with the first weight matrix cut into three row blocks) in six kernel regions,
  and the gathers, the per-target sums and the reshapes on the host between them.

  * The frames of the two kernel programs: each region runs to the end from whatever the buffers hold when it is entered
    and changes only the one array it writes; joined, every buffer of every final memory is at a last valuation that has
    each argument at its launch contents.
  * The frame of the reference: its operations' run.
  * The idealization rewrote nothing, so there is nothing to preserve.
  * The values: the last valuation's two result arrays, rolled back region by region, are the same function of the
    arguments as the reference's two results; the one place where the arithmetic of the extended reals needs real
    numbers is the softmax, and the precondition makes the features real.
-/
import proofs.«108965_j35862976922239_2_alg».proof.Defs
import proofs.«108965_j35862976922239_2_alg».proof.Proof.Gen.Kernel
import proofs.«108965_j35862976922239_2_alg».proof.Proof.Gen.Kernel.Skeleton
import proofs.«108965_j35862976922239_2_alg».proof.Proof.Gen.Kernel.Launch
import proofs.«108965_j35862976922239_2_alg».proof.Proof.Gen.Kernel.Regions
import proofs.«108965_j35862976922239_2_alg».proof.Proof.Gen.Kernel.Points
import proofs.«108965_j35862976922239_2_alg».proof.Proof.Gen.KernelIdeal
import proofs.«108965_j35862976922239_2_alg».proof.Proof.Gen.KernelIdeal.Skeleton
import proofs.«108965_j35862976922239_2_alg».proof.Proof.Gen.KernelIdeal.Launch
import proofs.«108965_j35862976922239_2_alg».proof.Proof.Gen.KernelIdeal.Regions
import proofs.«108965_j35862976922239_2_alg».proof.Proof.Gen.KernelIdeal.Points
import proofs.«108965_j35862976922239_2_alg».proof.Proof.Gen.ReferenceIdeal
import proofs.«108965_j35862976922239_2_alg».proof.Proof.Gen.Pre_finite_inputs
import proofs.«108965_j35862976922239_2_alg».proof.Proof.K.Regs
import proofs.«108965_j35862976922239_2_alg».proof.Proof.KI.Regs
import proofs.«108965_j35862976922239_2_alg».proof.Proof.RefRunProof
import proofs.«108965_j35862976922239_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m g _ => Cert.Kernel.Hand.frame m g,
  fun m g _ => Cert.KernelIdeal.Hand.frame m g,
  fun m g _ => (θ_run Cert.ReferenceIdeal.defs _ _).mono (fun _ h c => (h c).2.2) (Cert.ReferenceIdeal.ValueP.run (F := Ideal) m g),
  trivial,
  Cert.Bridge.algebraic⟩

end Cert.Proof

end
